-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v156)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S2048x64 : Shape := ⟨2, ![2048, 64]⟩
abbrev S128x128 : Shape := ⟨2, ![128, 128]⟩
abbrev S128 : Shape := ⟨1, ![128]⟩
abbrev S192x128 : Shape := ⟨2, ![192, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128 .f32) (main_arg14 : FVec F S192x128 .f32) (main_arg15 : FVec F S128 .f32) (main_arg16 : FVec F S128x1 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S192x128 .f32 := Host.absf main_arg14
  let main_cst_22 : FVec F S_ .f32 := constant S_ .f32 0x7F800000#32
  let main_v60 : FVec F S192x128 .f32 := broadcastInDim S192x128 ![] bcast_S_S192x128 main_cst_22
  let main_v61 : IVec S192x128 1 := cmpf .olt main_v59 main_v60
  let main_c_23 : IVec S_ 1 := constantI S_ 1 1#1
  let main_v62 : IVec S_ 1 := (fun x v => Host.reduce IntOp.andi x v reducesTo_S192x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128 .f32) (main_arg11 : FVec F S128 .f32) (main_arg12 : FVec F S128x128 .f32) (main_arg13 : FVec F S128 .f32) (main_arg14 : FVec F S192x128 .f32) (main_arg15 : FVec F S128 .f32) (main_arg16 : FVec F S128x1 .f32) (main_arg17 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S192x128 .f32) (main_arg15 : FVec F S128 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : IVec S100000 32) (main_arg3 : FVec F S2048x64 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S192x128 .f32) (main_arg15 : FVec F S128 .f32) (main_arg16 : FVec F S128x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2048x64 .f32 := Host.absf main_arg3
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S2048x64 : Shape := ⟨2, ![2048, 64]⟩
abbrev S128x128 : Shape := ⟨2, ![128, 128]⟩
abbrev S128 : Shape := ⟨1, ![128]⟩
abbrev S192x128 : Shape := ⟨2, ![192, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩
abbrev S1x128 : Shape := ⟨2, ![1, 128]⟩
abbrev S4000x1 : Shape := ⟨2, ![4000, 1]⟩
abbrev S2048x128 : Shape := ⟨2, ![2048, 128]⟩
abbrev S64x128 : Shape := ⟨2, ![64, 128]⟩
abbrev S1x1 : Shape := ⟨2, ![1, 1]⟩
abbrev S2048x1 : Shape := ⟨2, ![2048, 1]⟩
abbrev S2048 : Shape := ⟨1, ![2048]⟩

abbrev nBuf : Space → Nat
  | .hbm => 208
  | .vmem => 70
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S2048x64, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S192x128, .f32⟩
  | 15 => ⟨S128, .f32⟩
  | 16 => ⟨S128x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000, .f32⟩
  | 33 => ⟨S100000x1, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x1, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x128, .f32⟩
  | 71 => ⟨S100000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S128, .f32⟩
  | 90 => ⟨S1x128, .f32⟩
  | 91 => ⟨S1x128, .f32⟩
  | 92 => ⟨S1x128, .f32⟩
  | 93 => ⟨S128, .f32⟩
  | 94 => ⟨S1x128, .f32⟩
  | 95 => ⟨S1x128, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S1600000x1, .f32⟩
  | 127 => ⟨S1600000x128, .f32⟩
  | _ => ⟨S100000x128, .f32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S1x128, .f32⟩
  | 6 => ⟨S100000x128, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S1x128, .f32⟩
  | 24 => ⟨S128, .f32⟩
  | 25 => ⟨S1x128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S100000x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1x128, .f32⟩
  | 69 => ⟨S100000x128, .f32⟩
  | 70 => ⟨S_, .f32⟩
  | 71 => ⟨S2048x128, .f32⟩
  | 72 => ⟨S100000x1, .i32⟩
  | 73 => ⟨S2048x128, .f32⟩
  | 74 => ⟨S128x128, .f32⟩
  | 75 => ⟨S64x128, .f32⟩
  | 76 => ⟨S1x128, .f32⟩
  | 77 => ⟨S1x128, .f32⟩
  | 78 => ⟨S1x1, .f32⟩
  | 79 => ⟨S2048x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S1x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x1, .f32⟩
  | .local _ .vmem, ⟨34, _⟩ => ⟨S4000x1, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S1x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S1x128, .f32⟩
  | .local _ .vmem, ⟨45, _⟩ => ⟨S1x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S128x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S4000x1, .f32⟩
  | .local _ .vmem, ⟨58, _⟩ => ⟨S4000x1, .f32⟩
  | .local _ .vmem, ⟨59, _⟩ => ⟨S1x128, .f32⟩
  | .local _ .vmem, ⟨60, _⟩ => ⟨S4000x128, .f32⟩
  | .local _ .vmem, ⟨61, _⟩ => ⟨S4000x128, .f32⟩
  | .local _ .vmem, ⟨62, _⟩ => ⟨S2048x128, .f32⟩
  | .local _ .vmem, ⟨63, _⟩ => ⟨S2048x64, .f32⟩
  | .local _ .vmem, ⟨64, _⟩ => ⟨S128x128, .f32⟩
  | .local _ .vmem, ⟨65, _⟩ => ⟨S64x128, .f32⟩
  | .local _ .vmem, ⟨66, _⟩ => ⟨S1x128, .f32⟩
  | .local _ .vmem, ⟨67, _⟩ => ⟨S1x128, .f32⟩
  | .local _ .vmem, ⟨68, _⟩ => ⟨S1x1, .f32⟩
  | .local _ .vmem, ⟨69, _⟩ => ⟨S2048x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_11 : Ref sig .tc := ⟨.hbm, 98, rfl⟩
abbrev main_v66 : Ref sig .tc := ⟨.hbm, 99, rfl⟩
abbrev main_v67 : Ref sig .tc := ⟨.hbm, 100, rfl⟩
abbrev main_c_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_13 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_15 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96_0 : Ref sig .tc := ⟨.hbm, 135, rfl⟩
abbrev main_v96_1 : Ref sig .tc := ⟨.hbm, 136, rfl⟩
abbrev main_cst_18 : Ref sig .tc := ⟨.hbm, 137, rfl⟩
abbrev main_v97 : Ref sig .tc := ⟨.hbm, 138, rfl⟩
abbrev main_v98 : Ref sig .tc := ⟨.hbm, 139, rfl⟩
abbrev main_cst_19 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_c_21 : Ref sig .tc := ⟨.hbm, 161, rfl⟩
abbrev main_v118 : Ref sig .tc := ⟨.hbm, 162, rfl⟩
abbrev main_v119 : Ref sig .tc := ⟨.hbm, 163, rfl⟩
abbrev main_c_22 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_c_23 : Ref sig .tc := ⟨.hbm, 170, rfl⟩
abbrev main_v125 : Ref sig .tc := ⟨.hbm, 171, rfl⟩
abbrev main_v126 : Ref sig .tc := ⟨.hbm, 172, rfl⟩
abbrev main_c_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_25 : Ref sig .tc := ⟨.hbm, 180, rfl⟩
abbrev main_v133 : Ref sig .tc := ⟨.hbm, 181, rfl⟩
abbrev main_v134 : Ref sig .tc := ⟨.hbm, 182, rfl⟩
abbrev main_c_26 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_27 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_28 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg1_1 : Ref sig .tc := ⟨.vmem, 56, rfl⟩
abbrev cc9_stg2_0 : Ref sig .tc := ⟨.vmem, 57, rfl⟩
abbrev cc9_stg2_1 : Ref sig .tc := ⟨.vmem, 58, rfl⟩
abbrev cc9_stg3_0 : Ref sig .tc := ⟨.vmem, 59, rfl⟩
abbrev cc9_stg4_0 : Ref sig .tc := ⟨.vmem, 60, rfl⟩
abbrev cc9_stg4_1 : Ref sig .tc := ⟨.vmem, 61, rfl⟩
abbrev cc10_stg0_0 : Ref sig .tc := ⟨.vmem, 62, rfl⟩
abbrev cc10_stg1_0 : Ref sig .tc := ⟨.vmem, 63, rfl⟩
abbrev cc10_stg2_0 : Ref sig .tc := ⟨.vmem, 64, rfl⟩
abbrev cc10_stg3_0 : Ref sig .tc := ⟨.vmem, 65, rfl⟩
abbrev cc10_stg4_0 : Ref sig .tc := ⟨.vmem, 66, rfl⟩
abbrev cc10_stg5_0 : Ref sig .tc := ⟨.vmem, 67, rfl⟩
abbrev cc10_stg6_0 : Ref sig .tc := ⟨.vmem, 68, rfl⟩
abbrev cc10_stg7_0 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc5_sem3_0 : DmaSem sig := 35
abbrev cc5_sem4_0 : DmaSem sig := 36
abbrev cc5_sem4_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem2_1 : DmaSem sig := 58
abbrev cc9_sem3_0 : DmaSem sig := 59
abbrev cc9_sem4_0 : DmaSem sig := 60
abbrev cc9_sem4_1 : DmaSem sig := 61
abbrev cc10_sem0_0 : DmaSem sig := 62
abbrev cc10_sem1_0 : DmaSem sig := 63
abbrev cc10_sem2_0 : DmaSem sig := 64
abbrev cc10_sem3_0 : DmaSem sig := 65
abbrev cc10_sem4_0 : DmaSem sig := 66
abbrev cc10_sem5_0 : DmaSem sig := 67
abbrev cc10_sem6_0 : DmaSem sig := 68
abbrev cc10_sem7_0 : DmaSem sig := 69

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S4000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S4000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S2048x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S2048x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S2048x1 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S128 : S4000x128.Reduces [0] S128
  bcast_S_S1x128 : S_.BroadcastsInDim S1x128 (![] : Fin 0 → Fin S1x128.rank)
  shapeCasts_S1x128_S128 : S1x128.ShapeCasts S128
  bcast_S_S2048x128 : S_.BroadcastsInDim S2048x128 (![] : Fin 0 → Fin S2048x128.rank)
  bcast_S100000_S100000x1_0 : S100000.BroadcastsInDim S100000x1 (![0] : Fin 1 → Fin S100000x1.rank)
  slices_S192x128_S128x128_0_0 : S192x128.Slices ![0, 0] S128x128
  slices_S192x128_S64x128_128_0 : S192x128.Slices ![128, 0] S64x128
  shapeCasts_S128x1_S1x128 : S128x1.ShapeCasts S1x128
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x64_S2048x64_0_0 : ∀ a, (![0, 0] : Fin 2 → Nat) a + S2048x64.size a ≤ S2048x64.size a
  h_S2048x64 : 0 < S2048x64.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S2048x128 : S1x128.Broadcasts S2048x128
  reduces_S2048x128_S2048 : S2048x128.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S100000x128.size a
  hwx4_2 : ∀ i : grid4.Coords, EltTy.bits .f32 = 32 ∨ (Rect.block (s := S100000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x128.size a ≤ S100000x128.size a
  hwx5_4 : ∀ i : grid5.Coords, EltTy.bits .f32 = 32 ∨ (Rect.block (s := S100000x128) S4000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x128.size a ≤ S100000x128.size a
  hwx7_3 : ∀ i : grid7.Coords, EltTy.bits .f32 = 32 ∨ (Rect.block (s := S100000x128) S4000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S100000x128.size a
  hwx8_0 : ∀ i : grid8.Coords, EltTy.bits .f32 = 32 ∨ (Rect.block (s := S100000x128) S4000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x128.size a ≤ S100000x128.size a
  hwx8_2 : ∀ i : grid8.Coords, EltTy.bits .f32 = 32 ∨ (Rect.block (s := S100000x128) S4000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S100000x128.size a
  hwx9_0 : ∀ i : grid9.Coords, EltTy.bits .f32 = 32 ∨ (Rect.block (s := S100000x128) S4000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x128.size a ≤ S100000x128.size a
  hwx9_1 : ∀ i : grid9.Coords, EltTy.bits .f32 = 32 ∨ (Rect.block (s := S100000x128) S4000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x1.size a ≤ S100000x1.size a
  hwx9_2 : ∀ i : grid9.Coords, EltTy.bits .f32 = 32 ∨ (Rect.block (s := S100000x1) S4000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x128.size a ≤ S100000x128.size a
  hwx9_4 : ∀ i : grid9.Coords, EltTy.bits .f32 = 32 ∨ (Rect.block (s := S100000x128) S4000x128.size (cc9_transform_4 i) (hinb9_4 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S2048x128.size a ≤ S2048x128.size a
  hwx10_0 : ∀ i : grid10.Coords, EltTy.bits .f32 = 32 ∨ (Rect.block (s := S2048x128) S2048x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S2048x64.size a ≤ S2048x64.size a
  hwx10_1 : ∀ i : grid10.Coords, EltTy.bits .f32 = 32 ∨ (Rect.block (s := S2048x64) S2048x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x128.size a ≤ S64x128.size a
  hwx10_3 : ∀ i : grid10.Coords, EltTy.bits .f32 = 32 ∨ (Rect.block (s := S64x128) S64x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x1.size a ≤ S1x1.size a
  hwx10_6 : ∀ i : grid10.Coords, EltTy.bits .f32 = 32 ∨ (Rect.block (s := S1x1) S1x1.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S2048x1.size a ≤ S2048x1.size a
  hwx10_7 : ∀ i : grid10.Coords, EltTy.bits .f32 = 32 ∨ (Rect.block (s := S2048x1) S2048x1.size (cc10_transform_7 i) (hinb10_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v93) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S4000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v95) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96_0) S1x128.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v96_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v116) S4000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v116) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v117) S4000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v145) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117) S4000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v12) S4000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v146) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v147) S4000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v150) S2048x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg3) S2048x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v151) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v152) S64x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v153) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v154) S1x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v155) S1x1.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v156) S2048x1.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S2048x64 : Shape := ⟨2, ![2048, 64]⟩
abbrev S128x128 : Shape := ⟨2, ![128, 128]⟩
abbrev S128 : Shape := ⟨1, ![128]⟩
abbrev S192x128 : Shape := ⟨2, ![192, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2048x128 : Shape := ⟨2, ![2048, 128]⟩
abbrev S2048x192 : Shape := ⟨2, ![2048, 192]⟩
abbrev S2048x1 : Shape := ⟨2, ![2048, 1]⟩
abbrev S1x1 : Shape := ⟨2, ![1, 1]⟩

abbrev nBuf : Space → Nat
  | .hbm => 313
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S2048x64, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S192x128, .f32⟩
  | 15 => ⟨S128, .f32⟩
  | 16 => ⟨S128x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S_, .f32⟩
  | 78 => ⟨S100000x128, .f32⟩
  | 79 => ⟨S100000x128, .i1⟩
  | 80 => ⟨S_, .f32⟩
  | 81 => ⟨S100000x128, .f32⟩
  | 82 => ⟨S100000x128, .i1⟩
  | 83 => ⟨S_, .f32⟩
  | 84 => ⟨S_, .f32⟩
  | 85 => ⟨S100000x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .f32⟩
  | 96 => ⟨S128, .f32⟩
  | 97 => ⟨S_, .f32⟩
  | 98 => ⟨S128, .f32⟩
  | 99 => ⟨S128, .f32⟩
  | 100 => ⟨S1x128, .f32⟩
  | 101 => ⟨S100000x128, .f32⟩
  | 102 => ⟨S100000x128, .f32⟩
  | 103 => ⟨S100000x128, .f32⟩
  | 104 => ⟨S_, .f32⟩
  | 105 => ⟨S128, .f32⟩
  | 106 => ⟨S_, .f32⟩
  | 107 => ⟨S128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S128, .f32⟩
  | 114 => ⟨S128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S100000x128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S1600000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S1600000x1, .f32⟩
  | 27 => ⟨S1600000x128, .f32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S100000, .f32⟩
  | 34 => ⟨S100000x1, .f32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S_, .f32⟩
  | 43 => ⟨S100000x128, .f32⟩
  | 44 => ⟨S100000x128, .i1⟩
  | 45 => ⟨S_, .f32⟩
  | 46 => ⟨S100000x128, .f32⟩
  | 47 => ⟨S100000x128, .i1⟩
  | 48 => ⟨S_, .f32⟩
  | 49 => ⟨S_, .f32⟩
  | 50 => ⟨S100000x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S100000x128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S1600000x1, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000, .f32⟩
  | 127 => ⟨S100000x1, .f32⟩
  | _ => ⟨S100000x128, .f32⟩

abbrev hbmTy0_2 (i : Nat) : BufTy := match i % 128 with
  | 0 => ⟨S100000x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S_, .f32⟩
  | 8 => ⟨S100000x128, .f32⟩
  | 9 => ⟨S100000x128, .i1⟩
  | 10 => ⟨S_, .f32⟩
  | 11 => ⟨S100000x128, .f32⟩
  | 12 => ⟨S100000x128, .i1⟩
  | 13 => ⟨S_, .f32⟩
  | 14 => ⟨S_, .f32⟩
  | 15 => ⟨S100000x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .f32⟩
  | 26 => ⟨S2048x128, .f32⟩
  | 27 => ⟨S100000x1, .i32⟩
  | 28 => ⟨S2048x128, .f32⟩
  | 29 => ⟨S2048x192, .f32⟩
  | 30 => ⟨S2048x128, .f32⟩
  | 31 => ⟨S1x128, .f32⟩
  | 32 => ⟨S2048x128, .f32⟩
  | 33 => ⟨S2048x128, .f32⟩
  | 34 => ⟨S_, .f32⟩
  | 35 => ⟨S_, .f32⟩
  | 36 => ⟨S2048x128, .f32⟩
  | 37 => ⟨S2048x128, .i1⟩
  | 38 => ⟨S_, .f32⟩
  | 39 => ⟨S2048x128, .f32⟩
  | 40 => ⟨S2048x128, .i1⟩
  | 41 => ⟨S_, .f32⟩
  | 42 => ⟨S_, .f32⟩
  | 43 => ⟨S2048x128, .f32⟩
  | 44 => ⟨S2048x128, .f32⟩
  | 45 => ⟨S2048x128, .f32⟩
  | 46 => ⟨S_, .f32⟩
  | 47 => ⟨S2048x128, .f32⟩
  | 48 => ⟨S2048x128, .f32⟩
  | 49 => ⟨S2048x128, .f32⟩
  | 50 => ⟨S_, .f32⟩
  | 51 => ⟨S2048x128, .f32⟩
  | 52 => ⟨S2048x128, .f32⟩
  | 53 => ⟨S2048x1, .f32⟩
  | 54 => ⟨S1x1, .f32⟩
  | 55 => ⟨S2048x1, .f32⟩
  | 56 => ⟨S2048x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_call0_cst : Ref sig .tc := ⟨.hbm, 77, rfl⟩
abbrev main_call0_call0_v0 : Ref sig .tc := ⟨.hbm, 78, rfl⟩
abbrev main_call0_call0_v1 : Ref sig .tc := ⟨.hbm, 79, rfl⟩
abbrev main_call0_call0_cst_0 : Ref sig .tc := ⟨.hbm, 80, rfl⟩
abbrev main_call0_call0_v2 : Ref sig .tc := ⟨.hbm, 81, rfl⟩
abbrev main_call0_call0_v3 : Ref sig .tc := ⟨.hbm, 82, rfl⟩
abbrev main_call0_call0_cst_1 : Ref sig .tc := ⟨.hbm, 83, rfl⟩
abbrev main_call0_call0_call0_v0 : Ref sig .tc := ⟨.hbm, 84, rfl⟩
abbrev main_call0_call0_call0_v1 : Ref sig .tc := ⟨.hbm, 85, rfl⟩
abbrev main_call0_call0_v4 : Ref sig .tc := ⟨.hbm, 86, rfl⟩
abbrev main_call0_call0_v5 : Ref sig .tc := ⟨.hbm, 87, rfl⟩
abbrev main_call0_call0_v6 : Ref sig .tc := ⟨.hbm, 88, rfl⟩
abbrev main_call0_call0_v7 : Ref sig .tc := ⟨.hbm, 89, rfl⟩
abbrev main_call0_call0_v8 : Ref sig .tc := ⟨.hbm, 90, rfl⟩
abbrev main_call0_v0 : Ref sig .tc := ⟨.hbm, 91, rfl⟩
abbrev main_call0_cst_0 : Ref sig .tc := ⟨.hbm, 92, rfl⟩
abbrev main_call0_v1 : Ref sig .tc := ⟨.hbm, 93, rfl⟩
abbrev main_v48 : Ref sig .tc := ⟨.hbm, 94, rfl⟩
abbrev main_cst_8 : Ref sig .tc := ⟨.hbm, 95, rfl⟩
abbrev main_v49 : Ref sig .tc := ⟨.hbm, 96, rfl⟩
abbrev main_cst_9 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_10 : Ref sig .tc := ⟨.hbm, 104, rfl⟩
abbrev main_v56 : Ref sig .tc := ⟨.hbm, 105, rfl⟩
abbrev main_cst_11 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_12 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_13 : Ref sig .tc := ⟨.hbm, 126, rfl⟩
abbrev main_v75 : Ref sig .tc := ⟨.hbm, 127, rfl⟩
abbrev main_v76 : Ref sig .tc := ⟨.hbm, 128, rfl⟩
abbrev main_c_14 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_c_15 : Ref sig .tc := ⟨.hbm, 135, rfl⟩
abbrev main_v82 : Ref sig .tc := ⟨.hbm, 136, rfl⟩
abbrev main_v83 : Ref sig .tc := ⟨.hbm, 137, rfl⟩
abbrev main_c_16 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_c_17 : Ref sig .tc := ⟨.hbm, 145, rfl⟩
abbrev main_v90 : Ref sig .tc := ⟨.hbm, 146, rfl⟩
abbrev main_v91 : Ref sig .tc := ⟨.hbm, 147, rfl⟩
abbrev main_c_18 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_19 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_call1_cst : Ref sig .tc := ⟨.hbm, 169, rfl⟩
abbrev main_call1_call0_cst : Ref sig .tc := ⟨.hbm, 170, rfl⟩
abbrev main_call1_call0_v0 : Ref sig .tc := ⟨.hbm, 171, rfl⟩
abbrev main_call1_call0_v1 : Ref sig .tc := ⟨.hbm, 172, rfl⟩
abbrev main_call1_call0_cst_0 : Ref sig .tc := ⟨.hbm, 173, rfl⟩
abbrev main_call1_call0_v2 : Ref sig .tc := ⟨.hbm, 174, rfl⟩
abbrev main_call1_call0_v3 : Ref sig .tc := ⟨.hbm, 175, rfl⟩
abbrev main_call1_call0_cst_1 : Ref sig .tc := ⟨.hbm, 176, rfl⟩
abbrev main_call1_call0_call0_v0 : Ref sig .tc := ⟨.hbm, 177, rfl⟩
abbrev main_call1_call0_call0_v1 : Ref sig .tc := ⟨.hbm, 178, rfl⟩
abbrev main_call1_call0_v4 : Ref sig .tc := ⟨.hbm, 179, rfl⟩
abbrev main_call1_call0_v5 : Ref sig .tc := ⟨.hbm, 180, rfl⟩
abbrev main_call1_call0_v6 : Ref sig .tc := ⟨.hbm, 181, rfl⟩
abbrev main_call1_call0_v7 : Ref sig .tc := ⟨.hbm, 182, rfl⟩
abbrev main_call1_call0_v8 : Ref sig .tc := ⟨.hbm, 183, rfl⟩
abbrev main_call1_v0 : Ref sig .tc := ⟨.hbm, 184, rfl⟩
abbrev main_call1_cst_0 : Ref sig .tc := ⟨.hbm, 185, rfl⟩
abbrev main_call1_v1 : Ref sig .tc := ⟨.hbm, 186, rfl⟩
abbrev main_v111 : Ref sig .tc := ⟨.hbm, 187, rfl⟩
abbrev main_cst_20 : Ref sig .tc := ⟨.hbm, 188, rfl⟩
abbrev main_v112 : Ref sig .tc := ⟨.hbm, 189, rfl⟩
abbrev main_cst_21 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_cst_22 : Ref sig .tc := ⟨.hbm, 197, rfl⟩
abbrev main_v119 : Ref sig .tc := ⟨.hbm, 198, rfl⟩
abbrev main_cst_23 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_24 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_c_25 : Ref sig .tc := ⟨.hbm, 219, rfl⟩
abbrev main_v138 : Ref sig .tc := ⟨.hbm, 220, rfl⟩
abbrev main_v139 : Ref sig .tc := ⟨.hbm, 221, rfl⟩
abbrev main_c_26 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_c_27 : Ref sig .tc := ⟨.hbm, 228, rfl⟩
abbrev main_v145 : Ref sig .tc := ⟨.hbm, 229, rfl⟩
abbrev main_v146 : Ref sig .tc := ⟨.hbm, 230, rfl⟩
abbrev main_c_28 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_c_29 : Ref sig .tc := ⟨.hbm, 238, rfl⟩
abbrev main_v153 : Ref sig .tc := ⟨.hbm, 239, rfl⟩
abbrev main_v154 : Ref sig .tc := ⟨.hbm, 240, rfl⟩
abbrev main_c_30 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_cst_31 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_call2_cst : Ref sig .tc := ⟨.hbm, 262, rfl⟩
abbrev main_call2_call0_cst : Ref sig .tc := ⟨.hbm, 263, rfl⟩
abbrev main_call2_call0_v0 : Ref sig .tc := ⟨.hbm, 264, rfl⟩
abbrev main_call2_call0_v1 : Ref sig .tc := ⟨.hbm, 265, rfl⟩
abbrev main_call2_call0_cst_0 : Ref sig .tc := ⟨.hbm, 266, rfl⟩
abbrev main_call2_call0_v2 : Ref sig .tc := ⟨.hbm, 267, rfl⟩
abbrev main_call2_call0_v3 : Ref sig .tc := ⟨.hbm, 268, rfl⟩
abbrev main_call2_call0_cst_1 : Ref sig .tc := ⟨.hbm, 269, rfl⟩
abbrev main_call2_call0_call0_v0 : Ref sig .tc := ⟨.hbm, 270, rfl⟩
abbrev main_call2_call0_call0_v1 : Ref sig .tc := ⟨.hbm, 271, rfl⟩
abbrev main_call2_call0_v4 : Ref sig .tc := ⟨.hbm, 272, rfl⟩
abbrev main_call2_call0_v5 : Ref sig .tc := ⟨.hbm, 273, rfl⟩
abbrev main_call2_call0_v6 : Ref sig .tc := ⟨.hbm, 274, rfl⟩
abbrev main_call2_call0_v7 : Ref sig .tc := ⟨.hbm, 275, rfl⟩
abbrev main_call2_call0_v8 : Ref sig .tc := ⟨.hbm, 276, rfl⟩
abbrev main_call2_v0 : Ref sig .tc := ⟨.hbm, 277, rfl⟩
abbrev main_call2_cst_0 : Ref sig .tc := ⟨.hbm, 278, rfl⟩
abbrev main_call2_v1 : Ref sig .tc := ⟨.hbm, 279, rfl⟩
abbrev main_v174 : Ref sig .tc := ⟨.hbm, 280, rfl⟩
abbrev main_cst_32 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_call3_cst : Ref sig .tc := ⟨.hbm, 290, rfl⟩
abbrev main_call3_call0_cst : Ref sig .tc := ⟨.hbm, 291, rfl⟩
abbrev main_call3_call0_v0 : Ref sig .tc := ⟨.hbm, 292, rfl⟩
abbrev main_call3_call0_v1 : Ref sig .tc := ⟨.hbm, 293, rfl⟩
abbrev main_call3_call0_cst_0 : Ref sig .tc := ⟨.hbm, 294, rfl⟩
abbrev main_call3_call0_v2 : Ref sig .tc := ⟨.hbm, 295, rfl⟩
abbrev main_call3_call0_v3 : Ref sig .tc := ⟨.hbm, 296, rfl⟩
abbrev main_call3_call0_cst_1 : Ref sig .tc := ⟨.hbm, 297, rfl⟩
abbrev main_call3_call0_call0_v0 : Ref sig .tc := ⟨.hbm, 298, rfl⟩
abbrev main_call3_call0_call0_v1 : Ref sig .tc := ⟨.hbm, 299, rfl⟩
abbrev main_call3_call0_v4 : Ref sig .tc := ⟨.hbm, 300, rfl⟩
abbrev main_call3_call0_v5 : Ref sig .tc := ⟨.hbm, 301, rfl⟩
abbrev main_call3_call0_v6 : Ref sig .tc := ⟨.hbm, 302, rfl⟩
abbrev main_call3_call0_v7 : Ref sig .tc := ⟨.hbm, 303, rfl⟩
abbrev main_call3_call0_v8 : Ref sig .tc := ⟨.hbm, 304, rfl⟩
abbrev main_call3_v0 : Ref sig .tc := ⟨.hbm, 305, rfl⟩
abbrev main_call3_cst_0 : Ref sig .tc := ⟨.hbm, 306, rfl⟩
abbrev main_call3_v1 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S2048x128 : S_.BroadcastsInDim S2048x128 (![] : Fin 0 → Fin S2048x128.rank)
  concatenates_S2048x128_S2048x64_S2048x192_d1 : Shape.Concatenates [S2048x128, S2048x64] S2048x192 1
  bcast_S1x128_S2048x128_0_1 : S1x128.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x192_S192x128_S2048x128_1_0_0_1_n_n_wf : DotDims.WF S2048x192 S192x128 S2048x128 [1] [0] [0] [1] [] []
  dot_S2048x128_S128x1_S2048x1_1_0_0_1_n_n_wf : DotDims.WF S2048x128 S128x1 S2048x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x192_S192x128_S2048x128_1_0_0_1_n_n : DotDims S2048x192 S192x128 S2048x128 where
  lhsContracting := [1]
  rhsContracting := [0]
  lhsNonContracting := [0]
  rhsNonContracting := [1]
  lhsBatch := []
  rhsBatch := []
  wf := dot_S2048x192_S192x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.KRunDefs.lean ====
import proofs.«162488_j80401787781187_1_alg».proof.Proof.Gen.KernelIdeal

/-!
# The host-side pieces of the graph-convolution network, as pure functions of arrays

Between its kernel launches the program computes, on whole arrays: the source and destination index vectors of
the edge list, the inverse square roots of the node degrees, the normalised neighbourhood aggregation of a
projected feature matrix, the batch-normalisation scale and shift from a column sum and a column sum of squares,
the per-graph pooling of node features, and a few reshapes and slices of the parameters. Each is written here
once, as a function of the arrays it reads, in the program's own operations.
-/

noncomputable section

namespace Cert.KernelIdeal.KRun

open Cert.KernelIdeal Cert.KernelIdeal.Gen
open Idealize.ShloMosaic

variable {F : FTy → Type} [FloatOps F]

/-- Row 0 of the 2×E edge list, as a vector: the edges' source nodes. -/
def Src (e : IVec S2x1600000 32) : IVec S1600000 32 :=
  shapeCast S1600000 (extractStridedSlice S1x1600000 ![0, 0] e slices_S2x1600000_S1x1600000_0_0) shapeCasts_S1x1600000_S1600000

/-- Row 1 of the 2×E edge list, as a vector: the edges' destination nodes. -/
def Dst (e : IVec S2x1600000 32) : IVec S1600000 32 :=
  shapeCast S1600000 (extractStridedSlice S1x1600000 ![1, 0] e slices_S2x1600000_S1x1600000_1_0) shapeCasts_S1x1600000_S1600000

/-- `1 / sqrt (deg + 1)` per node, `deg` the number of edges arriving at the node (a scatter-add of ones). -/
def Dinv (dst : IVec S1600000 32) : FVec F S100000 .f32 :=
  Host.rsqrt (addf (Host.scatterAdd scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32))) (broadcastInDim S100000 ![] bcast_S_S100000 (constant (F := F) S_ .f32 0x3F800000#32)))

/-- The self-loop weight `dinv · dinv` per node, as a column. -/
def ScaleSelf (dinv : FVec F S100000 .f32) : FVec F S100000x1 .f32 :=
  shapeCast S100000x1 (mulf dinv dinv) shapeCasts_S100000_S100000x1

/-- The neighbourhood aggregation: every edge carries its source row of `xw` scaled by
    `dinv[src] · dinv[dst]` to its destination row, where the messages are added up (indices below zero wrap
    around once, as the gathers print them). -/
def Agg (xw : FVec F S100000x128 .f32) (dinv : FVec F S100000 .f32) (src dst : IVec S1600000 32) : FVec F S100000x128 .f32 :=
  Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (mulf (Host.gather gather_S100000x128_S1600000x1_S1600000x128_1_0_n_n_0_1_1128 xw (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x128 ![0, 1] bcast_S1600000x1_S1600000x128_0_1 (broadcastInDim S1600000x1 ![0] bcast_S1600000_S1600000x1_0 (mulf (Host.gather gather_S100000_S1600000x1_S1600000_n_0_n_n_0_1_1 dinv (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (Host.gather gather_S100000_S1600000x1_S1600000_n_0_n_n_0_1_1 dinv (broadcastInDim S1600000x1 ![0] bcast_S1600000_S1600000x1_0 (select (cmpi .slt dst (broadcastInDim S1600000 ![] bcast_S_S1600000 (constantI S_ 32 0#32))) (addi dst (broadcastInDim S1600000 ![] bcast_S_S1600000 (constantI S_ 32 100000#32))) dst)))))))

/-- A length-128 vector as a 1×128 row. -/
def Row128 (b : FVec F S128 .f32) : FVec F S1x128 .f32 :=
  shapeCast S1x128 b shapeCasts_S128_S1x128

/-- Batch normalisation's scale row `gamma · rsqrt (var + eps)`, with `mean = sum / 1e5` and
    `var = sumsq / 1e5 − mean · mean`. -/
def BnScale (sum sumsq : FVec F S1x128 .f32) (gamma : FVec F S128 .f32) : FVec F S1x128 .f32 :=
  shapeCast S1x128 (shapeCast S128 (mulf (shapeCast S1x128 gamma shapeCasts_S128_S1x128) (Host.rsqrt (addf (subf (Host.divf sumsq (broadcastInDim S1x128 ![] bcast_S_S1x128 (constant (F := F) S_ .f32 0x47C35000#32))) (mulf (Host.divf sum (broadcastInDim S1x128 ![] bcast_S_S1x128 (constant (F := F) S_ .f32 0x47C35000#32))) (Host.divf sum (broadcastInDim S1x128 ![] bcast_S_S1x128 (constant (F := F) S_ .f32 0x47C35000#32))))) (broadcastInDim S1x128 ![] bcast_S_S1x128 (constant (F := F) S_ .f32 0x3727C5AC#32))))) shapeCasts_S1x128_S128) shapeCasts_S128_S1x128

/-- Batch normalisation's shift row `beta − mean · gamma · rsqrt (var + eps)`. -/
def BnShift (sum sumsq : FVec F S1x128 .f32) (gamma beta : FVec F S128 .f32) : FVec F S1x128 .f32 :=
  shapeCast S1x128 (shapeCast S128 (subf (shapeCast S1x128 beta shapeCasts_S128_S1x128) (mulf (mulf (Host.divf sum (broadcastInDim S1x128 ![] bcast_S_S1x128 (constant (F := F) S_ .f32 0x47C35000#32))) (shapeCast S1x128 gamma shapeCasts_S128_S1x128)) (Host.rsqrt (addf (subf (Host.divf sumsq (broadcastInDim S1x128 ![] bcast_S_S1x128 (constant (F := F) S_ .f32 0x47C35000#32))) (mulf (Host.divf sum (broadcastInDim S1x128 ![] bcast_S_S1x128 (constant (F := F) S_ .f32 0x47C35000#32))) (Host.divf sum (broadcastInDim S1x128 ![] bcast_S_S1x128 (constant (F := F) S_ .f32 0x47C35000#32))))) (broadcastInDim S1x128 ![] bcast_S_S1x128 (constant (F := F) S_ .f32 0x3727C5AC#32)))))) shapeCasts_S1x128_S128) shapeCasts_S128_S1x128

/-- Per-graph pooling: node rows added up into the row of the graph each node belongs to. -/
def Pool (h : FVec F S100000x128 .f32) (batch : IVec S100000 32) : FVec F S2048x128 .f32 :=
  Host.scatterAdd scatter_S2048x128_S100000x1_S100000x128_1_0_0_1 (broadcastInDim S2048x128 ![] bcast_S_S2048x128 (constant (F := F) S_ .f32 0x00000000#32)) (broadcastInDim S100000x1 ![0] bcast_S100000_S100000x1_0 batch) h

/-- The first 128 rows of the head's first weight matrix (the part multiplying the pooled features). -/
def Wf1a (w : FVec F S192x128 .f32) : FVec F S128x128 .f32 :=
  extractStridedSlice S128x128 ![0, 0] w slices_S192x128_S128x128_0_0

/-- Its last 64 rows (the part multiplying the molecule features). -/
def Wf1b (w : FVec F S192x128 .f32) : FVec F S64x128 .f32 :=
  extractStridedSlice S64x128 ![128, 0] w slices_S192x128_S64x128_128_0

/-- The head's second weight matrix, a 128×1 column, as a 1×128 row. -/
def Wf2Row (w : FVec F S128x1 .f32) : FVec F S1x128 .f32 :=
  shapeCast S1x128 w shapeCasts_S128x1_S1x128

/-- The head's last bias, a one-element vector, as a 1×1 matrix. -/
def Bf2Cell (b : FVec F S1 .f32) : FVec F S1x1 .f32 :=
  shapeCast S1x1 b shapeCasts_S1_S1x1

end Cert.KernelIdeal.KRun

end
-- ==== Proof.KRunHostA.lean ====
import proofs.«162488_j80401787781187_1_alg».proof.Proof.Gen.KernelIdeal.Launch
import proofs.«162488_j80401787781187_1_alg».proof.Proof.KRunDefs
import Idealize.ShloMosaic.Lib.StableHlo.Run

/-!
# What the short host stretches leave in the buffers the kernels read

For each stretch of host operations between two kernel launches, and each buffer of it that a later kernel
reads, the buffer's contents after the stretch as one of the functions of `KRunDefs` applied to the contents
the stretch started from. Stated for any starting contents `V`.
-/

noncomputable section

namespace Cert.KernelIdeal.KRun

open Cert.KernelIdeal Cert.KernelIdeal.Gen
open Idealize.ShloMosaic Idealize.ShloMosaic.TcCoe Idealize.ShloMosaic.StableHlo

variable {F : FTy → Type} [FloatOps F]

/-! ## Before the first launch: the index vectors and the degree normalisation -/

/-- The source index vector. -/
theorem host0_v1 (V : Valuation τ sig (Elt F)) :
    StableHlo.after Gen.hostOps0 V (Proc.devRef .tc main_v1) = Src (V (Proc.devRef .tc main_arg1)) := by
  after_results_simp; rfl
/-- The destination index vector. -/
theorem host0_v3 (V : Valuation τ sig (Elt F)) :
    StableHlo.after Gen.hostOps0 V (Proc.devRef .tc main_v3) = Dst (V (Proc.devRef .tc main_arg1)) := by
  after_results_simp; rfl
/-- The inverse square roots of the degrees. -/
theorem host0_v10 (V : Valuation τ sig (Elt F)) :
    StableHlo.after Gen.hostOps0 V (Proc.devRef .tc main_v10) = Dinv (F := F) (Dst (V (Proc.devRef .tc main_arg1))) := by
  after_results_simp; rfl
/-- The self-loop weights, as a column. -/
theorem host0_v12 (V : Valuation τ sig (Elt F)) :
    StableHlo.after Gen.hostOps0 V (Proc.devRef .tc main_v12) = ScaleSelf (Dinv (F := F) (Dst (V (Proc.devRef .tc main_arg1)))) := by
  after_results_simp; rfl

/-! ## Batch normalisation's host arithmetic (layers 1 and 2) -/

/-- Layer 1's scale row. -/
theorem host3_v62 (V : Valuation τ sig (Elt F)) :
    StableHlo.after Gen.hostOps3 V (Proc.devRef .tc main_v62) = BnScale (V (Proc.devRef .tc main_v44_0)) (V (Proc.devRef .tc main_v44_1)) (V (Proc.devRef .tc main_arg6)) := by
  after_results_simp; rfl
/-- Layer 1's shift row. -/
theorem host3_v63 (V : Valuation τ sig (Elt F)) :
    StableHlo.after Gen.hostOps3 V (Proc.devRef .tc main_v63) = BnShift (V (Proc.devRef .tc main_v44_0)) (V (Proc.devRef .tc main_v44_1)) (V (Proc.devRef .tc main_arg6)) (V (Proc.devRef .tc main_arg7)) := by
  after_results_simp; rfl
/-- Layer 2's scale row. -/
theorem host7_v114 (V : Valuation τ sig (Elt F)) :
    StableHlo.after Gen.hostOps7 V (Proc.devRef .tc main_v114) = BnScale (V (Proc.devRef .tc main_v96_0)) (V (Proc.devRef .tc main_v96_1)) (V (Proc.devRef .tc main_arg10)) := by
  after_results_simp; rfl
/-- Layer 2's shift row. -/
theorem host7_v115 (V : Valuation τ sig (Elt F)) :
    StableHlo.after Gen.hostOps7 V (Proc.devRef .tc main_v115) = BnShift (V (Proc.devRef .tc main_v96_0)) (V (Proc.devRef .tc main_v96_1)) (V (Proc.devRef .tc main_arg10)) (V (Proc.devRef .tc main_arg11)) := by
  after_results_simp; rfl

/-! ## Before the head: pooling, and the parameters' slices and reshapes -/

/-- The pooled node features. -/
theorem host10_v150 (V : Valuation τ sig (Elt F)) :
    StableHlo.after Gen.hostOps10 V (Proc.devRef .tc main_v150) = Pool (V (Proc.devRef .tc main_v147)) (V (Proc.devRef .tc main_arg2)) := by
  after_results_simp; rfl
/-- The first weight matrix's upper block. -/
theorem host10_v151 (V : Valuation τ sig (Elt F)) :
    StableHlo.after Gen.hostOps10 V (Proc.devRef .tc main_v151) = Wf1a (V (Proc.devRef .tc main_arg14)) := by
  after_results_simp; rfl
/-- The first weight matrix's lower block. -/
theorem host10_v152 (V : Valuation τ sig (Elt F)) :
    StableHlo.after Gen.hostOps10 V (Proc.devRef .tc main_v152) = Wf1b (V (Proc.devRef .tc main_arg14)) := by
  after_results_simp; rfl
/-- The first bias, as a row. -/
theorem host10_v153 (V : Valuation τ sig (Elt F)) :
    StableHlo.after Gen.hostOps10 V (Proc.devRef .tc main_v153) = Row128 (V (Proc.devRef .tc main_arg15)) := by
  after_results_simp; rfl
/-- The second weight matrix, as a row. -/
theorem host10_v154 (V : Valuation τ sig (Elt F)) :
    StableHlo.after Gen.hostOps10 V (Proc.devRef .tc main_v154) = Wf2Row (V (Proc.devRef .tc main_arg16)) := by
  after_results_simp; rfl
/-- The second bias, as a 1×1 matrix. -/
theorem host10_v155 (V : Valuation τ sig (Elt F)) :
    StableHlo.after Gen.hostOps10 V (Proc.devRef .tc main_v155) = Bf2Cell (V (Proc.devRef .tc main_arg17)) := by
  after_results_simp; rfl

/-! ## What the stretches leave alone -/

/-- The buffers `hostOps0` writes. -/
abbrev hostOps0_W : List (Ref sig .tc) := [main_v0, main_v1, main_v2, main_v3, main_cst, main_v4, main_cst_0, main_v5, main_v6, main_v7, main_cst_1, main_v8, main_v9, main_v10, main_v11, main_v12]
theorem hostOps0_writes : (Gen.hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Every other buffer keeps its contents through `hostOps0`. -/
theorem host0_keep (V : Valuation τ sig (Elt F)) (r : Ref sig .tc) (h : r ∉ hostOps0_W) :
    StableHlo.after Gen.hostOps0 V (Proc.devRef .tc r) = V (Proc.devRef .tc r) :=
  StableHlo.after_of_writes_sub _ V hostOps0_writes h

/-- The buffers `hostOps3` writes. -/
abbrev hostOps3_W : List (Ref sig .tc) := [main_cst_8, main_v45, main_v46, main_cst_9, main_v47, main_v48, main_v49, main_v50, main_cst_10, main_v51, main_v52, main_v53, main_v54, main_v55, main_v56, main_v57, main_v58, main_v59, main_v60, main_v61, main_v62, main_v63]
theorem hostOps3_writes : (Gen.hostOps3 : List (HloOp τ sig (Elt F))).Forall fun op => op.writes ⊆ ((hostOps3_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Every other buffer keeps its contents through `hostOps3`. -/
theorem host3_keep (V : Valuation τ sig (Elt F)) (r : Ref sig .tc) (h : r ∉ hostOps3_W) :
    StableHlo.after Gen.hostOps3 V (Proc.devRef .tc r) = V (Proc.devRef .tc r) :=
  StableHlo.after_of_writes_sub _ V hostOps3_writes h

/-- The buffers `hostOps7` writes. -/
abbrev hostOps7_W : List (Ref sig .tc) := [main_cst_18, main_v97, main_v98, main_cst_19, main_v99, main_v100, main_v101, main_v102, main_cst_20, main_v103, main_v104, main_v105, main_v106, main_v107, main_v108, main_v109, main_v110, main_v111, main_v112, main_v113, main_v114, main_v115]
theorem hostOps7_writes : (Gen.hostOps7 : List (HloOp τ sig (Elt F))).Forall fun op => op.writes ⊆ ((hostOps7_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Every other buffer keeps its contents through `hostOps7`. -/
theorem host7_keep (V : Valuation τ sig (Elt F)) (r : Ref sig .tc) (h : r ∉ hostOps7_W) :
    StableHlo.after Gen.hostOps7 V (Proc.devRef .tc r) = V (Proc.devRef .tc r) :=
  StableHlo.after_of_writes_sub _ V hostOps7_writes h

/-- The buffers `hostOps10` writes. -/
abbrev hostOps10_W : List (Ref sig .tc) := [main_cst_28, main_v148, main_v149, main_v150, main_v151, main_v152, main_v153, main_v154, main_v155]
theorem hostOps10_writes : (Gen.hostOps10 : List (HloOp τ sig (Elt F))).Forall fun op => op.writes ⊆ ((hostOps10_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Every other buffer keeps its contents through `hostOps10`. -/
theorem host10_keep (V : Valuation τ sig (Elt F)) (r : Ref sig .tc) (h : r ∉ hostOps10_W) :
    StableHlo.after Gen.hostOps10 V (Proc.devRef .tc r) = V (Proc.devRef .tc r) :=
  StableHlo.after_of_writes_sub _ V hostOps10_writes h

end Cert.KernelIdeal.KRun

end
-- ==== Proof.KRunHostB.lean ====
import proofs.«162488_j80401787781187_1_alg».proof.Proof.Gen.KernelIdeal.Launch
import proofs.«162488_j80401787781187_1_alg».proof.Proof.KRunDefs
import Idealize.ShloMosaic.Lib.StableHlo.Run

/-!
# What the aggregation stretches leave in the buffers the combine kernels read

Each of the three layers runs the same host chain between its projection kernel and its combine kernel: the
gather–scale–scatter aggregation of the projected features, and the bias as a row. The aggregated matrix is
`Agg` of the projection, the degree normalisation and the two index vectors as the stretch finds them.
Stated for any starting contents `V`.
-/

noncomputable section

namespace Cert.KernelIdeal.KRun

open Cert.KernelIdeal Cert.KernelIdeal.Gen
open Idealize.ShloMosaic Idealize.ShloMosaic.TcCoe Idealize.ShloMosaic.StableHlo

variable {F : FTy → Type} [FloatOps F]

/-- Layer 1's aggregated projection. -/
theorem host1_v41 (V : Valuation τ sig (Elt F)) :
    StableHlo.after Gen.hostOps1 V (Proc.devRef .tc main_v41)
      = Agg (V (Proc.devRef .tc main_v13)) (V (Proc.devRef .tc main_v10)) (V (Proc.devRef .tc main_v1)) (V (Proc.devRef .tc main_v3)) := by
  after_results_simp; rfl
/-- Layer 1's bias, as a row. -/
theorem host1_v42 (V : Valuation τ sig (Elt F)) :
    StableHlo.after Gen.hostOps1 V (Proc.devRef .tc main_v42) = Row128 (V (Proc.devRef .tc main_arg5)) := by
  after_results_simp; rfl
/-- Layer 2's aggregated projection. -/
theorem host5_v93 (V : Valuation τ sig (Elt F)) :
    StableHlo.after Gen.hostOps5 V (Proc.devRef .tc main_v93)
      = Agg (V (Proc.devRef .tc main_v65)) (V (Proc.devRef .tc main_v10)) (V (Proc.devRef .tc main_v1)) (V (Proc.devRef .tc main_v3)) := by
  after_results_simp; rfl
/-- Layer 2's bias, as a row. -/
theorem host5_v94 (V : Valuation τ sig (Elt F)) :
    StableHlo.after Gen.hostOps5 V (Proc.devRef .tc main_v94) = Row128 (V (Proc.devRef .tc main_arg9)) := by
  after_results_simp; rfl
/-- Layer 3's aggregated projection. -/
theorem host9_v145 (V : Valuation τ sig (Elt F)) :
    StableHlo.after Gen.hostOps9 V (Proc.devRef .tc main_v145)
      = Agg (V (Proc.devRef .tc main_v117)) (V (Proc.devRef .tc main_v10)) (V (Proc.devRef .tc main_v1)) (V (Proc.devRef .tc main_v3)) := by
  after_results_simp; rfl
/-- Layer 3's bias, as a row. -/
theorem host9_v146 (V : Valuation τ sig (Elt F)) :
    StableHlo.after Gen.hostOps9 V (Proc.devRef .tc main_v146) = Row128 (V (Proc.devRef .tc main_arg13)) := by
  after_results_simp; rfl

/-! ## What the stretches leave alone -/

/-- The buffers `hostOps1` writes. -/
abbrev hostOps1_W : List (Ref sig .tc) := [main_c, main_v14, main_v15, main_c_2, main_v16, main_v17, main_v18, main_v19, main_v20, main_c_3, main_v21, main_v22, main_c_4, main_v23, main_v24, main_v25, main_v26, main_v27, main_v28, main_c_5, main_v29, main_v30, main_c_6, main_v31, main_v32, main_v33, main_v34, main_v35, main_v36, main_v37, main_v38, main_cst_7, main_v39, main_v40, main_v41, main_v42]
theorem hostOps1_writes : (Gen.hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Every other buffer keeps its contents through `hostOps1`. -/
theorem host1_keep (V : Valuation τ sig (Elt F)) (r : Ref sig .tc) (h : r ∉ hostOps1_W) :
    StableHlo.after Gen.hostOps1 V (Proc.devRef .tc r) = V (Proc.devRef .tc r) :=
  StableHlo.after_of_writes_sub _ V hostOps1_writes h

/-- The buffers `hostOps5` writes. -/
abbrev hostOps5_W : List (Ref sig .tc) := [main_c_11, main_v66, main_v67, main_c_12, main_v68, main_v69, main_v70, main_v71, main_v72, main_c_13, main_v73, main_v74, main_c_14, main_v75, main_v76, main_v77, main_v78, main_v79, main_v80, main_c_15, main_v81, main_v82, main_c_16, main_v83, main_v84, main_v85, main_v86, main_v87, main_v88, main_v89, main_v90, main_cst_17, main_v91, main_v92, main_v93, main_v94]
theorem hostOps5_writes : (Gen.hostOps5 : List (HloOp τ sig (Elt F))).Forall fun op => op.writes ⊆ ((hostOps5_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Every other buffer keeps its contents through `hostOps5`. -/
theorem host5_keep (V : Valuation τ sig (Elt F)) (r : Ref sig .tc) (h : r ∉ hostOps5_W) :
    StableHlo.after Gen.hostOps5 V (Proc.devRef .tc r) = V (Proc.devRef .tc r) :=
  StableHlo.after_of_writes_sub _ V hostOps5_writes h

/-- The buffers `hostOps9` writes. -/
abbrev hostOps9_W : List (Ref sig .tc) := [main_c_21, main_v118, main_v119, main_c_22, main_v120, main_v121, main_v122, main_v123, main_v124, main_c_23, main_v125, main_v126, main_c_24, main_v127, main_v128, main_v129, main_v130, main_v131, main_v132, main_c_25, main_v133, main_v134, main_c_26, main_v135, main_v136, main_v137, main_v138, main_v139, main_v140, main_v141, main_v142, main_cst_27, main_v143, main_v144, main_v145, main_v146]
theorem hostOps9_writes : (Gen.hostOps9 : List (HloOp τ sig (Elt F))).Forall fun op => op.writes ⊆ ((hostOps9_W).map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
/-- Every other buffer keeps its contents through `hostOps9`. -/
theorem host9_keep (V : Valuation τ sig (Elt F)) (r : Ref sig .tc) (h : r ∉ hostOps9_W) :
    StableHlo.after Gen.hostOps9 V (Proc.devRef .tc r) = V (Proc.devRef .tc r) :=
  StableHlo.after_of_writes_sub _ V hostOps9_writes h

end Cert.KernelIdeal.KRun

end
-- ==== Proof.KRunChain.lean ====
import proofs.«162488_j80401787781187_1_alg».proof.Proof.Gen.KernelIdeal.Frame
import proofs.«162488_j80401787781187_1_alg».proof.Proof.KRunHostA
import proofs.«162488_j80401787781187_1_alg».proof.Proof.KRunHostB

/-!
# The buffers' contents at the boundaries between the program's segments

The program is eighteen segments: stretches of host operations and kernel launches in turn. A buffer's contents at
a boundary are followed back through the segments: a stretch of host operations changes only the buffers it writes,
a kernel launch changes only its output arrays. From that, each kernel's input arrays at its entry are named: an
earlier kernel's output array as that kernel left it, an argument as launched, or one of the host-side functions of
those (the index vectors, the degree normalisation, the aggregation, the batch-normalisation rows, the pooling, the
parameters' reshapes).
-/

set_option maxRecDepth 16384

noncomputable section

namespace Cert.KernelIdeal.KRun

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-! ## What each segment leaves alone -/

/-- A buffer the stretch `hostOps0` does not write leaves it as it entered. -/
theorem W1_keep (c : Dev nD) (b : Ref sig .tc) (hb : b ∉ hostOps0_W) :
    W1 m ρ c (Proc.devRef .tc b) = W0 m ρ c (Proc.devRef .tc b) :=
  host0_keep (W0 m ρ c) b hb

theorem win2_keep (c : Dev nD) : ∀ (w : Fin 3) (hb : Pipeline.arrRef spec0 w ∉ ([main_v13] : List (Ref sig .tc))),
    W2 m ρ c (Proc.devRef .tc (Pipeline.arrRef spec0 w)) = W1 m ρ c (Proc.devRef .tc (Pipeline.arrRef spec0 w))
  | ⟨0, _⟩, _ => (W2_arr m ρ c 0).trans (((dat0 (V1 m ρ) c).arrAt_in 0 rfl _).trans (A_eq0 (V1 m ρ) c 0))
  | ⟨1, _⟩, _ => (W2_arr m ρ c 1).trans (((dat0 (V1 m ρ) c).arrAt_in 1 rfl _).trans (A_eq0 (V1 m ρ) c 1))
  | ⟨2, _⟩, hb => absurd (by decide : (main_v13 : Ref sig .tc) ∈ ([main_v13] : List (Ref sig .tc))) hb
/-- Region 0 changes only its output array: every other buffer, its input arrays included, leaves as it entered. -/
theorem W2_keep (c : Dev nD) (b : Ref sig .tc) (hb : b ∉ ([main_v13] : List (Ref sig .tc))) :
    W2 m ρ c (Proc.devRef .tc b) = W1 m ρ c (Proc.devRef .tc b) := by
  by_cases h : ∀ w, Pipeline.arrRef spec0 w ≠ b
  · exact W2_of_ne m ρ c b h
  · obtain ⟨w, rfl⟩ := not_forall_not.mp h
    exact win2_keep m ρ c w hb

/-- A buffer the stretch `hostOps1` does not write leaves it as it entered. -/
theorem W3_keep (c : Dev nD) (b : Ref sig .tc) (hb : b ∉ hostOps1_W) :
    W3 m ρ c (Proc.devRef .tc b) = W2 m ρ c (Proc.devRef .tc b) :=
  host1_keep (W2 m ρ c) b hb

theorem win4_keep (c : Dev nD) : ∀ (w : Fin 5) (hb : Pipeline.arrRef spec1 w ∉ ([main_v43] : List (Ref sig .tc))),
    W4 m ρ c (Proc.devRef .tc (Pipeline.arrRef spec1 w)) = W3 m ρ c (Proc.devRef .tc (Pipeline.arrRef spec1 w))
  | ⟨0, _⟩, _ => (W4_arr m ρ c 0).trans (((dat1 (V3 m ρ) c).arrAt_in 0 rfl _).trans (A_eq1 (V3 m ρ) c 0))
  | ⟨1, _⟩, _ => (W4_arr m ρ c 1).trans (((dat1 (V3 m ρ) c).arrAt_in 1 rfl _).trans (A_eq1 (V3 m ρ) c 1))
  | ⟨2, _⟩, _ => (W4_arr m ρ c 2).trans (((dat1 (V3 m ρ) c).arrAt_in 2 rfl _).trans (A_eq1 (V3 m ρ) c 2))
  | ⟨3, _⟩, _ => (W4_arr m ρ c 3).trans (((dat1 (V3 m ρ) c).arrAt_in 3 rfl _).trans (A_eq1 (V3 m ρ) c 3))
  | ⟨4, _⟩, hb => absurd (by decide : (main_v43 : Ref sig .tc) ∈ ([main_v43] : List (Ref sig .tc))) hb
/-- Region 1 changes only its output array: every other buffer, its input arrays included, leaves as it entered. -/
theorem W4_keep (c : Dev nD) (b : Ref sig .tc) (hb : b ∉ ([main_v43] : List (Ref sig .tc))) :
    W4 m ρ c (Proc.devRef .tc b) = W3 m ρ c (Proc.devRef .tc b) := by
  by_cases h : ∀ w, Pipeline.arrRef spec1 w ≠ b
  · exact W4_of_ne m ρ c b h
  · obtain ⟨w, rfl⟩ := not_forall_not.mp h
    exact win4_keep m ρ c w hb

theorem win5_keep (c : Dev nD) : ∀ (w : Fin 3) (hb : Pipeline.arrRef spec2 w ∉ ([main_v44_0, main_v44_1] : List (Ref sig .tc))),
    W5 m ρ c (Proc.devRef .tc (Pipeline.arrRef spec2 w)) = W4 m ρ c (Proc.devRef .tc (Pipeline.arrRef spec2 w))
  | ⟨0, _⟩, _ => (W5_arr m ρ c 0).trans (((dat2 (V4 m ρ) c).arrAt_in 0 rfl _).trans (A_eq2 (V4 m ρ) c 0))
  | ⟨1, _⟩, hb => absurd (by decide : (main_v44_0 : Ref sig .tc) ∈ ([main_v44_0, main_v44_1] : List (Ref sig .tc))) hb
  | ⟨2, _⟩, hb => absurd (by decide : (main_v44_1 : Ref sig .tc) ∈ ([main_v44_0, main_v44_1] : List (Ref sig .tc))) hb
/-- Region 2 changes only its output arrays: every other buffer, its input arrays included, leaves as it entered. -/
theorem W5_keep (c : Dev nD) (b : Ref sig .tc) (hb : b ∉ ([main_v44_0, main_v44_1] : List (Ref sig .tc))) :
    W5 m ρ c (Proc.devRef .tc b) = W4 m ρ c (Proc.devRef .tc b) := by
  by_cases h : ∀ w, Pipeline.arrRef spec2 w ≠ b
  · exact W5_of_ne m ρ c b h
  · obtain ⟨w, rfl⟩ := not_forall_not.mp h
    exact win5_keep m ρ c w hb

/-- A buffer the stretch `hostOps3` does not write leaves it as it entered. -/
theorem W6_keep (c : Dev nD) (b : Ref sig .tc) (hb : b ∉ hostOps3_W) :
    W6 m ρ c (Proc.devRef .tc b) = W5 m ρ c (Proc.devRef .tc b) :=
  host3_keep (W5 m ρ c) b hb

theorem win7_keep (c : Dev nD) : ∀ (w : Fin 4) (hb : Pipeline.arrRef spec3 w ∉ ([main_v64] : List (Ref sig .tc))),
    W7 m ρ c (Proc.devRef .tc (Pipeline.arrRef spec3 w)) = W6 m ρ c (Proc.devRef .tc (Pipeline.arrRef spec3 w))
  | ⟨0, _⟩, _ => (W7_arr m ρ c 0).trans (((dat3 (V6 m ρ) c).arrAt_in 0 rfl _).trans (A_eq3 (V6 m ρ) c 0))
  | ⟨1, _⟩, _ => (W7_arr m ρ c 1).trans (((dat3 (V6 m ρ) c).arrAt_in 1 rfl _).trans (A_eq3 (V6 m ρ) c 1))
  | ⟨2, _⟩, _ => (W7_arr m ρ c 2).trans (((dat3 (V6 m ρ) c).arrAt_in 2 rfl _).trans (A_eq3 (V6 m ρ) c 2))
  | ⟨3, _⟩, hb => absurd (by decide : (main_v64 : Ref sig .tc) ∈ ([main_v64] : List (Ref sig .tc))) hb
/-- Region 3 changes only its output array: every other buffer, its input arrays included, leaves as it entered. -/
theorem W7_keep (c : Dev nD) (b : Ref sig .tc) (hb : b ∉ ([main_v64] : List (Ref sig .tc))) :
    W7 m ρ c (Proc.devRef .tc b) = W6 m ρ c (Proc.devRef .tc b) := by
  by_cases h : ∀ w, Pipeline.arrRef spec3 w ≠ b
  · exact W7_of_ne m ρ c b h
  · obtain ⟨w, rfl⟩ := not_forall_not.mp h
    exact win7_keep m ρ c w hb

theorem win8_keep (c : Dev nD) : ∀ (w : Fin 3) (hb : Pipeline.arrRef spec4 w ∉ ([main_v65] : List (Ref sig .tc))),
    W8 m ρ c (Proc.devRef .tc (Pipeline.arrRef spec4 w)) = W7 m ρ c (Proc.devRef .tc (Pipeline.arrRef spec4 w))
  | ⟨0, _⟩, _ => (W8_arr m ρ c 0).trans (((dat4 (V7 m ρ) c).arrAt_in 0 rfl _).trans (A_eq4 (V7 m ρ) c 0))
  | ⟨1, _⟩, _ => (W8_arr m ρ c 1).trans (((dat4 (V7 m ρ) c).arrAt_in 1 rfl _).trans (A_eq4 (V7 m ρ) c 1))
  | ⟨2, _⟩, hb => absurd (by decide : (main_v65 : Ref sig .tc) ∈ ([main_v65] : List (Ref sig .tc))) hb
/-- Region 4 changes only its output array: every other buffer, its input arrays included, leaves as it entered. -/
theorem W8_keep (c : Dev nD) (b : Ref sig .tc) (hb : b ∉ ([main_v65] : List (Ref sig .tc))) :
    W8 m ρ c (Proc.devRef .tc b) = W7 m ρ c (Proc.devRef .tc b) := by
  by_cases h : ∀ w, Pipeline.arrRef spec4 w ≠ b
  · exact W8_of_ne m ρ c b h
  · obtain ⟨w, rfl⟩ := not_forall_not.mp h
    exact win8_keep m ρ c w hb

/-- A buffer the stretch `hostOps5` does not write leaves it as it entered. -/
theorem W9_keep (c : Dev nD) (b : Ref sig .tc) (hb : b ∉ hostOps5_W) :
    W9 m ρ c (Proc.devRef .tc b) = W8 m ρ c (Proc.devRef .tc b) :=
  host5_keep (W8 m ρ c) b hb

theorem win10_keep (c : Dev nD) : ∀ (w : Fin 5) (hb : Pipeline.arrRef spec5 w ∉ ([main_v95] : List (Ref sig .tc))),
    W10 m ρ c (Proc.devRef .tc (Pipeline.arrRef spec5 w)) = W9 m ρ c (Proc.devRef .tc (Pipeline.arrRef spec5 w))
  | ⟨0, _⟩, _ => (W10_arr m ρ c 0).trans (((dat5 (V9 m ρ) c).arrAt_in 0 rfl _).trans (A_eq5 (V9 m ρ) c 0))
  | ⟨1, _⟩, _ => (W10_arr m ρ c 1).trans (((dat5 (V9 m ρ) c).arrAt_in 1 rfl _).trans (A_eq5 (V9 m ρ) c 1))
  | ⟨2, _⟩, _ => (W10_arr m ρ c 2).trans (((dat5 (V9 m ρ) c).arrAt_in 2 rfl _).trans (A_eq5 (V9 m ρ) c 2))
  | ⟨3, _⟩, _ => (W10_arr m ρ c 3).trans (((dat5 (V9 m ρ) c).arrAt_in 3 rfl _).trans (A_eq5 (V9 m ρ) c 3))
  | ⟨4, _⟩, hb => absurd (by decide : (main_v95 : Ref sig .tc) ∈ ([main_v95] : List (Ref sig .tc))) hb
/-- Region 5 changes only its output array: every other buffer, its input arrays included, leaves as it entered. -/
theorem W10_keep (c : Dev nD) (b : Ref sig .tc) (hb : b ∉ ([main_v95] : List (Ref sig .tc))) :
    W10 m ρ c (Proc.devRef .tc b) = W9 m ρ c (Proc.devRef .tc b) := by
  by_cases h : ∀ w, Pipeline.arrRef spec5 w ≠ b
  · exact W10_of_ne m ρ c b h
  · obtain ⟨w, rfl⟩ := not_forall_not.mp h
    exact win10_keep m ρ c w hb

theorem win11_keep (c : Dev nD) : ∀ (w : Fin 3) (hb : Pipeline.arrRef spec6 w ∉ ([main_v96_0, main_v96_1] : List (Ref sig .tc))),
    W11 m ρ c (Proc.devRef .tc (Pipeline.arrRef spec6 w)) = W10 m ρ c (Proc.devRef .tc (Pipeline.arrRef spec6 w))
  | ⟨0, _⟩, _ => (W11_arr m ρ c 0).trans (((dat6 (V10 m ρ) c).arrAt_in 0 rfl _).trans (A_eq6 (V10 m ρ) c 0))
  | ⟨1, _⟩, hb => absurd (by decide : (main_v96_0 : Ref sig .tc) ∈ ([main_v96_0, main_v96_1] : List (Ref sig .tc))) hb
  | ⟨2, _⟩, hb => absurd (by decide : (main_v96_1 : Ref sig .tc) ∈ ([main_v96_0, main_v96_1] : List (Ref sig .tc))) hb
/-- Region 6 changes only its output arrays: every other buffer, its input arrays included, leaves as it entered. -/
theorem W11_keep (c : Dev nD) (b : Ref sig .tc) (hb : b ∉ ([main_v96_0, main_v96_1] : List (Ref sig .tc))) :
    W11 m ρ c (Proc.devRef .tc b) = W10 m ρ c (Proc.devRef .tc b) := by
  by_cases h : ∀ w, Pipeline.arrRef spec6 w ≠ b
  · exact W11_of_ne m ρ c b h
  · obtain ⟨w, rfl⟩ := not_forall_not.mp h
    exact win11_keep m ρ c w hb

/-- A buffer the stretch `hostOps7` does not write leaves it as it entered. -/
theorem W12_keep (c : Dev nD) (b : Ref sig .tc) (hb : b ∉ hostOps7_W) :
    W12 m ρ c (Proc.devRef .tc b) = W11 m ρ c (Proc.devRef .tc b) :=
  host7_keep (W11 m ρ c) b hb

theorem win13_keep (c : Dev nD) : ∀ (w : Fin 4) (hb : Pipeline.arrRef spec7 w ∉ ([main_v116] : List (Ref sig .tc))),
    W13 m ρ c (Proc.devRef .tc (Pipeline.arrRef spec7 w)) = W12 m ρ c (Proc.devRef .tc (Pipeline.arrRef spec7 w))
  | ⟨0, _⟩, _ => (W13_arr m ρ c 0).trans (((dat7 (V12 m ρ) c).arrAt_in 0 rfl _).trans (A_eq7 (V12 m ρ) c 0))
  | ⟨1, _⟩, _ => (W13_arr m ρ c 1).trans (((dat7 (V12 m ρ) c).arrAt_in 1 rfl _).trans (A_eq7 (V12 m ρ) c 1))
  | ⟨2, _⟩, _ => (W13_arr m ρ c 2).trans (((dat7 (V12 m ρ) c).arrAt_in 2 rfl _).trans (A_eq7 (V12 m ρ) c 2))
  | ⟨3, _⟩, hb => absurd (by decide : (main_v116 : Ref sig .tc) ∈ ([main_v116] : List (Ref sig .tc))) hb
/-- Region 7 changes only its output array: every other buffer, its input arrays included, leaves as it entered. -/
theorem W13_keep (c : Dev nD) (b : Ref sig .tc) (hb : b ∉ ([main_v116] : List (Ref sig .tc))) :
    W13 m ρ c (Proc.devRef .tc b) = W12 m ρ c (Proc.devRef .tc b) := by
  by_cases h : ∀ w, Pipeline.arrRef spec7 w ≠ b
  · exact W13_of_ne m ρ c b h
  · obtain ⟨w, rfl⟩ := not_forall_not.mp h
    exact win13_keep m ρ c w hb

theorem win14_keep (c : Dev nD) : ∀ (w : Fin 3) (hb : Pipeline.arrRef spec8 w ∉ ([main_v117] : List (Ref sig .tc))),
    W14 m ρ c (Proc.devRef .tc (Pipeline.arrRef spec8 w)) = W13 m ρ c (Proc.devRef .tc (Pipeline.arrRef spec8 w))
  | ⟨0, _⟩, _ => (W14_arr m ρ c 0).trans (((dat8 (V13 m ρ) c).arrAt_in 0 rfl _).trans (A_eq8 (V13 m ρ) c 0))
  | ⟨1, _⟩, _ => (W14_arr m ρ c 1).trans (((dat8 (V13 m ρ) c).arrAt_in 1 rfl _).trans (A_eq8 (V13 m ρ) c 1))
  | ⟨2, _⟩, hb => absurd (by decide : (main_v117 : Ref sig .tc) ∈ ([main_v117] : List (Ref sig .tc))) hb
/-- Region 8 changes only its output array: every other buffer, its input arrays included, leaves as it entered. -/
theorem W14_keep (c : Dev nD) (b : Ref sig .tc) (hb : b ∉ ([main_v117] : List (Ref sig .tc))) :
    W14 m ρ c (Proc.devRef .tc b) = W13 m ρ c (Proc.devRef .tc b) := by
  by_cases h : ∀ w, Pipeline.arrRef spec8 w ≠ b
  · exact W14_of_ne m ρ c b h
  · obtain ⟨w, rfl⟩ := not_forall_not.mp h
    exact win14_keep m ρ c w hb

/-- A buffer the stretch `hostOps9` does not write leaves it as it entered. -/
theorem W15_keep (c : Dev nD) (b : Ref sig .tc) (hb : b ∉ hostOps9_W) :
    W15 m ρ c (Proc.devRef .tc b) = W14 m ρ c (Proc.devRef .tc b) :=
  host9_keep (W14 m ρ c) b hb

theorem win16_keep (c : Dev nD) : ∀ (w : Fin 5) (hb : Pipeline.arrRef spec9 w ∉ ([main_v147] : List (Ref sig .tc))),
    W16 m ρ c (Proc.devRef .tc (Pipeline.arrRef spec9 w)) = W15 m ρ c (Proc.devRef .tc (Pipeline.arrRef spec9 w))
  | ⟨0, _⟩, _ => (W16_arr m ρ c 0).trans (((dat9 (V15 m ρ) c).arrAt_in 0 rfl _).trans (A_eq9 (V15 m ρ) c 0))
  | ⟨1, _⟩, _ => (W16_arr m ρ c 1).trans (((dat9 (V15 m ρ) c).arrAt_in 1 rfl _).trans (A_eq9 (V15 m ρ) c 1))
  | ⟨2, _⟩, _ => (W16_arr m ρ c 2).trans (((dat9 (V15 m ρ) c).arrAt_in 2 rfl _).trans (A_eq9 (V15 m ρ) c 2))
  | ⟨3, _⟩, _ => (W16_arr m ρ c 3).trans (((dat9 (V15 m ρ) c).arrAt_in 3 rfl _).trans (A_eq9 (V15 m ρ) c 3))
  | ⟨4, _⟩, hb => absurd (by decide : (main_v147 : Ref sig .tc) ∈ ([main_v147] : List (Ref sig .tc))) hb
/-- Region 9 changes only its output array: every other buffer, its input arrays included, leaves as it entered. -/
theorem W16_keep (c : Dev nD) (b : Ref sig .tc) (hb : b ∉ ([main_v147] : List (Ref sig .tc))) :
    W16 m ρ c (Proc.devRef .tc b) = W15 m ρ c (Proc.devRef .tc b) := by
  by_cases h : ∀ w, Pipeline.arrRef spec9 w ≠ b
  · exact W16_of_ne m ρ c b h
  · obtain ⟨w, rfl⟩ := not_forall_not.mp h
    exact win16_keep m ρ c w hb

/-- A buffer the stretch `hostOps10` does not write leaves it as it entered. -/
theorem W17_keep (c : Dev nD) (b : Ref sig .tc) (hb : b ∉ hostOps10_W) :
    W17 m ρ c (Proc.devRef .tc b) = W16 m ρ c (Proc.devRef .tc b) :=
  host10_keep (W16 m ρ c) b hb

theorem win18_keep (c : Dev nD) : ∀ (w : Fin 8) (hb : Pipeline.arrRef spec10 w ∉ ([main_v156] : List (Ref sig .tc))),
    W18 m ρ c (Proc.devRef .tc (Pipeline.arrRef spec10 w)) = W17 m ρ c (Proc.devRef .tc (Pipeline.arrRef spec10 w))
  | ⟨0, _⟩, _ => (W18_arr m ρ c 0).trans (((dat10 (V17 m ρ) c).arrAt_in 0 rfl _).trans (A_eq10 (V17 m ρ) c 0))
  | ⟨1, _⟩, _ => (W18_arr m ρ c 1).trans (((dat10 (V17 m ρ) c).arrAt_in 1 rfl _).trans (A_eq10 (V17 m ρ) c 1))
  | ⟨2, _⟩, _ => (W18_arr m ρ c 2).trans (((dat10 (V17 m ρ) c).arrAt_in 2 rfl _).trans (A_eq10 (V17 m ρ) c 2))
  | ⟨3, _⟩, _ => (W18_arr m ρ c 3).trans (((dat10 (V17 m ρ) c).arrAt_in 3 rfl _).trans (A_eq10 (V17 m ρ) c 3))
  | ⟨4, _⟩, _ => (W18_arr m ρ c 4).trans (((dat10 (V17 m ρ) c).arrAt_in 4 rfl _).trans (A_eq10 (V17 m ρ) c 4))
  | ⟨5, _⟩, _ => (W18_arr m ρ c 5).trans (((dat10 (V17 m ρ) c).arrAt_in 5 rfl _).trans (A_eq10 (V17 m ρ) c 5))
  | ⟨6, _⟩, _ => (W18_arr m ρ c 6).trans (((dat10 (V17 m ρ) c).arrAt_in 6 rfl _).trans (A_eq10 (V17 m ρ) c 6))
  | ⟨7, _⟩, hb => absurd (by decide : (main_v156 : Ref sig .tc) ∈ ([main_v156] : List (Ref sig .tc))) hb
/-- Region 10 changes only its output array: every other buffer, its input arrays included, leaves as it entered. -/
theorem W18_keep (c : Dev nD) (b : Ref sig .tc) (hb : b ∉ ([main_v156] : List (Ref sig .tc))) :
    W18 m ρ c (Proc.devRef .tc b) = W17 m ρ c (Proc.devRef .tc b) := by
  by_cases h : ∀ w, Pipeline.arrRef spec10 w ≠ b
  · exact W18_of_ne m ρ c b h
  · obtain ⟨w, rfl⟩ := not_forall_not.mp h
    exact win18_keep m ρ c w hb

/-! ## The arguments, wherever they are read: as launched -/

theorem W1_arg0 (c : Dev nD) : W1 m ρ c (Proc.devRef .tc main_arg0) = m ((c : Thread nD τ).loc main_arg0) :=
  (W1_keep m ρ c main_arg0 (by decide))
theorem W1_arg4 (c : Dev nD) : W1 m ρ c (Proc.devRef .tc main_arg4) = m ((c : Thread nD τ).loc main_arg4) :=
  (W1_keep m ρ c main_arg4 (by decide))
theorem W2_arg5 (c : Dev nD) : W2 m ρ c (Proc.devRef .tc main_arg5) = m ((c : Thread nD τ).loc main_arg5) :=
  (W2_keep m ρ c main_arg5 (by decide)).trans (W1_keep m ρ c main_arg5 (by decide))
theorem W5_arg6 (c : Dev nD) : W5 m ρ c (Proc.devRef .tc main_arg6) = m ((c : Thread nD τ).loc main_arg6) :=
  (W5_keep m ρ c main_arg6 (by decide)).trans ((W4_keep m ρ c main_arg6 (by decide)).trans ((W3_keep m ρ c main_arg6 (by decide)).trans ((W2_keep m ρ c main_arg6 (by decide)).trans (W1_keep m ρ c main_arg6 (by decide)))))
theorem W5_arg7 (c : Dev nD) : W5 m ρ c (Proc.devRef .tc main_arg7) = m ((c : Thread nD τ).loc main_arg7) :=
  (W5_keep m ρ c main_arg7 (by decide)).trans ((W4_keep m ρ c main_arg7 (by decide)).trans ((W3_keep m ρ c main_arg7 (by decide)).trans ((W2_keep m ρ c main_arg7 (by decide)).trans (W1_keep m ρ c main_arg7 (by decide)))))
theorem W7_arg8 (c : Dev nD) : W7 m ρ c (Proc.devRef .tc main_arg8) = m ((c : Thread nD τ).loc main_arg8) :=
  (W7_keep m ρ c main_arg8 (by decide)).trans ((W6_keep m ρ c main_arg8 (by decide)).trans ((W5_keep m ρ c main_arg8 (by decide)).trans ((W4_keep m ρ c main_arg8 (by decide)).trans ((W3_keep m ρ c main_arg8 (by decide)).trans ((W2_keep m ρ c main_arg8 (by decide)).trans (W1_keep m ρ c main_arg8 (by decide)))))))
theorem W8_arg9 (c : Dev nD) : W8 m ρ c (Proc.devRef .tc main_arg9) = m ((c : Thread nD τ).loc main_arg9) :=
  (W8_keep m ρ c main_arg9 (by decide)).trans ((W7_keep m ρ c main_arg9 (by decide)).trans ((W6_keep m ρ c main_arg9 (by decide)).trans ((W5_keep m ρ c main_arg9 (by decide)).trans ((W4_keep m ρ c main_arg9 (by decide)).trans ((W3_keep m ρ c main_arg9 (by decide)).trans ((W2_keep m ρ c main_arg9 (by decide)).trans (W1_keep m ρ c main_arg9 (by decide))))))))
theorem W11_arg10 (c : Dev nD) : W11 m ρ c (Proc.devRef .tc main_arg10) = m ((c : Thread nD τ).loc main_arg10) :=
  (W11_keep m ρ c main_arg10 (by decide)).trans ((W10_keep m ρ c main_arg10 (by decide)).trans ((W9_keep m ρ c main_arg10 (by decide)).trans ((W8_keep m ρ c main_arg10 (by decide)).trans ((W7_keep m ρ c main_arg10 (by decide)).trans ((W6_keep m ρ c main_arg10 (by decide)).trans ((W5_keep m ρ c main_arg10 (by decide)).trans ((W4_keep m ρ c main_arg10 (by decide)).trans ((W3_keep m ρ c main_arg10 (by decide)).trans ((W2_keep m ρ c main_arg10 (by decide)).trans (W1_keep m ρ c main_arg10 (by decide)))))))))))
theorem W11_arg11 (c : Dev nD) : W11 m ρ c (Proc.devRef .tc main_arg11) = m ((c : Thread nD τ).loc main_arg11) :=
  (W11_keep m ρ c main_arg11 (by decide)).trans ((W10_keep m ρ c main_arg11 (by decide)).trans ((W9_keep m ρ c main_arg11 (by decide)).trans ((W8_keep m ρ c main_arg11 (by decide)).trans ((W7_keep m ρ c main_arg11 (by decide)).trans ((W6_keep m ρ c main_arg11 (by decide)).trans ((W5_keep m ρ c main_arg11 (by decide)).trans ((W4_keep m ρ c main_arg11 (by decide)).trans ((W3_keep m ρ c main_arg11 (by decide)).trans ((W2_keep m ρ c main_arg11 (by decide)).trans (W1_keep m ρ c main_arg11 (by decide)))))))))))
theorem W13_arg12 (c : Dev nD) : W13 m ρ c (Proc.devRef .tc main_arg12) = m ((c : Thread nD τ).loc main_arg12) :=
  (W13_keep m ρ c main_arg12 (by decide)).trans ((W12_keep m ρ c main_arg12 (by decide)).trans ((W11_keep m ρ c main_arg12 (by decide)).trans ((W10_keep m ρ c main_arg12 (by decide)).trans ((W9_keep m ρ c main_arg12 (by decide)).trans ((W8_keep m ρ c main_arg12 (by decide)).trans ((W7_keep m ρ c main_arg12 (by decide)).trans ((W6_keep m ρ c main_arg12 (by decide)).trans ((W5_keep m ρ c main_arg12 (by decide)).trans ((W4_keep m ρ c main_arg12 (by decide)).trans ((W3_keep m ρ c main_arg12 (by decide)).trans ((W2_keep m ρ c main_arg12 (by decide)).trans (W1_keep m ρ c main_arg12 (by decide)))))))))))))
theorem W14_arg13 (c : Dev nD) : W14 m ρ c (Proc.devRef .tc main_arg13) = m ((c : Thread nD τ).loc main_arg13) :=
  (W14_keep m ρ c main_arg13 (by decide)).trans ((W13_keep m ρ c main_arg13 (by decide)).trans ((W12_keep m ρ c main_arg13 (by decide)).trans ((W11_keep m ρ c main_arg13 (by decide)).trans ((W10_keep m ρ c main_arg13 (by decide)).trans ((W9_keep m ρ c main_arg13 (by decide)).trans ((W8_keep m ρ c main_arg13 (by decide)).trans ((W7_keep m ρ c main_arg13 (by decide)).trans ((W6_keep m ρ c main_arg13 (by decide)).trans ((W5_keep m ρ c main_arg13 (by decide)).trans ((W4_keep m ρ c main_arg13 (by decide)).trans ((W3_keep m ρ c main_arg13 (by decide)).trans ((W2_keep m ρ c main_arg13 (by decide)).trans (W1_keep m ρ c main_arg13 (by decide))))))))))))))
theorem W16_arg2 (c : Dev nD) : W16 m ρ c (Proc.devRef .tc main_arg2) = m ((c : Thread nD τ).loc main_arg2) :=
  (W16_keep m ρ c main_arg2 (by decide)).trans ((W15_keep m ρ c main_arg2 (by decide)).trans ((W14_keep m ρ c main_arg2 (by decide)).trans ((W13_keep m ρ c main_arg2 (by decide)).trans ((W12_keep m ρ c main_arg2 (by decide)).trans ((W11_keep m ρ c main_arg2 (by decide)).trans ((W10_keep m ρ c main_arg2 (by decide)).trans ((W9_keep m ρ c main_arg2 (by decide)).trans ((W8_keep m ρ c main_arg2 (by decide)).trans ((W7_keep m ρ c main_arg2 (by decide)).trans ((W6_keep m ρ c main_arg2 (by decide)).trans ((W5_keep m ρ c main_arg2 (by decide)).trans ((W4_keep m ρ c main_arg2 (by decide)).trans ((W3_keep m ρ c main_arg2 (by decide)).trans ((W2_keep m ρ c main_arg2 (by decide)).trans (W1_keep m ρ c main_arg2 (by decide))))))))))))))))
theorem W16_arg14 (c : Dev nD) : W16 m ρ c (Proc.devRef .tc main_arg14) = m ((c : Thread nD τ).loc main_arg14) :=
  (W16_keep m ρ c main_arg14 (by decide)).trans ((W15_keep m ρ c main_arg14 (by decide)).trans ((W14_keep m ρ c main_arg14 (by decide)).trans ((W13_keep m ρ c main_arg14 (by decide)).trans ((W12_keep m ρ c main_arg14 (by decide)).trans ((W11_keep m ρ c main_arg14 (by decide)).trans ((W10_keep m ρ c main_arg14 (by decide)).trans ((W9_keep m ρ c main_arg14 (by decide)).trans ((W8_keep m ρ c main_arg14 (by decide)).trans ((W7_keep m ρ c main_arg14 (by decide)).trans ((W6_keep m ρ c main_arg14 (by decide)).trans ((W5_keep m ρ c main_arg14 (by decide)).trans ((W4_keep m ρ c main_arg14 (by decide)).trans ((W3_keep m ρ c main_arg14 (by decide)).trans ((W2_keep m ρ c main_arg14 (by decide)).trans (W1_keep m ρ c main_arg14 (by decide))))))))))))))))
theorem W16_arg15 (c : Dev nD) : W16 m ρ c (Proc.devRef .tc main_arg15) = m ((c : Thread nD τ).loc main_arg15) :=
  (W16_keep m ρ c main_arg15 (by decide)).trans ((W15_keep m ρ c main_arg15 (by decide)).trans ((W14_keep m ρ c main_arg15 (by decide)).trans ((W13_keep m ρ c main_arg15 (by decide)).trans ((W12_keep m ρ c main_arg15 (by decide)).trans ((W11_keep m ρ c main_arg15 (by decide)).trans ((W10_keep m ρ c main_arg15 (by decide)).trans ((W9_keep m ρ c main_arg15 (by decide)).trans ((W8_keep m ρ c main_arg15 (by decide)).trans ((W7_keep m ρ c main_arg15 (by decide)).trans ((W6_keep m ρ c main_arg15 (by decide)).trans ((W5_keep m ρ c main_arg15 (by decide)).trans ((W4_keep m ρ c main_arg15 (by decide)).trans ((W3_keep m ρ c main_arg15 (by decide)).trans ((W2_keep m ρ c main_arg15 (by decide)).trans (W1_keep m ρ c main_arg15 (by decide))))))))))))))))
theorem W16_arg16 (c : Dev nD) : W16 m ρ c (Proc.devRef .tc main_arg16) = m ((c : Thread nD τ).loc main_arg16) :=
  (W16_keep m ρ c main_arg16 (by decide)).trans ((W15_keep m ρ c main_arg16 (by decide)).trans ((W14_keep m ρ c main_arg16 (by decide)).trans ((W13_keep m ρ c main_arg16 (by decide)).trans ((W12_keep m ρ c main_arg16 (by decide)).trans ((W11_keep m ρ c main_arg16 (by decide)).trans ((W10_keep m ρ c main_arg16 (by decide)).trans ((W9_keep m ρ c main_arg16 (by decide)).trans ((W8_keep m ρ c main_arg16 (by decide)).trans ((W7_keep m ρ c main_arg16 (by decide)).trans ((W6_keep m ρ c main_arg16 (by decide)).trans ((W5_keep m ρ c main_arg16 (by decide)).trans ((W4_keep m ρ c main_arg16 (by decide)).trans ((W3_keep m ρ c main_arg16 (by decide)).trans ((W2_keep m ρ c main_arg16 (by decide)).trans (W1_keep m ρ c main_arg16 (by decide))))))))))))))))
theorem W16_arg17 (c : Dev nD) : W16 m ρ c (Proc.devRef .tc main_arg17) = m ((c : Thread nD τ).loc main_arg17) :=
  (W16_keep m ρ c main_arg17 (by decide)).trans ((W15_keep m ρ c main_arg17 (by decide)).trans ((W14_keep m ρ c main_arg17 (by decide)).trans ((W13_keep m ρ c main_arg17 (by decide)).trans ((W12_keep m ρ c main_arg17 (by decide)).trans ((W11_keep m ρ c main_arg17 (by decide)).trans ((W10_keep m ρ c main_arg17 (by decide)).trans ((W9_keep m ρ c main_arg17 (by decide)).trans ((W8_keep m ρ c main_arg17 (by decide)).trans ((W7_keep m ρ c main_arg17 (by decide)).trans ((W6_keep m ρ c main_arg17 (by decide)).trans ((W5_keep m ρ c main_arg17 (by decide)).trans ((W4_keep m ρ c main_arg17 (by decide)).trans ((W3_keep m ρ c main_arg17 (by decide)).trans ((W2_keep m ρ c main_arg17 (by decide)).trans (W1_keep m ρ c main_arg17 (by decide))))))))))))))))
theorem W17_arg3 (c : Dev nD) : W17 m ρ c (Proc.devRef .tc main_arg3) = m ((c : Thread nD τ).loc main_arg3) :=
  (W17_keep m ρ c main_arg3 (by decide)).trans ((W16_keep m ρ c main_arg3 (by decide)).trans ((W15_keep m ρ c main_arg3 (by decide)).trans ((W14_keep m ρ c main_arg3 (by decide)).trans ((W13_keep m ρ c main_arg3 (by decide)).trans ((W12_keep m ρ c main_arg3 (by decide)).trans ((W11_keep m ρ c main_arg3 (by decide)).trans ((W10_keep m ρ c main_arg3 (by decide)).trans ((W9_keep m ρ c main_arg3 (by decide)).trans ((W8_keep m ρ c main_arg3 (by decide)).trans ((W7_keep m ρ c main_arg3 (by decide)).trans ((W6_keep m ρ c main_arg3 (by decide)).trans ((W5_keep m ρ c main_arg3 (by decide)).trans ((W4_keep m ρ c main_arg3 (by decide)).trans ((W3_keep m ρ c main_arg3 (by decide)).trans ((W2_keep m ρ c main_arg3 (by decide)).trans (W1_keep m ρ c main_arg3 (by decide)))))))))))))))))

/-! ## The index vectors and the degree normalisation, wherever they are read -/

theorem W1_v1 (c : Dev nD) : W1 m ρ c (Proc.devRef .tc main_v1) = (Src (m ((c : Thread nD τ).loc main_arg1))) :=
  host0_v1 (W0 m ρ c)
theorem W2_v1 (c : Dev nD) : W2 m ρ c (Proc.devRef .tc main_v1) = (Src (m ((c : Thread nD τ).loc main_arg1))) :=
  ((W2_keep m ρ c main_v1 (by decide))).trans (W1_v1 m ρ c)
theorem W8_v1 (c : Dev nD) : W8 m ρ c (Proc.devRef .tc main_v1) = (Src (m ((c : Thread nD τ).loc main_arg1))) :=
  ((W8_keep m ρ c main_v1 (by decide)).trans ((W7_keep m ρ c main_v1 (by decide)).trans ((W6_keep m ρ c main_v1 (by decide)).trans ((W5_keep m ρ c main_v1 (by decide)).trans ((W4_keep m ρ c main_v1 (by decide)).trans ((W3_keep m ρ c main_v1 (by decide)).trans (W2_keep m ρ c main_v1 (by decide)))))))).trans (W1_v1 m ρ c)
theorem W14_v1 (c : Dev nD) : W14 m ρ c (Proc.devRef .tc main_v1) = (Src (m ((c : Thread nD τ).loc main_arg1))) :=
  ((W14_keep m ρ c main_v1 (by decide)).trans ((W13_keep m ρ c main_v1 (by decide)).trans ((W12_keep m ρ c main_v1 (by decide)).trans ((W11_keep m ρ c main_v1 (by decide)).trans ((W10_keep m ρ c main_v1 (by decide)).trans ((W9_keep m ρ c main_v1 (by decide)).trans ((W8_keep m ρ c main_v1 (by decide)).trans ((W7_keep m ρ c main_v1 (by decide)).trans ((W6_keep m ρ c main_v1 (by decide)).trans ((W5_keep m ρ c main_v1 (by decide)).trans ((W4_keep m ρ c main_v1 (by decide)).trans ((W3_keep m ρ c main_v1 (by decide)).trans (W2_keep m ρ c main_v1 (by decide)))))))))))))).trans (W1_v1 m ρ c)
theorem W1_v3 (c : Dev nD) : W1 m ρ c (Proc.devRef .tc main_v3) = (Dst (m ((c : Thread nD τ).loc main_arg1))) :=
  host0_v3 (W0 m ρ c)
theorem W2_v3 (c : Dev nD) : W2 m ρ c (Proc.devRef .tc main_v3) = (Dst (m ((c : Thread nD τ).loc main_arg1))) :=
  ((W2_keep m ρ c main_v3 (by decide))).trans (W1_v3 m ρ c)
theorem W8_v3 (c : Dev nD) : W8 m ρ c (Proc.devRef .tc main_v3) = (Dst (m ((c : Thread nD τ).loc main_arg1))) :=
  ((W8_keep m ρ c main_v3 (by decide)).trans ((W7_keep m ρ c main_v3 (by decide)).trans ((W6_keep m ρ c main_v3 (by decide)).trans ((W5_keep m ρ c main_v3 (by decide)).trans ((W4_keep m ρ c main_v3 (by decide)).trans ((W3_keep m ρ c main_v3 (by decide)).trans (W2_keep m ρ c main_v3 (by decide)))))))).trans (W1_v3 m ρ c)
theorem W14_v3 (c : Dev nD) : W14 m ρ c (Proc.devRef .tc main_v3) = (Dst (m ((c : Thread nD τ).loc main_arg1))) :=
  ((W14_keep m ρ c main_v3 (by decide)).trans ((W13_keep m ρ c main_v3 (by decide)).trans ((W12_keep m ρ c main_v3 (by decide)).trans ((W11_keep m ρ c main_v3 (by decide)).trans ((W10_keep m ρ c main_v3 (by decide)).trans ((W9_keep m ρ c main_v3 (by decide)).trans ((W8_keep m ρ c main_v3 (by decide)).trans ((W7_keep m ρ c main_v3 (by decide)).trans ((W6_keep m ρ c main_v3 (by decide)).trans ((W5_keep m ρ c main_v3 (by decide)).trans ((W4_keep m ρ c main_v3 (by decide)).trans ((W3_keep m ρ c main_v3 (by decide)).trans (W2_keep m ρ c main_v3 (by decide)))))))))))))).trans (W1_v3 m ρ c)
theorem W1_v10 (c : Dev nD) : W1 m ρ c (Proc.devRef .tc main_v10) = (Dinv (F := F) (Dst (m ((c : Thread nD τ).loc main_arg1)))) :=
  host0_v10 (W0 m ρ c)
theorem W2_v10 (c : Dev nD) : W2 m ρ c (Proc.devRef .tc main_v10) = (Dinv (F := F) (Dst (m ((c : Thread nD τ).loc main_arg1)))) :=
  ((W2_keep m ρ c main_v10 (by decide))).trans (W1_v10 m ρ c)
theorem W8_v10 (c : Dev nD) : W8 m ρ c (Proc.devRef .tc main_v10) = (Dinv (F := F) (Dst (m ((c : Thread nD τ).loc main_arg1)))) :=
  ((W8_keep m ρ c main_v10 (by decide)).trans ((W7_keep m ρ c main_v10 (by decide)).trans ((W6_keep m ρ c main_v10 (by decide)).trans ((W5_keep m ρ c main_v10 (by decide)).trans ((W4_keep m ρ c main_v10 (by decide)).trans ((W3_keep m ρ c main_v10 (by decide)).trans (W2_keep m ρ c main_v10 (by decide)))))))).trans (W1_v10 m ρ c)
theorem W14_v10 (c : Dev nD) : W14 m ρ c (Proc.devRef .tc main_v10) = (Dinv (F := F) (Dst (m ((c : Thread nD τ).loc main_arg1)))) :=
  ((W14_keep m ρ c main_v10 (by decide)).trans ((W13_keep m ρ c main_v10 (by decide)).trans ((W12_keep m ρ c main_v10 (by decide)).trans ((W11_keep m ρ c main_v10 (by decide)).trans ((W10_keep m ρ c main_v10 (by decide)).trans ((W9_keep m ρ c main_v10 (by decide)).trans ((W8_keep m ρ c main_v10 (by decide)).trans ((W7_keep m ρ c main_v10 (by decide)).trans ((W6_keep m ρ c main_v10 (by decide)).trans ((W5_keep m ρ c main_v10 (by decide)).trans ((W4_keep m ρ c main_v10 (by decide)).trans ((W3_keep m ρ c main_v10 (by decide)).trans (W2_keep m ρ c main_v10 (by decide)))))))))))))).trans (W1_v10 m ρ c)
theorem W1_v12 (c : Dev nD) : W1 m ρ c (Proc.devRef .tc main_v12) = (ScaleSelf (Dinv (F := F) (Dst (m ((c : Thread nD τ).loc main_arg1))))) :=
  host0_v12 (W0 m ρ c)
theorem W3_v12 (c : Dev nD) : W3 m ρ c (Proc.devRef .tc main_v12) = (ScaleSelf (Dinv (F := F) (Dst (m ((c : Thread nD τ).loc main_arg1))))) :=
  ((W3_keep m ρ c main_v12 (by decide)).trans (W2_keep m ρ c main_v12 (by decide))).trans (W1_v12 m ρ c)
theorem W9_v12 (c : Dev nD) : W9 m ρ c (Proc.devRef .tc main_v12) = (ScaleSelf (Dinv (F := F) (Dst (m ((c : Thread nD τ).loc main_arg1))))) :=
  ((W9_keep m ρ c main_v12 (by decide)).trans ((W8_keep m ρ c main_v12 (by decide)).trans ((W7_keep m ρ c main_v12 (by decide)).trans ((W6_keep m ρ c main_v12 (by decide)).trans ((W5_keep m ρ c main_v12 (by decide)).trans ((W4_keep m ρ c main_v12 (by decide)).trans ((W3_keep m ρ c main_v12 (by decide)).trans (W2_keep m ρ c main_v12 (by decide))))))))).trans (W1_v12 m ρ c)
theorem W15_v12 (c : Dev nD) : W15 m ρ c (Proc.devRef .tc main_v12) = (ScaleSelf (Dinv (F := F) (Dst (m ((c : Thread nD τ).loc main_arg1))))) :=
  ((W15_keep m ρ c main_v12 (by decide)).trans ((W14_keep m ρ c main_v12 (by decide)).trans ((W13_keep m ρ c main_v12 (by decide)).trans ((W12_keep m ρ c main_v12 (by decide)).trans ((W11_keep m ρ c main_v12 (by decide)).trans ((W10_keep m ρ c main_v12 (by decide)).trans ((W9_keep m ρ c main_v12 (by decide)).trans ((W8_keep m ρ c main_v12 (by decide)).trans ((W7_keep m ρ c main_v12 (by decide)).trans ((W6_keep m ρ c main_v12 (by decide)).trans ((W5_keep m ρ c main_v12 (by decide)).trans ((W4_keep m ρ c main_v12 (by decide)).trans ((W3_keep m ρ c main_v12 (by decide)).trans (W2_keep m ρ c main_v12 (by decide))))))))))))))).trans (W1_v12 m ρ c)

/-! ## Each kernel's output array at its exit -/

theorem out0_2 (c : Dev nD) : W2 m ρ c (Proc.devRef .tc main_v13) = (dat0 (V1 m ρ) c).arrAt 2 cfg0.N :=
  W2_arr m ρ c 2
theorem out1_4 (c : Dev nD) : W4 m ρ c (Proc.devRef .tc main_v43) = (dat1 (V3 m ρ) c).arrAt 4 cfg1.N :=
  W4_arr m ρ c 4
theorem out2_1 (c : Dev nD) : W5 m ρ c (Proc.devRef .tc main_v44_0) = (dat2 (V4 m ρ) c).arrAt 1 cfg2.N :=
  W5_arr m ρ c 1
theorem out2_2 (c : Dev nD) : W5 m ρ c (Proc.devRef .tc main_v44_1) = (dat2 (V4 m ρ) c).arrAt 2 cfg2.N :=
  W5_arr m ρ c 2
theorem out3_3 (c : Dev nD) : W7 m ρ c (Proc.devRef .tc main_v64) = (dat3 (V6 m ρ) c).arrAt 3 cfg3.N :=
  W7_arr m ρ c 3
theorem out4_2 (c : Dev nD) : W8 m ρ c (Proc.devRef .tc main_v65) = (dat4 (V7 m ρ) c).arrAt 2 cfg4.N :=
  W8_arr m ρ c 2
theorem out5_4 (c : Dev nD) : W10 m ρ c (Proc.devRef .tc main_v95) = (dat5 (V9 m ρ) c).arrAt 4 cfg5.N :=
  W10_arr m ρ c 4
theorem out6_1 (c : Dev nD) : W11 m ρ c (Proc.devRef .tc main_v96_0) = (dat6 (V10 m ρ) c).arrAt 1 cfg6.N :=
  W11_arr m ρ c 1
theorem out6_2 (c : Dev nD) : W11 m ρ c (Proc.devRef .tc main_v96_1) = (dat6 (V10 m ρ) c).arrAt 2 cfg6.N :=
  W11_arr m ρ c 2
theorem out7_3 (c : Dev nD) : W13 m ρ c (Proc.devRef .tc main_v116) = (dat7 (V12 m ρ) c).arrAt 3 cfg7.N :=
  W13_arr m ρ c 3
theorem out8_2 (c : Dev nD) : W14 m ρ c (Proc.devRef .tc main_v117) = (dat8 (V13 m ρ) c).arrAt 2 cfg8.N :=
  W14_arr m ρ c 2
theorem out9_4 (c : Dev nD) : W16 m ρ c (Proc.devRef .tc main_v147) = (dat9 (V15 m ρ) c).arrAt 4 cfg9.N :=
  W16_arr m ρ c 4
theorem out10_7 (c : Dev nD) : W18 m ρ c (Proc.devRef .tc main_v156) = (dat10 (V17 m ρ) c).arrAt 7 cfg10.N :=
  W18_arr m ρ c 7

/-! ## Each kernel's input arrays at its entry -/

theorem entry0_0 (c : Dev nD) : V1 m ρ c (Pipeline.arrRef spec0 0) = m ((c : Thread nD τ).loc main_arg0) :=
  W1_arg0 m ρ c
theorem entry0_1 (c : Dev nD) : V1 m ρ c (Pipeline.arrRef spec0 1) = m ((c : Thread nD τ).loc main_arg4) :=
  W1_arg4 m ρ c
theorem entry1_0 (c : Dev nD) : V3 m ρ c (Pipeline.arrRef spec1 0) = Agg (W2 m ρ c (Proc.devRef .tc main_v13)) (Dinv (F := F) (Dst (m ((c : Thread nD τ).loc main_arg1)))) (Src (m ((c : Thread nD τ).loc main_arg1))) (Dst (m ((c : Thread nD τ).loc main_arg1))) :=
  (host1_v41 (W2 m ρ c)).trans (by rw [W2_v10 m ρ c, W2_v1 m ρ c, W2_v3 m ρ c])
theorem entry1_1 (c : Dev nD) : V3 m ρ c (Pipeline.arrRef spec1 1) = W2 m ρ c (Proc.devRef .tc main_v13) :=
  W3_keep m ρ c main_v13 (by decide)
theorem entry1_2 (c : Dev nD) : V3 m ρ c (Pipeline.arrRef spec1 2) = (ScaleSelf (Dinv (F := F) (Dst (m ((c : Thread nD τ).loc main_arg1))))) :=
  W3_v12 m ρ c
theorem entry1_3 (c : Dev nD) : V3 m ρ c (Pipeline.arrRef spec1 3) = Row128 (m ((c : Thread nD τ).loc main_arg5)) :=
  (host1_v42 (W2 m ρ c)).trans (by rw [W2_arg5 m ρ c])
theorem entry2_0 (c : Dev nD) : V4 m ρ c (Pipeline.arrRef spec2 0) = W4 m ρ c (Proc.devRef .tc main_v43) :=
  rfl
theorem entry3_0 (c : Dev nD) : V6 m ρ c (Pipeline.arrRef spec3 0) = W4 m ρ c (Proc.devRef .tc main_v43) :=
  (W6_keep m ρ c main_v43 (by decide)).trans (W5_keep m ρ c main_v43 (by decide))
theorem entry3_1 (c : Dev nD) : V6 m ρ c (Pipeline.arrRef spec3 1) = BnScale (W5 m ρ c (Proc.devRef .tc main_v44_0)) (W5 m ρ c (Proc.devRef .tc main_v44_1)) (m ((c : Thread nD τ).loc main_arg6)) :=
  (host3_v62 (W5 m ρ c)).trans (by rw [W5_arg6 m ρ c])
theorem entry3_2 (c : Dev nD) : V6 m ρ c (Pipeline.arrRef spec3 2) = BnShift (W5 m ρ c (Proc.devRef .tc main_v44_0)) (W5 m ρ c (Proc.devRef .tc main_v44_1)) (m ((c : Thread nD τ).loc main_arg6)) (m ((c : Thread nD τ).loc main_arg7)) :=
  (host3_v63 (W5 m ρ c)).trans (by rw [W5_arg6 m ρ c, W5_arg7 m ρ c])
theorem entry4_0 (c : Dev nD) : V7 m ρ c (Pipeline.arrRef spec4 0) = W7 m ρ c (Proc.devRef .tc main_v64) :=
  rfl
theorem entry4_1 (c : Dev nD) : V7 m ρ c (Pipeline.arrRef spec4 1) = m ((c : Thread nD τ).loc main_arg8) :=
  W7_arg8 m ρ c
theorem entry5_0 (c : Dev nD) : V9 m ρ c (Pipeline.arrRef spec5 0) = Agg (W8 m ρ c (Proc.devRef .tc main_v65)) (Dinv (F := F) (Dst (m ((c : Thread nD τ).loc main_arg1)))) (Src (m ((c : Thread nD τ).loc main_arg1))) (Dst (m ((c : Thread nD τ).loc main_arg1))) :=
  (host5_v93 (W8 m ρ c)).trans (by rw [W8_v10 m ρ c, W8_v1 m ρ c, W8_v3 m ρ c])
theorem entry5_1 (c : Dev nD) : V9 m ρ c (Pipeline.arrRef spec5 1) = W8 m ρ c (Proc.devRef .tc main_v65) :=
  W9_keep m ρ c main_v65 (by decide)
theorem entry5_2 (c : Dev nD) : V9 m ρ c (Pipeline.arrRef spec5 2) = (ScaleSelf (Dinv (F := F) (Dst (m ((c : Thread nD τ).loc main_arg1))))) :=
  W9_v12 m ρ c
theorem entry5_3 (c : Dev nD) : V9 m ρ c (Pipeline.arrRef spec5 3) = Row128 (m ((c : Thread nD τ).loc main_arg9)) :=
  (host5_v94 (W8 m ρ c)).trans (by rw [W8_arg9 m ρ c])
theorem entry6_0 (c : Dev nD) : V10 m ρ c (Pipeline.arrRef spec6 0) = W10 m ρ c (Proc.devRef .tc main_v95) :=
  rfl
theorem entry7_0 (c : Dev nD) : V12 m ρ c (Pipeline.arrRef spec7 0) = W10 m ρ c (Proc.devRef .tc main_v95) :=
  (W12_keep m ρ c main_v95 (by decide)).trans (W11_keep m ρ c main_v95 (by decide))
theorem entry7_1 (c : Dev nD) : V12 m ρ c (Pipeline.arrRef spec7 1) = BnScale (W11 m ρ c (Proc.devRef .tc main_v96_0)) (W11 m ρ c (Proc.devRef .tc main_v96_1)) (m ((c : Thread nD τ).loc main_arg10)) :=
  (host7_v114 (W11 m ρ c)).trans (by rw [W11_arg10 m ρ c])
theorem entry7_2 (c : Dev nD) : V12 m ρ c (Pipeline.arrRef spec7 2) = BnShift (W11 m ρ c (Proc.devRef .tc main_v96_0)) (W11 m ρ c (Proc.devRef .tc main_v96_1)) (m ((c : Thread nD τ).loc main_arg10)) (m ((c : Thread nD τ).loc main_arg11)) :=
  (host7_v115 (W11 m ρ c)).trans (by rw [W11_arg10 m ρ c, W11_arg11 m ρ c])
theorem entry8_0 (c : Dev nD) : V13 m ρ c (Pipeline.arrRef spec8 0) = W13 m ρ c (Proc.devRef .tc main_v116) :=
  rfl
theorem entry8_1 (c : Dev nD) : V13 m ρ c (Pipeline.arrRef spec8 1) = m ((c : Thread nD τ).loc main_arg12) :=
  W13_arg12 m ρ c
theorem entry9_0 (c : Dev nD) : V15 m ρ c (Pipeline.arrRef spec9 0) = Agg (W14 m ρ c (Proc.devRef .tc main_v117)) (Dinv (F := F) (Dst (m ((c : Thread nD τ).loc main_arg1)))) (Src (m ((c : Thread nD τ).loc main_arg1))) (Dst (m ((c : Thread nD τ).loc main_arg1))) :=
  (host9_v145 (W14 m ρ c)).trans (by rw [W14_v10 m ρ c, W14_v1 m ρ c, W14_v3 m ρ c])
theorem entry9_1 (c : Dev nD) : V15 m ρ c (Pipeline.arrRef spec9 1) = W14 m ρ c (Proc.devRef .tc main_v117) :=
  W15_keep m ρ c main_v117 (by decide)
theorem entry9_2 (c : Dev nD) : V15 m ρ c (Pipeline.arrRef spec9 2) = (ScaleSelf (Dinv (F := F) (Dst (m ((c : Thread nD τ).loc main_arg1))))) :=
  W15_v12 m ρ c
theorem entry9_3 (c : Dev nD) : V15 m ρ c (Pipeline.arrRef spec9 3) = Row128 (m ((c : Thread nD τ).loc main_arg13)) :=
  (host9_v146 (W14 m ρ c)).trans (by rw [W14_arg13 m ρ c])
theorem entry10_0 (c : Dev nD) : V17 m ρ c (Pipeline.arrRef spec10 0) = Pool (W16 m ρ c (Proc.devRef .tc main_v147)) (m ((c : Thread nD τ).loc main_arg2)) :=
  (host10_v150 (W16 m ρ c)).trans (by rw [W16_arg2 m ρ c])
theorem entry10_1 (c : Dev nD) : V17 m ρ c (Pipeline.arrRef spec10 1) = m ((c : Thread nD τ).loc main_arg3) :=
  W17_arg3 m ρ c
theorem entry10_2 (c : Dev nD) : V17 m ρ c (Pipeline.arrRef spec10 2) = Wf1a (m ((c : Thread nD τ).loc main_arg14)) :=
  (host10_v151 (W16 m ρ c)).trans (by rw [W16_arg14 m ρ c])
theorem entry10_3 (c : Dev nD) : V17 m ρ c (Pipeline.arrRef spec10 3) = Wf1b (m ((c : Thread nD τ).loc main_arg14)) :=
  (host10_v152 (W16 m ρ c)).trans (by rw [W16_arg14 m ρ c])
theorem entry10_4 (c : Dev nD) : V17 m ρ c (Pipeline.arrRef spec10 4) = Row128 (m ((c : Thread nD τ).loc main_arg15)) :=
  (host10_v153 (W16 m ρ c)).trans (by rw [W16_arg15 m ρ c])
theorem entry10_5 (c : Dev nD) : V17 m ρ c (Pipeline.arrRef spec10 5) = Wf2Row (m ((c : Thread nD τ).loc main_arg16)) :=
  (host10_v154 (W16 m ρ c)).trans (by rw [W16_arg16 m ρ c])
theorem entry10_6 (c : Dev nD) : V17 m ρ c (Pipeline.arrRef spec10 6) = Bf2Cell (m ((c : Thread nD τ).loc main_arg17)) :=
  (host10_v155 (W16 m ρ c)).trans (by rw [W16_arg17 m ρ c])

end Cert.KernelIdeal.KRun

end
-- ==== Proof.KRunValue.lean ====
import proofs.«162488_j80401787781187_1_alg».proof.Proof.Gen.KernelIdeal.Frame

/-!
# The kernel program's run, with its result named

Every weakly fair execution of the kernel program's `@main` terminates without a fault; at the end the
result buffer of the last region (the head's output, a 2048×1 array) holds what the fold of buffer contents
through the eighteen segments says it holds (`W18` at that buffer), and every argument array is as launched.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of `@main`: it terminates, nothing faults, the head's output array ends at `W18`'s value there, and
    every argument array ends as launched. -/
theorem value_run : θ_run defs (onTc (τ := τ) (main (F := F))) ⟨m, fun _ => 0, ρ⟩ (fun r => ∀ c : Dev nD,
      r.2.mem ((c.tc : Thread nD τ).loc main_v156) = W18 m ρ c (Proc.devRef .tc main_v156)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v156 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c)⟩)

end Cert.KernelIdeal.KRun

end
-- ==== Proof.KRunNet.lean ====
import proofs.«162488_j80401787781187_1_alg».proof.Proof.KRunChain
import proofs.«162488_j80401787781187_1_alg».proof.Proof.KRunValue

/-!
# The kernel program's result as one composition

Three graph-convolution layers — project, aggregate over the edges, combine with the self-loop and the bias and
activate —, the first two followed by batch normalisation from the column sums and sums of squares; then the
per-graph pooling and the two-layer head. Taking each kernel launch's result as a function of the arrays it reads
(`RegionFns`, `RegionsAre`), the last kernel's output array at the end of the program is `Net` of the arguments
as launched.
-/

set_option maxRecDepth 16384

noncomputable section

namespace Cert.KernelIdeal.KRun

open Cert.KernelIdeal Cert.KernelIdeal.Gen
open Idealize.ShloMosaic Idealize.ShloMosaic.TcCoe
open Idealize.SL.Sem
open Idealize.ShloMosaic.Pipeline (Dat)

variable {F : FTy → Type} [FloatOps F]

/-- What each kind of kernel launch computes, as a function of whole arrays. -/
structure RegionFns (F : FTy → Type) where
  /-- The projection `x · W`. -/
  matmul : FVec F S100000x128 .f32 → FVec F S128x128 .f32 → FVec F S100000x128 .f32
  /-- The aggregated messages, the projection, the self-loop column and the bias row, combined and activated. -/
  combine : FVec F S100000x128 .f32 → FVec F S100000x128 .f32 → FVec F S100000x1 .f32 → FVec F S1x128 .f32 → FVec F S100000x128 .f32
  /-- The column sums. -/
  colSum : FVec F S100000x128 .f32 → FVec F S1x128 .f32
  /-- The column sums of squares. -/
  colSumSq : FVec F S100000x128 .f32 → FVec F S1x128 .f32
  /-- The per-column scale and shift. -/
  affine : FVec F S100000x128 .f32 → FVec F S1x128 .f32 → FVec F S1x128 .f32 → FVec F S100000x128 .f32
  /-- The head: pooled features, molecule features, the two weight blocks, the bias row, the second weight row
      and the last bias. -/
  head : FVec F S2048x128 .f32 → FVec F S2048x64 .f32 → FVec F S128x128 .f32 → FVec F S64x128 .f32 →
    FVec F S1x128 .f32 → FVec F S1x128 .f32 → FVec F S1x1 .f32 → FVec F S2048x1 .f32

/-- One graph-convolution layer before normalisation. -/
def Layer (R : RegionFns F) (h : FVec F S100000x128 .f32) (W : FVec F S128x128 .f32) (b : FVec F S128 .f32) (e : IVec S2x1600000 32) : FVec F S100000x128 .f32 :=
  R.combine (Agg (R.matmul h W) (Dinv (F := F) (Dst e)) (Src e) (Dst e)) (R.matmul h W) (ScaleSelf (Dinv (F := F) (Dst e))) (Row128 b)

/-- Batch normalisation over the nodes. -/
def Norm (R : RegionFns F) (a : FVec F S100000x128 .f32) (gamma beta : FVec F S128 .f32) : FVec F S100000x128 .f32 :=
  R.affine a (BnScale (R.colSum a) (R.colSumSq a) gamma) (BnShift (R.colSum a) (R.colSumSq a) gamma beta)

/-- The whole network, in the order of the program's arguments. -/
def Net (R : RegionFns F) (x : FVec F S100000x128 .f32) (e : IVec S2x1600000 32) (batch : IVec S100000 32) (mol : FVec F S2048x64 .f32)
    (W1 : FVec F S128x128 .f32) (b1 g1 be1 : FVec F S128 .f32) (W2 : FVec F S128x128 .f32) (b2 g2 be2 : FVec F S128 .f32)
    (W3 : FVec F S128x128 .f32) (b3 : FVec F S128 .f32) (Wf1 : FVec F S192x128 .f32) (bf1 : FVec F S128 .f32)
    (Wf2 : FVec F S128x1 .f32) (bf2 : FVec F S1 .f32) : FVec F S2048x1 .f32 :=
  R.head (Pool (Layer R (Norm R (Layer R (Norm R (Layer R x W1 b1 e) g1 be1) W2 b2 e) g2 be2) W3 b3 e) batch) mol
    (Wf1a Wf1) (Wf1b Wf1) (Row128 bf1) (Wf2Row Wf2) (Bf2Cell bf2)

set_option maxHeartbeats 1600000 in
/-- Each kernel launch's output array at its exit is its function of its input arrays at its entry, whatever the
    buffers held when it was entered. -/
structure RegionsAre (R : RegionFns F) : Prop where
  /-- Region 0: the projection. -/
  r0 : ∀ (V : (c : Dev nD) → (b : Ref sig .tc) → Buf (Elt F) ((c : Thread nD τ).loc b)) (c : Dev nD), (dat0 V c).arrAt 2 cfg0.N = R.matmul (V c (Pipeline.arrRef spec0 0)) (V c (Pipeline.arrRef spec0 1))
  /-- Region 1: the combination and activation. -/
  r1 : ∀ (V : (c : Dev nD) → (b : Ref sig .tc) → Buf (Elt F) ((c : Thread nD τ).loc b)) (c : Dev nD), (dat1 V c).arrAt 4 cfg1.N = R.combine (V c (Pipeline.arrRef spec1 0)) (V c (Pipeline.arrRef spec1 1)) (V c (Pipeline.arrRef spec1 2)) (V c (Pipeline.arrRef spec1 3))
  /-- Region 2: the column sums and the column sums of squares. -/
  r2a : ∀ (V : (c : Dev nD) → (b : Ref sig .tc) → Buf (Elt F) ((c : Thread nD τ).loc b)) (c : Dev nD), (dat2 V c).arrAt 1 cfg2.N = R.colSum (V c (Pipeline.arrRef spec2 0))
  r2b : ∀ (V : (c : Dev nD) → (b : Ref sig .tc) → Buf (Elt F) ((c : Thread nD τ).loc b)) (c : Dev nD), (dat2 V c).arrAt 2 cfg2.N = R.colSumSq (V c (Pipeline.arrRef spec2 0))
  /-- Region 3: the scale and shift. -/
  r3 : ∀ (V : (c : Dev nD) → (b : Ref sig .tc) → Buf (Elt F) ((c : Thread nD τ).loc b)) (c : Dev nD), (dat3 V c).arrAt 3 cfg3.N = R.affine (V c (Pipeline.arrRef spec3 0)) (V c (Pipeline.arrRef spec3 1)) (V c (Pipeline.arrRef spec3 2))
  /-- Region 4: the projection. -/
  r4 : ∀ (V : (c : Dev nD) → (b : Ref sig .tc) → Buf (Elt F) ((c : Thread nD τ).loc b)) (c : Dev nD), (dat4 V c).arrAt 2 cfg4.N = R.matmul (V c (Pipeline.arrRef spec4 0)) (V c (Pipeline.arrRef spec4 1))
  /-- Region 5: the combination and activation. -/
  r5 : ∀ (V : (c : Dev nD) → (b : Ref sig .tc) → Buf (Elt F) ((c : Thread nD τ).loc b)) (c : Dev nD), (dat5 V c).arrAt 4 cfg5.N = R.combine (V c (Pipeline.arrRef spec5 0)) (V c (Pipeline.arrRef spec5 1)) (V c (Pipeline.arrRef spec5 2)) (V c (Pipeline.arrRef spec5 3))
  /-- Region 6: the column sums and the column sums of squares. -/
  r6a : ∀ (V : (c : Dev nD) → (b : Ref sig .tc) → Buf (Elt F) ((c : Thread nD τ).loc b)) (c : Dev nD), (dat6 V c).arrAt 1 cfg6.N = R.colSum (V c (Pipeline.arrRef spec6 0))
  r6b : ∀ (V : (c : Dev nD) → (b : Ref sig .tc) → Buf (Elt F) ((c : Thread nD τ).loc b)) (c : Dev nD), (dat6 V c).arrAt 2 cfg6.N = R.colSumSq (V c (Pipeline.arrRef spec6 0))
  /-- Region 7: the scale and shift. -/
  r7 : ∀ (V : (c : Dev nD) → (b : Ref sig .tc) → Buf (Elt F) ((c : Thread nD τ).loc b)) (c : Dev nD), (dat7 V c).arrAt 3 cfg7.N = R.affine (V c (Pipeline.arrRef spec7 0)) (V c (Pipeline.arrRef spec7 1)) (V c (Pipeline.arrRef spec7 2))
  /-- Region 8: the projection. -/
  r8 : ∀ (V : (c : Dev nD) → (b : Ref sig .tc) → Buf (Elt F) ((c : Thread nD τ).loc b)) (c : Dev nD), (dat8 V c).arrAt 2 cfg8.N = R.matmul (V c (Pipeline.arrRef spec8 0)) (V c (Pipeline.arrRef spec8 1))
  /-- Region 9: the combination and activation. -/
  r9 : ∀ (V : (c : Dev nD) → (b : Ref sig .tc) → Buf (Elt F) ((c : Thread nD τ).loc b)) (c : Dev nD), (dat9 V c).arrAt 4 cfg9.N = R.combine (V c (Pipeline.arrRef spec9 0)) (V c (Pipeline.arrRef spec9 1)) (V c (Pipeline.arrRef spec9 2)) (V c (Pipeline.arrRef spec9 3))
  /-- Region 10: the head. -/
  r10 : ∀ (V : (c : Dev nD) → (b : Ref sig .tc) → Buf (Elt F) ((c : Thread nD τ).loc b)) (c : Dev nD), (dat10 V c).arrAt 7 cfg10.N = R.head (V c (Pipeline.arrRef spec10 0)) (V c (Pipeline.arrRef spec10 1)) (V c (Pipeline.arrRef spec10 2)) (V c (Pipeline.arrRef spec10 3)) (V c (Pipeline.arrRef spec10 4)) (V c (Pipeline.arrRef spec10 5)) (V c (Pipeline.arrRef spec10 6))

variable (R : RegionFns F) (hR : RegionsAre R)
variable (m : (ℓ : Loc nD τ sig) → Buf (Elt F) ℓ) (ρ : Dev nD → PrngReg)
include hR

/-! ## Layer 1 -/

theorem val_v13 (c : Dev nD) : W2 m ρ c (Proc.devRef .tc main_v13) = R.matmul (m ((c : Thread nD τ).loc main_arg0)) (m ((c : Thread nD τ).loc main_arg4)) :=
  (out0_2 m ρ c).trans ((hR.r0 (V1 m ρ) c).trans (by rw [entry0_0 m ρ c, entry0_1 m ρ c]))
theorem val_v43 (c : Dev nD) : W4 m ρ c (Proc.devRef .tc main_v43) = (Layer R (m ((c : Thread nD τ).loc main_arg0)) (m ((c : Thread nD τ).loc main_arg4)) (m ((c : Thread nD τ).loc main_arg5)) (m ((c : Thread nD τ).loc main_arg1))) :=
  (out1_4 m ρ c).trans ((hR.r1 (V3 m ρ) c).trans (by rw [entry1_0 m ρ c, entry1_1 m ρ c, entry1_2 m ρ c, entry1_3 m ρ c, val_v13 R hR m ρ c] <;> rfl))
theorem val_v44_0 (c : Dev nD) : W5 m ρ c (Proc.devRef .tc main_v44_0) = R.colSum (Layer R (m ((c : Thread nD τ).loc main_arg0)) (m ((c : Thread nD τ).loc main_arg4)) (m ((c : Thread nD τ).loc main_arg5)) (m ((c : Thread nD τ).loc main_arg1))) :=
  (out2_1 m ρ c).trans ((hR.r2a (V4 m ρ) c).trans (by rw [entry2_0 m ρ c, val_v43 R hR m ρ c]))
theorem val_v44_1 (c : Dev nD) : W5 m ρ c (Proc.devRef .tc main_v44_1) = R.colSumSq (Layer R (m ((c : Thread nD τ).loc main_arg0)) (m ((c : Thread nD τ).loc main_arg4)) (m ((c : Thread nD τ).loc main_arg5)) (m ((c : Thread nD τ).loc main_arg1))) :=
  (out2_2 m ρ c).trans ((hR.r2b (V4 m ρ) c).trans (by rw [entry2_0 m ρ c, val_v43 R hR m ρ c]))
theorem val_v64 (c : Dev nD) : W7 m ρ c (Proc.devRef .tc main_v64) = (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) :=
  (out3_3 m ρ c).trans ((hR.r3 (V6 m ρ) c).trans (by rw [entry3_0 m ρ c, entry3_1 m ρ c, entry3_2 m ρ c, val_v43 R hR m ρ c, val_v44_0 R hR m ρ c, val_v44_1 R hR m ρ c] <;> rfl))

/-! ## Layer 2 -/

theorem val_v65 (c : Dev nD) : W8 m ρ c (Proc.devRef .tc main_v65) = R.matmul (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) (m ((c : Thread nD τ).loc main_arg8)) :=
  (out4_2 m ρ c).trans ((hR.r4 (V7 m ρ) c).trans (by rw [entry4_0 m ρ c, entry4_1 m ρ c, val_v64 R hR m ρ c]))
theorem val_v95 (c : Dev nD) : W10 m ρ c (Proc.devRef .tc main_v95) = (Layer R (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) (m ((c : Thread nD τ).loc main_arg8)) (m ((c : Thread nD τ).loc main_arg9)) (m ((c : Thread nD τ).loc main_arg1))) :=
  (out5_4 m ρ c).trans ((hR.r5 (V9 m ρ) c).trans (by rw [entry5_0 m ρ c, entry5_1 m ρ c, entry5_2 m ρ c, entry5_3 m ρ c, val_v65 R hR m ρ c] <;> rfl))
theorem val_v96_0 (c : Dev nD) : W11 m ρ c (Proc.devRef .tc main_v96_0) = R.colSum (Layer R (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) (m ((c : Thread nD τ).loc main_arg8)) (m ((c : Thread nD τ).loc main_arg9)) (m ((c : Thread nD τ).loc main_arg1))) :=
  (out6_1 m ρ c).trans ((hR.r6a (V10 m ρ) c).trans (by rw [entry6_0 m ρ c, val_v95 R hR m ρ c]))
theorem val_v96_1 (c : Dev nD) : W11 m ρ c (Proc.devRef .tc main_v96_1) = R.colSumSq (Layer R (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) (m ((c : Thread nD τ).loc main_arg8)) (m ((c : Thread nD τ).loc main_arg9)) (m ((c : Thread nD τ).loc main_arg1))) :=
  (out6_2 m ρ c).trans ((hR.r6b (V10 m ρ) c).trans (by rw [entry6_0 m ρ c, val_v95 R hR m ρ c]))
theorem val_v116 (c : Dev nD) : W13 m ρ c (Proc.devRef .tc main_v116) = (Norm R (Layer R (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) (m ((c : Thread nD τ).loc main_arg8)) (m ((c : Thread nD τ).loc main_arg9)) (m ((c : Thread nD τ).loc main_arg1))) (m ((c : Thread nD τ).loc main_arg10)) (m ((c : Thread nD τ).loc main_arg11))) :=
  (out7_3 m ρ c).trans ((hR.r7 (V12 m ρ) c).trans (by rw [entry7_0 m ρ c, entry7_1 m ρ c, entry7_2 m ρ c, val_v95 R hR m ρ c, val_v96_0 R hR m ρ c, val_v96_1 R hR m ρ c] <;> rfl))

/-! ## Layer 3, the pooling and the head -/

theorem val_v117 (c : Dev nD) : W14 m ρ c (Proc.devRef .tc main_v117) = R.matmul (Norm R (Layer R (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) (m ((c : Thread nD τ).loc main_arg8)) (m ((c : Thread nD τ).loc main_arg9)) (m ((c : Thread nD τ).loc main_arg1))) (m ((c : Thread nD τ).loc main_arg10)) (m ((c : Thread nD τ).loc main_arg11))) (m ((c : Thread nD τ).loc main_arg12)) :=
  (out8_2 m ρ c).trans ((hR.r8 (V13 m ρ) c).trans (by rw [entry8_0 m ρ c, entry8_1 m ρ c, val_v116 R hR m ρ c]))
theorem val_v147 (c : Dev nD) : W16 m ρ c (Proc.devRef .tc main_v147) = (Layer R (Norm R (Layer R (Norm R (Layer R (m ((c : Thread nD τ).loc main_arg0)) (m ((c : Thread nD τ).loc main_arg4)) (m ((c : Thread nD τ).loc main_arg5)) (m ((c : Thread nD τ).loc main_arg1))) (m ((c : Thread nD τ).loc main_arg6)) (m ((c : Thread nD τ).loc main_arg7))) (m ((c : Thread nD τ).loc main_arg8)) (m ((c : Thread nD τ).loc main_arg9)) (m ((c : Thread nD τ).loc main_arg1))) (m ((c : Thread nD τ).loc main_arg10)) (m ((c : Thread nD τ).loc main_arg11))) (m ((c : Thread nD τ).loc main_arg12)) (m ((c : Thread nD τ).loc main_arg13)) (m ((c : Thread nD τ).loc main_arg1))) :=
  (out9_4 m ρ c).trans ((hR.r9 (V15 m ρ) c).trans (by rw [entry9_0 m ρ c, entry9_1 m ρ c, entry9_2 m ρ c, entry9_3 m ρ c, val_v117 R hR m ρ c] <;> rfl))

set_option maxHeartbeats 1000000 in
/-- The head's output array at the end of the program is the network of the arguments as launched. -/
theorem val_v156 (c : Dev nD) : W18 m ρ c (Proc.devRef .tc main_v156) =
    Net R (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (out10_7 m ρ c).trans ((hR.r10 (V17 m ρ) c).trans (by rw [entry10_0 m ρ c, entry10_1 m ρ c, entry10_2 m ρ c, entry10_3 m ρ c, entry10_4 m ρ c, entry10_5 m ρ c, entry10_6 m ρ c, val_v147 R hR m ρ c] <;> rfl))

set_option maxHeartbeats 1000000 in
/-- The run of the kernel program: every weakly fair execution terminates, nothing faults, the head's output array
    ends at the network of the arguments as launched, and every argument array ends as launched. -/
theorem net_run : θ_run defs (onTc (τ := τ) (main (F := F))) ⟨m, fun _ => 0, ρ⟩ (fun r => ∀ c : Dev nD,
      r.2.mem ((c.tc : Thread nD τ).loc main_v156) =
        Net R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (val_v156 R hR m ρ c), (h c).2⟩) (value_run m ρ)

end Cert.KernelIdeal.KRun

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.MPre.lean ====
/-
  The printed precondition: each of the sixteen float arguments passes jnp.all(|x| < +inf), the sixteen verdicts joined
  by and. When the conjunction is 1 every verdict is 1, and a verdict 1 says every entry of that argument is a real number.
-/
import proofs.«162488_j80401787781187_1_alg».proof.Pre_finite_inputs
import proofs.«162488_j80401787781187_1_alg».proof.Proof.LibFiniteInputs
import Idealize.ShloMosaic.Lib.Affine

noncomputable section

namespace Cert.MPre

open Idealize.ShloMosaic Cert.Pre_finite_inputs

variable [Cert.Pre_finite_inputs.Facts]

/-- Under the precondition every float argument holds real numbers throughout. -/
theorem reals_of_pre (a0 : FVec Ideal S100000x128 .f32) (a1 : IVec S2x1600000 32) (a2 : IVec S100000 32) (a3 : FVec Ideal S2048x64 .f32) (a4 : FVec Ideal S128x128 .f32) (a5 a6 a7 : FVec Ideal S128 .f32) (a8 : FVec Ideal S128x128 .f32) (a9 a10 a11 : FVec Ideal S128 .f32) (a12 : FVec Ideal S128x128 .f32) (a13 : FVec Ideal S128 .f32) (a14 : FVec Ideal S192x128 .f32) (a15 : FVec Ideal S128 .f32) (a16 : FVec Ideal S128x1 .f32) (a17 : FVec Ideal S1 .f32)
    (h : fn (F := Ideal) a0 a1 a2 a3 a4 a5 a6 a7 a8 a9 a10 a11 a12 a13 a14 a15 a16 a17 = fun _ => 1#1) :
    (∀ i, ∃ r : ℝ, (a0 i : EReal) = (r : EReal))
      ∧ (∀ i, ∃ r : ℝ, (a3 i : EReal) = (r : EReal))
      ∧ (∀ i, ∃ r : ℝ, (a4 i : EReal) = (r : EReal))
      ∧ (∀ i, ∃ r : ℝ, (a5 i : EReal) = (r : EReal))
      ∧ (∀ i, ∃ r : ℝ, (a6 i : EReal) = (r : EReal))
      ∧ (∀ i, ∃ r : ℝ, (a7 i : EReal) = (r : EReal))
      ∧ (∀ i, ∃ r : ℝ, (a8 i : EReal) = (r : EReal))
      ∧ (∀ i, ∃ r : ℝ, (a9 i : EReal) = (r : EReal))
      ∧ (∀ i, ∃ r : ℝ, (a10 i : EReal) = (r : EReal))
      ∧ (∀ i, ∃ r : ℝ, (a11 i : EReal) = (r : EReal))
      ∧ (∀ i, ∃ r : ℝ, (a12 i : EReal) = (r : EReal))
      ∧ (∀ i, ∃ r : ℝ, (a13 i : EReal) = (r : EReal))
      ∧ (∀ i, ∃ r : ℝ, (a14 i : EReal) = (r : EReal))
      ∧ (∀ i, ∃ r : ℝ, (a15 i : EReal) = (r : EReal))
      ∧ (∀ i, ∃ r : ℝ, (a16 i : EReal) = (r : EReal))
      ∧ (∀ i, ∃ r : ℝ, (a17 i : EReal) = (r : EReal)) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩ := h0
  exact ⟨Cert.LibFiniteInputs.all_real a0 _ _ _ e0, Cert.LibFiniteInputs.all_real a3 _ _ _ e3,
    Cert.LibFiniteInputs.all_real a4 _ _ _ e4, Cert.LibFiniteInputs.all_real a5 _ _ _ e5,
    Cert.LibFiniteInputs.all_real a6 _ _ _ e6, Cert.LibFiniteInputs.all_real a7 _ _ _ e7,
    Cert.LibFiniteInputs.all_real a8 _ _ _ e8, Cert.LibFiniteInputs.all_real a9 _ _ _ e9,
    Cert.LibFiniteInputs.all_real a10 _ _ _ e10, Cert.LibFiniteInputs.all_real a11 _ _ _ e11,
    Cert.LibFiniteInputs.all_real a12 _ _ _ e12, Cert.LibFiniteInputs.all_real a13 _ _ _ e13,
    Cert.LibFiniteInputs.all_real a14 _ _ _ e14, Cert.LibFiniteInputs.all_real a15 _ _ _ e15,
    Cert.LibFiniteInputs.all_real a16 _ _ _ e16, Cert.LibFiniteInputs.all_real a17 _ _ _ e17⟩

end Cert.MPre

end
-- ==== Proof.RefRunOps.lean ====
import proofs.«162488_j80401787781187_1_alg».proof.Proof.Gen.ReferenceIdeal
import Idealize.ShloMosaic.Lib.StableHlo.Run

/-! The reference program's @main as a list of its 295 host operations, in order, each called function's
operations standing in its call's place (`@selu` is nineteen: its constant, `@elu`'s fifteen — of which `@_where` is three and
`@_where_0` one —, the second constant, its broadcast and the product). The list is cut into twenty-two consecutive
pieces, one per step of the computation: the edge lists and the inverse square root of the degree; per layer the
product with the weights, the neighbour sum, the self-loop term and bias, the activation, the normalization; then the
sum per graph, the two dense layers with the activation between them. A piece that would straddle two of @main's
printed windows is cut in two at the window's end. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 14 of 295: the two index vectors, the degree and its inverse square root. -/
abbrev cS0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]
/-- The buffers `cS0` writes, in order. -/
abbrev cS0_W : List (Ref sig .tc) := [main_v0, main_v1, main_v2, main_v3, main_cst, main_v4, main_cst_0, main_v5, main_v6, main_v7, main_cst_1, main_v8, main_v9, main_v10]

/-- Operations 15 … 15 of 295: layer 1: the product with the weights. -/
abbrev cXw1 : List (HloOp τ sig (Elt F)) :=
  [ binary main_arg0 main_arg4 main_v11 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers `cXw1` writes, in order. -/
abbrev cXw1_W : List (Ref sig .tc) := [main_v11]

/-- Operations 16 … 50 of 295: layer 1: the neighbour sum (gather, scale, scatter-add). -/
abbrev cAgg1 : List (HloOp τ sig (Elt F)) :=
  [ nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v10 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v11 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v26 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v37 (broadcastInDim S100000x128 ![] bcast_S_S100000x128 : (⟨S_, .f32⟩ : BufTy).Contents (Elt F) → (⟨S100000x128, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers `cAgg1` writes, in order. -/
abbrev cAgg1_W : List (Ref sig .tc) := [main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39]

/-- Operations 51 … 58 of 295: layer 1: the self-loop term and the bias. -/
abbrev cPre1 : List (HloOp τ sig (Elt F)) :=
  [ binary main_v10 main_v10 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v11 main_v42 main_v43 (mulf : (⟨S100000x128, .f32⟩ : BufTy).Contents (Elt F) → (⟨S100000x128, .f32⟩ : BufTy).Contents (Elt F) → (⟨S100000x128, .f32⟩ : BufTy).Contents (Elt F)),
    binary main_v39 main_v43 main_v44 (addf : (⟨S100000x128, .f32⟩ : BufTy).Contents (Elt F) → (⟨S100000x128, .f32⟩ : BufTy).Contents (Elt F) → (⟨S100000x128, .f32⟩ : BufTy).Contents (Elt F)),
    unary main_arg5 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)) ]
/-- The buffers `cPre1` writes, in order. -/
abbrev cPre1_W : List (Ref sig .tc) := [main_v40, main_v41, main_v42, main_v43, main_v44, main_v45, main_v46, main_v47]

/-- Operations 59 … 77 of 295: layer 1: the activation (the call's nineteen operations in its place). -/
abbrev cSelu1 : List (HloOp τ sig (Elt F)) :=
  [ TRef.nullary main_call0.cst (constant S_ .f32 0x3FD62D7D#32),
    TRef.nullary main_call0.call0.cst (constant S_ .f32 0x00000000#32),
    TRef.unary main_call0.call0.cst main_call0.call0.v0 (broadcastInDim S100000x128 ![] bcast_S_S100000x128),
    TRef.binary (.of main_v47) main_call0.call0.v0 main_call0.call0.v1 (cmpf .ogt),
    TRef.nullary main_call0.call0.cst_0 (constant S_ .f32 0x00000000#32),
    TRef.unary main_call0.call0.cst_0 main_call0.call0.v2 (broadcastInDim S100000x128 ![] bcast_S_S100000x128),
    TRef.binary (.of main_v47) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S100000x128 ![] bcast_S_S100000x128),
    TRef.ternary main_call0.call0.v3 main_call0.call0.call0.v1 (.of main_v47) main_call0.call0.call0.v2 select,
    TRef.unary main_call0.call0.call0.v2 main_call0.call0.v5 Host.expm1,
    TRef.unary main_call0.cst main_call0.call0.v6 id,
    TRef.unary main_call0.call0.v6 main_call0.call0.v7 (broadcastInDim S100000x128 ![] bcast_S_S100000x128),
    TRef.binary main_call0.call0.v7 main_call0.call0.v5 main_call0.call0.v8 mulf,
    TRef.ternary main_call0.call0.v1 (.of main_v47) main_call0.call0.v8 main_call0.call0.call1.v0 select,
    TRef.nullary main_call0.cst_0 (constant S_ .f32 0x3F867D5F#32),
    TRef.unary main_call0.cst_0 main_call0.v1 (broadcastInDim S100000x128 ![] bcast_S_S100000x128),
    TRef.binary main_call0.v1 main_call0.call0.call1.v0 main_call0.v2 mulf ]
/-- The buffers `cSelu1` writes, in order. -/
abbrev cSelu1_W : List (Ref sig .tc) := [main_call0_cst, main_call0_call0_cst, main_call0_call0_v0, main_call0_call0_v1, main_call0_call0_cst_0, main_call0_call0_v2, main_call0_call0_v3, main_call0_call0_cst_1, main_call0_call0_call0_v0, main_call0_call0_call0_v1, main_call0_call0_v4, main_call0_call0_v5, main_call0_call0_v6, main_call0_call0_v7, main_call0_call0_v8, main_call0_v0, main_call0_cst_0, main_call0_v1, main_v48]

/-- Operations 78 … 78 of 295: layer 1's normalization: the zero its first sum starts from. -/
abbrev cBn1a : List (HloOp τ sig (Elt F)) :=
  [ nullary main_cst_8 (constant S_ .f32 0x00000000#32) ]
/-- The buffers `cBn1a` writes, in order. -/
abbrev cBn1a_W : List (Ref sig .tc) := [main_cst_8]

/-- Operations 79 … 107 of 295: layer 1's normalization: mean, centred second moment, scale and shift. -/
abbrev cBn1b : List (HloOp τ sig (Elt F)) :=
  [ binary main_v48 main_cst_8 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v55 main_cst_10 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v62 (broadcastInDim S128 ![] bcast_S_S128 : (⟨S_, .f32⟩ : BufTy).Contents (Elt F) → (⟨S128, .f32⟩ : BufTy).Contents (Elt F)),
    binary main_v58 main_v62 main_v63 (addf : (⟨S128, .f32⟩ : BufTy).Contents (Elt F) → (⟨S128, .f32⟩ : BufTy).Contents (Elt F) → (⟨S128, .f32⟩ : BufTy).Contents (Elt F)),
    unary main_v63 main_v64 (Host.rsqrt : (⟨S128, .f32⟩ : BufTy).Contents (Elt F) → (⟨S128, .f32⟩ : BufTy).Contents (Elt F)),
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S100000x128 ![0, 1] bcast_S1x128_S100000x128_0_1 : (⟨S1x128, .f32⟩ : BufTy).Contents (Elt F) → (⟨S100000x128, .f32⟩ : BufTy).Contents (Elt F)),
    binary main_v61 main_v66 main_v67 (mulf : (⟨S100000x128, .f32⟩ : BufTy).Contents (Elt F) → (⟨S100000x128, .f32⟩ : BufTy).Contents (Elt F) → (⟨S100000x128, .f32⟩ : BufTy).Contents (Elt F)),
    unary main_arg6 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (mulf : (⟨S100000x128, .f32⟩ : BufTy).Contents (Elt F) → (⟨S100000x128, .f32⟩ : BufTy).Contents (Elt F) → (⟨S100000x128, .f32⟩ : BufTy).Contents (Elt F)),
    unary main_arg7 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)) ]
/-- The buffers `cBn1b` writes, in order. -/
abbrev cBn1b_W : List (Ref sig .tc) := [main_v49, main_cst_9, main_v50, main_v51, main_v52, main_v53, main_v54, main_v55, main_cst_10, main_v56, main_cst_11, main_v57, main_v58, main_v59, main_v60, main_v61, main_cst_12, main_v62, main_v63, main_v64, main_v65, main_v66, main_v67, main_v68, main_v69, main_v70, main_v71, main_v72, main_v73]

/-- Operations 108 … 108 of 295: layer 2: the product with the weights. -/
abbrev cXw2 : List (HloOp τ sig (Elt F)) :=
  [ binary main_v73 main_arg8 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers `cXw2` writes, in order. -/
abbrev cXw2_W : List (Ref sig .tc) := [main_v74]

/-- Operations 109 … 138 of 295: layer 2: the neighbour sum, up to the broadcast of the edge weights. -/
abbrev cAgg2a : List (HloOp τ sig (Elt F)) :=
  [ nullary main_c_13 (constantI S_ 32 0#32),
    unary main_c_13 main_v75 (broadcastInDim S1600000 ![] bcast_S_S1600000 : (⟨S_, .i32⟩ : BufTy).Contents (Elt F) → (⟨S1600000, .i32⟩ : BufTy).Contents (Elt F)),
    binary main_v1 main_v75 main_v76 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v77 (broadcastInDim S1600000 ![] bcast_S_S1600000 : (⟨S_, .i32⟩ : BufTy).Contents (Elt F) → (⟨S1600000, .i32⟩ : BufTy).Contents (Elt F)),
    binary main_v1 main_v77 main_v78 (addi : (⟨S1600000, .i32⟩ : BufTy).Contents (Elt F) → (⟨S1600000, .i32⟩ : BufTy).Contents (Elt F) → (⟨S1600000, .i32⟩ : BufTy).Contents (Elt F)),
    ternary main_v76 main_v78 main_v1 main_v79 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v79 main_v80 (broadcastInDim S1600000x1 ![0] bcast_S1600000_S1600000x1_0 : (⟨S1600000, .i32⟩ : BufTy).Contents (Elt F) → (⟨S1600000x1, .i32⟩ : BufTy).Contents (Elt F)),
    binary main_v10 main_v80 main_v81 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_15 (constantI S_ 32 0#32),
    unary main_c_15 main_v82 (broadcastInDim S1600000 ![] bcast_S_S1600000 : (⟨S_, .i32⟩ : BufTy).Contents (Elt F) → (⟨S1600000, .i32⟩ : BufTy).Contents (Elt F)),
    binary main_v3 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v84 (broadcastInDim S1600000 ![] bcast_S_S1600000 : (⟨S_, .i32⟩ : BufTy).Contents (Elt F) → (⟨S1600000, .i32⟩ : BufTy).Contents (Elt F)),
    binary main_v3 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v3 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v10 main_v87 main_v88 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v81 main_v88 main_v89 (mulf : (⟨S1600000, .f32⟩ : BufTy).Contents (Elt F) → (⟨S1600000, .f32⟩ : BufTy).Contents (Elt F) → (⟨S1600000, .f32⟩ : BufTy).Contents (Elt F)),
    nullary main_c_17 (constantI S_ 32 0#32),
    unary main_c_17 main_v90 (broadcastInDim S1600000 ![] bcast_S_S1600000 : (⟨S_, .i32⟩ : BufTy).Contents (Elt F) → (⟨S1600000, .i32⟩ : BufTy).Contents (Elt F)),
    binary main_v1 main_v90 main_v91 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v92 (broadcastInDim S1600000 ![] bcast_S_S1600000 : (⟨S_, .i32⟩ : BufTy).Contents (Elt F) → (⟨S1600000, .i32⟩ : BufTy).Contents (Elt F)),
    binary main_v1 main_v92 main_v93 (addi : (⟨S1600000, .i32⟩ : BufTy).Contents (Elt F) → (⟨S1600000, .i32⟩ : BufTy).Contents (Elt F) → (⟨S1600000, .i32⟩ : BufTy).Contents (Elt F)),
    ternary main_v91 main_v93 main_v1 main_v94 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v94 main_v95 (broadcastInDim S1600000x1 ![0] bcast_S1600000_S1600000x1_0 : (⟨S1600000, .i32⟩ : BufTy).Contents (Elt F) → (⟨S1600000x1, .i32⟩ : BufTy).Contents (Elt F)),
    binary main_v74 main_v95 main_v96 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v89 main_v97 (broadcastInDim S1600000x1 ![0] bcast_S1600000_S1600000x1_0 : (⟨S1600000, .f32⟩ : BufTy).Contents (Elt F) → (⟨S1600000x1, .f32⟩ : BufTy).Contents (Elt F)),
    unary main_v97 main_v98 (broadcastInDim S1600000x128 ![0, 1] bcast_S1600000x1_S1600000x128_0_1 : (⟨S1600000x1, .f32⟩ : BufTy).Contents (Elt F) → (⟨S1600000x128, .f32⟩ : BufTy).Contents (Elt F)) ]
/-- The buffers `cAgg2a` writes, in order. -/
abbrev cAgg2a_W : List (Ref sig .tc) := [main_c_13, main_v75, main_v76, main_c_14, main_v77, main_v78, main_v79, main_v80, main_v81, main_c_15, main_v82, main_v83, main_c_16, main_v84, main_v85, main_v86, main_v87, main_v88, main_v89, main_c_17, main_v90, main_v91, main_c_18, main_v92, main_v93, main_v94, main_v95, main_v96, main_v97, main_v98]

/-- Operations 139 … 143 of 295: layer 2: the neighbour sum, the scaling and the scatter-add. -/
abbrev cAgg2b : List (HloOp τ sig (Elt F)) :=
  [ binary main_v96 main_v98 main_v99 (mulf : (⟨S1600000x128, .f32⟩ : BufTy).Contents (Elt F) → (⟨S1600000x128, .f32⟩ : BufTy).Contents (Elt F) → (⟨S1600000x128, .f32⟩ : BufTy).Contents (Elt F)),
    nullary main_cst_19 (constant S_ .f32 0x00000000#32),
    unary main_cst_19 main_v100 (broadcastInDim S100000x128 ![] bcast_S_S100000x128 : (⟨S_, .f32⟩ : BufTy).Contents (Elt F) → (⟨S100000x128, .f32⟩ : BufTy).Contents (Elt F)),
    unary main_v3 main_v101 (broadcastInDim S1600000x1 ![0] bcast_S1600000_S1600000x1_0 : (⟨S1600000, .i32⟩ : BufTy).Contents (Elt F) → (⟨S1600000x1, .i32⟩ : BufTy).Contents (Elt F)),
    ternary main_v100 main_v101 main_v99 main_v102 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers `cAgg2b` writes, in order. -/
abbrev cAgg2b_W : List (Ref sig .tc) := [main_v99, main_cst_19, main_v100, main_v101, main_v102]

/-- Operations 144 … 151 of 295: layer 2: the self-loop term and the bias. -/
abbrev cPre2 : List (HloOp τ sig (Elt F)) :=
  [ binary main_v10 main_v10 main_v103 (mulf : (⟨S100000, .f32⟩ : BufTy).Contents (Elt F) → (⟨S100000, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    unary main_v104 main_v105 (broadcastInDim S100000x128 ![0, 1] bcast_S100000x1_S100000x128_0_1 : (⟨S100000x1, .f32⟩ : BufTy).Contents (Elt F) → (⟨S100000x128, .f32⟩ : BufTy).Contents (Elt F)),
    binary main_v74 main_v105 main_v106 (mulf : (⟨S100000x128, .f32⟩ : BufTy).Contents (Elt F) → (⟨S100000x128, .f32⟩ : BufTy).Contents (Elt F) → (⟨S100000x128, .f32⟩ : BufTy).Contents (Elt F)),
    binary main_v102 main_v106 main_v107 (addf : (⟨S100000x128, .f32⟩ : BufTy).Contents (Elt F) → (⟨S100000x128, .f32⟩ : BufTy).Contents (Elt F) → (⟨S100000x128, .f32⟩ : BufTy).Contents (Elt F)),
    unary main_arg9 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v107 main_v109 main_v110 (addf : (⟨S100000x128, .f32⟩ : BufTy).Contents (Elt F) → (⟨S100000x128, .f32⟩ : BufTy).Contents (Elt F) → (⟨S100000x128, .f32⟩ : BufTy).Contents (Elt F)) ]
/-- The buffers `cPre2` writes, in order. -/
abbrev cPre2_W : List (Ref sig .tc) := [main_v103, main_v104, main_v105, main_v106, main_v107, main_v108, main_v109, main_v110]

/-- Operations 152 … 170 of 295: layer 2: the activation. -/
abbrev cSelu2 : List (HloOp τ sig (Elt F)) :=
  [ TRef.nullary main_call1.cst (constant S_ .f32 0x3FD62D7D#32),
    TRef.nullary main_call1.call0.cst (constant S_ .f32 0x00000000#32),
    TRef.unary main_call1.call0.cst main_call1.call0.v0 (broadcastInDim S100000x128 ![] bcast_S_S100000x128),
    TRef.binary (.of main_v110) main_call1.call0.v0 main_call1.call0.v1 (cmpf .ogt),
    TRef.nullary main_call1.call0.cst_0 (constant S_ .f32 0x00000000#32),
    TRef.unary main_call1.call0.cst_0 main_call1.call0.v2 (broadcastInDim S100000x128 ![] bcast_S_S100000x128),
    TRef.binary (.of main_v110) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S100000x128 ![] bcast_S_S100000x128),
    TRef.ternary main_call1.call0.v3 main_call1.call0.call0.v1 (.of main_v110) main_call1.call0.call0.v2 select,
    TRef.unary main_call1.call0.call0.v2 main_call1.call0.v5 Host.expm1,
    TRef.unary main_call1.cst main_call1.call0.v6 id,
    TRef.unary main_call1.call0.v6 main_call1.call0.v7 (broadcastInDim S100000x128 ![] bcast_S_S100000x128),
    TRef.binary main_call1.call0.v7 main_call1.call0.v5 main_call1.call0.v8 mulf,
    TRef.ternary main_call1.call0.v1 (.of main_v110) main_call1.call0.v8 main_call1.call0.call1.v0 select,
    TRef.nullary main_call1.cst_0 (constant S_ .f32 0x3F867D5F#32),
    TRef.unary main_call1.cst_0 main_call1.v1 (broadcastInDim S100000x128 ![] bcast_S_S100000x128),
    TRef.binary main_call1.v1 main_call1.call0.call1.v0 main_call1.v2 mulf ]
/-- The buffers `cSelu2` writes, in order. -/
abbrev cSelu2_W : List (Ref sig .tc) := [main_call1_cst, main_call1_call0_cst, main_call1_call0_v0, main_call1_call0_v1, main_call1_call0_cst_0, main_call1_call0_v2, main_call1_call0_v3, main_call1_call0_cst_1, main_call1_call0_call0_v0, main_call1_call0_call0_v1, main_call1_call0_v4, main_call1_call0_v5, main_call1_call0_v6, main_call1_call0_v7, main_call1_call0_v8, main_call1_v0, main_call1_cst_0, main_call1_v1, main_v111]

/-- Operations 171 … 200 of 295: layer 2's normalization. -/
abbrev cBn2 : List (HloOp τ sig (Elt F)) :=
  [ nullary main_cst_20 (constant S_ .f32 0x00000000#32),
    binary main_v111 main_cst_20 main_v112 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_21 (constant S_ .f32 0x47C35000#32),
    unary main_cst_21 main_v113 (broadcastInDim S128 ![] bcast_S_S128 : (⟨S_, .f32⟩ : BufTy).Contents (Elt F) → (⟨S128, .f32⟩ : BufTy).Contents (Elt F)),
    binary main_v112 main_v113 main_v114 (Host.divf : (⟨S128, .f32⟩ : BufTy).Contents (Elt F) → (⟨S128, .f32⟩ : BufTy).Contents (Elt F) → (⟨S128, .f32⟩ : BufTy).Contents (Elt F)),
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S100000x128 ![0, 1] bcast_S1x128_S100000x128_0_1 : (⟨S1x128, .f32⟩ : BufTy).Contents (Elt F) → (⟨S100000x128, .f32⟩ : BufTy).Contents (Elt F)),
    binary main_v111 main_v116 main_v117 (subf : (⟨S100000x128, .f32⟩ : BufTy).Contents (Elt F) → (⟨S100000x128, .f32⟩ : BufTy).Contents (Elt F) → (⟨S100000x128, .f32⟩ : BufTy).Contents (Elt F)),
    binary main_v117 main_v117 main_v118 (mulf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x00000000#32),
    binary main_v118 main_cst_22 main_v119 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v120 (broadcastInDim S128 ![] bcast_S_S128 : (⟨S_, .f32⟩ : BufTy).Contents (Elt F) → (⟨S128, .f32⟩ : BufTy).Contents (Elt F)),
    binary main_v119 main_v120 main_v121 (Host.divf : (⟨S128, .f32⟩ : BufTy).Contents (Elt F) → (⟨S128, .f32⟩ : BufTy).Contents (Elt F) → (⟨S128, .f32⟩ : BufTy).Contents (Elt F)),
    unary main_v114 main_v122 (broadcastInDim S1x128 ![1] bcast_S128_S1x128_1 : (⟨S128, .f32⟩ : BufTy).Contents (Elt F) → (⟨S1x128, .f32⟩ : BufTy).Contents (Elt F)),
    unary main_v122 main_v123 (broadcastInDim S100000x128 ![0, 1] bcast_S1x128_S100000x128_0_1 : (⟨S1x128, .f32⟩ : BufTy).Contents (Elt F) → (⟨S100000x128, .f32⟩ : BufTy).Contents (Elt F)),
    binary main_v111 main_v123 main_v124 (subf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3727C5AC#32),
    unary main_cst_24 main_v125 (broadcastInDim S128 ![] bcast_S_S128 : (⟨S_, .f32⟩ : BufTy).Contents (Elt F) → (⟨S128, .f32⟩ : BufTy).Contents (Elt F)),
    binary main_v121 main_v125 main_v126 (addf : (⟨S128, .f32⟩ : BufTy).Contents (Elt F) → (⟨S128, .f32⟩ : BufTy).Contents (Elt F) → (⟨S128, .f32⟩ : BufTy).Contents (Elt F)),
    unary main_v126 main_v127 (Host.rsqrt : (⟨S128, .f32⟩ : BufTy).Contents (Elt F) → (⟨S128, .f32⟩ : BufTy).Contents (Elt F)),
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v124 main_v129 main_v130 (mulf : (⟨S100000x128, .f32⟩ : BufTy).Contents (Elt F) → (⟨S100000x128, .f32⟩ : BufTy).Contents (Elt F) → (⟨S100000x128, .f32⟩ : BufTy).Contents (Elt F)),
    unary main_arg10 main_v131 (broadcastInDim S1x128 ![1] bcast_S128_S1x128_1 : (⟨S128, .f32⟩ : BufTy).Contents (Elt F) → (⟨S1x128, .f32⟩ : BufTy).Contents (Elt F)),
    unary main_v131 main_v132 (broadcastInDim S100000x128 ![0, 1] bcast_S1x128_S100000x128_0_1 : (⟨S1x128, .f32⟩ : BufTy).Contents (Elt F) → (⟨S100000x128, .f32⟩ : BufTy).Contents (Elt F)),
    binary main_v130 main_v132 main_v133 (mulf : (⟨S100000x128, .f32⟩ : BufTy).Contents (Elt F) → (⟨S100000x128, .f32⟩ : BufTy).Contents (Elt F) → (⟨S100000x128, .f32⟩ : BufTy).Contents (Elt F)),
    unary main_arg11 main_v134 (broadcastInDim S1x128 ![1] bcast_S128_S1x128_1 : (⟨S128, .f32⟩ : BufTy).Contents (Elt F) → (⟨S1x128, .f32⟩ : BufTy).Contents (Elt F)),
    unary main_v134 main_v135 (broadcastInDim S100000x128 ![0, 1] bcast_S1x128_S100000x128_0_1 : (⟨S1x128, .f32⟩ : BufTy).Contents (Elt F) → (⟨S100000x128, .f32⟩ : BufTy).Contents (Elt F)),
    binary main_v133 main_v135 main_v136 (addf : (⟨S100000x128, .f32⟩ : BufTy).Contents (Elt F) → (⟨S100000x128, .f32⟩ : BufTy).Contents (Elt F) → (⟨S100000x128, .f32⟩ : BufTy).Contents (Elt F)) ]
/-- The buffers `cBn2` writes, in order. -/
abbrev cBn2_W : List (Ref sig .tc) := [main_cst_20, main_v112, main_cst_21, main_v113, main_v114, main_v115, main_v116, main_v117, main_v118, main_cst_22, main_v119, main_cst_23, main_v120, main_v121, main_v122, main_v123, main_v124, main_cst_24, main_v125, main_v126, main_v127, main_v128, main_v129, main_v130, main_v131, main_v132, main_v133, main_v134, main_v135, main_v136]

/-- Operations 201 … 201 of 295: layer 3: the product with the weights. -/
abbrev cXw3 : List (HloOp τ sig (Elt F)) :=
  [ binary main_v136 main_arg12 main_v137 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers `cXw3` writes, in order. -/
abbrev cXw3_W : List (Ref sig .tc) := [main_v137]

/-- Operations 202 … 216 of 295: layer 3: the neighbour sum, up to the second index vector's wrap. -/
abbrev cAgg3a : List (HloOp τ sig (Elt F)) :=
  [ nullary main_c_25 (constantI S_ 32 0#32),
    unary main_c_25 main_v138 (broadcastInDim S1600000 ![] bcast_S_S1600000 : (⟨S_, .i32⟩ : BufTy).Contents (Elt F) → (⟨S1600000, .i32⟩ : BufTy).Contents (Elt F)),
    binary main_v1 main_v138 main_v139 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v140 (broadcastInDim S1600000 ![] bcast_S_S1600000 : (⟨S_, .i32⟩ : BufTy).Contents (Elt F) → (⟨S1600000, .i32⟩ : BufTy).Contents (Elt F)),
    binary main_v1 main_v140 main_v141 (addi : (⟨S1600000, .i32⟩ : BufTy).Contents (Elt F) → (⟨S1600000, .i32⟩ : BufTy).Contents (Elt F) → (⟨S1600000, .i32⟩ : BufTy).Contents (Elt F)),
    ternary main_v139 main_v141 main_v1 main_v142 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v142 main_v143 (broadcastInDim S1600000x1 ![0] bcast_S1600000_S1600000x1_0 : (⟨S1600000, .i32⟩ : BufTy).Contents (Elt F) → (⟨S1600000x1, .i32⟩ : BufTy).Contents (Elt F)),
    binary main_v10 main_v143 main_v144 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_27 (constantI S_ 32 0#32),
    unary main_c_27 main_v145 (broadcastInDim S1600000 ![] bcast_S_S1600000 : (⟨S_, .i32⟩ : BufTy).Contents (Elt F) → (⟨S1600000, .i32⟩ : BufTy).Contents (Elt F)),
    binary main_v3 main_v145 main_v146 (cmpi .slt : (⟨S1600000, .i32⟩ : BufTy).Contents (Elt F) → (⟨S1600000, .i32⟩ : BufTy).Contents (Elt F) → (⟨S1600000, .i1⟩ : BufTy).Contents (Elt F)),
    nullary main_c_28 (constantI S_ 32 100000#32),
    unary main_c_28 main_v147 (broadcastInDim S1600000 ![] bcast_S_S1600000 : (⟨S_, .i32⟩ : BufTy).Contents (Elt F) → (⟨S1600000, .i32⟩ : BufTy).Contents (Elt F)),
    binary main_v3 main_v147 main_v148 (addi : (⟨S1600000, .i32⟩ : BufTy).Contents (Elt F) → (⟨S1600000, .i32⟩ : BufTy).Contents (Elt F) → (⟨S1600000, .i32⟩ : BufTy).Contents (Elt F)) ]
/-- The buffers `cAgg3a` writes, in order. -/
abbrev cAgg3a_W : List (Ref sig .tc) := [main_c_25, main_v138, main_v139, main_c_26, main_v140, main_v141, main_v142, main_v143, main_v144, main_c_27, main_v145, main_v146, main_c_28, main_v147, main_v148]

/-- Operations 217 … 236 of 295: layer 3: the neighbour sum, the rest. -/
abbrev cAgg3b : List (HloOp τ sig (Elt F)) :=
  [ ternary main_v146 main_v148 main_v3 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v149 main_v150 (broadcastInDim S1600000x1 ![0] bcast_S1600000_S1600000x1_0 : (⟨S1600000, .i32⟩ : BufTy).Contents (Elt F) → (⟨S1600000x1, .i32⟩ : BufTy).Contents (Elt F)),
    binary main_v10 main_v150 main_v151 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v144 main_v151 main_v152 (mulf : (⟨S1600000, .f32⟩ : BufTy).Contents (Elt F) → (⟨S1600000, .f32⟩ : BufTy).Contents (Elt F) → (⟨S1600000, .f32⟩ : BufTy).Contents (Elt F)),
    nullary main_c_29 (constantI S_ 32 0#32),
    unary main_c_29 main_v153 (broadcastInDim S1600000 ![] bcast_S_S1600000 : (⟨S_, .i32⟩ : BufTy).Contents (Elt F) → (⟨S1600000, .i32⟩ : BufTy).Contents (Elt F)),
    binary main_v1 main_v153 main_v154 (cmpi .slt : (⟨S1600000, .i32⟩ : BufTy).Contents (Elt F) → (⟨S1600000, .i32⟩ : BufTy).Contents (Elt F) → (⟨S1600000, .i1⟩ : BufTy).Contents (Elt F)),
    nullary main_c_30 (constantI S_ 32 100000#32),
    unary main_c_30 main_v155 (broadcastInDim S1600000 ![] bcast_S_S1600000 : (⟨S_, .i32⟩ : BufTy).Contents (Elt F) → (⟨S1600000, .i32⟩ : BufTy).Contents (Elt F)),
    binary main_v1 main_v155 main_v156 (addi : (⟨S1600000, .i32⟩ : BufTy).Contents (Elt F) → (⟨S1600000, .i32⟩ : BufTy).Contents (Elt F) → (⟨S1600000, .i32⟩ : BufTy).Contents (Elt F)),
    ternary main_v154 main_v156 main_v1 main_v157 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v157 main_v158 (broadcastInDim S1600000x1 ![0] bcast_S1600000_S1600000x1_0 : (⟨S1600000, .i32⟩ : BufTy).Contents (Elt F) → (⟨S1600000x1, .i32⟩ : BufTy).Contents (Elt F)),
    binary main_v137 main_v158 main_v159 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v152 main_v160 (broadcastInDim S1600000x1 ![0] bcast_S1600000_S1600000x1_0 : (⟨S1600000, .f32⟩ : BufTy).Contents (Elt F) → (⟨S1600000x1, .f32⟩ : BufTy).Contents (Elt F)),
    unary main_v160 main_v161 (broadcastInDim S1600000x128 ![0, 1] bcast_S1600000x1_S1600000x128_0_1 : (⟨S1600000x1, .f32⟩ : BufTy).Contents (Elt F) → (⟨S1600000x128, .f32⟩ : BufTy).Contents (Elt F)),
    binary main_v159 main_v161 main_v162 (mulf : (⟨S1600000x128, .f32⟩ : BufTy).Contents (Elt F) → (⟨S1600000x128, .f32⟩ : BufTy).Contents (Elt F) → (⟨S1600000x128, .f32⟩ : BufTy).Contents (Elt F)),
    nullary main_cst_31 (constant S_ .f32 0x00000000#32),
    unary main_cst_31 main_v163 (broadcastInDim S100000x128 ![] bcast_S_S100000x128 : (⟨S_, .f32⟩ : BufTy).Contents (Elt F) → (⟨S100000x128, .f32⟩ : BufTy).Contents (Elt F)),
    unary main_v3 main_v164 (broadcastInDim S1600000x1 ![0] bcast_S1600000_S1600000x1_0 : (⟨S1600000, .i32⟩ : BufTy).Contents (Elt F) → (⟨S1600000x1, .i32⟩ : BufTy).Contents (Elt F)),
    ternary main_v163 main_v164 main_v162 main_v165 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]
/-- The buffers `cAgg3b` writes, in order. -/
abbrev cAgg3b_W : List (Ref sig .tc) := [main_v149, main_v150, main_v151, main_v152, main_c_29, main_v153, main_v154, main_c_30, main_v155, main_v156, main_v157, main_v158, main_v159, main_v160, main_v161, main_v162, main_cst_31, main_v163, main_v164, main_v165]

/-- Operations 237 … 244 of 295: layer 3: the self-loop term and the bias. -/
abbrev cPre3 : List (HloOp τ sig (Elt F)) :=
  [ binary main_v10 main_v10 main_v166 (mulf : (⟨S100000, .f32⟩ : BufTy).Contents (Elt F) → (⟨S100000, .f32⟩ : BufTy).Contents (Elt F) → (⟨S100000, .f32⟩ : BufTy).Contents (Elt F)),
    unary main_v166 main_v167 (broadcastInDim S100000x1 ![0] bcast_S100000_S100000x1_0 : (⟨S100000, .f32⟩ : BufTy).Contents (Elt F) → (⟨S100000x1, .f32⟩ : BufTy).Contents (Elt F)),
    unary main_v167 main_v168 (broadcastInDim S100000x128 ![0, 1] bcast_S100000x1_S100000x128_0_1 : (⟨S100000x1, .f32⟩ : BufTy).Contents (Elt F) → (⟨S100000x128, .f32⟩ : BufTy).Contents (Elt F)),
    binary main_v137 main_v168 main_v169 (mulf : (⟨S100000x128, .f32⟩ : BufTy).Contents (Elt F) → (⟨S100000x128, .f32⟩ : BufTy).Contents (Elt F) → (⟨S100000x128, .f32⟩ : BufTy).Contents (Elt F)),
    binary main_v165 main_v169 main_v170 (addf : (⟨S100000x128, .f32⟩ : BufTy).Contents (Elt F) → (⟨S100000x128, .f32⟩ : BufTy).Contents (Elt F) → (⟨S100000x128, .f32⟩ : BufTy).Contents (Elt F)),
    unary main_arg13 main_v171 (broadcastInDim S1x128 ![1] bcast_S128_S1x128_1 : (⟨S128, .f32⟩ : BufTy).Contents (Elt F) → (⟨S1x128, .f32⟩ : BufTy).Contents (Elt F)),
    unary main_v171 main_v172 (broadcastInDim S100000x128 ![0, 1] bcast_S1x128_S100000x128_0_1 : (⟨S1x128, .f32⟩ : BufTy).Contents (Elt F) → (⟨S100000x128, .f32⟩ : BufTy).Contents (Elt F)),
    binary main_v170 main_v172 main_v173 (addf : (⟨S100000x128, .f32⟩ : BufTy).Contents (Elt F) → (⟨S100000x128, .f32⟩ : BufTy).Contents (Elt F) → (⟨S100000x128, .f32⟩ : BufTy).Contents (Elt F)) ]
/-- The buffers `cPre3` writes, in order. -/
abbrev cPre3_W : List (Ref sig .tc) := [main_v166, main_v167, main_v168, main_v169, main_v170, main_v171, main_v172, main_v173]

/-- Operations 245 … 263 of 295: layer 3: the activation. -/
abbrev cSelu3 : List (HloOp τ sig (Elt F)) :=
  [ TRef.nullary main_call2.cst (constant S_ .f32 0x3FD62D7D#32),
    TRef.nullary main_call2.call0.cst (constant S_ .f32 0x00000000#32),
    TRef.unary main_call2.call0.cst main_call2.call0.v0 (broadcastInDim S100000x128 ![] bcast_S_S100000x128),
    TRef.binary (.of main_v173) main_call2.call0.v0 main_call2.call0.v1 (cmpf .ogt),
    TRef.nullary main_call2.call0.cst_0 (constant S_ .f32 0x00000000#32),
    TRef.unary main_call2.call0.cst_0 main_call2.call0.v2 (broadcastInDim S100000x128 ![] bcast_S_S100000x128),
    TRef.binary (.of main_v173) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S100000x128 ![] bcast_S_S100000x128),
    TRef.ternary main_call2.call0.v3 main_call2.call0.call0.v1 (.of main_v173) main_call2.call0.call0.v2 select,
    TRef.unary main_call2.call0.call0.v2 main_call2.call0.v5 Host.expm1,
    TRef.unary main_call2.cst main_call2.call0.v6 id,
    TRef.unary main_call2.call0.v6 main_call2.call0.v7 (broadcastInDim S100000x128 ![] bcast_S_S100000x128),
    TRef.binary main_call2.call0.v7 main_call2.call0.v5 main_call2.call0.v8 mulf,
    TRef.ternary main_call2.call0.v1 (.of main_v173) main_call2.call0.v8 main_call2.call0.call1.v0 select,
    TRef.nullary main_call2.cst_0 (constant S_ .f32 0x3F867D5F#32),
    TRef.unary main_call2.cst_0 main_call2.v1 (broadcastInDim S100000x128 ![] bcast_S_S100000x128),
    TRef.binary main_call2.v1 main_call2.call0.call1.v0 main_call2.v2 mulf ]
/-- The buffers `cSelu3` writes, in order. -/
abbrev cSelu3_W : List (Ref sig .tc) := [main_call2_cst, main_call2_call0_cst, main_call2_call0_v0, main_call2_call0_v1, main_call2_call0_cst_0, main_call2_call0_v2, main_call2_call0_v3, main_call2_call0_cst_1, main_call2_call0_call0_v0, main_call2_call0_call0_v1, main_call2_call0_v4, main_call2_call0_v5, main_call2_call0_v6, main_call2_call0_v7, main_call2_call0_v8, main_call2_v0, main_call2_cst_0, main_call2_v1, main_v174]

/-- Operations 264 … 267 of 295: the sum over each graph's nodes. -/
abbrev cPool : List (HloOp τ sig (Elt F)) :=
  [ nullary main_cst_32 (constant S_ .f32 0x00000000#32),
    unary main_cst_32 main_v175 (broadcastInDim S2048x128 ![] bcast_S_S2048x128 : (⟨S_, .f32⟩ : BufTy).Contents (Elt F) → (⟨S2048x128, .f32⟩ : BufTy).Contents (Elt F)),
    unary main_arg2 main_v176 (broadcastInDim S100000x1 ![0] bcast_S100000_S100000x1_0 : (⟨S100000, .i32⟩ : BufTy).Contents (Elt F) → (⟨S100000x1, .i32⟩ : BufTy).Contents (Elt F)),
    ternary main_v175 main_v176 main_v174 main_v177 ((fun x i u => Host.scatterAdd scatter_S2048x128_S100000x1_S100000x128_1_0_0_1 x i u) : (⟨S2048x128, .f32⟩ : BufTy).Contents (Elt F) → (⟨S100000x1, .i32⟩ : BufTy).Contents (Elt F) → (⟨S100000x128, .f32⟩ : BufTy).Contents (Elt F) → (⟨S2048x128, .f32⟩ : BufTy).Contents (Elt F)) ]
/-- The buffers `cPool` writes, in order. -/
abbrev cPool_W : List (Ref sig .tc) := [main_cst_32, main_v175, main_v176, main_v177]

/-- Operations 268 … 272 of 295: the concatenation with the molecule features, the first dense layer and its bias. -/
abbrev cHead1 : List (HloOp τ sig (Elt F)) :=
  [ binary main_v177 main_arg3 main_v178 ((fun a b => concatenate S2048x192 1 [⟨S2048x128, a⟩, ⟨S2048x64, b⟩] concatenates_S2048x128_S2048x64_S2048x192_d1) : (⟨S2048x128, .f32⟩ : BufTy).Contents (Elt F) → (⟨S2048x64, .f32⟩ : BufTy).Contents (Elt F) → (⟨S2048x192, .f32⟩ : BufTy).Contents (Elt F)),
    binary main_v178 main_arg14 main_v179 ((fun l r => Host.dotGeneral dot_S2048x192_S192x128_S2048x128_1_0_0_1_n_n none l r) : (⟨S2048x192, .f32⟩ : BufTy).Contents (Elt F) → (⟨S192x128, .f32⟩ : BufTy).Contents (Elt F) → (⟨S2048x128, .f32⟩ : BufTy).Contents (Elt F)),
    unary main_arg15 main_v180 (broadcastInDim S1x128 ![1] bcast_S128_S1x128_1 : (⟨S128, .f32⟩ : BufTy).Contents (Elt F) → (⟨S1x128, .f32⟩ : BufTy).Contents (Elt F)),
    unary main_v180 main_v181 (broadcastInDim S2048x128 ![0, 1] bcast_S1x128_S2048x128_0_1 : (⟨S1x128, .f32⟩ : BufTy).Contents (Elt F) → (⟨S2048x128, .f32⟩ : BufTy).Contents (Elt F)),
    binary main_v179 main_v181 main_v182 (addf : (⟨S2048x128, .f32⟩ : BufTy).Contents (Elt F) → (⟨S2048x128, .f32⟩ : BufTy).Contents (Elt F) → (⟨S2048x128, .f32⟩ : BufTy).Contents (Elt F)) ]
/-- The buffers `cHead1` writes, in order. -/
abbrev cHead1_W : List (Ref sig .tc) := [main_v178, main_v179, main_v180, main_v181, main_v182]

/-- Operations 273 … 291 of 295: the head's activation. -/
abbrev cSelu4 : List (HloOp τ sig (Elt F)) :=
  [ TRef.nullary main_call3.cst (constant S_ .f32 0x3FD62D7D#32),
    TRef.nullary main_call3.call0.cst (constant S_ .f32 0x00000000#32),
    TRef.unary main_call3.call0.cst main_call3.call0.v0 (broadcastInDim S2048x128 ![] bcast_S_S2048x128),
    TRef.binary (.of main_v182) main_call3.call0.v0 main_call3.call0.v1 (cmpf .ogt),
    TRef.nullary main_call3.call0.cst_0 (constant S_ .f32 0x00000000#32),
    TRef.unary main_call3.call0.cst_0 main_call3.call0.v2 (broadcastInDim S2048x128 ![] bcast_S_S2048x128),
    TRef.binary (.of main_v182) main_call3.call0.v2 main_call3.call0.v3 (cmpf .ogt),
    TRef.nullary main_call3.call0.cst_1 (constant S_ .f32 0x00000000#32),
    TRef.unary main_call3.call0.cst_1 main_call3.call0.call0.v0 id,
    TRef.unary main_call3.call0.call0.v0 main_call3.call0.call0.v1 (broadcastInDim S2048x128 ![] bcast_S_S2048x128),
    TRef.ternary main_call3.call0.v3 main_call3.call0.call0.v1 (.of main_v182) main_call3.call0.call0.v2 select,
    TRef.unary main_call3.call0.call0.v2 main_call3.call0.v5 Host.expm1,
    TRef.unary main_call3.cst main_call3.call0.v6 id,
    TRef.unary main_call3.call0.v6 main_call3.call0.v7 (broadcastInDim S2048x128 ![] bcast_S_S2048x128),
    TRef.binary main_call3.call0.v7 main_call3.call0.v5 main_call3.call0.v8 mulf,
    TRef.ternary main_call3.call0.v1 (.of main_v182) main_call3.call0.v8 main_call3.call0.call1.v0 select,
    TRef.nullary main_call3.cst_0 (constant S_ .f32 0x3F867D5F#32),
    TRef.unary main_call3.cst_0 main_call3.v1 (broadcastInDim S2048x128 ![] bcast_S_S2048x128),
    TRef.binary main_call3.v1 main_call3.call0.call1.v0 main_call3.v2 mulf ]
/-- The buffers `cSelu4` writes, in order. -/
abbrev cSelu4_W : List (Ref sig .tc) := [main_call3_cst, main_call3_call0_cst, main_call3_call0_v0, main_call3_call0_v1, main_call3_call0_cst_0, main_call3_call0_v2, main_call3_call0_v3, main_call3_call0_cst_1, main_call3_call0_call0_v0, main_call3_call0_call0_v1, main_call3_call0_v4, main_call3_call0_v5, main_call3_call0_v6, main_call3_call0_v7, main_call3_call0_v8, main_call3_v0, main_call3_cst_0, main_call3_v1, main_v183]

/-- Operations 292 … 295 of 295: the second dense layer and its bias. -/
abbrev cHead2 : List (HloOp τ sig (Elt F)) :=
  [ binary main_v183 main_arg16 main_v184 ((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F)),
    unary main_arg17 main_v185 (broadcastInDim S1x1 ![1] bcast_S1_S1x1_1 : (⟨S1, .f32⟩ : BufTy).Contents (Elt F) → (⟨S1x1, .f32⟩ : BufTy).Contents (Elt F)),
    unary main_v185 main_v186 (broadcastInDim S2048x1 ![0, 1] bcast_S1x1_S2048x1_0_1 : (⟨S1x1, .f32⟩ : BufTy).Contents (Elt F) → (⟨S2048x1, .f32⟩ : BufTy).Contents (Elt F)),
    binary main_v184 main_v186 main_v187 (addf : (⟨S2048x1, .f32⟩ : BufTy).Contents (Elt F) → (⟨S2048x1, .f32⟩ : BufTy).Contents (Elt F) → (⟨S2048x1, .f32⟩ : BufTy).Contents (Elt F)) ]
/-- The buffers `cHead2` writes, in order. -/
abbrev cHead2_W : List (Ref sig .tc) := [main_v184, main_v185, main_v186, main_v187]

/-! ## The pieces in a row

`tailK` is the line from piece `K` on, `tailK_W` the buffers it writes; `ops` is the whole line. -/

abbrev tail22 : List (HloOp τ sig (Elt F)) := []
abbrev tail22_W : List (Ref sig .tc) := []
abbrev tail21 : List (HloOp τ sig (Elt F)) := cHead2 ++ tail22
abbrev tail21_W : List (Ref sig .tc) := cHead2_W ++ tail22_W
abbrev tail20 : List (HloOp τ sig (Elt F)) := cSelu4 ++ tail21
abbrev tail20_W : List (Ref sig .tc) := cSelu4_W ++ tail21_W
abbrev tail19 : List (HloOp τ sig (Elt F)) := cHead1 ++ tail20
abbrev tail19_W : List (Ref sig .tc) := cHead1_W ++ tail20_W
abbrev tail18 : List (HloOp τ sig (Elt F)) := cPool ++ tail19
abbrev tail18_W : List (Ref sig .tc) := cPool_W ++ tail19_W
abbrev tail17 : List (HloOp τ sig (Elt F)) := cSelu3 ++ tail18
abbrev tail17_W : List (Ref sig .tc) := cSelu3_W ++ tail18_W
abbrev tail16 : List (HloOp τ sig (Elt F)) := cPre3 ++ tail17
abbrev tail16_W : List (Ref sig .tc) := cPre3_W ++ tail17_W
abbrev tail15 : List (HloOp τ sig (Elt F)) := cAgg3b ++ tail16
abbrev tail15_W : List (Ref sig .tc) := cAgg3b_W ++ tail16_W
abbrev tail14 : List (HloOp τ sig (Elt F)) := cAgg3a ++ tail15
abbrev tail14_W : List (Ref sig .tc) := cAgg3a_W ++ tail15_W
abbrev tail13 : List (HloOp τ sig (Elt F)) := cXw3 ++ tail14
abbrev tail13_W : List (Ref sig .tc) := cXw3_W ++ tail14_W
abbrev tail12 : List (HloOp τ sig (Elt F)) := cBn2 ++ tail13
abbrev tail12_W : List (Ref sig .tc) := cBn2_W ++ tail13_W
abbrev tail11 : List (HloOp τ sig (Elt F)) := cSelu2 ++ tail12
abbrev tail11_W : List (Ref sig .tc) := cSelu2_W ++ tail12_W
abbrev tail10 : List (HloOp τ sig (Elt F)) := cPre2 ++ tail11
abbrev tail10_W : List (Ref sig .tc) := cPre2_W ++ tail11_W
abbrev tail9 : List (HloOp τ sig (Elt F)) := cAgg2b ++ tail10
abbrev tail9_W : List (Ref sig .tc) := cAgg2b_W ++ tail10_W
abbrev tail8 : List (HloOp τ sig (Elt F)) := cAgg2a ++ tail9
abbrev tail8_W : List (Ref sig .tc) := cAgg2a_W ++ tail9_W
abbrev tail7 : List (HloOp τ sig (Elt F)) := cXw2 ++ tail8
abbrev tail7_W : List (Ref sig .tc) := cXw2_W ++ tail8_W
abbrev tail6 : List (HloOp τ sig (Elt F)) := cBn1b ++ tail7
abbrev tail6_W : List (Ref sig .tc) := cBn1b_W ++ tail7_W
abbrev tail5 : List (HloOp τ sig (Elt F)) := cBn1a ++ tail6
abbrev tail5_W : List (Ref sig .tc) := cBn1a_W ++ tail6_W
abbrev tail4 : List (HloOp τ sig (Elt F)) := cSelu1 ++ tail5
abbrev tail4_W : List (Ref sig .tc) := cSelu1_W ++ tail5_W
abbrev tail3 : List (HloOp τ sig (Elt F)) := cPre1 ++ tail4
abbrev tail3_W : List (Ref sig .tc) := cPre1_W ++ tail4_W
abbrev tail2 : List (HloOp τ sig (Elt F)) := cAgg1 ++ tail3
abbrev tail2_W : List (Ref sig .tc) := cAgg1_W ++ tail3_W
abbrev tail1 : List (HloOp τ sig (Elt F)) := cXw1 ++ tail2
abbrev tail1_W : List (Ref sig .tc) := cXw1_W ++ tail2_W
abbrev tail0 : List (HloOp τ sig (Elt F)) := cS0 ++ tail1
abbrev tail0_W : List (Ref sig .tc) := cS0_W ++ tail1_W

/-- @main's 295 operations, in order, the calls unfolded. -/
abbrev ops : List (HloOp τ sig (Elt F)) := tail0

/-! ## The printed windows of @main as rows of pieces -/

/-- The operations of @main's window 0. -/
abbrev win0 : List (HloOp τ sig (Elt F)) := cS0 ++ (cXw1 ++ (cAgg1 ++ (cPre1 ++ (cSelu1 ++ (cBn1a)))))
/-- The operations of @main's window 1. -/
abbrev win1 : List (HloOp τ sig (Elt F)) := cBn1b ++ (cXw2 ++ (cAgg2a))
/-- The operations of @main's window 2. -/
abbrev win2 : List (HloOp τ sig (Elt F)) := cAgg2b ++ (cPre2 ++ (cSelu2 ++ (cBn2 ++ (cXw3 ++ (cAgg3a)))))
/-- The operations of @main's window 3. -/
abbrev win3 : List (HloOp τ sig (Elt F)) := cAgg3b ++ (cPre3 ++ (cSelu3 ++ (cPool ++ (cHead1 ++ (cSelu4 ++ (cHead2))))))

end Cert.ReferenceIdeal.RefRun

end
-- ==== Proof.RefRunLib.lean ====
import Idealize.ShloMosaic.Lib.StableHlo.Run

/-! Small facts about a straight line of host operations cut into consecutive pieces: the fold over a
concatenation is the folds in turn, and a property of every operation of two pieces is one of their
concatenation (for "writes only these buffers" with the two lists of buffers concatenated). -/

namespace Cert.ReferenceIdeal.RefRun

open Idealize.ShloMosaic Idealize.ShloMosaic.StableHlo

variable {τ : Topo} {sig : RefSig} {Val : EltTy → Type}

/-- The contents after two lines run one after the other: the second's fold over the first's. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A property of every element of two lists holds of every element of their concatenation. -/
theorem forall_app {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- If the first line writes only buffers of `W₁` and the second only buffers of `W₂`, the two in a row write
    only buffers of `W₁ ++ W₂`. -/
theorem forall_writes_app {l₁ l₂ : List (HloOp τ sig Val)} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  have e : ((W₁ ++ W₂).map (Proc.devRef (τ := τ) .tc)).toFinset
      = (W₁.map (Proc.devRef (τ := τ) .tc)).toFinset ∪ (W₂.map (Proc.devRef (τ := τ) .tc)).toFinset := by
    rw [List.map_append, List.toFinset_append]
  rw [e]
  exact forall_app (h₁.imp fun _ h => h.trans Finset.subset_union_left)
    (h₂.imp fun _ h => h.trans Finset.subset_union_right)

/-- The empty line writes nothing. -/
theorem forall_writes_nil :
    ([] : List (HloOp τ sig Val)).Forall fun op => op.writes ⊆ (([] : List (Ref sig .tc)).map (Proc.devRef (τ := τ) .tc)).toFinset :=
  trivial

/-- A property of every element of a list, as a statement about its members. -/
theorem mem_of_forall {α : Type} {p : α → Prop} {l : List α} (h : l.Forall p) : ∀ x ∈ l, p x :=
  List.forall_iff_forall_mem.mp h

end Cert.ReferenceIdeal.RefRun
-- ==== Proof.RefRunMain.lean ====
import proofs.«162488_j80401787781187_1_alg».proof.Proof.RefRunOps
import proofs.«162488_j80401787781187_1_alg».proof.Proof.RefRunLib

/-! @main IS the straight line `ops`, and its run: every weakly fair execution terminates with each buffer at the
fold of the 295 operations over the launch contents. @main is printed in four windows; each window is the row of its
pieces (a window that makes a call: the called functions unfolded and the sequencing reassociated), and four rows in a
row are the whole line. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Every operation names TensorCore buffers only, and determines its results -/

theorem cS0_sub : (cS0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem cS0_fresh : (cS0 : List (HloOp τ sig (Elt F))).Forall fun op => op.fresh = ∅ :=
  ⟨rfl, rfl, rfl, rfl, rfl, rfl, rfl, rfl, rfl, rfl, rfl, rfl, rfl, rfl⟩
theorem cXw1_sub : (cXw1 : List (HloOp τ sig (Elt F))).Forall fun op => op.bufs ⊆ tcRefs τ sig :=
  binary_bufs_sub ..
theorem cXw1_fresh : (cXw1 : List (HloOp τ sig (Elt F))).Forall fun op => op.fresh = ∅ :=
  rfl
theorem cAgg1_sub : (cAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem cAgg1_fresh : (cAgg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem cPre1_sub : (cPre1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem cPre1_fresh : (cPre1 : List (HloOp τ sig (Elt F))).Forall fun op => op.fresh = ∅ :=
  ⟨rfl, rfl, rfl, rfl, rfl, rfl, rfl, rfl⟩
theorem cSelu1_sub : (cSelu1 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem cSelu1_fresh : (cSelu1 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem cBn1a_sub : (cBn1a : List (HloOp τ sig (Elt F))).Forall fun op => op.bufs ⊆ tcRefs τ sig :=
  nullary_bufs_sub ..
theorem cBn1a_fresh : (cBn1a : List (HloOp τ sig (Elt F))).Forall fun op => op.fresh = ∅ :=
  rfl
theorem cBn1b_sub : (cBn1b : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem cBn1b_fresh : (cBn1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem cXw2_sub : (cXw2 : List (HloOp τ sig (Elt F))).Forall fun op => op.bufs ⊆ tcRefs τ sig :=
  binary_bufs_sub ..
theorem cXw2_fresh : (cXw2 : List (HloOp τ sig (Elt F))).Forall fun op => op.fresh = ∅ :=
  rfl
theorem cAgg2a_sub : (cAgg2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩
theorem cAgg2a_fresh : (cAgg2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem cAgg2b_sub : (cAgg2b : List (HloOp τ sig (Elt F))).Forall fun op => op.bufs ⊆ tcRefs τ sig :=
  ⟨binary_bufs_sub .., nullary_bufs_sub .., unary_bufs_sub .., unary_bufs_sub .., ternary_bufs_sub ..⟩
theorem cAgg2b_fresh : (cAgg2b : List (HloOp τ sig (Elt F))).Forall fun op => op.fresh = ∅ :=
  ⟨rfl, rfl, rfl, rfl, rfl⟩
theorem cPre2_sub : (cPre2 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem cPre2_fresh : (cPre2 : List (HloOp τ sig (Elt F))).Forall fun op => op.fresh = ∅ :=
  ⟨rfl, rfl, rfl, rfl, rfl, rfl, rfl, rfl⟩
theorem cSelu2_sub : (cSelu2 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem cSelu2_fresh : (cSelu2 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem cBn2_sub : (cBn2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem cBn2_fresh : (cBn2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem cXw3_sub : (cXw3 : List (HloOp τ sig (Elt F))).Forall fun op => op.bufs ⊆ tcRefs τ sig :=
  binary_bufs_sub ..
theorem cXw3_fresh : (cXw3 : List (HloOp τ sig (Elt F))).Forall fun op => op.fresh = ∅ :=
  rfl
theorem cAgg3a_sub : (cAgg3a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub ..⟩
theorem cAgg3a_fresh : (cAgg3a : List (HloOp τ sig (Elt F))).Forall fun op => op.fresh = ∅ :=
  ⟨rfl, rfl, rfl, rfl, rfl, rfl, rfl, rfl, rfl, rfl, rfl, rfl, rfl, rfl, rfl⟩
theorem cAgg3b_sub : (cAgg3b : List (HloOp τ sig (Elt F))).Forall fun op => op.bufs ⊆ tcRefs τ sig :=
  ⟨ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem cAgg3b_fresh : (cAgg3b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem cPre3_sub : (cPre3 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem cPre3_fresh : (cPre3 : List (HloOp τ sig (Elt F))).Forall fun op => op.fresh = ∅ :=
  ⟨rfl, rfl, rfl, rfl, rfl, rfl, rfl, rfl⟩
theorem cSelu3_sub : (cSelu3 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem cSelu3_fresh : (cSelu3 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem cPool_sub : (cPool : List (HloOp τ sig (Elt F))).Forall fun op => op.bufs ⊆ tcRefs τ sig :=
  ⟨nullary_bufs_sub .., unary_bufs_sub .., unary_bufs_sub .., ternary_bufs_sub ..⟩
theorem cPool_fresh : (cPool : List (HloOp τ sig (Elt F))).Forall fun op => op.fresh = ∅ :=
  ⟨rfl, rfl, rfl, rfl⟩
theorem cHead1_sub : (cHead1 : List (HloOp τ sig (Elt F))).Forall fun op => op.bufs ⊆ tcRefs τ sig :=
  ⟨binary_bufs_sub .., binary_bufs_sub .., unary_bufs_sub .., unary_bufs_sub .., binary_bufs_sub ..⟩
theorem cHead1_fresh : (cHead1 : List (HloOp τ sig (Elt F))).Forall fun op => op.fresh = ∅ :=
  ⟨rfl, rfl, rfl, rfl, rfl⟩
theorem cSelu4_sub : (cSelu4 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
theorem cSelu4_fresh : (cSelu4 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem cHead2_sub : (cHead2 : List (HloOp τ sig (Elt F))).Forall fun op => op.bufs ⊆ tcRefs τ sig :=
  ⟨binary_bufs_sub .., unary_bufs_sub .., unary_bufs_sub .., binary_bufs_sub ..⟩
theorem cHead2_fresh : (cHead2 : List (HloOp τ sig (Elt F))).Forall fun op => op.fresh = ∅ :=
  ⟨rfl, rfl, rfl, rfl⟩

theorem tail22_sub : (tail22 : List (HloOp τ sig (Elt F))).Forall fun op => op.bufs ⊆ tcRefs τ sig := trivial
theorem tail22_fresh : (tail22 : List (HloOp τ sig (Elt F))).Forall fun op => op.fresh = ∅ := trivial
theorem tail21_sub : (tail21 : List (HloOp τ sig (Elt F))).Forall fun op => op.bufs ⊆ tcRefs τ sig := forall_app cHead2_sub tail22_sub
theorem tail21_fresh : (tail21 : List (HloOp τ sig (Elt F))).Forall fun op => op.fresh = ∅ := forall_app cHead2_fresh tail22_fresh
theorem tail20_sub : (tail20 : List (HloOp τ sig (Elt F))).Forall fun op => op.bufs ⊆ tcRefs τ sig := forall_app cSelu4_sub tail21_sub
theorem tail20_fresh : (tail20 : List (HloOp τ sig (Elt F))).Forall fun op => op.fresh = ∅ := forall_app cSelu4_fresh tail21_fresh
theorem tail19_sub : (tail19 : List (HloOp τ sig (Elt F))).Forall fun op => op.bufs ⊆ tcRefs τ sig := forall_app cHead1_sub tail20_sub
theorem tail19_fresh : (tail19 : List (HloOp τ sig (Elt F))).Forall fun op => op.fresh = ∅ := forall_app cHead1_fresh tail20_fresh
theorem tail18_sub : (tail18 : List (HloOp τ sig (Elt F))).Forall fun op => op.bufs ⊆ tcRefs τ sig := forall_app cPool_sub tail19_sub
theorem tail18_fresh : (tail18 : List (HloOp τ sig (Elt F))).Forall fun op => op.fresh = ∅ := forall_app cPool_fresh tail19_fresh
theorem tail17_sub : (tail17 : List (HloOp τ sig (Elt F))).Forall fun op => op.bufs ⊆ tcRefs τ sig := forall_app cSelu3_sub tail18_sub
theorem tail17_fresh : (tail17 : List (HloOp τ sig (Elt F))).Forall fun op => op.fresh = ∅ := forall_app cSelu3_fresh tail18_fresh
theorem tail16_sub : (tail16 : List (HloOp τ sig (Elt F))).Forall fun op => op.bufs ⊆ tcRefs τ sig := forall_app cPre3_sub tail17_sub
theorem tail16_fresh : (tail16 : List (HloOp τ sig (Elt F))).Forall fun op => op.fresh = ∅ := forall_app cPre3_fresh tail17_fresh
theorem tail15_sub : (tail15 : List (HloOp τ sig (Elt F))).Forall fun op => op.bufs ⊆ tcRefs τ sig := forall_app cAgg3b_sub tail16_sub
theorem tail15_fresh : (tail15 : List (HloOp τ sig (Elt F))).Forall fun op => op.fresh = ∅ := forall_app cAgg3b_fresh tail16_fresh
theorem tail14_sub : (tail14 : List (HloOp τ sig (Elt F))).Forall fun op => op.bufs ⊆ tcRefs τ sig := forall_app cAgg3a_sub tail15_sub
theorem tail14_fresh : (tail14 : List (HloOp τ sig (Elt F))).Forall fun op => op.fresh = ∅ := forall_app cAgg3a_fresh tail15_fresh
theorem tail13_sub : (tail13 : List (HloOp τ sig (Elt F))).Forall fun op => op.bufs ⊆ tcRefs τ sig := forall_app cXw3_sub tail14_sub
theorem tail13_fresh : (tail13 : List (HloOp τ sig (Elt F))).Forall fun op => op.fresh = ∅ := forall_app cXw3_fresh tail14_fresh
theorem tail12_sub : (tail12 : List (HloOp τ sig (Elt F))).Forall fun op => op.bufs ⊆ tcRefs τ sig := forall_app cBn2_sub tail13_sub
theorem tail12_fresh : (tail12 : List (HloOp τ sig (Elt F))).Forall fun op => op.fresh = ∅ := forall_app cBn2_fresh tail13_fresh
theorem tail11_sub : (tail11 : List (HloOp τ sig (Elt F))).Forall fun op => op.bufs ⊆ tcRefs τ sig := forall_app cSelu2_sub tail12_sub
theorem tail11_fresh : (tail11 : List (HloOp τ sig (Elt F))).Forall fun op => op.fresh = ∅ := forall_app cSelu2_fresh tail12_fresh
theorem tail10_sub : (tail10 : List (HloOp τ sig (Elt F))).Forall fun op => op.bufs ⊆ tcRefs τ sig := forall_app cPre2_sub tail11_sub
theorem tail10_fresh : (tail10 : List (HloOp τ sig (Elt F))).Forall fun op => op.fresh = ∅ := forall_app cPre2_fresh tail11_fresh
theorem tail9_sub : (tail9 : List (HloOp τ sig (Elt F))).Forall fun op => op.bufs ⊆ tcRefs τ sig := forall_app cAgg2b_sub tail10_sub
theorem tail9_fresh : (tail9 : List (HloOp τ sig (Elt F))).Forall fun op => op.fresh = ∅ := forall_app cAgg2b_fresh tail10_fresh
theorem tail8_sub : (tail8 : List (HloOp τ sig (Elt F))).Forall fun op => op.bufs ⊆ tcRefs τ sig := forall_app cAgg2a_sub tail9_sub
theorem tail8_fresh : (tail8 : List (HloOp τ sig (Elt F))).Forall fun op => op.fresh = ∅ := forall_app cAgg2a_fresh tail9_fresh
theorem tail7_sub : (tail7 : List (HloOp τ sig (Elt F))).Forall fun op => op.bufs ⊆ tcRefs τ sig := forall_app cXw2_sub tail8_sub
theorem tail7_fresh : (tail7 : List (HloOp τ sig (Elt F))).Forall fun op => op.fresh = ∅ := forall_app cXw2_fresh tail8_fresh
theorem tail6_sub : (tail6 : List (HloOp τ sig (Elt F))).Forall fun op => op.bufs ⊆ tcRefs τ sig := forall_app cBn1b_sub tail7_sub
theorem tail6_fresh : (tail6 : List (HloOp τ sig (Elt F))).Forall fun op => op.fresh = ∅ := forall_app cBn1b_fresh tail7_fresh
theorem tail5_sub : (tail5 : List (HloOp τ sig (Elt F))).Forall fun op => op.bufs ⊆ tcRefs τ sig := forall_app cBn1a_sub tail6_sub
theorem tail5_fresh : (tail5 : List (HloOp τ sig (Elt F))).Forall fun op => op.fresh = ∅ := forall_app cBn1a_fresh tail6_fresh
theorem tail4_sub : (tail4 : List (HloOp τ sig (Elt F))).Forall fun op => op.bufs ⊆ tcRefs τ sig := forall_app cSelu1_sub tail5_sub
theorem tail4_fresh : (tail4 : List (HloOp τ sig (Elt F))).Forall fun op => op.fresh = ∅ := forall_app cSelu1_fresh tail5_fresh
theorem tail3_sub : (tail3 : List (HloOp τ sig (Elt F))).Forall fun op => op.bufs ⊆ tcRefs τ sig := forall_app cPre1_sub tail4_sub
theorem tail3_fresh : (tail3 : List (HloOp τ sig (Elt F))).Forall fun op => op.fresh = ∅ := forall_app cPre1_fresh tail4_fresh
theorem tail2_sub : (tail2 : List (HloOp τ sig (Elt F))).Forall fun op => op.bufs ⊆ tcRefs τ sig := forall_app cAgg1_sub tail3_sub
theorem tail2_fresh : (tail2 : List (HloOp τ sig (Elt F))).Forall fun op => op.fresh = ∅ := forall_app cAgg1_fresh tail3_fresh
theorem tail1_sub : (tail1 : List (HloOp τ sig (Elt F))).Forall fun op => op.bufs ⊆ tcRefs τ sig := forall_app cXw1_sub tail2_sub
theorem tail1_fresh : (tail1 : List (HloOp τ sig (Elt F))).Forall fun op => op.fresh = ∅ := forall_app cXw1_fresh tail2_fresh
theorem tail0_sub : (tail0 : List (HloOp τ sig (Elt F))).Forall fun op => op.bufs ⊆ tcRefs τ sig := forall_app cS0_sub tail1_sub
theorem tail0_fresh : (tail0 : List (HloOp τ sig (Elt F))).Forall fun op => op.fresh = ∅ := forall_app cS0_fresh tail1_fresh

theorem ops_sub : (ops : List (HloOp τ sig (Elt F))).Forall fun op => op.bufs ⊆ tcRefs τ sig := tail0_sub
theorem ops_fresh : ∀ op ∈ (ops : List (HloOp τ sig (Elt F))), op.fresh = ∅ := mem_of_forall tail0_fresh

/-! ## The windows -/

set_option maxRecDepth 65536 in
set_option maxHeartbeats 4000000 in
/-- Window 0 of @main is the row of its pieces: the called functions unfolded at their calls, the sequencing reassociated. -/
theorem main_part0_eq (c : Dev nD) : main_part0 (F := F) c = seq (win0 : List (HloOp τ sig (Elt F))) := by
  simp only [main_part0, fn_selu.body, fn_elu.body, fn_where.body, fn_where_0.body, bind_assoc, pure_bind]
  rfl

set_option maxRecDepth 65536 in
set_option maxHeartbeats 4000000 in
/-- Window 1 of @main is the row of its pieces. -/
theorem main_part1_eq (c : Dev nD) : main_part1 (F := F) c = seq (win1 : List (HloOp τ sig (Elt F))) := rfl

set_option maxRecDepth 65536 in
set_option maxHeartbeats 4000000 in
/-- Window 2 of @main is the row of its pieces: the called functions unfolded at their calls, the sequencing reassociated. -/
theorem main_part2_eq (c : Dev nD) : main_part2 (F := F) c = seq (win2 : List (HloOp τ sig (Elt F))) := by
  simp only [main_part2, fn_selu.body, fn_elu.body, fn_where.body, fn_where_0.body, bind_assoc, pure_bind]
  rfl

set_option maxRecDepth 65536 in
set_option maxHeartbeats 4000000 in
/-- Window 3 of @main is the row of its pieces: the called functions unfolded at their calls, the sequencing reassociated. -/
theorem main_part3_eq (c : Dev nD) : main_part3 (F := F) c = seq (win3 : List (HloOp τ sig (Elt F))) := by
  simp only [main_part3, fn_selu.body, fn_elu.body, fn_where.body, fn_where_0.body, fn_selu_1.body, fn_elu_2.body, fn_where_3.body, fn_where_4.body, bind_assoc, pure_bind]
  rfl

/-- The whole line is the four windows in a row. -/
theorem ops_windows : (ops : List (HloOp τ sig (Elt F))) = win0 ++ (win1 ++ (win2 ++ win3)) := by
  simp only [ops, tail0, tail1, tail2, tail3, tail4, tail5, tail6, tail7, tail8, tail9, tail10, tail11, tail12, tail13, tail14, tail15, tail16, tail17, tail18, tail19, tail20, tail21, tail22, win0, win1, win2, win3, List.append_assoc, List.append_nil]

set_option maxRecDepth 65536 in
/-- @main is the straight line of its operations. -/
theorem main_eq (c : Dev nD) : main (F := F) c = seq (ops : List (HloOp τ sig (Elt F))) := by
  rw [ops_windows]
  simp only [seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunKeep.lean ====
import proofs.«162488_j80401787781187_1_alg».proof.Proof.RefRunOps
import proofs.«162488_j80401787781187_1_alg».proof.Proof.RefRunLib

/-! Which buffers the line writes, piece by piece, and what follows: a buffer keeps its contents through every later
piece that does not write it. Each operation writes one buffer, its result's; the pieces' buffers are listed in
`RefRunOps` (`‹piece›_W`), and membership in such a list is decided. `UK V` is the contents after the first `K`
pieces from contents `V`; the whole line from `V` is the line from piece `K` on from `UK V`. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each piece writes only its own buffers -/

theorem cS0_writes : (cS0 : List (HloOp τ sig (Elt F))).Forall fun op => op.writes ⊆ ((cS0_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cXw1_writes : (cXw1 : List (HloOp τ sig (Elt F))).Forall fun op => op.writes ⊆ ((cXw1_W).map (Proc.devRef (τ := τ) .tc)).toFinset :=
  Finset.singleton_subset_iff.mpr (List.mem_toFinset.mpr (List.mem_map_of_mem (by decide)))
theorem cAgg1_writes : (cAgg1 : List (HloOp τ sig (Elt F))).Forall fun op => op.writes ⊆ ((cAgg1_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cPre1_writes : (cPre1 : List (HloOp τ sig (Elt F))).Forall fun op => op.writes ⊆ ((cPre1_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cSelu1_writes : (cSelu1 : List (HloOp τ sig (Elt F))).Forall fun op => op.writes ⊆ ((cSelu1_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cBn1a_writes : (cBn1a : List (HloOp τ sig (Elt F))).Forall fun op => op.writes ⊆ ((cBn1a_W).map (Proc.devRef (τ := τ) .tc)).toFinset :=
  Finset.singleton_subset_iff.mpr (List.mem_toFinset.mpr (List.mem_map_of_mem (by decide)))
theorem cBn1b_writes : (cBn1b : List (HloOp τ sig (Elt F))).Forall fun op => op.writes ⊆ ((cBn1b_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cXw2_writes : (cXw2 : List (HloOp τ sig (Elt F))).Forall fun op => op.writes ⊆ ((cXw2_W).map (Proc.devRef (τ := τ) .tc)).toFinset :=
  Finset.singleton_subset_iff.mpr (List.mem_toFinset.mpr (List.mem_map_of_mem (by decide)))
theorem cAgg2a_writes : (cAgg2a : List (HloOp τ sig (Elt F))).Forall fun op => op.writes ⊆ ((cAgg2a_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cAgg2b_writes : (cAgg2b : List (HloOp τ sig (Elt F))).Forall fun op => op.writes ⊆ ((cAgg2b_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cPre2_writes : (cPre2 : List (HloOp τ sig (Elt F))).Forall fun op => op.writes ⊆ ((cPre2_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cSelu2_writes : (cSelu2 : List (HloOp τ sig (Elt F))).Forall fun op => op.writes ⊆ ((cSelu2_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cBn2_writes : (cBn2 : List (HloOp τ sig (Elt F))).Forall fun op => op.writes ⊆ ((cBn2_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cXw3_writes : (cXw3 : List (HloOp τ sig (Elt F))).Forall fun op => op.writes ⊆ ((cXw3_W).map (Proc.devRef (τ := τ) .tc)).toFinset :=
  Finset.singleton_subset_iff.mpr (List.mem_toFinset.mpr (List.mem_map_of_mem (by decide)))
theorem cAgg3a_writes : (cAgg3a : List (HloOp τ sig (Elt F))).Forall fun op => op.writes ⊆ ((cAgg3a_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cAgg3b_writes : (cAgg3b : List (HloOp τ sig (Elt F))).Forall fun op => op.writes ⊆ ((cAgg3b_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cPre3_writes : (cPre3 : List (HloOp τ sig (Elt F))).Forall fun op => op.writes ⊆ ((cPre3_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cSelu3_writes : (cSelu3 : List (HloOp τ sig (Elt F))).Forall fun op => op.writes ⊆ ((cSelu3_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cPool_writes : (cPool : List (HloOp τ sig (Elt F))).Forall fun op => op.writes ⊆ ((cPool_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cHead1_writes : (cHead1 : List (HloOp τ sig (Elt F))).Forall fun op => op.writes ⊆ ((cHead1_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cSelu4_writes : (cSelu4 : List (HloOp τ sig (Elt F))).Forall fun op => op.writes ⊆ ((cSelu4_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩
theorem cHead2_writes : (cHead2 : List (HloOp τ sig (Elt F))).Forall fun op => op.writes ⊆ ((cHead2_W).map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

/-! ## The line from a piece on writes only the buffers of the pieces from it on -/

theorem tail22_writes : (tail22 : List (HloOp τ sig (Elt F))).Forall fun op => op.writes ⊆ ((tail22_W).map (Proc.devRef (τ := τ) .tc)).toFinset := trivial
theorem tail21_writes : (tail21 : List (HloOp τ sig (Elt F))).Forall fun op => op.writes ⊆ ((tail21_W).map (Proc.devRef (τ := τ) .tc)).toFinset := forall_writes_app cHead2_writes tail22_writes
theorem tail20_writes : (tail20 : List (HloOp τ sig (Elt F))).Forall fun op => op.writes ⊆ ((tail20_W).map (Proc.devRef (τ := τ) .tc)).toFinset := forall_writes_app cSelu4_writes tail21_writes
theorem tail19_writes : (tail19 : List (HloOp τ sig (Elt F))).Forall fun op => op.writes ⊆ ((tail19_W).map (Proc.devRef (τ := τ) .tc)).toFinset := forall_writes_app cHead1_writes tail20_writes
theorem tail18_writes : (tail18 : List (HloOp τ sig (Elt F))).Forall fun op => op.writes ⊆ ((tail18_W).map (Proc.devRef (τ := τ) .tc)).toFinset := forall_writes_app cPool_writes tail19_writes
theorem tail17_writes : (tail17 : List (HloOp τ sig (Elt F))).Forall fun op => op.writes ⊆ ((tail17_W).map (Proc.devRef (τ := τ) .tc)).toFinset := forall_writes_app cSelu3_writes tail18_writes
theorem tail16_writes : (tail16 : List (HloOp τ sig (Elt F))).Forall fun op => op.writes ⊆ ((tail16_W).map (Proc.devRef (τ := τ) .tc)).toFinset := forall_writes_app cPre3_writes tail17_writes
theorem tail15_writes : (tail15 : List (HloOp τ sig (Elt F))).Forall fun op => op.writes ⊆ ((tail15_W).map (Proc.devRef (τ := τ) .tc)).toFinset := forall_writes_app cAgg3b_writes tail16_writes
theorem tail14_writes : (tail14 : List (HloOp τ sig (Elt F))).Forall fun op => op.writes ⊆ ((tail14_W).map (Proc.devRef (τ := τ) .tc)).toFinset := forall_writes_app cAgg3a_writes tail15_writes
theorem tail13_writes : (tail13 : List (HloOp τ sig (Elt F))).Forall fun op => op.writes ⊆ ((tail13_W).map (Proc.devRef (τ := τ) .tc)).toFinset := forall_writes_app cXw3_writes tail14_writes
theorem tail12_writes : (tail12 : List (HloOp τ sig (Elt F))).Forall fun op => op.writes ⊆ ((tail12_W).map (Proc.devRef (τ := τ) .tc)).toFinset := forall_writes_app cBn2_writes tail13_writes
theorem tail11_writes : (tail11 : List (HloOp τ sig (Elt F))).Forall fun op => op.writes ⊆ ((tail11_W).map (Proc.devRef (τ := τ) .tc)).toFinset := forall_writes_app cSelu2_writes tail12_writes
theorem tail10_writes : (tail10 : List (HloOp τ sig (Elt F))).Forall fun op => op.writes ⊆ ((tail10_W).map (Proc.devRef (τ := τ) .tc)).toFinset := forall_writes_app cPre2_writes tail11_writes
theorem tail9_writes : (tail9 : List (HloOp τ sig (Elt F))).Forall fun op => op.writes ⊆ ((tail9_W).map (Proc.devRef (τ := τ) .tc)).toFinset := forall_writes_app cAgg2b_writes tail10_writes
theorem tail8_writes : (tail8 : List (HloOp τ sig (Elt F))).Forall fun op => op.writes ⊆ ((tail8_W).map (Proc.devRef (τ := τ) .tc)).toFinset := forall_writes_app cAgg2a_writes tail9_writes
theorem tail7_writes : (tail7 : List (HloOp τ sig (Elt F))).Forall fun op => op.writes ⊆ ((tail7_W).map (Proc.devRef (τ := τ) .tc)).toFinset := forall_writes_app cXw2_writes tail8_writes
theorem tail6_writes : (tail6 : List (HloOp τ sig (Elt F))).Forall fun op => op.writes ⊆ ((tail6_W).map (Proc.devRef (τ := τ) .tc)).toFinset := forall_writes_app cBn1b_writes tail7_writes
theorem tail5_writes : (tail5 : List (HloOp τ sig (Elt F))).Forall fun op => op.writes ⊆ ((tail5_W).map (Proc.devRef (τ := τ) .tc)).toFinset := forall_writes_app cBn1a_writes tail6_writes
theorem tail4_writes : (tail4 : List (HloOp τ sig (Elt F))).Forall fun op => op.writes ⊆ ((tail4_W).map (Proc.devRef (τ := τ) .tc)).toFinset := forall_writes_app cSelu1_writes tail5_writes
theorem tail3_writes : (tail3 : List (HloOp τ sig (Elt F))).Forall fun op => op.writes ⊆ ((tail3_W).map (Proc.devRef (τ := τ) .tc)).toFinset := forall_writes_app cPre1_writes tail4_writes
theorem tail2_writes : (tail2 : List (HloOp τ sig (Elt F))).Forall fun op => op.writes ⊆ ((tail2_W).map (Proc.devRef (τ := τ) .tc)).toFinset := forall_writes_app cAgg1_writes tail3_writes
theorem tail1_writes : (tail1 : List (HloOp τ sig (Elt F))).Forall fun op => op.writes ⊆ ((tail1_W).map (Proc.devRef (τ := τ) .tc)).toFinset := forall_writes_app cXw1_writes tail2_writes
theorem tail0_writes : (tail0 : List (HloOp τ sig (Elt F))).Forall fun op => op.writes ⊆ ((tail0_W).map (Proc.devRef (τ := τ) .tc)).toFinset := forall_writes_app cS0_writes tail1_writes

/-! ## A buffer the rest of the line does not write keeps its contents through it -/

theorem tail0_keep (U : Valuation τ sig (Elt F)) (r : Ref sig .tc) (h : r ∉ tail0_W) :
    after tail0 U (Proc.devRef .tc r) = U (Proc.devRef .tc r) := after_of_writes_sub tail0 U tail0_writes h
theorem tail1_keep (U : Valuation τ sig (Elt F)) (r : Ref sig .tc) (h : r ∉ tail1_W) :
    after tail1 U (Proc.devRef .tc r) = U (Proc.devRef .tc r) := after_of_writes_sub tail1 U tail1_writes h
theorem tail2_keep (U : Valuation τ sig (Elt F)) (r : Ref sig .tc) (h : r ∉ tail2_W) :
    after tail2 U (Proc.devRef .tc r) = U (Proc.devRef .tc r) := after_of_writes_sub tail2 U tail2_writes h
theorem tail3_keep (U : Valuation τ sig (Elt F)) (r : Ref sig .tc) (h : r ∉ tail3_W) :
    after tail3 U (Proc.devRef .tc r) = U (Proc.devRef .tc r) := after_of_writes_sub tail3 U tail3_writes h
theorem tail4_keep (U : Valuation τ sig (Elt F)) (r : Ref sig .tc) (h : r ∉ tail4_W) :
    after tail4 U (Proc.devRef .tc r) = U (Proc.devRef .tc r) := after_of_writes_sub tail4 U tail4_writes h
theorem tail5_keep (U : Valuation τ sig (Elt F)) (r : Ref sig .tc) (h : r ∉ tail5_W) :
    after tail5 U (Proc.devRef .tc r) = U (Proc.devRef .tc r) := after_of_writes_sub tail5 U tail5_writes h
theorem tail6_keep (U : Valuation τ sig (Elt F)) (r : Ref sig .tc) (h : r ∉ tail6_W) :
    after tail6 U (Proc.devRef .tc r) = U (Proc.devRef .tc r) := after_of_writes_sub tail6 U tail6_writes h
theorem tail7_keep (U : Valuation τ sig (Elt F)) (r : Ref sig .tc) (h : r ∉ tail7_W) :
    after tail7 U (Proc.devRef .tc r) = U (Proc.devRef .tc r) := after_of_writes_sub tail7 U tail7_writes h
theorem tail8_keep (U : Valuation τ sig (Elt F)) (r : Ref sig .tc) (h : r ∉ tail8_W) :
    after tail8 U (Proc.devRef .tc r) = U (Proc.devRef .tc r) := after_of_writes_sub tail8 U tail8_writes h
theorem tail9_keep (U : Valuation τ sig (Elt F)) (r : Ref sig .tc) (h : r ∉ tail9_W) :
    after tail9 U (Proc.devRef .tc r) = U (Proc.devRef .tc r) := after_of_writes_sub tail9 U tail9_writes h
theorem tail10_keep (U : Valuation τ sig (Elt F)) (r : Ref sig .tc) (h : r ∉ tail10_W) :
    after tail10 U (Proc.devRef .tc r) = U (Proc.devRef .tc r) := after_of_writes_sub tail10 U tail10_writes h
theorem tail11_keep (U : Valuation τ sig (Elt F)) (r : Ref sig .tc) (h : r ∉ tail11_W) :
    after tail11 U (Proc.devRef .tc r) = U (Proc.devRef .tc r) := after_of_writes_sub tail11 U tail11_writes h
theorem tail12_keep (U : Valuation τ sig (Elt F)) (r : Ref sig .tc) (h : r ∉ tail12_W) :
    after tail12 U (Proc.devRef .tc r) = U (Proc.devRef .tc r) := after_of_writes_sub tail12 U tail12_writes h
theorem tail13_keep (U : Valuation τ sig (Elt F)) (r : Ref sig .tc) (h : r ∉ tail13_W) :
    after tail13 U (Proc.devRef .tc r) = U (Proc.devRef .tc r) := after_of_writes_sub tail13 U tail13_writes h
theorem tail14_keep (U : Valuation τ sig (Elt F)) (r : Ref sig .tc) (h : r ∉ tail14_W) :
    after tail14 U (Proc.devRef .tc r) = U (Proc.devRef .tc r) := after_of_writes_sub tail14 U tail14_writes h
theorem tail15_keep (U : Valuation τ sig (Elt F)) (r : Ref sig .tc) (h : r ∉ tail15_W) :
    after tail15 U (Proc.devRef .tc r) = U (Proc.devRef .tc r) := after_of_writes_sub tail15 U tail15_writes h
theorem tail16_keep (U : Valuation τ sig (Elt F)) (r : Ref sig .tc) (h : r ∉ tail16_W) :
    after tail16 U (Proc.devRef .tc r) = U (Proc.devRef .tc r) := after_of_writes_sub tail16 U tail16_writes h
theorem tail17_keep (U : Valuation τ sig (Elt F)) (r : Ref sig .tc) (h : r ∉ tail17_W) :
    after tail17 U (Proc.devRef .tc r) = U (Proc.devRef .tc r) := after_of_writes_sub tail17 U tail17_writes h
theorem tail18_keep (U : Valuation τ sig (Elt F)) (r : Ref sig .tc) (h : r ∉ tail18_W) :
    after tail18 U (Proc.devRef .tc r) = U (Proc.devRef .tc r) := after_of_writes_sub tail18 U tail18_writes h
theorem tail19_keep (U : Valuation τ sig (Elt F)) (r : Ref sig .tc) (h : r ∉ tail19_W) :
    after tail19 U (Proc.devRef .tc r) = U (Proc.devRef .tc r) := after_of_writes_sub tail19 U tail19_writes h
theorem tail20_keep (U : Valuation τ sig (Elt F)) (r : Ref sig .tc) (h : r ∉ tail20_W) :
    after tail20 U (Proc.devRef .tc r) = U (Proc.devRef .tc r) := after_of_writes_sub tail20 U tail20_writes h
theorem tail21_keep (U : Valuation τ sig (Elt F)) (r : Ref sig .tc) (h : r ∉ tail21_W) :
    after tail21 U (Proc.devRef .tc r) = U (Proc.devRef .tc r) := after_of_writes_sub tail21 U tail21_writes h
theorem tail22_keep (U : Valuation τ sig (Elt F)) (r : Ref sig .tc) (h : r ∉ tail22_W) :
    after tail22 U (Proc.devRef .tc r) = U (Proc.devRef .tc r) := after_of_writes_sub tail22 U tail22_writes h

/-! ## The contents after the first K pieces -/

/-- The contents before the first piece. -/
def U0 (V : Valuation τ sig (Elt F)) : Valuation τ sig (Elt F) := V
/-- The contents after the first 1 piece. -/
def U1 (V : Valuation τ sig (Elt F)) : Valuation τ sig (Elt F) := after cS0 (U0 V)
/-- The contents after the first 2 pieces. -/
def U2 (V : Valuation τ sig (Elt F)) : Valuation τ sig (Elt F) := after cXw1 (U1 V)
/-- The contents after the first 3 pieces. -/
def U3 (V : Valuation τ sig (Elt F)) : Valuation τ sig (Elt F) := after cAgg1 (U2 V)
/-- The contents after the first 4 pieces. -/
def U4 (V : Valuation τ sig (Elt F)) : Valuation τ sig (Elt F) := after cPre1 (U3 V)
/-- The contents after the first 5 pieces. -/
def U5 (V : Valuation τ sig (Elt F)) : Valuation τ sig (Elt F) := after cSelu1 (U4 V)
/-- The contents after the first 6 pieces. -/
def U6 (V : Valuation τ sig (Elt F)) : Valuation τ sig (Elt F) := after cBn1a (U5 V)
/-- The contents after the first 7 pieces. -/
def U7 (V : Valuation τ sig (Elt F)) : Valuation τ sig (Elt F) := after cBn1b (U6 V)
/-- The contents after the first 8 pieces. -/
def U8 (V : Valuation τ sig (Elt F)) : Valuation τ sig (Elt F) := after cXw2 (U7 V)
/-- The contents after the first 9 pieces. -/
def U9 (V : Valuation τ sig (Elt F)) : Valuation τ sig (Elt F) := after cAgg2a (U8 V)
/-- The contents after the first 10 pieces. -/
def U10 (V : Valuation τ sig (Elt F)) : Valuation τ sig (Elt F) := after cAgg2b (U9 V)
/-- The contents after the first 11 pieces. -/
def U11 (V : Valuation τ sig (Elt F)) : Valuation τ sig (Elt F) := after cPre2 (U10 V)
/-- The contents after the first 12 pieces. -/
def U12 (V : Valuation τ sig (Elt F)) : Valuation τ sig (Elt F) := after cSelu2 (U11 V)
/-- The contents after the first 13 pieces. -/
def U13 (V : Valuation τ sig (Elt F)) : Valuation τ sig (Elt F) := after cBn2 (U12 V)
/-- The contents after the first 14 pieces. -/
def U14 (V : Valuation τ sig (Elt F)) : Valuation τ sig (Elt F) := after cXw3 (U13 V)
/-- The contents after the first 15 pieces. -/
def U15 (V : Valuation τ sig (Elt F)) : Valuation τ sig (Elt F) := after cAgg3a (U14 V)
/-- The contents after the first 16 pieces. -/
def U16 (V : Valuation τ sig (Elt F)) : Valuation τ sig (Elt F) := after cAgg3b (U15 V)
/-- The contents after the first 17 pieces. -/
def U17 (V : Valuation τ sig (Elt F)) : Valuation τ sig (Elt F) := after cPre3 (U16 V)
/-- The contents after the first 18 pieces. -/
def U18 (V : Valuation τ sig (Elt F)) : Valuation τ sig (Elt F) := after cSelu3 (U17 V)
/-- The contents after the first 19 pieces. -/
def U19 (V : Valuation τ sig (Elt F)) : Valuation τ sig (Elt F) := after cPool (U18 V)
/-- The contents after the first 20 pieces. -/
def U20 (V : Valuation τ sig (Elt F)) : Valuation τ sig (Elt F) := after cHead1 (U19 V)
/-- The contents after the first 21 pieces. -/
def U21 (V : Valuation τ sig (Elt F)) : Valuation τ sig (Elt F) := after cSelu4 (U20 V)
/-- The contents after the first 22 pieces. -/
def U22 (V : Valuation τ sig (Elt F)) : Valuation τ sig (Elt F) := after cHead2 (U21 V)

theorem ops_at0 (V : Valuation τ sig (Elt F)) : after ops V = after tail0 (U0 V) := rfl
theorem ops_at1 (V : Valuation τ sig (Elt F)) : after ops V = after tail1 (U1 V) :=
  (ops_at0 V).trans (after_app cS0 tail1 (U0 V))
theorem ops_at2 (V : Valuation τ sig (Elt F)) : after ops V = after tail2 (U2 V) :=
  (ops_at1 V).trans (after_app cXw1 tail2 (U1 V))
theorem ops_at3 (V : Valuation τ sig (Elt F)) : after ops V = after tail3 (U3 V) :=
  (ops_at2 V).trans (after_app cAgg1 tail3 (U2 V))
theorem ops_at4 (V : Valuation τ sig (Elt F)) : after ops V = after tail4 (U4 V) :=
  (ops_at3 V).trans (after_app cPre1 tail4 (U3 V))
theorem ops_at5 (V : Valuation τ sig (Elt F)) : after ops V = after tail5 (U5 V) :=
  (ops_at4 V).trans (after_app cSelu1 tail5 (U4 V))
theorem ops_at6 (V : Valuation τ sig (Elt F)) : after ops V = after tail6 (U6 V) :=
  (ops_at5 V).trans (after_app cBn1a tail6 (U5 V))
theorem ops_at7 (V : Valuation τ sig (Elt F)) : after ops V = after tail7 (U7 V) :=
  (ops_at6 V).trans (after_app cBn1b tail7 (U6 V))
theorem ops_at8 (V : Valuation τ sig (Elt F)) : after ops V = after tail8 (U8 V) :=
  (ops_at7 V).trans (after_app cXw2 tail8 (U7 V))
theorem ops_at9 (V : Valuation τ sig (Elt F)) : after ops V = after tail9 (U9 V) :=
  (ops_at8 V).trans (after_app cAgg2a tail9 (U8 V))
theorem ops_at10 (V : Valuation τ sig (Elt F)) : after ops V = after tail10 (U10 V) :=
  (ops_at9 V).trans (after_app cAgg2b tail10 (U9 V))
theorem ops_at11 (V : Valuation τ sig (Elt F)) : after ops V = after tail11 (U11 V) :=
  (ops_at10 V).trans (after_app cPre2 tail11 (U10 V))
theorem ops_at12 (V : Valuation τ sig (Elt F)) : after ops V = after tail12 (U12 V) :=
  (ops_at11 V).trans (after_app cSelu2 tail12 (U11 V))
theorem ops_at13 (V : Valuation τ sig (Elt F)) : after ops V = after tail13 (U13 V) :=
  (ops_at12 V).trans (after_app cBn2 tail13 (U12 V))
theorem ops_at14 (V : Valuation τ sig (Elt F)) : after ops V = after tail14 (U14 V) :=
  (ops_at13 V).trans (after_app cXw3 tail14 (U13 V))
theorem ops_at15 (V : Valuation τ sig (Elt F)) : after ops V = after tail15 (U15 V) :=
  (ops_at14 V).trans (after_app cAgg3a tail15 (U14 V))
theorem ops_at16 (V : Valuation τ sig (Elt F)) : after ops V = after tail16 (U16 V) :=
  (ops_at15 V).trans (after_app cAgg3b tail16 (U15 V))
theorem ops_at17 (V : Valuation τ sig (Elt F)) : after ops V = after tail17 (U17 V) :=
  (ops_at16 V).trans (after_app cPre3 tail17 (U16 V))
theorem ops_at18 (V : Valuation τ sig (Elt F)) : after ops V = after tail18 (U18 V) :=
  (ops_at17 V).trans (after_app cSelu3 tail18 (U17 V))
theorem ops_at19 (V : Valuation τ sig (Elt F)) : after ops V = after tail19 (U19 V) :=
  (ops_at18 V).trans (after_app cPool tail19 (U18 V))
theorem ops_at20 (V : Valuation τ sig (Elt F)) : after ops V = after tail20 (U20 V) :=
  (ops_at19 V).trans (after_app cHead1 tail20 (U19 V))
theorem ops_at21 (V : Valuation τ sig (Elt F)) : after ops V = after tail21 (U21 V) :=
  (ops_at20 V).trans (after_app cSelu4 tail21 (U20 V))
theorem ops_at22 (V : Valuation τ sig (Elt F)) : after ops V = after tail22 (U22 V) :=
  (ops_at21 V).trans (after_app cHead2 tail22 (U21 V))

end Cert.ReferenceIdeal.RefRun

end
-- ==== Proof.RefRunFn.lean ====
import proofs.«162488_j80401787781187_1_alg».proof.Proof.Gen.ReferenceIdeal

/-! The reference's value, step by step: one pure function per step of the computation, each the printed host
operations of that step composed (an operation's printed function applied to its operands' terms), over the step's input
ARRAYS. The three graph-convolution layers print the same operations over different buffers, so each step's function is
stated once. -/

noncomputable section

namespace Cert.ReferenceIdeal.RefRun

open Cert.ReferenceIdeal Cert.ReferenceIdeal.Gen Idealize.ShloMosaic Idealize.SL.Sem

variable {F : FTy → Type} [FloatOps F]

/-- An f32 array of shape `S`. -/
abbrev Af (F : FTy → Type) (S : Shape) : Type := (⟨S, .f32⟩ : BufTy).Contents (Elt F)
/-- An i32 array of shape `S`. -/
abbrev Ai (F : FTy → Type) (S : Shape) : Type := (⟨S, .i32⟩ : BufTy).Contents (Elt F)
/-- An i1 array of shape `S`. -/
abbrev Ab (F : FTy → Type) (S : Shape) : Type := (⟨S, .i1⟩ : BufTy).Contents (Elt F)

/-- The source node of each edge: row 0 of the edge list, as a vector. -/
def Src (ei : Ai F S2x1600000) : Ai F S1600000 :=
  (shapeCast S1600000 (((extractStridedSlice S1x1600000 ![0, 0] · slices_S2x1600000_S1x1600000_0_0) : Ai F S2x1600000 → Ai F S1x1600000)
      ei) shapeCasts_S1x1600000_S1600000)

/-- The target node of each edge: row 1 of the edge list, as a vector. -/
def Dst (ei : Ai F S2x1600000) : Ai F S1600000 :=
  (shapeCast S1600000 (((extractStridedSlice S1x1600000 ![1, 0] · slices_S2x1600000_S1x1600000_1_0) : Ai F S2x1600000 → Ai F S1x1600000)
      ei) shapeCasts_S1x1600000_S1600000)

/-- `deg⁻¹ᐟ²` per node, `deg` the number of edges into the node plus one (the self-loop): ones scattered by target, plus one, inverse square root. -/
def Dinv (dst : Ai F S1600000) : Af F S100000 :=
  ((Host.rsqrt : Af F S100000 → Af F S100000)
    ((addf : Af F S100000 → Af F S100000 → Af F S100000)
      (((fun x i u => Host.scatterAdd scatter_S100000_S1600000x1_S1600000_n_0_0_1 x i u) : Af F S100000 → Ai F S1600000x1 → Af F S1600000 → Af F S100000)
        ((broadcastInDim S100000 ![] bcast_S_S100000 : Af F S_ → Af F S100000) (constant S_ .f32 0x00000000#32))
        ((broadcastInDim S1600000x1 ![0] bcast_S1600000_S1600000x1_0 : Ai F S1600000 → Ai F S1600000x1) dst)
        ((broadcastInDim S1600000 ![] bcast_S_S1600000 : Af F S_ → Af F S1600000) (constant S_ .f32 0x3F800000#32)))
      ((broadcastInDim S100000 ![] bcast_S_S100000 : Af F S_ → Af F S100000) (constant S_ .f32 0x3F800000#32))))

/-- A layer's product `h · W`, contracting the features. -/
def Xw (h : Af F S100000x128) (W : Af F S128x128) : Af F S100000x128 :=
  (((fun l r => Host.dotGeneral dot_S100000x128_S128x128_S100000x128_1_0_0_1_n_n none l r) : Af F S100000x128 → Af F S128x128 → Af F S100000x128)
    h
    W)

/-- The neighbour sum: per edge the source's row of `xw` scaled by `dinv[src] · dinv[dst]` (an index below zero wrapped by the node count first, as `jnp` indexing does), added into the target's row of a zero array. -/
def Agg (xw : Af F S100000x128) (dinv : Af F S100000) (src : Ai F S1600000) (dst : Ai F S1600000) : Af F S100000x128 :=
  (((fun x i u => Host.scatterAdd scatter_S100000x128_S1600000x1_S1600000x128_1_0_0_1 x i u) : Af F S100000x128 → Ai F S1600000x1 → Af F S1600000x128 → Af F S100000x128)
    ((broadcastInDim S100000x128 ![] bcast_S_S100000x128 : Af F S_ → Af F S100000x128)
      (constant S_ .f32 0x00000000#32))
    ((broadcastInDim S1600000x1 ![0] bcast_S1600000_S1600000x1_0 : Ai F S1600000 → Ai F S1600000x1) dst)
    ((mulf : Af F S1600000x128 → Af F S1600000x128 → Af F S1600000x128)
      (((fun x i => Host.gather gather_S100000x128_S1600000x1_S1600000x128_1_0_n_n_0_1_1128 x i) : Af F S100000x128 → Ai F S1600000x1 → Af F S1600000x128)
        xw
        ((broadcastInDim S1600000x1 ![0] bcast_S1600000_S1600000x1_0 : Ai F S1600000 → Ai F S1600000x1)
          ((select : Ab F S1600000 → Ai F S1600000 → Ai F S1600000 → Ai F S1600000)
            ((cmpi .slt : Ai F S1600000 → Ai F S1600000 → Ab F S1600000)
              src
              ((broadcastInDim S1600000 ![] bcast_S_S1600000 : Ai F S_ → Ai F S1600000) (constantI S_ 32 0#32)))
            ((addi : Ai F S1600000 → Ai F S1600000 → Ai F S1600000)
              src
              ((broadcastInDim S1600000 ![] bcast_S_S1600000 : Ai F S_ → Ai F S1600000) (constantI S_ 32 100000#32)))
            src)))
      ((broadcastInDim S1600000x128 ![0, 1] bcast_S1600000x1_S1600000x128_0_1 : Af F S1600000x1 → Af F S1600000x128)
        ((broadcastInDim S1600000x1 ![0] bcast_S1600000_S1600000x1_0 : Af F S1600000 → Af F S1600000x1)
          ((mulf : Af F S1600000 → Af F S1600000 → Af F S1600000)
            (((fun x i => Host.gather gather_S100000_S1600000x1_S1600000_n_0_n_n_0_1_1 x i) : Af F S100000 → Ai F S1600000x1 → Af F S1600000)
              dinv
              ((broadcastInDim S1600000x1 ![0] bcast_S1600000_S1600000x1_0 : Ai F S1600000 → Ai F S1600000x1)
                ((select : Ab F S1600000 → Ai F S1600000 → Ai F S1600000 → Ai F S1600000)
                  ((cmpi .slt : Ai F S1600000 → Ai F S1600000 → Ab F S1600000)
                    src
                    ((broadcastInDim S1600000 ![] bcast_S_S1600000 : Ai F S_ → Ai F S1600000) (constantI S_ 32 0#32)))
                  ((addi : Ai F S1600000 → Ai F S1600000 → Ai F S1600000)
                    src
                    ((broadcastInDim S1600000 ![] bcast_S_S1600000 : Ai F S_ → Ai F S1600000) (constantI S_ 32 100000#32)))
                  src)))
            (((fun x i => Host.gather gather_S100000_S1600000x1_S1600000_n_0_n_n_0_1_1 x i) : Af F S100000 → Ai F S1600000x1 → Af F S1600000)
              dinv
              ((broadcastInDim S1600000x1 ![0] bcast_S1600000_S1600000x1_0 : Ai F S1600000 → Ai F S1600000x1)
                ((select : Ab F S1600000 → Ai F S1600000 → Ai F S1600000 → Ai F S1600000)
                  ((cmpi .slt : Ai F S1600000 → Ai F S1600000 → Ab F S1600000)
                    dst
                    ((broadcastInDim S1600000 ![] bcast_S_S1600000 : Ai F S_ → Ai F S1600000) (constantI S_ 32 0#32)))
                  ((addi : Ai F S1600000 → Ai F S1600000 → Ai F S1600000)
                    dst
                    ((broadcastInDim S1600000 ![] bcast_S_S1600000 : Ai F S_ → Ai F S1600000) (constantI S_ 32 100000#32)))
                  dst))))))))

/-- The layer before its activation: the neighbour sum, plus the self-loop term `xw · dinv²` row by row, plus the bias along the features. -/
def Pre (agg : Af F S100000x128) (xw : Af F S100000x128) (dinv : Af F S100000) (b : Af F S128) : Af F S100000x128 :=
  ((addf : Af F S100000x128 → Af F S100000x128 → Af F S100000x128)
    ((addf : Af F S100000x128 → Af F S100000x128 → Af F S100000x128)
      agg
      ((mulf : Af F S100000x128 → Af F S100000x128 → Af F S100000x128)
        xw
        ((broadcastInDim S100000x128 ![0, 1] bcast_S100000x1_S100000x128_0_1 : Af F S100000x1 → Af F S100000x128)
          ((broadcastInDim S100000x1 ![0] bcast_S100000_S100000x1_0 : Af F S100000 → Af F S100000x1)
            ((mulf : Af F S100000 → Af F S100000 → Af F S100000) dinv dinv)))))
    ((broadcastInDim S100000x128 ![0, 1] bcast_S1x128_S100000x128_0_1 : Af F S1x128 → Af F S100000x128)
      ((broadcastInDim S1x128 ![1] bcast_S128_S1x128_1 : Af F S128 → Af F S1x128) b)))

/-- SELU on a node array, as jax outlines it: `λ · where(x > 0, x, α · expm1(where(x > 0, 0, x)))`. -/
def Selu (x : Af F S100000x128) : Af F S100000x128 :=
  ((mulf : Af F S100000x128 → Af F S100000x128 → Af F S100000x128)
    ((broadcastInDim S100000x128 ![] bcast_S_S100000x128 : Af F S_ → Af F S100000x128)
      (constant S_ .f32 0x3F867D5F#32 : Af F S_))
    ((select : Ab F S100000x128 → Af F S100000x128 → Af F S100000x128 → Af F S100000x128)
      ((cmpf .ogt : Af F S100000x128 → Af F S100000x128 → Ab F S100000x128)
        x
        ((broadcastInDim S100000x128 ![] bcast_S_S100000x128 : Af F S_ → Af F S100000x128)
          (constant S_ .f32 0x00000000#32 : Af F S_)))
      x
      ((mulf : Af F S100000x128 → Af F S100000x128 → Af F S100000x128)
        ((broadcastInDim S100000x128 ![] bcast_S_S100000x128 : Af F S_ → Af F S100000x128)
          ((id : Af F S_ → Af F S_) (constant S_ .f32 0x3FD62D7D#32 : Af F S_)))
        ((Host.expm1 : Af F S100000x128 → Af F S100000x128)
          ((select : Ab F S100000x128 → Af F S100000x128 → Af F S100000x128 → Af F S100000x128)
            ((cmpf .ogt : Af F S100000x128 → Af F S100000x128 → Ab F S100000x128)
              x
              ((broadcastInDim S100000x128 ![] bcast_S_S100000x128 : Af F S_ → Af F S100000x128)
                (constant S_ .f32 0x00000000#32 : Af F S_)))
            ((broadcastInDim S100000x128 ![] bcast_S_S100000x128 : Af F S_ → Af F S100000x128)
              ((id : Af F S_ → Af F S_) (constant S_ .f32 0x00000000#32 : Af F S_)))
            x)))))

/-- Batch normalization over the nodes: `(a − mean) · rsqrt(var + ε) · g + be`, `mean` the column sums over 100000, `var` the column sums of `(a − mean)²` over 100000. -/
def BN (a : Af F S100000x128) (g : Af F S128) (be : Af F S128) : Af F S100000x128 :=
  ((addf : Af F S100000x128 → Af F S100000x128 → Af F S100000x128)
    ((mulf : Af F S100000x128 → Af F S100000x128 → Af F S100000x128)
      ((mulf : Af F S100000x128 → Af F S100000x128 → Af F S100000x128)
        ((subf : Af F S100000x128 → Af F S100000x128 → Af F S100000x128)
          a
          ((broadcastInDim S100000x128 ![0, 1] bcast_S1x128_S100000x128_0_1 : Af F S1x128 → Af F S100000x128)
            ((broadcastInDim S1x128 ![1] bcast_S128_S1x128_1 : Af F S128 → Af F S1x128)
              ((Host.divf : Af F S128 → Af F S128 → Af F S128)
                (((fun x v => Host.reduceAdd x v reducesTo_S100000x128_S128_d0 h_S_) : Af F S100000x128 → Af F S_ → Af F S128)
                  a
                  (constant S_ .f32 0x00000000#32))
                ((broadcastInDim S128 ![] bcast_S_S128 : Af F S_ → Af F S128) (constant S_ .f32 0x47C35000#32))))))
        ((broadcastInDim S100000x128 ![0, 1] bcast_S1x128_S100000x128_0_1 : Af F S1x128 → Af F S100000x128)
          ((broadcastInDim S1x128 ![1] bcast_S128_S1x128_1 : Af F S128 → Af F S1x128)
            ((Host.rsqrt : Af F S128 → Af F S128)
              ((addf : Af F S128 → Af F S128 → Af F S128)
                ((Host.divf : Af F S128 → Af F S128 → Af F S128)
                  (((fun x v => Host.reduceAdd x v reducesTo_S100000x128_S128_d0 h_S_) : Af F S100000x128 → Af F S_ → Af F S128)
                    ((mulf : Af F S100000x128 → Af F S100000x128 → Af F S100000x128)
                      ((subf : Af F S100000x128 → Af F S100000x128 → Af F S100000x128)
                        a
                        ((broadcastInDim S100000x128 ![0, 1] bcast_S1x128_S100000x128_0_1 : Af F S1x128 → Af F S100000x128)
                          ((broadcastInDim S1x128 ![1] bcast_S128_S1x128_1 : Af F S128 → Af F S1x128)
                            ((Host.divf : Af F S128 → Af F S128 → Af F S128)
                              (((fun x v => Host.reduceAdd x v reducesTo_S100000x128_S128_d0 h_S_) : Af F S100000x128 → Af F S_ → Af F S128)
                                a
                                (constant S_ .f32 0x00000000#32))
                              ((broadcastInDim S128 ![] bcast_S_S128 : Af F S_ → Af F S128) (constant S_ .f32 0x47C35000#32))))))
                      ((subf : Af F S100000x128 → Af F S100000x128 → Af F S100000x128)
                        a
                        ((broadcastInDim S100000x128 ![0, 1] bcast_S1x128_S100000x128_0_1 : Af F S1x128 → Af F S100000x128)
                          ((broadcastInDim S1x128 ![1] bcast_S128_S1x128_1 : Af F S128 → Af F S1x128)
                            ((Host.divf : Af F S128 → Af F S128 → Af F S128)
                              (((fun x v => Host.reduceAdd x v reducesTo_S100000x128_S128_d0 h_S_) : Af F S100000x128 → Af F S_ → Af F S128)
                                a
                                (constant S_ .f32 0x00000000#32))
                              ((broadcastInDim S128 ![] bcast_S_S128 : Af F S_ → Af F S128) (constant S_ .f32 0x47C35000#32)))))))
                    (constant S_ .f32 0x00000000#32))
                  ((broadcastInDim S128 ![] bcast_S_S128 : Af F S_ → Af F S128) (constant S_ .f32 0x47C35000#32)))
                ((broadcastInDim S128 ![] bcast_S_S128 : Af F S_ → Af F S128) (constant S_ .f32 0x3727C5AC#32)))))))
      ((broadcastInDim S100000x128 ![0, 1] bcast_S1x128_S100000x128_0_1 : Af F S1x128 → Af F S100000x128)
        ((broadcastInDim S1x128 ![1] bcast_S128_S1x128_1 : Af F S128 → Af F S1x128) g)))
    ((broadcastInDim S100000x128 ![0, 1] bcast_S1x128_S100000x128_0_1 : Af F S1x128 → Af F S100000x128)
      ((broadcastInDim S1x128 ![1] bcast_S128_S1x128_1 : Af F S128 → Af F S1x128) be)))

/-- The sum of each graph's node rows: the rows scattered by graph number into a zero array. -/
def Pool (h : Af F S100000x128) (batch : Ai F S100000) : Af F S2048x128 :=
  (((fun x i u => Host.scatterAdd scatter_S2048x128_S100000x1_S100000x128_1_0_0_1 x i u) : Af F S2048x128 → Ai F S100000x1 → Af F S100000x128 → Af F S2048x128)
    ((broadcastInDim S2048x128 ![] bcast_S_S2048x128 : Af F S_ → Af F S2048x128)
      (constant S_ .f32 0x00000000#32))
    ((broadcastInDim S100000x1 ![0] bcast_S100000_S100000x1_0 : Ai F S100000 → Ai F S100000x1) batch)
    h)

/-- The first dense layer on the pooled rows beside the molecule features: `concat(hg, mol) · W + b`. -/
def Head1 (hg : Af F S2048x128) (mol : Af F S2048x64) (W : Af F S192x128) (b : Af F S128) : Af F S2048x128 :=
  ((addf : Af F S2048x128 → Af F S2048x128 → Af F S2048x128)
    (((fun l r => Host.dotGeneral dot_S2048x192_S192x128_S2048x128_1_0_0_1_n_n none l r) : Af F S2048x192 → Af F S192x128 → Af F S2048x128)
      (((fun a b => concatenate S2048x192 1 [⟨S2048x128, a⟩, ⟨S2048x64, b⟩] concatenates_S2048x128_S2048x64_S2048x192_d1) : Af F S2048x128 → Af F S2048x64 → Af F S2048x192)
        hg
        mol)
      W)
    ((broadcastInDim S2048x128 ![0, 1] bcast_S1x128_S2048x128_0_1 : Af F S1x128 → Af F S2048x128)
      ((broadcastInDim S1x128 ![1] bcast_S128_S1x128_1 : Af F S128 → Af F S1x128) b)))

/-- SELU on a graph array: the same operations as `Selu` at shape [2048, 128]. -/
def SeluG (x : Af F S2048x128) : Af F S2048x128 :=
  ((mulf : Af F S2048x128 → Af F S2048x128 → Af F S2048x128)
    ((broadcastInDim S2048x128 ![] bcast_S_S2048x128 : Af F S_ → Af F S2048x128)
      (constant S_ .f32 0x3F867D5F#32 : Af F S_))
    ((select : Ab F S2048x128 → Af F S2048x128 → Af F S2048x128 → Af F S2048x128)
      ((cmpf .ogt : Af F S2048x128 → Af F S2048x128 → Ab F S2048x128)
        x
        ((broadcastInDim S2048x128 ![] bcast_S_S2048x128 : Af F S_ → Af F S2048x128)
          (constant S_ .f32 0x00000000#32 : Af F S_)))
      x
      ((mulf : Af F S2048x128 → Af F S2048x128 → Af F S2048x128)
        ((broadcastInDim S2048x128 ![] bcast_S_S2048x128 : Af F S_ → Af F S2048x128)
          ((id : Af F S_ → Af F S_) (constant S_ .f32 0x3FD62D7D#32 : Af F S_)))
        ((Host.expm1 : Af F S2048x128 → Af F S2048x128)
          ((select : Ab F S2048x128 → Af F S2048x128 → Af F S2048x128 → Af F S2048x128)
            ((cmpf .ogt : Af F S2048x128 → Af F S2048x128 → Ab F S2048x128)
              x
              ((broadcastInDim S2048x128 ![] bcast_S_S2048x128 : Af F S_ → Af F S2048x128)
                (constant S_ .f32 0x00000000#32 : Af F S_)))
            ((broadcastInDim S2048x128 ![] bcast_S_S2048x128 : Af F S_ → Af F S2048x128)
              ((id : Af F S_ → Af F S_) (constant S_ .f32 0x00000000#32 : Af F S_)))
            x)))))

/-- The second dense layer: `h · W + b`. -/
def Head2 (h : Af F S2048x128) (W : Af F S128x1) (b : Af F S1) : Af F S2048x1 :=
  ((addf : Af F S2048x1 → Af F S2048x1 → Af F S2048x1)
    (((fun l r => Host.dotGeneral dot_S2048x128_S128x1_S2048x1_1_0_0_1_n_n none l r) : Af F S2048x128 → Af F S128x1 → Af F S2048x1)
      h
      W)
    ((broadcastInDim S2048x1 ![0, 1] bcast_S1x1_S2048x1_0_1 : Af F S1x1 → Af F S2048x1)
      ((broadcastInDim S1x1 ![1] bcast_S1_S1x1_1 : Af F S1 → Af F S1x1) b)))

end Cert.ReferenceIdeal.RefRun

end
-- ==== Proof.RefRunStA.lean ====
import proofs.«162488_j80401787781187_1_alg».proof.Proof.RefRunOps
import proofs.«162488_j80401787781187_1_alg».proof.Proof.RefRunFn

/-! The value each step of the reference leaves in its result buffer, from ANY contents `V` of the buffers: the fold
of the step's operations read at the result buffer (each operation's result at its own buffer is its function of its
operands' contents, at another buffer what was there) is the step's function of `V` at the buffers the step reads.
Here: the edge lists and the degree's inverse square root, and layer 1. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem v1_stage (V : Valuation τ sig (Elt F)) :
    after cS0 V (main_v1 : DevRef τ sig) = Src (V (main_arg1 : DevRef τ sig)) := by
  simp only [cS0]
  after_results_simp
  rfl

set_option maxRecDepth 16384 in
set_option maxHeartbeats 4000000 in
theorem v3_stage (V : Valuation τ sig (Elt F)) :
    after cS0 V (main_v3 : DevRef τ sig) = Dst (V (main_arg1 : DevRef τ sig)) := by
  simp only [cS0]
  after_results_simp
  rfl

set_option maxRecDepth 16384 in
set_option maxHeartbeats 4000000 in
theorem v10_stage (V : Valuation τ sig (Elt F)) :
    after cS0 V (main_v10 : DevRef τ sig) = Dinv (Dst (V (main_arg1 : DevRef τ sig))) := by
  simp only [cS0]
  after_results_simp
  rfl

set_option maxRecDepth 16384 in
set_option maxHeartbeats 4000000 in
theorem v11_stage (V : Valuation τ sig (Elt F)) :
    after cXw1 V (main_v11 : DevRef τ sig) = Xw (V (main_arg0 : DevRef τ sig)) (V (main_arg4 : DevRef τ sig)) := by
  simp only [cXw1]
  after_results_simp
  rfl

set_option maxRecDepth 16384 in
set_option maxHeartbeats 4000000 in
theorem v39_stage (V : Valuation τ sig (Elt F)) :
    after cAgg1 V (main_v39 : DevRef τ sig) = Agg (V (main_v11 : DevRef τ sig)) (V (main_v10 : DevRef τ sig)) (V (main_v1 : DevRef τ sig)) (V (main_v3 : DevRef τ sig)) := by
  simp only [cAgg1]
  after_results_simp
  rfl

set_option maxRecDepth 16384 in
set_option maxHeartbeats 4000000 in
theorem v47_stage (V : Valuation τ sig (Elt F)) :
    after cPre1 V (main_v47 : DevRef τ sig) = Pre (V (main_v39 : DevRef τ sig)) (V (main_v11 : DevRef τ sig)) (V (main_v10 : DevRef τ sig)) (V (main_arg5 : DevRef τ sig)) := by
  simp only [cPre1]
  after_results_simp
  rfl

set_option maxRecDepth 16384 in
set_option maxHeartbeats 4000000 in
theorem v48_stage (V : Valuation τ sig (Elt F)) :
    after cSelu1 V (main_v48 : DevRef τ sig) = Selu (V (main_v47 : DevRef τ sig)) := by
  simp only [cSelu1]
  after_results_simp
  rfl

set_option maxRecDepth 16384 in
set_option maxHeartbeats 4000000 in
theorem v73_stage (V : Valuation τ sig (Elt F)) :
    after cBn1b (after cBn1a V) (main_v73 : DevRef τ sig) = BN (V (main_v48 : DevRef τ sig)) (V (main_arg6 : DevRef τ sig)) (V (main_arg7 : DevRef τ sig)) := by
  simp only [cBn1a, cBn1b]
  after_results_simp
  rfl

end Cert.ReferenceIdeal.RefRun

end
-- ==== Proof.RefRunStB.lean ====
import proofs.«162488_j80401787781187_1_alg».proof.Proof.RefRunOps
import proofs.«162488_j80401787781187_1_alg».proof.Proof.RefRunFn

/-! The value each step of the reference leaves in its result buffer, from ANY contents `V` of the buffers: the fold
of the step's operations read at the result buffer (each operation's result at its own buffer is its function of its
operands' contents, at another buffer what was there) is the step's function of `V` at the buffers the step reads.
Here: layer 2. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem v74_stage (V : Valuation τ sig (Elt F)) :
    after cXw2 V (main_v74 : DevRef τ sig) = Xw (V (main_v73 : DevRef τ sig)) (V (main_arg8 : DevRef τ sig)) := by
  simp only [cXw2]
  after_results_simp
  rfl

set_option maxRecDepth 16384 in
set_option maxHeartbeats 4000000 in
theorem v102_stage (V : Valuation τ sig (Elt F)) :
    after cAgg2b (after cAgg2a V) (main_v102 : DevRef τ sig) = Agg (V (main_v74 : DevRef τ sig)) (V (main_v10 : DevRef τ sig)) (V (main_v1 : DevRef τ sig)) (V (main_v3 : DevRef τ sig)) := by
  simp only [cAgg2a, cAgg2b]
  after_results_simp
  rfl

set_option maxRecDepth 16384 in
set_option maxHeartbeats 4000000 in
theorem v110_stage (V : Valuation τ sig (Elt F)) :
    after cPre2 V (main_v110 : DevRef τ sig) = Pre (V (main_v102 : DevRef τ sig)) (V (main_v74 : DevRef τ sig)) (V (main_v10 : DevRef τ sig)) (V (main_arg9 : DevRef τ sig)) := by
  simp only [cPre2]
  after_results_simp
  rfl

set_option maxRecDepth 16384 in
set_option maxHeartbeats 4000000 in
theorem v111_stage (V : Valuation τ sig (Elt F)) :
    after cSelu2 V (main_v111 : DevRef τ sig) = Selu (V (main_v110 : DevRef τ sig)) := by
  simp only [cSelu2]
  after_results_simp
  rfl

set_option maxRecDepth 16384 in
set_option maxHeartbeats 4000000 in
theorem v136_stage (V : Valuation τ sig (Elt F)) :
    after cBn2 V (main_v136 : DevRef τ sig) = BN (V (main_v111 : DevRef τ sig)) (V (main_arg10 : DevRef τ sig)) (V (main_arg11 : DevRef τ sig)) := by
  simp only [cBn2]
  after_results_simp
  rfl

end Cert.ReferenceIdeal.RefRun

end
-- ==== Proof.RefRunStC.lean ====
import proofs.«162488_j80401787781187_1_alg».proof.Proof.RefRunOps
import proofs.«162488_j80401787781187_1_alg».proof.Proof.RefRunFn

/-! The value each step of the reference leaves in its result buffer, from ANY contents `V` of the buffers: the fold
of the step's operations read at the result buffer (each operation's result at its own buffer is its function of its
operands' contents, at another buffer what was there) is the step's function of `V` at the buffers the step reads.
Here: layer 3, the sum per graph and the two dense layers. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem v137_stage (V : Valuation τ sig (Elt F)) :
    after cXw3 V (main_v137 : DevRef τ sig) = Xw (V (main_v136 : DevRef τ sig)) (V (main_arg12 : DevRef τ sig)) := by
  simp only [cXw3]
  after_results_simp
  rfl

set_option maxRecDepth 16384 in
set_option maxHeartbeats 4000000 in
theorem v165_stage (V : Valuation τ sig (Elt F)) :
    after cAgg3b (after cAgg3a V) (main_v165 : DevRef τ sig) = Agg (V (main_v137 : DevRef τ sig)) (V (main_v10 : DevRef τ sig)) (V (main_v1 : DevRef τ sig)) (V (main_v3 : DevRef τ sig)) := by
  simp only [cAgg3a, cAgg3b]
  after_results_simp
  rfl

set_option maxRecDepth 16384 in
set_option maxHeartbeats 4000000 in
theorem v173_stage (V : Valuation τ sig (Elt F)) :
    after cPre3 V (main_v173 : DevRef τ sig) = Pre (V (main_v165 : DevRef τ sig)) (V (main_v137 : DevRef τ sig)) (V (main_v10 : DevRef τ sig)) (V (main_arg13 : DevRef τ sig)) := by
  simp only [cPre3]
  after_results_simp
  rfl

set_option maxRecDepth 16384 in
set_option maxHeartbeats 4000000 in
theorem v174_stage (V : Valuation τ sig (Elt F)) :
    after cSelu3 V (main_v174 : DevRef τ sig) = Selu (V (main_v173 : DevRef τ sig)) := by
  simp only [cSelu3]
  after_results_simp
  rfl

set_option maxRecDepth 16384 in
set_option maxHeartbeats 4000000 in
theorem v177_stage (V : Valuation τ sig (Elt F)) :
    after cPool V (main_v177 : DevRef τ sig) = Pool (V (main_v174 : DevRef τ sig)) (V (main_arg2 : DevRef τ sig)) := by
  simp only [cPool]
  after_results_simp
  rfl

set_option maxRecDepth 16384 in
set_option maxHeartbeats 4000000 in
theorem v182_stage (V : Valuation τ sig (Elt F)) :
    after cHead1 V (main_v182 : DevRef τ sig) = Head1 (V (main_v177 : DevRef τ sig)) (V (main_arg3 : DevRef τ sig)) (V (main_arg14 : DevRef τ sig)) (V (main_arg15 : DevRef τ sig)) := by
  simp only [cHead1]
  after_results_simp
  rfl

set_option maxRecDepth 16384 in
set_option maxHeartbeats 4000000 in
theorem v183_stage (V : Valuation τ sig (Elt F)) :
    after cSelu4 V (main_v183 : DevRef τ sig) = SeluG (V (main_v182 : DevRef τ sig)) := by
  simp only [cSelu4]
  after_results_simp
  rfl

set_option maxRecDepth 16384 in
set_option maxHeartbeats 4000000 in
theorem v187_stage (V : Valuation τ sig (Elt F)) :
    after cHead2 V (main_v187 : DevRef τ sig) = Head2 (V (main_v183 : DevRef τ sig)) (V (main_arg16 : DevRef τ sig)) (V (main_arg17 : DevRef τ sig)) := by
  simp only [cHead2]
  after_results_simp
  rfl

end Cert.ReferenceIdeal.RefRun

end
-- ==== Proof.RefRunOutFn.lean ====
import proofs.«162488_j80401787781187_1_alg».proof.Proof.RefRunFn

/-! The reference's result as ONE function of its eighteen argument arrays: the steps of `RefRunFn` composed. -/

noncomputable section

namespace Cert.ReferenceIdeal.RefRun

open Cert.ReferenceIdeal Cert.ReferenceIdeal.Gen Idealize.ShloMosaic Idealize.SL.Sem

variable {F : FTy → Type} [FloatOps F]

/-- One graph-convolution layer before its activation: `D⁻¹ᐟ²(A + I)D⁻¹ᐟ² (h · W) + b` as the reference computes it
    — the neighbour sum of the scaled rows of `h · W`, the self-loop term, the bias. -/
def Conv (h : Af F S100000x128) (W : Af F S128x128) (b : Af F S128) (dinv : Af F S100000) (src dst : Ai F S1600000) :
    Af F S100000x128 :=
  Pre (Agg (Xw h W) dinv src dst) (Xw h W) dinv b

/-- The reference's result: three layers (the first two normalized), the sum per graph, the two dense layers. The
    arguments in @main's order: node features, edge list, graph number per node, molecule features, then per layer
    weights and bias (and, for the first two, the normalization's scale and shift), then the dense layers'. -/
def RefOut (a0 : Af F S100000x128) (a1 : Ai F S2x1600000) (a2 : Ai F S100000) (a3 : Af F S2048x64) (a4 : Af F S128x128) (a5 : Af F S128) (a6 : Af F S128) (a7 : Af F S128) (a8 : Af F S128x128) (a9 : Af F S128) (a10 : Af F S128) (a11 : Af F S128) (a12 : Af F S128x128) (a13 : Af F S128) (a14 : Af F S192x128) (a15 : Af F S128) (a16 : Af F S128x1) (a17 : Af F S1) : Af F S2048x1 :=
  Head2 (SeluG (Head1 (Pool
    (Selu (Conv
      (BN (Selu (Conv
        (BN (Selu (Conv a0 a4 a5 (Dinv (Dst a1)) (Src a1) (Dst a1))) a6 a7)
        a8 a9 (Dinv (Dst a1)) (Src a1) (Dst a1))) a10 a11)
      a12 a13 (Dinv (Dst a1)) (Src a1) (Dst a1)))
    a2) a3 a14 a15)) a16 a17

end Cert.ReferenceIdeal.RefRun

end
-- ==== Proof.RefRunOut.lean ====
import proofs.«162488_j80401787781187_1_alg».proof.Proof.RefRunKeep
import proofs.«162488_j80401787781187_1_alg».proof.Proof.RefRunStA
import proofs.«162488_j80401787781187_1_alg».proof.Proof.RefRunStB
import proofs.«162488_j80401787781187_1_alg».proof.Proof.RefRunStC
import proofs.«162488_j80401787781187_1_alg».proof.Proof.RefRunOutFn

/-! The reference's result after the whole line, as the function `RefOut` of the argument arrays' contents before it.
Every buffer is written once, by one piece, and read only by later pieces. So after the whole line a step's result
buffer holds what the step left there (no later piece writes it), and that is the step's function of its input buffers'
contents when the step began — which are those buffers' contents after the whole line too (nothing from the step on
writes them). Each step thus reads as an equation between buffers' FINAL contents, and the equations compose. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The arguments are never written -/

theorem arg0_eq (V : Valuation τ sig (Elt F)) :
    after ops V (main_arg0 : DevRef τ sig) = V (main_arg0 : DevRef τ sig) := tail0_keep V main_arg0 (by decide)
theorem arg1_eq (V : Valuation τ sig (Elt F)) :
    after ops V (main_arg1 : DevRef τ sig) = V (main_arg1 : DevRef τ sig) := tail0_keep V main_arg1 (by decide)
theorem arg2_eq (V : Valuation τ sig (Elt F)) :
    after ops V (main_arg2 : DevRef τ sig) = V (main_arg2 : DevRef τ sig) := tail0_keep V main_arg2 (by decide)
theorem arg3_eq (V : Valuation τ sig (Elt F)) :
    after ops V (main_arg3 : DevRef τ sig) = V (main_arg3 : DevRef τ sig) := tail0_keep V main_arg3 (by decide)
theorem arg4_eq (V : Valuation τ sig (Elt F)) :
    after ops V (main_arg4 : DevRef τ sig) = V (main_arg4 : DevRef τ sig) := tail0_keep V main_arg4 (by decide)
theorem arg5_eq (V : Valuation τ sig (Elt F)) :
    after ops V (main_arg5 : DevRef τ sig) = V (main_arg5 : DevRef τ sig) := tail0_keep V main_arg5 (by decide)
theorem arg6_eq (V : Valuation τ sig (Elt F)) :
    after ops V (main_arg6 : DevRef τ sig) = V (main_arg6 : DevRef τ sig) := tail0_keep V main_arg6 (by decide)
theorem arg7_eq (V : Valuation τ sig (Elt F)) :
    after ops V (main_arg7 : DevRef τ sig) = V (main_arg7 : DevRef τ sig) := tail0_keep V main_arg7 (by decide)
theorem arg8_eq (V : Valuation τ sig (Elt F)) :
    after ops V (main_arg8 : DevRef τ sig) = V (main_arg8 : DevRef τ sig) := tail0_keep V main_arg8 (by decide)
theorem arg9_eq (V : Valuation τ sig (Elt F)) :
    after ops V (main_arg9 : DevRef τ sig) = V (main_arg9 : DevRef τ sig) := tail0_keep V main_arg9 (by decide)
theorem arg10_eq (V : Valuation τ sig (Elt F)) :
    after ops V (main_arg10 : DevRef τ sig) = V (main_arg10 : DevRef τ sig) := tail0_keep V main_arg10 (by decide)
theorem arg11_eq (V : Valuation τ sig (Elt F)) :
    after ops V (main_arg11 : DevRef τ sig) = V (main_arg11 : DevRef τ sig) := tail0_keep V main_arg11 (by decide)
theorem arg12_eq (V : Valuation τ sig (Elt F)) :
    after ops V (main_arg12 : DevRef τ sig) = V (main_arg12 : DevRef τ sig) := tail0_keep V main_arg12 (by decide)
theorem arg13_eq (V : Valuation τ sig (Elt F)) :
    after ops V (main_arg13 : DevRef τ sig) = V (main_arg13 : DevRef τ sig) := tail0_keep V main_arg13 (by decide)
theorem arg14_eq (V : Valuation τ sig (Elt F)) :
    after ops V (main_arg14 : DevRef τ sig) = V (main_arg14 : DevRef τ sig) := tail0_keep V main_arg14 (by decide)
theorem arg15_eq (V : Valuation τ sig (Elt F)) :
    after ops V (main_arg15 : DevRef τ sig) = V (main_arg15 : DevRef τ sig) := tail0_keep V main_arg15 (by decide)
theorem arg16_eq (V : Valuation τ sig (Elt F)) :
    after ops V (main_arg16 : DevRef τ sig) = V (main_arg16 : DevRef τ sig) := tail0_keep V main_arg16 (by decide)
theorem arg17_eq (V : Valuation τ sig (Elt F)) :
    after ops V (main_arg17 : DevRef τ sig) = V (main_arg17 : DevRef τ sig) := tail0_keep V main_arg17 (by decide)

/-! ## Each step, between final contents -/

theorem fin_v1 (V : Valuation τ sig (Elt F)) :
    after ops V (main_v1 : DevRef τ sig) = Src (after ops V (main_arg1 : DevRef τ sig)) := by
  have hX : after ops V (main_v1 : DevRef τ sig) = U1 V (main_v1 : DevRef τ sig) :=
    (congrFun (ops_at1 V) _).trans (tail1_keep _ main_v1 (by decide))
  have h0 : after ops V (main_arg1 : DevRef τ sig) = U0 V (main_arg1 : DevRef τ sig) :=
    (congrFun (ops_at0 V) _).trans (tail0_keep _ main_arg1 (by decide))
  rw [hX, h0]
  exact v1_stage (U0 V)

theorem fin_v3 (V : Valuation τ sig (Elt F)) :
    after ops V (main_v3 : DevRef τ sig) = Dst (after ops V (main_arg1 : DevRef τ sig)) := by
  have hX : after ops V (main_v3 : DevRef τ sig) = U1 V (main_v3 : DevRef τ sig) :=
    (congrFun (ops_at1 V) _).trans (tail1_keep _ main_v3 (by decide))
  have h0 : after ops V (main_arg1 : DevRef τ sig) = U0 V (main_arg1 : DevRef τ sig) :=
    (congrFun (ops_at0 V) _).trans (tail0_keep _ main_arg1 (by decide))
  rw [hX, h0]
  exact v3_stage (U0 V)

theorem fin_v10 (V : Valuation τ sig (Elt F)) :
    after ops V (main_v10 : DevRef τ sig) = Dinv (Dst (after ops V (main_arg1 : DevRef τ sig))) := by
  have hX : after ops V (main_v10 : DevRef τ sig) = U1 V (main_v10 : DevRef τ sig) :=
    (congrFun (ops_at1 V) _).trans (tail1_keep _ main_v10 (by decide))
  have h0 : after ops V (main_arg1 : DevRef τ sig) = U0 V (main_arg1 : DevRef τ sig) :=
    (congrFun (ops_at0 V) _).trans (tail0_keep _ main_arg1 (by decide))
  rw [hX, h0]
  exact v10_stage (U0 V)

theorem fin_v11 (V : Valuation τ sig (Elt F)) :
    after ops V (main_v11 : DevRef τ sig) = Xw (after ops V (main_arg0 : DevRef τ sig)) (after ops V (main_arg4 : DevRef τ sig)) := by
  have hX : after ops V (main_v11 : DevRef τ sig) = U2 V (main_v11 : DevRef τ sig) :=
    (congrFun (ops_at2 V) _).trans (tail2_keep _ main_v11 (by decide))
  have h0 : after ops V (main_arg0 : DevRef τ sig) = U1 V (main_arg0 : DevRef τ sig) :=
    (congrFun (ops_at1 V) _).trans (tail1_keep _ main_arg0 (by decide))
  have h1 : after ops V (main_arg4 : DevRef τ sig) = U1 V (main_arg4 : DevRef τ sig) :=
    (congrFun (ops_at1 V) _).trans (tail1_keep _ main_arg4 (by decide))
  rw [hX, h0, h1]
  exact v11_stage (U1 V)

theorem fin_v39 (V : Valuation τ sig (Elt F)) :
    after ops V (main_v39 : DevRef τ sig) = Agg (after ops V (main_v11 : DevRef τ sig)) (after ops V (main_v10 : DevRef τ sig)) (after ops V (main_v1 : DevRef τ sig)) (after ops V (main_v3 : DevRef τ sig)) := by
  have hX : after ops V (main_v39 : DevRef τ sig) = U3 V (main_v39 : DevRef τ sig) :=
    (congrFun (ops_at3 V) _).trans (tail3_keep _ main_v39 (by decide))
  have h0 : after ops V (main_v11 : DevRef τ sig) = U2 V (main_v11 : DevRef τ sig) :=
    (congrFun (ops_at2 V) _).trans (tail2_keep _ main_v11 (by decide))
  have h1 : after ops V (main_v10 : DevRef τ sig) = U2 V (main_v10 : DevRef τ sig) :=
    (congrFun (ops_at2 V) _).trans (tail2_keep _ main_v10 (by decide))
  have h2 : after ops V (main_v1 : DevRef τ sig) = U2 V (main_v1 : DevRef τ sig) :=
    (congrFun (ops_at2 V) _).trans (tail2_keep _ main_v1 (by decide))
  have h3 : after ops V (main_v3 : DevRef τ sig) = U2 V (main_v3 : DevRef τ sig) :=
    (congrFun (ops_at2 V) _).trans (tail2_keep _ main_v3 (by decide))
  rw [hX, h0, h1, h2, h3]
  exact v39_stage (U2 V)

theorem fin_v47 (V : Valuation τ sig (Elt F)) :
    after ops V (main_v47 : DevRef τ sig) = Pre (after ops V (main_v39 : DevRef τ sig)) (after ops V (main_v11 : DevRef τ sig)) (after ops V (main_v10 : DevRef τ sig)) (after ops V (main_arg5 : DevRef τ sig)) := by
  have hX : after ops V (main_v47 : DevRef τ sig) = U4 V (main_v47 : DevRef τ sig) :=
    (congrFun (ops_at4 V) _).trans (tail4_keep _ main_v47 (by decide))
  have h0 : after ops V (main_v39 : DevRef τ sig) = U3 V (main_v39 : DevRef τ sig) :=
    (congrFun (ops_at3 V) _).trans (tail3_keep _ main_v39 (by decide))
  have h1 : after ops V (main_v11 : DevRef τ sig) = U3 V (main_v11 : DevRef τ sig) :=
    (congrFun (ops_at3 V) _).trans (tail3_keep _ main_v11 (by decide))
  have h2 : after ops V (main_v10 : DevRef τ sig) = U3 V (main_v10 : DevRef τ sig) :=
    (congrFun (ops_at3 V) _).trans (tail3_keep _ main_v10 (by decide))
  have h3 : after ops V (main_arg5 : DevRef τ sig) = U3 V (main_arg5 : DevRef τ sig) :=
    (congrFun (ops_at3 V) _).trans (tail3_keep _ main_arg5 (by decide))
  rw [hX, h0, h1, h2, h3]
  exact v47_stage (U3 V)

theorem fin_v48 (V : Valuation τ sig (Elt F)) :
    after ops V (main_v48 : DevRef τ sig) = Selu (after ops V (main_v47 : DevRef τ sig)) := by
  have hX : after ops V (main_v48 : DevRef τ sig) = U5 V (main_v48 : DevRef τ sig) :=
    (congrFun (ops_at5 V) _).trans (tail5_keep _ main_v48 (by decide))
  have h0 : after ops V (main_v47 : DevRef τ sig) = U4 V (main_v47 : DevRef τ sig) :=
    (congrFun (ops_at4 V) _).trans (tail4_keep _ main_v47 (by decide))
  rw [hX, h0]
  exact v48_stage (U4 V)

theorem fin_v73 (V : Valuation τ sig (Elt F)) :
    after ops V (main_v73 : DevRef τ sig) = BN (after ops V (main_v48 : DevRef τ sig)) (after ops V (main_arg6 : DevRef τ sig)) (after ops V (main_arg7 : DevRef τ sig)) := by
  have hX : after ops V (main_v73 : DevRef τ sig) = U7 V (main_v73 : DevRef τ sig) :=
    (congrFun (ops_at7 V) _).trans (tail7_keep _ main_v73 (by decide))
  have h0 : after ops V (main_v48 : DevRef τ sig) = U5 V (main_v48 : DevRef τ sig) :=
    (congrFun (ops_at5 V) _).trans (tail5_keep _ main_v48 (by decide))
  have h1 : after ops V (main_arg6 : DevRef τ sig) = U5 V (main_arg6 : DevRef τ sig) :=
    (congrFun (ops_at5 V) _).trans (tail5_keep _ main_arg6 (by decide))
  have h2 : after ops V (main_arg7 : DevRef τ sig) = U5 V (main_arg7 : DevRef τ sig) :=
    (congrFun (ops_at5 V) _).trans (tail5_keep _ main_arg7 (by decide))
  rw [hX, h0, h1, h2]
  exact v73_stage (U5 V)

theorem fin_v74 (V : Valuation τ sig (Elt F)) :
    after ops V (main_v74 : DevRef τ sig) = Xw (after ops V (main_v73 : DevRef τ sig)) (after ops V (main_arg8 : DevRef τ sig)) := by
  have hX : after ops V (main_v74 : DevRef τ sig) = U8 V (main_v74 : DevRef τ sig) :=
    (congrFun (ops_at8 V) _).trans (tail8_keep _ main_v74 (by decide))
  have h0 : after ops V (main_v73 : DevRef τ sig) = U7 V (main_v73 : DevRef τ sig) :=
    (congrFun (ops_at7 V) _).trans (tail7_keep _ main_v73 (by decide))
  have h1 : after ops V (main_arg8 : DevRef τ sig) = U7 V (main_arg8 : DevRef τ sig) :=
    (congrFun (ops_at7 V) _).trans (tail7_keep _ main_arg8 (by decide))
  rw [hX, h0, h1]
  exact v74_stage (U7 V)

theorem fin_v102 (V : Valuation τ sig (Elt F)) :
    after ops V (main_v102 : DevRef τ sig) = Agg (after ops V (main_v74 : DevRef τ sig)) (after ops V (main_v10 : DevRef τ sig)) (after ops V (main_v1 : DevRef τ sig)) (after ops V (main_v3 : DevRef τ sig)) := by
  have hX : after ops V (main_v102 : DevRef τ sig) = U10 V (main_v102 : DevRef τ sig) :=
    (congrFun (ops_at10 V) _).trans (tail10_keep _ main_v102 (by decide))
  have h0 : after ops V (main_v74 : DevRef τ sig) = U8 V (main_v74 : DevRef τ sig) :=
    (congrFun (ops_at8 V) _).trans (tail8_keep _ main_v74 (by decide))
  have h1 : after ops V (main_v10 : DevRef τ sig) = U8 V (main_v10 : DevRef τ sig) :=
    (congrFun (ops_at8 V) _).trans (tail8_keep _ main_v10 (by decide))
  have h2 : after ops V (main_v1 : DevRef τ sig) = U8 V (main_v1 : DevRef τ sig) :=
    (congrFun (ops_at8 V) _).trans (tail8_keep _ main_v1 (by decide))
  have h3 : after ops V (main_v3 : DevRef τ sig) = U8 V (main_v3 : DevRef τ sig) :=
    (congrFun (ops_at8 V) _).trans (tail8_keep _ main_v3 (by decide))
  rw [hX, h0, h1, h2, h3]
  exact v102_stage (U8 V)

theorem fin_v110 (V : Valuation τ sig (Elt F)) :
    after ops V (main_v110 : DevRef τ sig) = Pre (after ops V (main_v102 : DevRef τ sig)) (after ops V (main_v74 : DevRef τ sig)) (after ops V (main_v10 : DevRef τ sig)) (after ops V (main_arg9 : DevRef τ sig)) := by
  have hX : after ops V (main_v110 : DevRef τ sig) = U11 V (main_v110 : DevRef τ sig) :=
    (congrFun (ops_at11 V) _).trans (tail11_keep _ main_v110 (by decide))
  have h0 : after ops V (main_v102 : DevRef τ sig) = U10 V (main_v102 : DevRef τ sig) :=
    (congrFun (ops_at10 V) _).trans (tail10_keep _ main_v102 (by decide))
  have h1 : after ops V (main_v74 : DevRef τ sig) = U10 V (main_v74 : DevRef τ sig) :=
    (congrFun (ops_at10 V) _).trans (tail10_keep _ main_v74 (by decide))
  have h2 : after ops V (main_v10 : DevRef τ sig) = U10 V (main_v10 : DevRef τ sig) :=
    (congrFun (ops_at10 V) _).trans (tail10_keep _ main_v10 (by decide))
  have h3 : after ops V (main_arg9 : DevRef τ sig) = U10 V (main_arg9 : DevRef τ sig) :=
    (congrFun (ops_at10 V) _).trans (tail10_keep _ main_arg9 (by decide))
  rw [hX, h0, h1, h2, h3]
  exact v110_stage (U10 V)

theorem fin_v111 (V : Valuation τ sig (Elt F)) :
    after ops V (main_v111 : DevRef τ sig) = Selu (after ops V (main_v110 : DevRef τ sig)) := by
  have hX : after ops V (main_v111 : DevRef τ sig) = U12 V (main_v111 : DevRef τ sig) :=
    (congrFun (ops_at12 V) _).trans (tail12_keep _ main_v111 (by decide))
  have h0 : after ops V (main_v110 : DevRef τ sig) = U11 V (main_v110 : DevRef τ sig) :=
    (congrFun (ops_at11 V) _).trans (tail11_keep _ main_v110 (by decide))
  rw [hX, h0]
  exact v111_stage (U11 V)

theorem fin_v136 (V : Valuation τ sig (Elt F)) :
    after ops V (main_v136 : DevRef τ sig) = BN (after ops V (main_v111 : DevRef τ sig)) (after ops V (main_arg10 : DevRef τ sig)) (after ops V (main_arg11 : DevRef τ sig)) := by
  have hX : after ops V (main_v136 : DevRef τ sig) = U13 V (main_v136 : DevRef τ sig) :=
    (congrFun (ops_at13 V) _).trans (tail13_keep _ main_v136 (by decide))
  have h0 : after ops V (main_v111 : DevRef τ sig) = U12 V (main_v111 : DevRef τ sig) :=
    (congrFun (ops_at12 V) _).trans (tail12_keep _ main_v111 (by decide))
  have h1 : after ops V (main_arg10 : DevRef τ sig) = U12 V (main_arg10 : DevRef τ sig) :=
    (congrFun (ops_at12 V) _).trans (tail12_keep _ main_arg10 (by decide))
  have h2 : after ops V (main_arg11 : DevRef τ sig) = U12 V (main_arg11 : DevRef τ sig) :=
    (congrFun (ops_at12 V) _).trans (tail12_keep _ main_arg11 (by decide))
  rw [hX, h0, h1, h2]
  exact v136_stage (U12 V)

theorem fin_v137 (V : Valuation τ sig (Elt F)) :
    after ops V (main_v137 : DevRef τ sig) = Xw (after ops V (main_v136 : DevRef τ sig)) (after ops V (main_arg12 : DevRef τ sig)) := by
  have hX : after ops V (main_v137 : DevRef τ sig) = U14 V (main_v137 : DevRef τ sig) :=
    (congrFun (ops_at14 V) _).trans (tail14_keep _ main_v137 (by decide))
  have h0 : after ops V (main_v136 : DevRef τ sig) = U13 V (main_v136 : DevRef τ sig) :=
    (congrFun (ops_at13 V) _).trans (tail13_keep _ main_v136 (by decide))
  have h1 : after ops V (main_arg12 : DevRef τ sig) = U13 V (main_arg12 : DevRef τ sig) :=
    (congrFun (ops_at13 V) _).trans (tail13_keep _ main_arg12 (by decide))
  rw [hX, h0, h1]
  exact v137_stage (U13 V)

theorem fin_v165 (V : Valuation τ sig (Elt F)) :
    after ops V (main_v165 : DevRef τ sig) = Agg (after ops V (main_v137 : DevRef τ sig)) (after ops V (main_v10 : DevRef τ sig)) (after ops V (main_v1 : DevRef τ sig)) (after ops V (main_v3 : DevRef τ sig)) := by
  have hX : after ops V (main_v165 : DevRef τ sig) = U16 V (main_v165 : DevRef τ sig) :=
    (congrFun (ops_at16 V) _).trans (tail16_keep _ main_v165 (by decide))
  have h0 : after ops V (main_v137 : DevRef τ sig) = U14 V (main_v137 : DevRef τ sig) :=
    (congrFun (ops_at14 V) _).trans (tail14_keep _ main_v137 (by decide))
  have h1 : after ops V (main_v10 : DevRef τ sig) = U14 V (main_v10 : DevRef τ sig) :=
    (congrFun (ops_at14 V) _).trans (tail14_keep _ main_v10 (by decide))
  have h2 : after ops V (main_v1 : DevRef τ sig) = U14 V (main_v1 : DevRef τ sig) :=
    (congrFun (ops_at14 V) _).trans (tail14_keep _ main_v1 (by decide))
  have h3 : after ops V (main_v3 : DevRef τ sig) = U14 V (main_v3 : DevRef τ sig) :=
    (congrFun (ops_at14 V) _).trans (tail14_keep _ main_v3 (by decide))
  rw [hX, h0, h1, h2, h3]
  exact v165_stage (U14 V)

theorem fin_v173 (V : Valuation τ sig (Elt F)) :
    after ops V (main_v173 : DevRef τ sig) = Pre (after ops V (main_v165 : DevRef τ sig)) (after ops V (main_v137 : DevRef τ sig)) (after ops V (main_v10 : DevRef τ sig)) (after ops V (main_arg13 : DevRef τ sig)) := by
  have hX : after ops V (main_v173 : DevRef τ sig) = U17 V (main_v173 : DevRef τ sig) :=
    (congrFun (ops_at17 V) _).trans (tail17_keep _ main_v173 (by decide))
  have h0 : after ops V (main_v165 : DevRef τ sig) = U16 V (main_v165 : DevRef τ sig) :=
    (congrFun (ops_at16 V) _).trans (tail16_keep _ main_v165 (by decide))
  have h1 : after ops V (main_v137 : DevRef τ sig) = U16 V (main_v137 : DevRef τ sig) :=
    (congrFun (ops_at16 V) _).trans (tail16_keep _ main_v137 (by decide))
  have h2 : after ops V (main_v10 : DevRef τ sig) = U16 V (main_v10 : DevRef τ sig) :=
    (congrFun (ops_at16 V) _).trans (tail16_keep _ main_v10 (by decide))
  have h3 : after ops V (main_arg13 : DevRef τ sig) = U16 V (main_arg13 : DevRef τ sig) :=
    (congrFun (ops_at16 V) _).trans (tail16_keep _ main_arg13 (by decide))
  rw [hX, h0, h1, h2, h3]
  exact v173_stage (U16 V)

theorem fin_v174 (V : Valuation τ sig (Elt F)) :
    after ops V (main_v174 : DevRef τ sig) = Selu (after ops V (main_v173 : DevRef τ sig)) := by
  have hX : after ops V (main_v174 : DevRef τ sig) = U18 V (main_v174 : DevRef τ sig) :=
    (congrFun (ops_at18 V) _).trans (tail18_keep _ main_v174 (by decide))
  have h0 : after ops V (main_v173 : DevRef τ sig) = U17 V (main_v173 : DevRef τ sig) :=
    (congrFun (ops_at17 V) _).trans (tail17_keep _ main_v173 (by decide))
  rw [hX, h0]
  exact v174_stage (U17 V)

theorem fin_v177 (V : Valuation τ sig (Elt F)) :
    after ops V (main_v177 : DevRef τ sig) = Pool (after ops V (main_v174 : DevRef τ sig)) (after ops V (main_arg2 : DevRef τ sig)) := by
  have hX : after ops V (main_v177 : DevRef τ sig) = U19 V (main_v177 : DevRef τ sig) :=
    (congrFun (ops_at19 V) _).trans (tail19_keep _ main_v177 (by decide))
  have h0 : after ops V (main_v174 : DevRef τ sig) = U18 V (main_v174 : DevRef τ sig) :=
    (congrFun (ops_at18 V) _).trans (tail18_keep _ main_v174 (by decide))
  have h1 : after ops V (main_arg2 : DevRef τ sig) = U18 V (main_arg2 : DevRef τ sig) :=
    (congrFun (ops_at18 V) _).trans (tail18_keep _ main_arg2 (by decide))
  rw [hX, h0, h1]
  exact v177_stage (U18 V)

theorem fin_v182 (V : Valuation τ sig (Elt F)) :
    after ops V (main_v182 : DevRef τ sig) = Head1 (after ops V (main_v177 : DevRef τ sig)) (after ops V (main_arg3 : DevRef τ sig)) (after ops V (main_arg14 : DevRef τ sig)) (after ops V (main_arg15 : DevRef τ sig)) := by
  have hX : after ops V (main_v182 : DevRef τ sig) = U20 V (main_v182 : DevRef τ sig) :=
    (congrFun (ops_at20 V) _).trans (tail20_keep _ main_v182 (by decide))
  have h0 : after ops V (main_v177 : DevRef τ sig) = U19 V (main_v177 : DevRef τ sig) :=
    (congrFun (ops_at19 V) _).trans (tail19_keep _ main_v177 (by decide))
  have h1 : after ops V (main_arg3 : DevRef τ sig) = U19 V (main_arg3 : DevRef τ sig) :=
    (congrFun (ops_at19 V) _).trans (tail19_keep _ main_arg3 (by decide))
  have h2 : after ops V (main_arg14 : DevRef τ sig) = U19 V (main_arg14 : DevRef τ sig) :=
    (congrFun (ops_at19 V) _).trans (tail19_keep _ main_arg14 (by decide))
  have h3 : after ops V (main_arg15 : DevRef τ sig) = U19 V (main_arg15 : DevRef τ sig) :=
    (congrFun (ops_at19 V) _).trans (tail19_keep _ main_arg15 (by decide))
  rw [hX, h0, h1, h2, h3]
  exact v182_stage (U19 V)

theorem fin_v183 (V : Valuation τ sig (Elt F)) :
    after ops V (main_v183 : DevRef τ sig) = SeluG (after ops V (main_v182 : DevRef τ sig)) := by
  have hX : after ops V (main_v183 : DevRef τ sig) = U21 V (main_v183 : DevRef τ sig) :=
    (congrFun (ops_at21 V) _).trans (tail21_keep _ main_v183 (by decide))
  have h0 : after ops V (main_v182 : DevRef τ sig) = U20 V (main_v182 : DevRef τ sig) :=
    (congrFun (ops_at20 V) _).trans (tail20_keep _ main_v182 (by decide))
  rw [hX, h0]
  exact v183_stage (U20 V)

theorem fin_v187 (V : Valuation τ sig (Elt F)) :
    after ops V (main_v187 : DevRef τ sig) = Head2 (after ops V (main_v183 : DevRef τ sig)) (after ops V (main_arg16 : DevRef τ sig)) (after ops V (main_arg17 : DevRef τ sig)) := by
  have hX : after ops V (main_v187 : DevRef τ sig) = U22 V (main_v187 : DevRef τ sig) :=
    (congrFun (ops_at22 V) _).trans (tail22_keep _ main_v187 (by decide))
  have h0 : after ops V (main_v183 : DevRef τ sig) = U21 V (main_v183 : DevRef τ sig) :=
    (congrFun (ops_at21 V) _).trans (tail21_keep _ main_v183 (by decide))
  have h1 : after ops V (main_arg16 : DevRef τ sig) = U21 V (main_arg16 : DevRef τ sig) :=
    (congrFun (ops_at21 V) _).trans (tail21_keep _ main_arg16 (by decide))
  have h2 : after ops V (main_arg17 : DevRef τ sig) = U21 V (main_arg17 : DevRef τ sig) :=
    (congrFun (ops_at21 V) _).trans (tail21_keep _ main_arg17 (by decide))
  rw [hX, h0, h1, h2]
  exact v187_stage (U21 V)

/-! ## The result -/

set_option maxRecDepth 16384 in
/-- After the whole line the result buffer holds `RefOut` of the arguments' contents before it. -/
theorem out_eq (V : Valuation τ sig (Elt F)) :
    after ops V (main_v187 : DevRef τ sig) = RefOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [fin_v187 V, fin_v183 V, fin_v182 V, fin_v177 V, fin_v174 V, fin_v173 V, fin_v165 V, fin_v137 V, fin_v136 V, fin_v111 V, fin_v110 V, fin_v102 V, fin_v74 V, fin_v73 V, fin_v48 V, fin_v47 V, fin_v39 V, fin_v11 V, fin_v10 V, fin_v1 V, fin_v3 V,
    arg0_eq V, arg1_eq V, arg2_eq V, arg3_eq V, arg4_eq V, arg5_eq V, arg6_eq V, arg7_eq V, arg8_eq V, arg9_eq V, arg10_eq V, arg11_eq V, arg12_eq V, arg13_eq V, arg14_eq V, arg15_eq V, arg16_eq V, arg17_eq V]
  rfl

end Cert.ReferenceIdeal.RefRun

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.MClaimCore.lean ====
import proofs.«162488_j80401787781187_1_alg».proof.Defs
import proofs.«162488_j80401787781187_1_alg».proof.Proof.Gen.ReferenceIdeal
import proofs.«162488_j80401787781187_1_alg».proof.Proof.Gen.Pre_finite_inputs
import proofs.«162488_j80401787781187_1_alg».proof.Proof.KRunNet
import proofs.«162488_j80401787781187_1_alg».proof.Proof.MPre
import proofs.«162488_j80401787781187_1_alg».proof.Proof.RefRunMain
import proofs.«162488_j80401787781187_1_alg».proof.Proof.RefRunOut
import proofs.«162488_j80401787781187_1_alg».proof.Proof.LibERealSum

/-!
# The two programs end with the same result

The reference program is a line of host operations: it terminates, its arguments are never written, and its result
buffer ends at one function of the arguments as launched. The kernel program ends with its result buffer at the
network of its arguments as launched. Under the precondition every float argument holds real numbers, and on real
arguments the two functions agree; the two memories agree on the arguments, so the two results are one array.
-/

noncomputable section

namespace Cert.MClaim

open Idealize.ShloMosaic Idealize.SL.Sem Cert.KernelIdeal Cert.LibERealSum

set_option maxHeartbeats 1000000 in
/-- The reference program runs and leaves its argument arrays as launched. -/
theorem frame_ref : Cert.frame_ReferenceIdeal := fun m ρ _ =>
  (θ_run (Cert.ReferenceIdeal.defs (F := Ideal)) _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _),
     (h c Cert.ReferenceIdeal.main_arg14).trans (Cert.ReferenceIdeal.RefRun.arg14_eq _),
     (h c Cert.ReferenceIdeal.main_arg15).trans (Cert.ReferenceIdeal.RefRun.arg15_eq _),
     (h c Cert.ReferenceIdeal.main_arg16).trans (Cert.ReferenceIdeal.RefRun.arg16_eq _),
     (h c Cert.ReferenceIdeal.main_arg17).trans (Cert.ReferenceIdeal.RefRun.arg17_eq _)⟩)
    (Cert.ReferenceIdeal.RefRun.run_main (F := Ideal) m ρ)

set_option maxHeartbeats 4000000 in
/-- The algebraic claim, from the kernel launches' results as whole-array functions and the agreement of the two
    networks on real arguments. -/
theorem algebraic_of_net (R : Cert.KernelIdeal.KRun.RegionFns Ideal) (hR : Cert.KernelIdeal.KRun.RegionsAre R)
    (hnet : ∀ (x : FVec Ideal S100000x128 .f32) (e : IVec S2x1600000 32) (batch : IVec S100000 32) (mol : FVec Ideal S2048x64 .f32)
      (W1 : FVec Ideal S128x128 .f32) (b1 g1 be1 : FVec Ideal S128 .f32) (W2 : FVec Ideal S128x128 .f32) (b2 g2 be2 : FVec Ideal S128 .f32)
      (W3 : FVec Ideal S128x128 .f32) (b3 : FVec Ideal S128 .f32) (Wf1 : FVec Ideal S192x128 .f32) (bf1 : FVec Ideal S128 .f32)
      (Wf2 : FVec Ideal S128x1 .f32) (bf2 : FVec Ideal S1 .f32),
      (∀ i, IsReal (x i)) → (∀ i, IsReal (W1 i)) → (∀ i, IsReal (b1 i)) → (∀ i, IsReal (g1 i)) → (∀ i, IsReal (be1 i)) →
      (∀ i, IsReal (W2 i)) → (∀ i, IsReal (b2 i)) → (∀ i, IsReal (g2 i)) → (∀ i, IsReal (be2 i)) →
      Cert.KernelIdeal.KRun.Net R x e batch mol W1 b1 g1 be1 W2 b2 g2 be2 W3 b3 Wf1 bf1 Wf2 bf2
        = Cert.ReferenceIdeal.RefRun.RefOut (F := Ideal) x e batch mol W1 b1 g1 be1 W2 b2 g2 be2 W3 b3 Wf1 bf1 Wf2 bf2) :
    Cert.algebraic_KernelIdeal_ReferenceIdeal := by
  intro m ρ m' ρ' hpre hagree
  refine ⟨fun c => Cert.KernelIdeal.KRun.Net R (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    Cert.KernelIdeal.KRun.net_run R hR m ρ, ?_⟩
  refine (θ_run (Cert.ReferenceIdeal.defs (F := Ideal)) _ _).mono (fun r h c => ?_) (Cert.ReferenceIdeal.RefRun.run_main (F := Ideal) m' ρ')
  obtain ⟨e0, e1, e2, e3, e4, e5, e6, e7, e8, e9, e10, e11, e12, e13, e14, e15, e16, e17⟩ := hagree c
  obtain ⟨r0, r3, r4, r5, r6, r7, r8, r9, r10, r11, r12, r13, r14, r15, r16, r17⟩ :=
    Cert.MPre.reals_of_pre _ _ _ _ _ _ _ _ _ _ _ _ _ _ _ _ _ _ (hpre c)
  have hout : r.2.mem ((c.tc : Thread Cert.ReferenceIdeal.nD Cert.ReferenceIdeal.τ).loc Cert.ReferenceIdeal.main_v187)
      = Cert.ReferenceIdeal.RefRun.RefOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) :=
    (h c Cert.ReferenceIdeal.main_v187).trans (Cert.ReferenceIdeal.RefRun.out_eq _)
  rw [e0, e1, e2, e3, e4, e5, e6, e7, e8, e9, e10, e11, e12, e13, e14, e15, e16, e17] at hout
  refine ⟨hout.trans (hnet _ _ _ _ _ _ _ _ _ _ _ _ _ _ _ _ _ _ r0 r4 r5 r6 r7 r8 r9 r10 r11).symm,
     (h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _),
     (h c Cert.ReferenceIdeal.main_arg14).trans (Cert.ReferenceIdeal.RefRun.arg14_eq _),
     (h c Cert.ReferenceIdeal.main_arg15).trans (Cert.ReferenceIdeal.RefRun.arg15_eq _),
     (h c Cert.ReferenceIdeal.main_arg16).trans (Cert.ReferenceIdeal.RefRun.arg16_eq _),
     (h c Cert.ReferenceIdeal.main_arg17).trans (Cert.ReferenceIdeal.RefRun.arg17_eq _)⟩

end Cert.MClaim

end
-- ==== Proof.FinABase.lean ====
import proofs.«162488_j80401787781187_1_alg».proof.Proof.Gen.KernelIdeal.Skeleton
import Idealize.ShloMosaic.Lib.ValueIdx
import Idealize.ShloMosaic.Lib.Pipeline.Value
import Idealize.ShloMosaic.Lib.ValueLayout

noncomputable section

namespace Cert.KernelIdeal.FinA

open Idealize.ShloMosaic Idealize.ShloMosaic.ValueIdx Cert.KernelIdeal Cert.KernelIdeal.Gen

open scoped BigOperators

/-- The zero offsets of a rank-2 rectangle, however they are spelt. -/
theorem hz2 : (![0, 0] : Fin 2 → Nat) = fun _ => 0 := funext fun a => by fin_cases a <;> rfl

/-! ## Rows and columns of the node arrays and of their row blocks, as numbers of literal range -/

/-- The column of an entry of a [100000,128] array. -/
def colOf (i : S100000x128.Idx) : Fin 128 := ⟨(i 1).val, idx2_lt1 i⟩
/-- The row of an entry of a [100000,128] array. -/
def rowOf (i : S100000x128.Idx) : Fin 100000 := ⟨(i 0).val, idx2_lt0 i⟩
/-- The column of an entry of a [4000,128] row block. -/
def colB (y : S4000x128.Idx) : Fin 128 := ⟨(y 1).val, idx2_lt1 y⟩
/-- The row of an entry of a [4000,128] row block. -/
def rowB (y : S4000x128.Idx) : Fin 4000 := ⟨(y 0).val, idx2_lt0 y⟩

theorem colOf_ix2 (p : Fin 100000) (q : Fin 128) : colOf (ix2 p q) = q := rfl
theorem rowOf_ix2 (p : Fin 100000) (q : Fin 128) : rowOf (ix2 p q) = p := rfl
theorem colB_ix2 (r : Fin 4000) (q : Fin 128) : colB (ix2 r q) = q := rfl
theorem rowB_ix2 (r : Fin 4000) (q : Fin 128) : rowB (ix2 r q) = r := rfl
theorem eq_ix2_rowB_colB (y : S4000x128.Idx) : y = ix2 (rowB y) (colB y) := eq_ix2 y

/-! ## The four results, as functions of whole arrays -/

/-- Scale-and-shift of a [100000,128] array by a scale row and a shift row: entry (p, q) is the
    activation there times the scale of column q plus the shift of column q. -/
def bnG (a0 : S100000x128.Idx → EReal) (a1 a2 : S1x128.Idx → EReal) : S100000x128.Idx → EReal :=
  fun i => a0 i * a1 (ix2 (0 : Fin 1) (colOf i)) + a2 (ix2 (0 : Fin 1) (colOf i))

theorem bnG_apply (a0 : S100000x128.Idx → EReal) (a1 a2 : S1x128.Idx → EReal) (p : Fin 100000) (q : Fin 128) :
    bnG a0 a1 a2 (ix2 p q) = a0 (ix2 p q) * a1 (ix2 (0 : Fin 1) q) + a2 (ix2 (0 : Fin 1) q) := rfl

/-- The activation of the combine kernels and of the head, on one extended real, with the body's
    operations in the body's order: 1.05070102 · (x if x > 0, else 1.67326319 · (eˣ − 1)), the four
    constants kept as their 32-bit words. -/
def SeluS (x : EReal) : EReal :=
  Ideal.ofBits .f32 0x3F867D5F#32
    * Scalar.select (Ideal.cmp .ogt x (Ideal.ofBits .f32 0x00000000#32)) x
        (Ideal.ofBits .f32 0x3FD62D7D#32 * (Ideal.exp x - Ideal.ofBits .f32 0x3F800000#32))

/-- The body's activation on a vector, read at an entry, is `SeluS` of that entry. -/
theorem selu_tail_apply {s : Shape} (x : FVec Ideal s .f32) (i : s.Idx) :
    mulf (broadcast s (Scalar.ofBits (F := Ideal) .f32 0x3F867D5F#32))
      (select (cmpf .ogt x (broadcast s (Scalar.ofBits (F := Ideal) .f32 0x00000000#32))) x
        (mulf (broadcast s (Scalar.ofBits (F := Ideal) .f32 0x3FD62D7D#32))
          (subf (exp x) (broadcast s (Scalar.ofBits (F := Ideal) .f32 0x3F800000#32))))) i = SeluS (x i) := rfl

/-- The combine of a [100000,128] aggregate, a [100000,128] product, a [100000,1] scale column and a
    [1,128] bias row: entry (p, q) is the activation of aggregate + product · scale of row p + bias
    of column q, added in that order. -/
def combG (a0 a1 : S100000x128.Idx → EReal) (a2 : S100000x1.Idx → EReal) (a3 : S1x128.Idx → EReal) :
    S100000x128.Idx → EReal :=
  fun i => SeluS (a0 i + a1 i * a2 (ix2 (rowOf i) (0 : Fin 1)) + a3 (ix2 (0 : Fin 1) (colOf i)))

theorem combG_apply (a0 a1 : S100000x128.Idx → EReal) (a2 : S100000x1.Idx → EReal) (a3 : S1x128.Idx → EReal)
    (p : Fin 100000) (q : Fin 128) :
    combG a0 a1 a2 a3 (ix2 p q)
      = SeluS (a0 (ix2 p q) + a1 (ix2 p q) * a2 (ix2 p (0 : Fin 1)) + a3 (ix2 (0 : Fin 1) q)) := rfl

/-- The product of a [100000,128] array by a [128,128] array: entry (p, q) is the sum over k of
    (p, k) times (k, q). -/
def mmG (a0 : S100000x128.Idx → EReal) (a1 : S128x128.Idx → EReal) : S100000x128.Idx → EReal :=
  fun i => ∑ k : Fin 128, a0 (ix2 (rowOf i) k) * a1 (ix2 k (colOf i))

theorem mmG_apply (a0 : S100000x128.Idx → EReal) (a1 : S128x128.Idx → EReal) (p : Fin 100000) (q : Fin 128) :
    mmG a0 a1 (ix2 p q) = ∑ k : Fin 128, a0 (ix2 p k) * a1 (ix2 k q) := rfl

/-! ## A column repeated over columns -/

/-- A column [a,1] repeated over b columns reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.FinA

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.FinAPay0.lean ====
import proofs.«162488_j80401787781187_1_alg».proof.Proof.Gen.KernelIdeal.Skeleton
import proofs.«162488_j80401787781187_1_alg».proof.Proof.FinABase
import proofs.«162488_j80401787781187_1_alg».proof.Proof.LibDotSum
import Idealize.ShloMosaic.PureOps.Ideal.Laws
import Idealize.ShloMosaic.Lib.ValueIdx
import Idealize.ShloMosaic.Lib.Pipeline.Value

noncomputable section

namespace Cert.KernelIdeal.FinA

open Idealize.ShloMosaic Idealize.ShloMosaic.ValueIdx Cert.KernelIdeal Cert.KernelIdeal.Gen

open scoped BigOperators

/-- The product body at one element of its row block: the sum over k of the block's (r, k) times the
    weight's (k, q); the narrowing of both operands is the identity on extended reals and the
    accumulator is zero. -/
theorem pay0_apply (x0 : Vec Ideal S4000x128 .f32) (x1 : Vec Ideal S128x128 .f32) (r : Fin 4000) (q : Fin 128) :
    k0_pay1 x0 x1 (ix2 r q) = ∑ k : Fin 128, x0 (ix2 r k) * x1 (ix2 k q) := by
  unfold k0_pay1
  refine (Ideal.matmul_constant_zero_apply dot_S4000x128_S128x128_S4000x128_1_0_0_1_n_n none _ _ (ix2 r q)).trans ?_
  exact Cert.LibDotSum.sum_dot dot_S4000x128_S128x128_S4000x128_1_0_0_1_n_n rfl rfl
    (fun _ _ => rfl) (fun _ _ => rfl) (fun _ _ => rfl) (fun _ _ => rfl) x0 x1 r q

/-- The same at any entry of the block. -/
theorem pay0_idx (x0 : Vec Ideal S4000x128 .f32) (x1 : Vec Ideal S128x128 .f32) (y : S4000x128.Idx) :
    k0_pay1 x0 x1 y = ∑ k : Fin 128, x0 (ix2 (rowB y) k) * x1 (ix2 k (colB y)) := by
  obtain ⟨r, q, rfl⟩ : ∃ (r : Fin 4000) (q : Fin 128), y = ix2 r q := ⟨y 0, y 1, eq_ix2 y⟩
  exact pay0_apply x0 x1 r q

end Cert.KernelIdeal.FinA

end
-- ==== Proof.FinAMm0.lean ====
import proofs.«162488_j80401787781187_1_alg».proof.Proof.Gen.KernelIdeal.Frame
import proofs.«162488_j80401787781187_1_alg».proof.Proof.FinABase
import proofs.«162488_j80401787781187_1_alg».proof.Proof.FinAPay0
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

open scoped BigOperators

/-- The printed index maps over the 25 grid points: the left operand and the result move one row
    block per point, the weight stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Each input window's block at point t, read at an entry, is the window's array at the entry the
    block's place puts it at: block index times block size plus the coordinate inside the block. -/
theorem blk0_0 (c : Dev nD) (t : Fin cfg0.N) (y : S4000x128.Idx) (k : S100000x128.Idx)
    (hk0 : (k 0).val = win0_0.index t (0 : Fin 2) * 4000 + (y 0).val)
    (hk1 : (k 1).val = win0_0.index t (1 : Fin 2) * 128 + (y 1).val) :
    iblk0 V c 0 t y = V c (Pipeline.arrRef spec0 0) k := by
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 4000 + 1 * (y 0).val = (k 0).val; omega
  | ⟨1, _⟩ => show win0_0.index t (1 : Fin 2) * 128 + 1 * (y 1).val = (k 1).val; omega

theorem blk0_1 (c : Dev nD) (t : Fin cfg0.N) (y : S128x128.Idx) (k : S128x128.Idx)
    (hk0 : (k 0).val = win0_1.index t (0 : Fin 2) * 128 + (y 0).val)
    (hk1 : (k 1).val = win0_1.index t (1 : Fin 2) * 128 + (y 1).val) :
    iblk0 V c 1 t y = V c (Pipeline.arrRef spec0 1) k := by
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 128 + 1 * (y 0).val = (k 0).val; omega
  | ⟨1, _⟩ => show win0_1.index t (1 : Fin 2) * 128 + 1 * (y 1).val = (k 1).val; omega

/-- Reading an array through the result window's block at point t reads it at the block's entries. -/
theorem read_out0 (t : Fin cfg0.N) (G : S100000x128.Idx → EReal) (j : ((cfg0.win 2).xblock (grid0.coords t)).Idx) :
    ((cfg0.win 2).blk t).view.read (Elt Ideal) G j = G (((cfg0.win 2).blk t).view.emb j) := rfl

/-- What point t writes back is its row block of the product of the arrays the region finds. -/
theorem flushed0_eq (c : Dev nD) (t : Fin cfg0.N) :
    (dat0 V c).flushed 2 t = ((cfg0.win 2).blk t).view.read (Elt Ideal)
      (mmG (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S4000x128) hz2, View.ld_unit_zero (S := S128x128) hz2]
  obtain ⟨e00, e01, e10, e11, eo0, eo1⟩ := idx_facts0 t
  funext j
  refine Eq.trans ?_ (read_out0 t _ j).symm
  refine (pay0_idx (iblk0 V c 0 t) (iblk0 V c 1 t) _).trans ?_
  have k0 : ((((cfg0.win 2).blk t).view.emb j) 0).val = win0_2.index t (0 : Fin 2) * 4000 + 1 * (j 0).val := rfl
  have k1 : ((((cfg0.win 2).blk t).view.emb j) 1).val = win0_2.index t (1 : Fin 2) * 128 + 1 * (j 1).val := rfl
  have c1 : (colOf (((cfg0.win 2).blk t).view.emb j)).val = ((((cfg0.win 2).blk t).view.emb j) 1).val := rfl
  have c2 : (colB ((win0 2).xinj (grid0.coords t) j)).val = (j 1).val := rfl
  have r1 : (rowOf (((cfg0.win 2).blk t).view.emb j)).val = ((((cfg0.win 2).blk t).view.emb j) 0).val := rfl
  have r2 : (rowB ((win0 2).xinj (grid0.coords t) j)).val = (j 0).val := rfl
  have x0 : (((win0 2).xinj (grid0.coords t) j) 0).val = (j 0).val := rfl
  have x1 : (((win0 2).xinj (grid0.coords t) j) 1).val = (j 1).val := rfl
  have hcol : colOf (((cfg0.win 2).blk t).view.emb j) = colB ((win0 2).xinj (grid0.coords t) j) :=
    Fin.ext (by rw [c1, c2, k1, eo1]; omega)
  unfold mmG
  rw [hcol]
  refine Finset.sum_congr rfl fun k _ => congrArg₂ (· * ·) ?_ ?_
  · exact blk0_0 V c t _ _
      (by show (rowOf (((cfg0.win 2).blk t).view.emb j)).val = _ + (rowB ((win0 2).xinj (grid0.coords t) j)).val
          rw [r1, r2, k0, e00, eo0]; omega)
      (by show k.val = _ + k.val; rw [e01]; omega)
  · exact blk0_1 V c t _ _
      (by show k.val = _ + k.val; rw [e10]; omega)
      (by show (colB ((win0 2).xinj (grid0.coords t) j)).val = _ + (colB ((win0 2).xinj (grid0.coords t) j)).val
          rw [e11]; omega)

theorem idx_out0 (t : Fin cfg0.N) : win0_2.index t (0 : Fin 2) = t.val ∧ win0_2.index t (1 : Fin 2) = 0 := by
  obtain ⟨-, -, -, -, eo0, eo1⟩ := idx_facts0 t
  exact ⟨eo0, eo1⟩

/-- An entry of the result array is in point t's block iff each coordinate is in the block's range. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v13).slice (win0_2.rect t)).set ↔ _
  rw [View.set_slice_whole, Rect.mem_set_unit]
  exact Iff.rfl

/-- Row r of the result lies in the block of point r / 4000: the 25 blocks of 4000 rows cover the array. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 25 := N_0
  obtain ⟨t, ht⟩ : ∃ t : Fin cfg0.N, t.val = (i 0).val / 4000 := ⟨⟨(i 0).val / 4000, by rw [hN]; omega⟩, rfl⟩
  have e30 : win0_2.index t (0 : Fin 2) = t.val := (idx_out0 t).1
  have e31 : win0_2.index t (1 : Fin 2) = 0 := (idx_out0 t).2
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The result array after the region: the product of the arrays the region finds. -/
theorem final0 (c : Dev nD) : (dat0 V c).arrAt 2 cfg0.N
    = mmG (V c (Pipeline.arrRef spec0 0)) (V c (Pipeline.arrRef spec0 1)) :=
  (dat0 V c).arrAt_eq_of_cover 2 _ (fun t _ => flushed0_eq V c t) cover0

/-- The result array at entry (p, q), the two input arrays named by equations. -/
theorem mm0_apply (c : Dev nD) (X0 : S100000x128.Idx → EReal) (X1 : S128x128.Idx → EReal)
    (h0 : V c (Pipeline.arrRef spec0 0) = X0) (h1 : V c (Pipeline.arrRef spec0 1) = X1) (p : Fin 100000) (q : Fin 128) :
    (dat0 V c).arrAt 2 cfg0.N (ix2 p q) = ∑ k : Fin 128, X0 (ix2 p k) * X1 (ix2 k q) := by
  subst h0 h1
  exact (congrFun (final0 V c) _).trans (mmG_apply _ _ p q)

end Cert.KernelIdeal.FinA

end
-- ==== Proof.FinAPay4.lean ====
import proofs.«162488_j80401787781187_1_alg».proof.Proof.Gen.KernelIdeal.Skeleton
import proofs.«162488_j80401787781187_1_alg».proof.Proof.FinABase
import proofs.«162488_j80401787781187_1_alg».proof.Proof.LibDotSum
import Idealize.ShloMosaic.PureOps.Ideal.Laws
import Idealize.ShloMosaic.Lib.ValueIdx
import Idealize.ShloMosaic.Lib.Pipeline.Value

noncomputable section

namespace Cert.KernelIdeal.FinA

open Idealize.ShloMosaic Idealize.ShloMosaic.ValueIdx Cert.KernelIdeal Cert.KernelIdeal.Gen

open scoped BigOperators

/-- The product body at one element of its row block: the sum over k of the block's (r, k) times the
    weight's (k, q); the narrowing of both operands is the identity on extended reals and the
    accumulator is zero. -/
theorem pay4_apply (x0 : Vec Ideal S4000x128 .f32) (x1 : Vec Ideal S128x128 .f32) (r : Fin 4000) (q : Fin 128) :
    k4_pay1 x0 x1 (ix2 r q) = ∑ k : Fin 128, x0 (ix2 r k) * x1 (ix2 k q) := by
  unfold k4_pay1
  simp only [shapeCast_self]
  refine (Ideal.matmul_constant_zero_apply dot_S4000x128_S128x128_S4000x128_1_0_0_1_n_n none _ _ (ix2 r q)).trans ?_
  exact Cert.LibDotSum.sum_dot dot_S4000x128_S128x128_S4000x128_1_0_0_1_n_n rfl rfl
    (fun _ _ => rfl) (fun _ _ => rfl) (fun _ _ => rfl) (fun _ _ => rfl) x0 x1 r q

/-- The same at any entry of the block. -/
theorem pay4_idx (x0 : Vec Ideal S4000x128 .f32) (x1 : Vec Ideal S128x128 .f32) (y : S4000x128.Idx) :
    k4_pay1 x0 x1 y = ∑ k : Fin 128, x0 (ix2 (rowB y) k) * x1 (ix2 k (colB y)) := by
  obtain ⟨r, q, rfl⟩ : ∃ (r : Fin 4000) (q : Fin 128), y = ix2 r q := ⟨y 0, y 1, eq_ix2 y⟩
  exact pay4_apply x0 x1 r q

end Cert.KernelIdeal.FinA

end
-- ==== Proof.FinAMm4.lean ====
import proofs.«162488_j80401787781187_1_alg».proof.Proof.Gen.KernelIdeal.Frame
import proofs.«162488_j80401787781187_1_alg».proof.Proof.FinABase
import proofs.«162488_j80401787781187_1_alg».proof.Proof.FinAPay4
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

open scoped BigOperators

/-- The printed index maps over the 25 grid points: the left operand and the result move one row
    block per point, the weight stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Each input window's block at point t, read at an entry, is the window's array at the entry the
    block's place puts it at: block index times block size plus the coordinate inside the block. -/
theorem blk4_0 (c : Dev nD) (t : Fin cfg4.N) (y : S4000x128.Idx) (k : S100000x128.Idx)
    (hk0 : (k 0).val = win4_0.index t (0 : Fin 2) * 4000 + (y 0).val)
    (hk1 : (k 1).val = win4_0.index t (1 : Fin 2) * 128 + (y 1).val) :
    iblk4 V c 0 t y = V c (Pipeline.arrRef spec4 0) k := by
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 4000 + 1 * (y 0).val = (k 0).val; omega
  | ⟨1, _⟩ => show win4_0.index t (1 : Fin 2) * 128 + 1 * (y 1).val = (k 1).val; omega

theorem blk4_1 (c : Dev nD) (t : Fin cfg4.N) (y : S128x128.Idx) (k : S128x128.Idx)
    (hk0 : (k 0).val = win4_1.index t (0 : Fin 2) * 128 + (y 0).val)
    (hk1 : (k 1).val = win4_1.index t (1 : Fin 2) * 128 + (y 1).val) :
    iblk4 V c 1 t y = V c (Pipeline.arrRef spec4 1) k := by
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 128 + 1 * (y 0).val = (k 0).val; omega
  | ⟨1, _⟩ => show win4_1.index t (1 : Fin 2) * 128 + 1 * (y 1).val = (k 1).val; omega

/-- Reading an array through the result window's block at point t reads it at the block's entries. -/
theorem read_out4 (t : Fin cfg4.N) (G : S100000x128.Idx → EReal) (j : ((cfg4.win 2).xblock (grid4.coords t)).Idx) :
    ((cfg4.win 2).blk t).view.read (Elt Ideal) G j = G (((cfg4.win 2).blk t).view.emb j) := rfl

/-- What point t writes back is its row block of the product of the arrays the region finds. -/
theorem flushed4_eq (c : Dev nD) (t : Fin cfg4.N) :
    (dat4 V c).flushed 2 t = ((cfg4.win 2).blk t).view.read (Elt Ideal)
      (mmG (V c (Pipeline.arrRef spec4 0)) (V c (Pipeline.arrRef spec4 1))) := by
  show (cfg4.win 2).cut (grid4.coords t) ((dat4 V c).after 2 t) = _
  rw [after4_2]
  unfold out4_2
  rw [View.canon_unit_zero hz2]
  simp only [View.ld_unit_zero (S := S4000x128) hz2, View.ld_unit_zero (S := S128x128) hz2]
  obtain ⟨e00, e01, e10, e11, eo0, eo1⟩ := idx_facts4 t
  funext j
  refine Eq.trans ?_ (read_out4 t _ j).symm
  refine (pay4_idx (iblk4 V c 0 t) (iblk4 V c 1 t) _).trans ?_
  have k0 : ((((cfg4.win 2).blk t).view.emb j) 0).val = win4_2.index t (0 : Fin 2) * 4000 + 1 * (j 0).val := rfl
  have k1 : ((((cfg4.win 2).blk t).view.emb j) 1).val = win4_2.index t (1 : Fin 2) * 128 + 1 * (j 1).val := rfl
  have c1 : (colOf (((cfg4.win 2).blk t).view.emb j)).val = ((((cfg4.win 2).blk t).view.emb j) 1).val := rfl
  have c2 : (colB ((win4 2).xinj (grid4.coords t) j)).val = (j 1).val := rfl
  have r1 : (rowOf (((cfg4.win 2).blk t).view.emb j)).val = ((((cfg4.win 2).blk t).view.emb j) 0).val := rfl
  have r2 : (rowB ((win4 2).xinj (grid4.coords t) j)).val = (j 0).val := rfl
  have x0 : (((win4 2).xinj (grid4.coords t) j) 0).val = (j 0).val := rfl
  have x1 : (((win4 2).xinj (grid4.coords t) j) 1).val = (j 1).val := rfl
  have hcol : colOf (((cfg4.win 2).blk t).view.emb j) = colB ((win4 2).xinj (grid4.coords t) j) :=
    Fin.ext (by rw [c1, c2, k1, eo1]; omega)
  unfold mmG
  rw [hcol]
  refine Finset.sum_congr rfl fun k _ => congrArg₂ (· * ·) ?_ ?_
  · exact blk4_0 V c t _ _
      (by show (rowOf (((cfg4.win 2).blk t).view.emb j)).val = _ + (rowB ((win4 2).xinj (grid4.coords t) j)).val
          rw [r1, r2, k0, e00, eo0]; omega)
      (by show k.val = _ + k.val; rw [e01]; omega)
  · exact blk4_1 V c t _ _
      (by show k.val = _ + k.val; rw [e10]; omega)
      (by show (colB ((win4 2).xinj (grid4.coords t) j)).val = _ + (colB ((win4 2).xinj (grid4.coords t) j)).val
          rw [e11]; omega)

theorem idx_out4 (t : Fin cfg4.N) : win4_2.index t (0 : Fin 2) = t.val ∧ win4_2.index t (1 : Fin 2) = 0 := by
  obtain ⟨-, -, -, -, eo0, eo1⟩ := idx_facts4 t
  exact ⟨eo0, eo1⟩

/-- An entry of the result array is in point t's block iff each coordinate is in the block's range. -/
theorem mem_blk4 (t : Fin cfg4.N) (i : S100000x128.Idx) :
    i ∈ ((cfg4.win 2).blk t).view.set ↔ ∀ a : Fin 2, win4_2.index t a * S4000x128.size a ≤ (i a).val ∧ (i a).val < win4_2.index t a * S4000x128.size a + S4000x128.size a := by
  show i ∈ ((View.whole main_v65).slice (win4_2.rect t)).set ↔ _
  rw [View.set_slice_whole, Rect.mem_set_unit]
  exact Iff.rfl

/-- Row r of the result lies in the block of point r / 4000: the 25 blocks of 4000 rows cover the array. -/
theorem cover4 (i : S100000x128.Idx) :
    ∃ t : Fin cfg4.N, (cfg4.win 2).flush t = true ∧ i ∈ ((cfg4.win 2).blk t).view.set := by
  have hi0 : (i 0).val < 100000 := idx2_lt0 i
  have hi1 : (i 1).val < 128 := idx2_lt1 i
  have hN : cfg4.N = 25 := N_4
  obtain ⟨t, ht⟩ : ∃ t : Fin cfg4.N, t.val = (i 0).val / 4000 := ⟨⟨(i 0).val / 4000, by rw [hN]; omega⟩, rfl⟩
  have e30 : win4_2.index t (0 : Fin 2) = t.val := (idx_out4 t).1
  have e31 : win4_2.index t (1 : Fin 2) = 0 := (idx_out4 t).2
  refine ⟨t, flush4_2 t, ?_⟩
  rw [mem_blk4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 128 ≤ (i 1).val ∧ (i 1).val < win4_2.index t (1 : Fin 2) * 128 + 128; omega

/-- The result array after the region: the product of the arrays the region finds. -/
theorem final4 (c : Dev nD) : (dat4 V c).arrAt 2 cfg4.N
    = mmG (V c (Pipeline.arrRef spec4 0)) (V c (Pipeline.arrRef spec4 1)) :=
  (dat4 V c).arrAt_eq_of_cover 2 _ (fun t _ => flushed4_eq V c t) cover4

/-- The result array at entry (p, q), the two input arrays named by equations. -/
theorem mm4_apply (c : Dev nD) (X0 : S100000x128.Idx → EReal) (X1 : S128x128.Idx → EReal)
    (h0 : V c (Pipeline.arrRef spec4 0) = X0) (h1 : V c (Pipeline.arrRef spec4 1) = X1) (p : Fin 100000) (q : Fin 128) :
    (dat4 V c).arrAt 2 cfg4.N (ix2 p q) = ∑ k : Fin 128, X0 (ix2 p k) * X1 (ix2 k q) := by
  subst h0 h1
  exact (congrFun (final4 V c) _).trans (mmG_apply _ _ p q)

end Cert.KernelIdeal.FinA

end
-- ==== Proof.FinAPay8.lean ====
import proofs.«162488_j80401787781187_1_alg».proof.Proof.Gen.KernelIdeal.Skeleton
import proofs.«162488_j80401787781187_1_alg».proof.Proof.FinABase
import proofs.«162488_j80401787781187_1_alg».proof.Proof.LibDotSum
import Idealize.ShloMosaic.PureOps.Ideal.Laws
import Idealize.ShloMosaic.Lib.ValueIdx
import Idealize.ShloMosaic.Lib.Pipeline.Value

noncomputable section

namespace Cert.KernelIdeal.FinA

open Idealize.ShloMosaic Idealize.ShloMosaic.ValueIdx Cert.KernelIdeal Cert.KernelIdeal.Gen

open scoped BigOperators

/-- The product body at one element of its row block: the sum over k of the block's (r, k) times the
    weight's (k, q); the narrowing of both operands is the identity on extended reals and the
    accumulator is zero. -/
theorem pay8_apply (x0 : Vec Ideal S4000x128 .f32) (x1 : Vec Ideal S128x128 .f32) (r : Fin 4000) (q : Fin 128) :
    k8_pay1 x0 x1 (ix2 r q) = ∑ k : Fin 128, x0 (ix2 r k) * x1 (ix2 k q) := by
  unfold k8_pay1
  simp only [shapeCast_self]
  refine (Ideal.matmul_constant_zero_apply dot_S4000x128_S128x128_S4000x128_1_0_0_1_n_n none _ _ (ix2 r q)).trans ?_
  exact Cert.LibDotSum.sum_dot dot_S4000x128_S128x128_S4000x128_1_0_0_1_n_n rfl rfl
    (fun _ _ => rfl) (fun _ _ => rfl) (fun _ _ => rfl) (fun _ _ => rfl) x0 x1 r q

/-- The same at any entry of the block. -/
theorem pay8_idx (x0 : Vec Ideal S4000x128 .f32) (x1 : Vec Ideal S128x128 .f32) (y : S4000x128.Idx) :
    k8_pay1 x0 x1 y = ∑ k : Fin 128, x0 (ix2 (rowB y) k) * x1 (ix2 k (colB y)) := by
  obtain ⟨r, q, rfl⟩ : ∃ (r : Fin 4000) (q : Fin 128), y = ix2 r q := ⟨y 0, y 1, eq_ix2 y⟩
  exact pay8_apply x0 x1 r q

end Cert.KernelIdeal.FinA

end
-- ==== Proof.FinAMm8.lean ====
import proofs.«162488_j80401787781187_1_alg».proof.Proof.Gen.KernelIdeal.Frame
import proofs.«162488_j80401787781187_1_alg».proof.Proof.FinABase
import proofs.«162488_j80401787781187_1_alg».proof.Proof.FinAPay8
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

open scoped BigOperators

/-- The printed index maps over the 25 grid points: the left operand and the result move one row
    block per point, the weight stays. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Each input window's block at point t, read at an entry, is the window's array at the entry the
    block's place puts it at: block index times block size plus the coordinate inside the block. -/
theorem blk8_0 (c : Dev nD) (t : Fin cfg8.N) (y : S4000x128.Idx) (k : S100000x128.Idx)
    (hk0 : (k 0).val = win8_0.index t (0 : Fin 2) * 4000 + (y 0).val)
    (hk1 : (k 1).val = win8_0.index t (1 : Fin 2) * 128 + (y 1).val) :
    iblk8 V c 0 t y = V c (Pipeline.arrRef spec8 0) k := by
  unfold iblk8
  rw [View.read_apply]
  show V c (Pipeline.arrRef spec8 0) _ = V c (Pipeline.arrRef spec8 0) _
  refine congrArg _ (funext fun a => Fin.ext ?_)
  match a with
  | ⟨0, _⟩ => show win8_0.index t (0 : Fin 2) * 4000 + 1 * (y 0).val = (k 0).val; omega
  | ⟨1, _⟩ => show win8_0.index t (1 : Fin 2) * 128 + 1 * (y 1).val = (k 1).val; omega

theorem blk8_1 (c : Dev nD) (t : Fin cfg8.N) (y : S128x128.Idx) (k : S128x128.Idx)
    (hk0 : (k 0).val = win8_1.index t (0 : Fin 2) * 128 + (y 0).val)
    (hk1 : (k 1).val = win8_1.index t (1 : Fin 2) * 128 + (y 1).val) :
    iblk8 V c 1 t y = V c (Pipeline.arrRef spec8 1) k := by
  unfold iblk8
  rw [View.read_apply]
  show V c (Pipeline.arrRef spec8 1) _ = V c (Pipeline.arrRef spec8 1) _
  refine congrArg _ (funext fun a => Fin.ext ?_)
  match a with
  | ⟨0, _⟩ => show win8_1.index t (0 : Fin 2) * 128 + 1 * (y 0).val = (k 0).val; omega
  | ⟨1, _⟩ => show win8_1.index t (1 : Fin 2) * 128 + 1 * (y 1).val = (k 1).val; omega

/-- Reading an array through the result window's block at point t reads it at the block's entries. -/
theorem read_out8 (t : Fin cfg8.N) (G : S100000x128.Idx → EReal) (j : ((cfg8.win 2).xblock (grid8.coords t)).Idx) :
    ((cfg8.win 2).blk t).view.read (Elt Ideal) G j = G (((cfg8.win 2).blk t).view.emb j) := rfl

/-- What point t writes back is its row block of the product of the arrays the region finds. -/
theorem flushed8_eq (c : Dev nD) (t : Fin cfg8.N) :
    (dat8 V c).flushed 2 t = ((cfg8.win 2).blk t).view.read (Elt Ideal)
      (mmG (V c (Pipeline.arrRef spec8 0)) (V c (Pipeline.arrRef spec8 1))) := by
  show (cfg8.win 2).cut (grid8.coords t) ((dat8 V c).after 2 t) = _
  rw [after8_2]
  unfold out8_2
  rw [View.canon_unit_zero hz2]
  simp only [View.ld_unit_zero (S := S4000x128) hz2, View.ld_unit_zero (S := S128x128) hz2]
  obtain ⟨e00, e01, e10, e11, eo0, eo1⟩ := idx_facts8 t
  funext j
  refine Eq.trans ?_ (read_out8 t _ j).symm
  refine (pay8_idx (iblk8 V c 0 t) (iblk8 V c 1 t) _).trans ?_
  have k0 : ((((cfg8.win 2).blk t).view.emb j) 0).val = win8_2.index t (0 : Fin 2) * 4000 + 1 * (j 0).val := rfl
  have k1 : ((((cfg8.win 2).blk t).view.emb j) 1).val = win8_2.index t (1 : Fin 2) * 128 + 1 * (j 1).val := rfl
  have c1 : (colOf (((cfg8.win 2).blk t).view.emb j)).val = ((((cfg8.win 2).blk t).view.emb j) 1).val := rfl
  have c2 : (colB ((win8 2).xinj (grid8.coords t) j)).val = (j 1).val := rfl
  have r1 : (rowOf (((cfg8.win 2).blk t).view.emb j)).val = ((((cfg8.win 2).blk t).view.emb j) 0).val := rfl
  have r2 : (rowB ((win8 2).xinj (grid8.coords t) j)).val = (j 0).val := rfl
  have x0 : (((win8 2).xinj (grid8.coords t) j) 0).val = (j 0).val := rfl
  have x1 : (((win8 2).xinj (grid8.coords t) j) 1).val = (j 1).val := rfl
  have hcol : colOf (((cfg8.win 2).blk t).view.emb j) = colB ((win8 2).xinj (grid8.coords t) j) :=
    Fin.ext (by rw [c1, c2, k1, eo1]; omega)
  unfold mmG
  rw [hcol]
  refine Finset.sum_congr rfl fun k _ => congrArg₂ (· * ·) ?_ ?_
  · exact blk8_0 V c t _ _
      (by show (rowOf (((cfg8.win 2).blk t).view.emb j)).val = _ + (rowB ((win8 2).xinj (grid8.coords t) j)).val
          rw [r1, r2, k0, e00, eo0]; omega)
      (by show k.val = _ + k.val; rw [e01]; omega)
  · exact blk8_1 V c t _ _
      (by show k.val = _ + k.val; rw [e10]; omega)
      (by show (colB ((win8 2).xinj (grid8.coords t) j)).val = _ + (colB ((win8 2).xinj (grid8.coords t) j)).val
          rw [e11]; omega)

theorem idx_out8 (t : Fin cfg8.N) : win8_2.index t (0 : Fin 2) = t.val ∧ win8_2.index t (1 : Fin 2) = 0 := by
  obtain ⟨-, -, -, -, eo0, eo1⟩ := idx_facts8 t
  exact ⟨eo0, eo1⟩

/-- An entry of the result array is in point t's block iff each coordinate is in the block's range. -/
theorem mem_blk8 (t : Fin cfg8.N) (i : S100000x128.Idx) :
    i ∈ ((cfg8.win 2).blk t).view.set ↔ ∀ a : Fin 2, win8_2.index t a * S4000x128.size a ≤ (i a).val ∧ (i a).val < win8_2.index t a * S4000x128.size a + S4000x128.size a := by
  show i ∈ ((View.whole main_v117).slice (win8_2.rect t)).set ↔ _
  rw [View.set_slice_whole, Rect.mem_set_unit]
  exact Iff.rfl

/-- Row r of the result lies in the block of point r / 4000: the 25 blocks of 4000 rows cover the array. -/
theorem cover8 (i : S100000x128.Idx) :
    ∃ t : Fin cfg8.N, (cfg8.win 2).flush t = true ∧ i ∈ ((cfg8.win 2).blk t).view.set := by
  have hi0 : (i 0).val < 100000 := idx2_lt0 i
  have hi1 : (i 1).val < 128 := idx2_lt1 i
  have hN : cfg8.N = 25 := N_8
  obtain ⟨t, ht⟩ : ∃ t : Fin cfg8.N, t.val = (i 0).val / 4000 := ⟨⟨(i 0).val / 4000, by rw [hN]; omega⟩, rfl⟩
  have e30 : win8_2.index t (0 : Fin 2) = t.val := (idx_out8 t).1
  have e31 : win8_2.index t (1 : Fin 2) = 0 := (idx_out8 t).2
  refine ⟨t, flush8_2 t, ?_⟩
  rw [mem_blk8]
  intro a
  match a with
  | ⟨0, _⟩ => show win8_2.index t (0 : Fin 2) * 4000 ≤ (i 0).val ∧ (i 0).val < win8_2.index t (0 : Fin 2) * 4000 + 4000; omega
  | ⟨1, _⟩ => show win8_2.index t (1 : Fin 2) * 128 ≤ (i 1).val ∧ (i 1).val < win8_2.index t (1 : Fin 2) * 128 + 128; omega

/-- The result array after the region: the product of the arrays the region finds. -/
theorem final8 (c : Dev nD) : (dat8 V c).arrAt 2 cfg8.N
    = mmG (V c (Pipeline.arrRef spec8 0)) (V c (Pipeline.arrRef spec8 1)) :=
  (dat8 V c).arrAt_eq_of_cover 2 _ (fun t _ => flushed8_eq V c t) cover8

/-- The result array at entry (p, q), the two input arrays named by equations. -/
theorem mm8_apply (c : Dev nD) (X0 : S100000x128.Idx → EReal) (X1 : S128x128.Idx → EReal)
    (h0 : V c (Pipeline.arrRef spec8 0) = X0) (h1 : V c (Pipeline.arrRef spec8 1) = X1) (p : Fin 100000) (q : Fin 128) :
    (dat8 V c).arrAt 2 cfg8.N (ix2 p q) = ∑ k : Fin 128, X0 (ix2 p k) * X1 (ix2 k q) := by
  subst h0 h1
  exact (congrFun (final8 V c) _).trans (mmG_apply _ _ p q)

end Cert.KernelIdeal.FinA

end
-- ==== Proof.FinAPay1.lean ====
import proofs.«162488_j80401787781187_1_alg».proof.Proof.Gen.KernelIdeal.Skeleton
import proofs.«162488_j80401787781187_1_alg».proof.Proof.FinABase
import Idealize.ShloMosaic.Lib.ValueIdx
import Idealize.ShloMosaic.Lib.Pipeline.Value
import Idealize.ShloMosaic.Lib.ValueLayout

noncomputable section

namespace Cert.KernelIdeal.FinA

open Idealize.ShloMosaic Idealize.ShloMosaic.ValueIdx Cert.KernelIdeal Cert.KernelIdeal.Gen

/-- The combine body at one element of its row block: the aggregate there, plus the product there
    times the row's scale, plus the bias of the column, through the activation. -/
theorem pay1_apply (x0 x1 : Vec Ideal S4000x128 .f32) (x2 : Vec Ideal S4000x1 .f32) (x3 : Vec Ideal S1x128 .f32)
    (r : Fin 4000) (q : Fin 128) :
    k1_pay1 x0 x1 x2 x3 (ix2 r q)
      = SeluS (x0 (ix2 r q) + x1 (ix2 r q) * x2 (ix2 r (0 : Fin 1)) + x3 (ix2 (0 : Fin 1) q)) := by
  unfold k1_pay1
  simp only [shapeCast_self]
  refine (selu_tail_apply _ (ix2 r q)).trans ?_
  rw [addf_apply, addf_apply, mulf_apply, broadcastTo_1b_ab_apply, broadcastTo_a1_ab_apply]

/-- The same at any entry of the block. -/
theorem pay1_idx (x0 x1 : Vec Ideal S4000x128 .f32) (x2 : Vec Ideal S4000x1 .f32) (x3 : Vec Ideal S1x128 .f32)
    (y : S4000x128.Idx) :
    k1_pay1 x0 x1 x2 x3 y
      = SeluS (x0 y + x1 y * x2 (ix2 (rowB y) (0 : Fin 1)) + x3 (ix2 (0 : Fin 1) (colB y))) := by
  obtain ⟨r, q, rfl⟩ : ∃ (r : Fin 4000) (q : Fin 128), y = ix2 r q := ⟨y 0, y 1, eq_ix2 y⟩
  exact pay1_apply x0 x1 x2 x3 r q

end Cert.KernelIdeal.FinA

end
-- ==== Proof.FinAComb1.lean ====
import proofs.«162488_j80401787781187_1_alg».proof.Proof.Gen.KernelIdeal.Frame
import proofs.«162488_j80401787781187_1_alg».proof.Proof.FinABase
import proofs.«162488_j80401787781187_1_alg».proof.Proof.FinAPay1
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The printed index maps over the 25 grid points: the aggregate, the product, the scale column and
    the result move one row block per point, the bias row stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Each input window's block at point t, read at an entry, is the window's array at the entry the
    block's place puts it at: block index times block size plus the coordinate inside the block. -/
theorem blk1_0 (c : Dev nD) (t : Fin cfg1.N) (y : S4000x128.Idx) (k : S100000x128.Idx)
    (hk0 : (k 0).val = win1_0.index t (0 : Fin 2) * 4000 + (y 0).val)
    (hk1 : (k 1).val = win1_0.index t (1 : Fin 2) * 128 + (y 1).val) :
    iblk1 V c 0 t y = V c (Pipeline.arrRef spec1 0) k := by
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 4000 + 1 * (y 0).val = (k 0).val; omega
  | ⟨1, _⟩ => show win1_0.index t (1 : Fin 2) * 128 + 1 * (y 1).val = (k 1).val; omega

theorem blk1_1 (c : Dev nD) (t : Fin cfg1.N) (y : S4000x128.Idx) (k : S100000x128.Idx)
    (hk0 : (k 0).val = win1_1.index t (0 : Fin 2) * 4000 + (y 0).val)
    (hk1 : (k 1).val = win1_1.index t (1 : Fin 2) * 128 + (y 1).val) :
    iblk1 V c 1 t y = V c (Pipeline.arrRef spec1 1) k := by
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 4000 + 1 * (y 0).val = (k 0).val; omega
  | ⟨1, _⟩ => show win1_1.index t (1 : Fin 2) * 128 + 1 * (y 1).val = (k 1).val; omega

theorem blk1_2 (c : Dev nD) (t : Fin cfg1.N) (y : S4000x1.Idx) (k : S100000x1.Idx)
    (hk0 : (k 0).val = win1_2.index t (0 : Fin 2) * 4000 + (y 0).val)
    (hk1 : (k 1).val = win1_2.index t (1 : Fin 2) * 1 + (y 1).val) :
    iblk1 V c 2 t y = V c (Pipeline.arrRef spec1 2) k := by
  unfold iblk1
  rw [View.read_apply]
  show V c (Pipeline.arrRef spec1 2) _ = V c (Pipeline.arrRef spec1 2) _
  refine congrArg _ (funext fun a => Fin.ext ?_)
  match a with
  | ⟨0, _⟩ => show win1_2.index t (0 : Fin 2) * 4000 + 1 * (y 0).val = (k 0).val; omega
  | ⟨1, _⟩ => show win1_2.index t (1 : Fin 2) * 1 + 1 * (y 1).val = (k 1).val; omega

theorem blk1_3 (c : Dev nD) (t : Fin cfg1.N) (y : S1x128.Idx) (k : S1x128.Idx)
    (hk0 : (k 0).val = win1_3.index t (0 : Fin 2) * 1 + (y 0).val)
    (hk1 : (k 1).val = win1_3.index t (1 : Fin 2) * 128 + (y 1).val) :
    iblk1 V c 3 t y = V c (Pipeline.arrRef spec1 3) k := by
  unfold iblk1
  rw [View.read_apply]
  show V c (Pipeline.arrRef spec1 3) _ = V c (Pipeline.arrRef spec1 3) _
  refine congrArg _ (funext fun a => Fin.ext ?_)
  match a with
  | ⟨0, _⟩ => show win1_3.index t (0 : Fin 2) * 1 + 1 * (y 0).val = (k 0).val; omega
  | ⟨1, _⟩ => show win1_3.index t (1 : Fin 2) * 128 + 1 * (y 1).val = (k 1).val; omega

/-- Reading an array through the result window's block at point t reads it at the block's entries. -/
theorem read_out1 (t : Fin cfg1.N) (G : S100000x128.Idx → EReal) (j : ((cfg1.win 4).xblock (grid1.coords t)).Idx) :
    ((cfg1.win 4).blk t).view.read (Elt Ideal) G j = G (((cfg1.win 4).blk t).view.emb j) := rfl

theorem idx_row1_3 (t : Fin cfg1.N) : win1_3.index t (0 : Fin 2) = 0 ∧ win1_3.index t (1 : Fin 2) = 0 := by
  obtain ⟨-, -, -, -, -, -, e30, e31, -, -⟩ := idx_facts1 t
  exact ⟨e30, e31⟩

theorem row1_3 (c : Dev nD) (t : Fin cfg1.N) (q : Fin 128) :
    iblk1 V c 3 t (ix2 (0 : Fin 1) q : S1x128.Idx) = V c (Pipeline.arrRef spec1 3) (ix2 (0 : Fin 1) q : S1x128.Idx) := by
  have e0 : win1_3.index t (0 : Fin 2) = 0 := (idx_row1_3 t).1
  have e1 : win1_3.index t (1 : Fin 2) = 0 := (idx_row1_3 t).2
  exact blk1_3 V c t _ _ (by rw [e0]; rfl) (by rw [e1]; show q.val = 0 * 128 + q.val; omega)

/-- What point t writes back is its row block of the combine of the arrays the region finds. -/
theorem flushed1_eq (c : Dev nD) (t : Fin cfg1.N) :
    (dat1 V c).flushed 4 t = ((cfg1.win 4).blk t).view.read (Elt Ideal)
      (combG (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz2]
  simp only [View.ld_unit_zero (S := S4000x128) hz2, View.ld_unit_zero (S := S4000x1) hz2, View.ld_unit_zero (S := S1x128) hz2]
  obtain ⟨e00, e01, e10, e11, e20, e21, e30, e31, eo0, eo1⟩ := idx_facts1 t
  funext j
  refine Eq.trans ?_ (read_out1 t _ j).symm
  refine (pay1_idx (iblk1 V c 0 t) (iblk1 V c 1 t) (iblk1 V c 2 t) (iblk1 V c 3 t) _).trans ?_
  have k0 : ((((cfg1.win 4).blk t).view.emb j) 0).val = win1_4.index t (0 : Fin 2) * 4000 + 1 * (j 0).val := rfl
  have k1 : ((((cfg1.win 4).blk t).view.emb j) 1).val = win1_4.index t (1 : Fin 2) * 128 + 1 * (j 1).val := rfl
  have c1 : (colOf (((cfg1.win 4).blk t).view.emb j)).val = ((((cfg1.win 4).blk t).view.emb j) 1).val := rfl
  have c2 : (colB ((win1 4).xinj (grid1.coords t) j)).val = (j 1).val := rfl
  have r1 : (rowOf (((cfg1.win 4).blk t).view.emb j)).val = ((((cfg1.win 4).blk t).view.emb j) 0).val := rfl
  have r2 : (rowB ((win1 4).xinj (grid1.coords t) j)).val = (j 0).val := rfl
  have x0 : (((win1 4).xinj (grid1.coords t) j) 0).val = (j 0).val := rfl
  have x1 : (((win1 4).xinj (grid1.coords t) j) 1).val = (j 1).val := rfl
  have hcol : colOf (((cfg1.win 4).blk t).view.emb j) = colB ((win1 4).xinj (grid1.coords t) j) :=
    Fin.ext (by rw [c1, c2, k1, eo1]; omega)
  unfold combG
  rw [hcol]
  refine congrArg SeluS (congrArg₂ (· + ·) (congrArg₂ (· + ·) ?_ (congrArg₂ (· * ·) ?_ ?_)) ?_)
  · exact blk1_0 V c t _ _ (by rw [k0, x0, e00, eo0]; omega) (by rw [k1, x1, e01, eo1]; omega)
  · exact blk1_1 V c t _ _ (by rw [k0, x0, e10, eo0]; omega) (by rw [k1, x1, e11, eo1]; omega)
  · exact blk1_2 V c t _ _
      (by show (rowOf (((cfg1.win 4).blk t).view.emb j)).val = _ + (rowB ((win1 4).xinj (grid1.coords t) j)).val
          rw [r1, r2, k0, e20, eo0]; omega)
      (by rw [e21]; rfl)
  · exact row1_3 V c t _

theorem idx_out1 (t : Fin cfg1.N) : win1_4.index t (0 : Fin 2) = t.val ∧ win1_4.index t (1 : Fin 2) = 0 := by
  obtain ⟨-, -, -, -, -, -, -, -, eo0, eo1⟩ := idx_facts1 t
  exact ⟨eo0, eo1⟩

/-- An entry of the result array is in point t's block iff each coordinate is in the block's range. -/
theorem mem_blk1 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v43).slice (win1_4.rect t)).set ↔ _
  rw [View.set_slice_whole, Rect.mem_set_unit]
  exact Iff.rfl

/-- Row r of the result lies in the block of point r / 4000: the 25 blocks of 4000 rows cover the array. -/
theorem cover1 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 25 := N_1
  obtain ⟨t, ht⟩ : ∃ t : Fin cfg1.N, t.val = (i 0).val / 4000 := ⟨⟨(i 0).val / 4000, by rw [hN]; omega⟩, rfl⟩
  have e30 : win1_4.index t (0 : Fin 2) = t.val := (idx_out1 t).1
  have e31 : win1_4.index t (1 : Fin 2) = 0 := (idx_out1 t).2
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- The result array after the region: the combine of the arrays the region finds. -/
theorem final1 (c : Dev nD) : (dat1 V c).arrAt 4 cfg1.N
    = combG (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_eq V c t) cover1

/-- The result array at entry (p, q), the four input arrays named by equations. -/
theorem comb1_apply (c : Dev nD) (X0 X1 : S100000x128.Idx → EReal) (X2 : S100000x1.Idx → EReal) (X3 : S1x128.Idx → EReal)
    (h0 : V c (Pipeline.arrRef spec1 0) = X0) (h1 : V c (Pipeline.arrRef spec1 1) = X1)
    (h2 : V c (Pipeline.arrRef spec1 2) = X2) (h3 : V c (Pipeline.arrRef spec1 3) = X3) (p : Fin 100000) (q : Fin 128) :
    (dat1 V c).arrAt 4 cfg1.N (ix2 p q)
      = SeluS (X0 (ix2 p q) + X1 (ix2 p q) * X2 (ix2 p (0 : Fin 1)) + X3 (ix2 (0 : Fin 1) q)) := by
  subst h0 h1 h2 h3
  exact (congrFun (final1 V c) _).trans (combG_apply _ _ _ _ p q)

end Cert.KernelIdeal.FinA

end
-- ==== Proof.FinAPay5.lean ====
import proofs.«162488_j80401787781187_1_alg».proof.Proof.Gen.KernelIdeal.Skeleton
import proofs.«162488_j80401787781187_1_alg».proof.Proof.FinABase
import Idealize.ShloMosaic.Lib.ValueIdx
import Idealize.ShloMosaic.Lib.Pipeline.Value
import Idealize.ShloMosaic.Lib.ValueLayout

noncomputable section

namespace Cert.KernelIdeal.FinA

open Idealize.ShloMosaic Idealize.ShloMosaic.ValueIdx Cert.KernelIdeal Cert.KernelIdeal.Gen

/-- The combine body at one element of its row block: the aggregate there, plus the product there
    times the row's scale, plus the bias of the column, through the activation. -/
theorem pay5_apply (x0 x1 : Vec Ideal S4000x128 .f32) (x2 : Vec Ideal S4000x1 .f32) (x3 : Vec Ideal S1x128 .f32)
    (r : Fin 4000) (q : Fin 128) :
    k5_pay1 x0 x1 x2 x3 (ix2 r q)
      = SeluS (x0 (ix2 r q) + x1 (ix2 r q) * x2 (ix2 r (0 : Fin 1)) + x3 (ix2 (0 : Fin 1) q)) := by
  unfold k5_pay1
  simp only [shapeCast_self]
  refine (selu_tail_apply _ (ix2 r q)).trans ?_
  rw [addf_apply, addf_apply, mulf_apply, broadcastTo_1b_ab_apply, broadcastTo_a1_ab_apply]

/-- The same at any entry of the block. -/
theorem pay5_idx (x0 x1 : Vec Ideal S4000x128 .f32) (x2 : Vec Ideal S4000x1 .f32) (x3 : Vec Ideal S1x128 .f32)
    (y : S4000x128.Idx) :
    k5_pay1 x0 x1 x2 x3 y
      = SeluS (x0 y + x1 y * x2 (ix2 (rowB y) (0 : Fin 1)) + x3 (ix2 (0 : Fin 1) (colB y))) := by
  obtain ⟨r, q, rfl⟩ : ∃ (r : Fin 4000) (q : Fin 128), y = ix2 r q := ⟨y 0, y 1, eq_ix2 y⟩
  exact pay5_apply x0 x1 x2 x3 r q

end Cert.KernelIdeal.FinA

end
-- ==== Proof.FinAComb5.lean ====
import proofs.«162488_j80401787781187_1_alg».proof.Proof.Gen.KernelIdeal.Frame
import proofs.«162488_j80401787781187_1_alg».proof.Proof.FinABase
import proofs.«162488_j80401787781187_1_alg».proof.Proof.FinAPay5
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The printed index maps over the 25 grid points: the aggregate, the product, the scale column and
    the result move one row block per point, the bias row stays. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Each input window's block at point t, read at an entry, is the window's array at the entry the
    block's place puts it at: block index times block size plus the coordinate inside the block. -/
theorem blk5_0 (c : Dev nD) (t : Fin cfg5.N) (y : S4000x128.Idx) (k : S100000x128.Idx)
    (hk0 : (k 0).val = win5_0.index t (0 : Fin 2) * 4000 + (y 0).val)
    (hk1 : (k 1).val = win5_0.index t (1 : Fin 2) * 128 + (y 1).val) :
    iblk5 V c 0 t y = V c (Pipeline.arrRef spec5 0) k := by
  unfold iblk5
  rw [View.read_apply]
  show V c (Pipeline.arrRef spec5 0) _ = V c (Pipeline.arrRef spec5 0) _
  refine congrArg _ (funext fun a => Fin.ext ?_)
  match a with
  | ⟨0, _⟩ => show win5_0.index t (0 : Fin 2) * 4000 + 1 * (y 0).val = (k 0).val; omega
  | ⟨1, _⟩ => show win5_0.index t (1 : Fin 2) * 128 + 1 * (y 1).val = (k 1).val; omega

theorem blk5_1 (c : Dev nD) (t : Fin cfg5.N) (y : S4000x128.Idx) (k : S100000x128.Idx)
    (hk0 : (k 0).val = win5_1.index t (0 : Fin 2) * 4000 + (y 0).val)
    (hk1 : (k 1).val = win5_1.index t (1 : Fin 2) * 128 + (y 1).val) :
    iblk5 V c 1 t y = V c (Pipeline.arrRef spec5 1) k := by
  unfold iblk5
  rw [View.read_apply]
  show V c (Pipeline.arrRef spec5 1) _ = V c (Pipeline.arrRef spec5 1) _
  refine congrArg _ (funext fun a => Fin.ext ?_)
  match a with
  | ⟨0, _⟩ => show win5_1.index t (0 : Fin 2) * 4000 + 1 * (y 0).val = (k 0).val; omega
  | ⟨1, _⟩ => show win5_1.index t (1 : Fin 2) * 128 + 1 * (y 1).val = (k 1).val; omega

theorem blk5_2 (c : Dev nD) (t : Fin cfg5.N) (y : S4000x1.Idx) (k : S100000x1.Idx)
    (hk0 : (k 0).val = win5_2.index t (0 : Fin 2) * 4000 + (y 0).val)
    (hk1 : (k 1).val = win5_2.index t (1 : Fin 2) * 1 + (y 1).val) :
    iblk5 V c 2 t y = V c (Pipeline.arrRef spec5 2) k := by
  unfold iblk5
  rw [View.read_apply]
  show V c (Pipeline.arrRef spec5 2) _ = V c (Pipeline.arrRef spec5 2) _
  refine congrArg _ (funext fun a => Fin.ext ?_)
  match a with
  | ⟨0, _⟩ => show win5_2.index t (0 : Fin 2) * 4000 + 1 * (y 0).val = (k 0).val; omega
  | ⟨1, _⟩ => show win5_2.index t (1 : Fin 2) * 1 + 1 * (y 1).val = (k 1).val; omega

theorem blk5_3 (c : Dev nD) (t : Fin cfg5.N) (y : S1x128.Idx) (k : S1x128.Idx)
    (hk0 : (k 0).val = win5_3.index t (0 : Fin 2) * 1 + (y 0).val)
    (hk1 : (k 1).val = win5_3.index t (1 : Fin 2) * 128 + (y 1).val) :
    iblk5 V c 3 t y = V c (Pipeline.arrRef spec5 3) k := by
  unfold iblk5
  rw [View.read_apply]
  show V c (Pipeline.arrRef spec5 3) _ = V c (Pipeline.arrRef spec5 3) _
  refine congrArg _ (funext fun a => Fin.ext ?_)
  match a with
  | ⟨0, _⟩ => show win5_3.index t (0 : Fin 2) * 1 + 1 * (y 0).val = (k 0).val; omega
  | ⟨1, _⟩ => show win5_3.index t (1 : Fin 2) * 128 + 1 * (y 1).val = (k 1).val; omega

/-- Reading an array through the result window's block at point t reads it at the block's entries. -/
theorem read_out5 (t : Fin cfg5.N) (G : S100000x128.Idx → EReal) (j : ((cfg5.win 4).xblock (grid5.coords t)).Idx) :
    ((cfg5.win 4).blk t).view.read (Elt Ideal) G j = G (((cfg5.win 4).blk t).view.emb j) := rfl

theorem idx_row5_3 (t : Fin cfg5.N) : win5_3.index t (0 : Fin 2) = 0 ∧ win5_3.index t (1 : Fin 2) = 0 := by
  obtain ⟨-, -, -, -, -, -, e30, e31, -, -⟩ := idx_facts5 t
  exact ⟨e30, e31⟩

theorem row5_3 (c : Dev nD) (t : Fin cfg5.N) (q : Fin 128) :
    iblk5 V c 3 t (ix2 (0 : Fin 1) q : S1x128.Idx) = V c (Pipeline.arrRef spec5 3) (ix2 (0 : Fin 1) q : S1x128.Idx) := by
  have e0 : win5_3.index t (0 : Fin 2) = 0 := (idx_row5_3 t).1
  have e1 : win5_3.index t (1 : Fin 2) = 0 := (idx_row5_3 t).2
  exact blk5_3 V c t _ _ (by rw [e0]; rfl) (by rw [e1]; show q.val = 0 * 128 + q.val; omega)

/-- What point t writes back is its row block of the combine of the arrays the region finds. -/
theorem flushed5_eq (c : Dev nD) (t : Fin cfg5.N) :
    (dat5 V c).flushed 4 t = ((cfg5.win 4).blk t).view.read (Elt Ideal)
      (combG (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero hz2]
  simp only [View.ld_unit_zero (S := S4000x128) hz2, View.ld_unit_zero (S := S4000x1) hz2, View.ld_unit_zero (S := S1x128) hz2]
  obtain ⟨e00, e01, e10, e11, e20, e21, e30, e31, eo0, eo1⟩ := idx_facts5 t
  funext j
  refine Eq.trans ?_ (read_out5 t _ j).symm
  refine (pay5_idx (iblk5 V c 0 t) (iblk5 V c 1 t) (iblk5 V c 2 t) (iblk5 V c 3 t) _).trans ?_
  have k0 : ((((cfg5.win 4).blk t).view.emb j) 0).val = win5_4.index t (0 : Fin 2) * 4000 + 1 * (j 0).val := rfl
  have k1 : ((((cfg5.win 4).blk t).view.emb j) 1).val = win5_4.index t (1 : Fin 2) * 128 + 1 * (j 1).val := rfl
  have c1 : (colOf (((cfg5.win 4).blk t).view.emb j)).val = ((((cfg5.win 4).blk t).view.emb j) 1).val := rfl
  have c2 : (colB ((win5 4).xinj (grid5.coords t) j)).val = (j 1).val := rfl
  have r1 : (rowOf (((cfg5.win 4).blk t).view.emb j)).val = ((((cfg5.win 4).blk t).view.emb j) 0).val := rfl
  have r2 : (rowB ((win5 4).xinj (grid5.coords t) j)).val = (j 0).val := rfl
  have x0 : (((win5 4).xinj (grid5.coords t) j) 0).val = (j 0).val := rfl
  have x1 : (((win5 4).xinj (grid5.coords t) j) 1).val = (j 1).val := rfl
  have hcol : colOf (((cfg5.win 4).blk t).view.emb j) = colB ((win5 4).xinj (grid5.coords t) j) :=
    Fin.ext (by rw [c1, c2, k1, eo1]; omega)
  unfold combG
  rw [hcol]
  refine congrArg SeluS (congrArg₂ (· + ·) (congrArg₂ (· + ·) ?_ (congrArg₂ (· * ·) ?_ ?_)) ?_)
  · exact blk5_0 V c t _ _ (by rw [k0, x0, e00, eo0]; omega) (by rw [k1, x1, e01, eo1]; omega)
  · exact blk5_1 V c t _ _ (by rw [k0, x0, e10, eo0]; omega) (by rw [k1, x1, e11, eo1]; omega)
  · exact blk5_2 V c t _ _
      (by show (rowOf (((cfg5.win 4).blk t).view.emb j)).val = _ + (rowB ((win5 4).xinj (grid5.coords t) j)).val
          rw [r1, r2, k0, e20, eo0]; omega)
      (by rw [e21]; rfl)
  · exact row5_3 V c t _

theorem idx_out5 (t : Fin cfg5.N) : win5_4.index t (0 : Fin 2) = t.val ∧ win5_4.index t (1 : Fin 2) = 0 := by
  obtain ⟨-, -, -, -, -, -, -, -, eo0, eo1⟩ := idx_facts5 t
  exact ⟨eo0, eo1⟩

/-- An entry of the result array is in point t's block iff each coordinate is in the block's range. -/
theorem mem_blk5 (t : Fin cfg5.N) (i : S100000x128.Idx) :
    i ∈ ((cfg5.win 4).blk t).view.set ↔ ∀ a : Fin 2, win5_4.index t a * S4000x128.size a ≤ (i a).val ∧ (i a).val < win5_4.index t a * S4000x128.size a + S4000x128.size a := by
  show i ∈ ((View.whole main_v95).slice (win5_4.rect t)).set ↔ _
  rw [View.set_slice_whole, Rect.mem_set_unit]
  exact Iff.rfl

/-- Row r of the result lies in the block of point r / 4000: the 25 blocks of 4000 rows cover the array. -/
theorem cover5 (i : S100000x128.Idx) :
    ∃ t : Fin cfg5.N, (cfg5.win 4).flush t = true ∧ i ∈ ((cfg5.win 4).blk t).view.set := by
  have hi0 : (i 0).val < 100000 := idx2_lt0 i
  have hi1 : (i 1).val < 128 := idx2_lt1 i
  have hN : cfg5.N = 25 := N_5
  obtain ⟨t, ht⟩ : ∃ t : Fin cfg5.N, t.val = (i 0).val / 4000 := ⟨⟨(i 0).val / 4000, by rw [hN]; omega⟩, rfl⟩
  have e30 : win5_4.index t (0 : Fin 2) = t.val := (idx_out5 t).1
  have e31 : win5_4.index t (1 : Fin 2) = 0 := (idx_out5 t).2
  refine ⟨t, flush5_4 t, ?_⟩
  rw [mem_blk5]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 128 ≤ (i 1).val ∧ (i 1).val < win5_4.index t (1 : Fin 2) * 128 + 128; omega

/-- The result array after the region: the combine of the arrays the region finds. -/
theorem final5 (c : Dev nD) : (dat5 V c).arrAt 4 cfg5.N
    = combG (V c (Pipeline.arrRef spec5 0)) (V c (Pipeline.arrRef spec5 1)) (V c (Pipeline.arrRef spec5 2)) (V c (Pipeline.arrRef spec5 3)) :=
  (dat5 V c).arrAt_eq_of_cover 4 _ (fun t _ => flushed5_eq V c t) cover5

/-- The result array at entry (p, q), the four input arrays named by equations. -/
theorem comb5_apply (c : Dev nD) (X0 X1 : S100000x128.Idx → EReal) (X2 : S100000x1.Idx → EReal) (X3 : S1x128.Idx → EReal)
    (h0 : V c (Pipeline.arrRef spec5 0) = X0) (h1 : V c (Pipeline.arrRef spec5 1) = X1)
    (h2 : V c (Pipeline.arrRef spec5 2) = X2) (h3 : V c (Pipeline.arrRef spec5 3) = X3) (p : Fin 100000) (q : Fin 128) :
    (dat5 V c).arrAt 4 cfg5.N (ix2 p q)
      = SeluS (X0 (ix2 p q) + X1 (ix2 p q) * X2 (ix2 p (0 : Fin 1)) + X3 (ix2 (0 : Fin 1) q)) := by
  subst h0 h1 h2 h3
  exact (congrFun (final5 V c) _).trans (combG_apply _ _ _ _ p q)

end Cert.KernelIdeal.FinA

end
-- ==== Proof.FinAPay9.lean ====
import proofs.«162488_j80401787781187_1_alg».proof.Proof.Gen.KernelIdeal.Skeleton
import proofs.«162488_j80401787781187_1_alg».proof.Proof.FinABase
import Idealize.ShloMosaic.Lib.ValueIdx
import Idealize.ShloMosaic.Lib.Pipeline.Value
import Idealize.ShloMosaic.Lib.ValueLayout

noncomputable section

namespace Cert.KernelIdeal.FinA

open Idealize.ShloMosaic Idealize.ShloMosaic.ValueIdx Cert.KernelIdeal Cert.KernelIdeal.Gen

/-- The combine body at one element of its row block: the aggregate there, plus the product there
    times the row's scale, plus the bias of the column, through the activation. -/
theorem pay9_apply (x0 x1 : Vec Ideal S4000x128 .f32) (x2 : Vec Ideal S4000x1 .f32) (x3 : Vec Ideal S1x128 .f32)
    (r : Fin 4000) (q : Fin 128) :
    k9_pay1 x0 x1 x2 x3 (ix2 r q)
      = SeluS (x0 (ix2 r q) + x1 (ix2 r q) * x2 (ix2 r (0 : Fin 1)) + x3 (ix2 (0 : Fin 1) q)) := by
  unfold k9_pay1
  simp only [shapeCast_self]
  refine (selu_tail_apply _ (ix2 r q)).trans ?_
  rw [addf_apply, addf_apply, mulf_apply, broadcastTo_1b_ab_apply, broadcastTo_a1_ab_apply]

/-- The same at any entry of the block. -/
theorem pay9_idx (x0 x1 : Vec Ideal S4000x128 .f32) (x2 : Vec Ideal S4000x1 .f32) (x3 : Vec Ideal S1x128 .f32)
    (y : S4000x128.Idx) :
    k9_pay1 x0 x1 x2 x3 y
      = SeluS (x0 y + x1 y * x2 (ix2 (rowB y) (0 : Fin 1)) + x3 (ix2 (0 : Fin 1) (colB y))) := by
  obtain ⟨r, q, rfl⟩ : ∃ (r : Fin 4000) (q : Fin 128), y = ix2 r q := ⟨y 0, y 1, eq_ix2 y⟩
  exact pay9_apply x0 x1 x2 x3 r q

end Cert.KernelIdeal.FinA

end
-- ==== Proof.FinAComb9.lean ====
import proofs.«162488_j80401787781187_1_alg».proof.Proof.Gen.KernelIdeal.Frame
import proofs.«162488_j80401787781187_1_alg».proof.Proof.FinABase
import proofs.«162488_j80401787781187_1_alg».proof.Proof.FinAPay9
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The printed index maps over the 25 grid points: the aggregate, the product, the scale column and
    the result move one row block per point, the bias row stays. -/
theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Each input window's block at point t, read at an entry, is the window's array at the entry the
    block's place puts it at: block index times block size plus the coordinate inside the block. -/
theorem blk9_0 (c : Dev nD) (t : Fin cfg9.N) (y : S4000x128.Idx) (k : S100000x128.Idx)
    (hk0 : (k 0).val = win9_0.index t (0 : Fin 2) * 4000 + (y 0).val)
    (hk1 : (k 1).val = win9_0.index t (1 : Fin 2) * 128 + (y 1).val) :
    iblk9 V c 0 t y = V c (Pipeline.arrRef spec9 0) k := by
  unfold iblk9
  rw [View.read_apply]
  show V c (Pipeline.arrRef spec9 0) _ = V c (Pipeline.arrRef spec9 0) _
  refine congrArg _ (funext fun a => Fin.ext ?_)
  match a with
  | ⟨0, _⟩ => show win9_0.index t (0 : Fin 2) * 4000 + 1 * (y 0).val = (k 0).val; omega
  | ⟨1, _⟩ => show win9_0.index t (1 : Fin 2) * 128 + 1 * (y 1).val = (k 1).val; omega

theorem blk9_1 (c : Dev nD) (t : Fin cfg9.N) (y : S4000x128.Idx) (k : S100000x128.Idx)
    (hk0 : (k 0).val = win9_1.index t (0 : Fin 2) * 4000 + (y 0).val)
    (hk1 : (k 1).val = win9_1.index t (1 : Fin 2) * 128 + (y 1).val) :
    iblk9 V c 1 t y = V c (Pipeline.arrRef spec9 1) k := by
  unfold iblk9
  rw [View.read_apply]
  show V c (Pipeline.arrRef spec9 1) _ = V c (Pipeline.arrRef spec9 1) _
  refine congrArg _ (funext fun a => Fin.ext ?_)
  match a with
  | ⟨0, _⟩ => show win9_1.index t (0 : Fin 2) * 4000 + 1 * (y 0).val = (k 0).val; omega
  | ⟨1, _⟩ => show win9_1.index t (1 : Fin 2) * 128 + 1 * (y 1).val = (k 1).val; omega

theorem blk9_2 (c : Dev nD) (t : Fin cfg9.N) (y : S4000x1.Idx) (k : S100000x1.Idx)
    (hk0 : (k 0).val = win9_2.index t (0 : Fin 2) * 4000 + (y 0).val)
    (hk1 : (k 1).val = win9_2.index t (1 : Fin 2) * 1 + (y 1).val) :
    iblk9 V c 2 t y = V c (Pipeline.arrRef spec9 2) k := by
  unfold iblk9
  rw [View.read_apply]
  show V c (Pipeline.arrRef spec9 2) _ = V c (Pipeline.arrRef spec9 2) _
  refine congrArg _ (funext fun a => Fin.ext ?_)
  match a with
  | ⟨0, _⟩ => show win9_2.index t (0 : Fin 2) * 4000 + 1 * (y 0).val = (k 0).val; omega
  | ⟨1, _⟩ => show win9_2.index t (1 : Fin 2) * 1 + 1 * (y 1).val = (k 1).val; omega

theorem blk9_3 (c : Dev nD) (t : Fin cfg9.N) (y : S1x128.Idx) (k : S1x128.Idx)
    (hk0 : (k 0).val = win9_3.index t (0 : Fin 2) * 1 + (y 0).val)
    (hk1 : (k 1).val = win9_3.index t (1 : Fin 2) * 128 + (y 1).val) :
    iblk9 V c 3 t y = V c (Pipeline.arrRef spec9 3) k := by
  unfold iblk9
  rw [View.read_apply]
  show V c (Pipeline.arrRef spec9 3) _ = V c (Pipeline.arrRef spec9 3) _
  refine congrArg _ (funext fun a => Fin.ext ?_)
  match a with
  | ⟨0, _⟩ => show win9_3.index t (0 : Fin 2) * 1 + 1 * (y 0).val = (k 0).val; omega
  | ⟨1, _⟩ => show win9_3.index t (1 : Fin 2) * 128 + 1 * (y 1).val = (k 1).val; omega

/-- Reading an array through the result window's block at point t reads it at the block's entries. -/
theorem read_out9 (t : Fin cfg9.N) (G : S100000x128.Idx → EReal) (j : ((cfg9.win 4).xblock (grid9.coords t)).Idx) :
    ((cfg9.win 4).blk t).view.read (Elt Ideal) G j = G (((cfg9.win 4).blk t).view.emb j) := rfl

theorem idx_row9_3 (t : Fin cfg9.N) : win9_3.index t (0 : Fin 2) = 0 ∧ win9_3.index t (1 : Fin 2) = 0 := by
  obtain ⟨-, -, -, -, -, -, e30, e31, -, -⟩ := idx_facts9 t
  exact ⟨e30, e31⟩

theorem row9_3 (c : Dev nD) (t : Fin cfg9.N) (q : Fin 128) :
    iblk9 V c 3 t (ix2 (0 : Fin 1) q : S1x128.Idx) = V c (Pipeline.arrRef spec9 3) (ix2 (0 : Fin 1) q : S1x128.Idx) := by
  have e0 : win9_3.index t (0 : Fin 2) = 0 := (idx_row9_3 t).1
  have e1 : win9_3.index t (1 : Fin 2) = 0 := (idx_row9_3 t).2
  exact blk9_3 V c t _ _ (by rw [e0]; rfl) (by rw [e1]; show q.val = 0 * 128 + q.val; omega)

/-- What point t writes back is its row block of the combine of the arrays the region finds. -/
theorem flushed9_eq (c : Dev nD) (t : Fin cfg9.N) :
    (dat9 V c).flushed 4 t = ((cfg9.win 4).blk t).view.read (Elt Ideal)
      (combG (V c (Pipeline.arrRef spec9 0)) (V c (Pipeline.arrRef spec9 1)) (V c (Pipeline.arrRef spec9 2)) (V c (Pipeline.arrRef spec9 3))) := by
  show (cfg9.win 4).cut (grid9.coords t) ((dat9 V c).after 4 t) = _
  rw [after9_4]
  unfold out9_4
  rw [View.canon_unit_zero hz2]
  simp only [View.ld_unit_zero (S := S4000x128) hz2, View.ld_unit_zero (S := S4000x1) hz2, View.ld_unit_zero (S := S1x128) hz2]
  obtain ⟨e00, e01, e10, e11, e20, e21, e30, e31, eo0, eo1⟩ := idx_facts9 t
  funext j
  refine Eq.trans ?_ (read_out9 t _ j).symm
  refine (pay9_idx (iblk9 V c 0 t) (iblk9 V c 1 t) (iblk9 V c 2 t) (iblk9 V c 3 t) _).trans ?_
  have k0 : ((((cfg9.win 4).blk t).view.emb j) 0).val = win9_4.index t (0 : Fin 2) * 4000 + 1 * (j 0).val := rfl
  have k1 : ((((cfg9.win 4).blk t).view.emb j) 1).val = win9_4.index t (1 : Fin 2) * 128 + 1 * (j 1).val := rfl
  have c1 : (colOf (((cfg9.win 4).blk t).view.emb j)).val = ((((cfg9.win 4).blk t).view.emb j) 1).val := rfl
  have c2 : (colB ((win9 4).xinj (grid9.coords t) j)).val = (j 1).val := rfl
  have r1 : (rowOf (((cfg9.win 4).blk t).view.emb j)).val = ((((cfg9.win 4).blk t).view.emb j) 0).val := rfl
  have r2 : (rowB ((win9 4).xinj (grid9.coords t) j)).val = (j 0).val := rfl
  have x0 : (((win9 4).xinj (grid9.coords t) j) 0).val = (j 0).val := rfl
  have x1 : (((win9 4).xinj (grid9.coords t) j) 1).val = (j 1).val := rfl
  have hcol : colOf (((cfg9.win 4).blk t).view.emb j) = colB ((win9 4).xinj (grid9.coords t) j) :=
    Fin.ext (by rw [c1, c2, k1, eo1]; omega)
  unfold combG
  rw [hcol]
  refine congrArg SeluS (congrArg₂ (· + ·) (congrArg₂ (· + ·) ?_ (congrArg₂ (· * ·) ?_ ?_)) ?_)
  · exact blk9_0 V c t _ _ (by rw [k0, x0, e00, eo0]; omega) (by rw [k1, x1, e01, eo1]; omega)
  · exact blk9_1 V c t _ _ (by rw [k0, x0, e10, eo0]; omega) (by rw [k1, x1, e11, eo1]; omega)
  · exact blk9_2 V c t _ _
      (by show (rowOf (((cfg9.win 4).blk t).view.emb j)).val = _ + (rowB ((win9 4).xinj (grid9.coords t) j)).val
          rw [r1, r2, k0, e20, eo0]; omega)
      (by rw [e21]; rfl)
  · exact row9_3 V c t _

theorem idx_out9 (t : Fin cfg9.N) : win9_4.index t (0 : Fin 2) = t.val ∧ win9_4.index t (1 : Fin 2) = 0 := by
  obtain ⟨-, -, -, -, -, -, -, -, eo0, eo1⟩ := idx_facts9 t
  exact ⟨eo0, eo1⟩

/-- An entry of the result array is in point t's block iff each coordinate is in the block's range. -/
theorem mem_blk9 (t : Fin cfg9.N) (i : S100000x128.Idx) :
    i ∈ ((cfg9.win 4).blk t).view.set ↔ ∀ a : Fin 2, win9_4.index t a * S4000x128.size a ≤ (i a).val ∧ (i a).val < win9_4.index t a * S4000x128.size a + S4000x128.size a := by
  show i ∈ ((View.whole main_v147).slice (win9_4.rect t)).set ↔ _
  rw [View.set_slice_whole, Rect.mem_set_unit]
  exact Iff.rfl

/-- Row r of the result lies in the block of point r / 4000: the 25 blocks of 4000 rows cover the array. -/
theorem cover9 (i : S100000x128.Idx) :
    ∃ t : Fin cfg9.N, (cfg9.win 4).flush t = true ∧ i ∈ ((cfg9.win 4).blk t).view.set := by
  have hi0 : (i 0).val < 100000 := idx2_lt0 i
  have hi1 : (i 1).val < 128 := idx2_lt1 i
  have hN : cfg9.N = 25 := N_9
  obtain ⟨t, ht⟩ : ∃ t : Fin cfg9.N, t.val = (i 0).val / 4000 := ⟨⟨(i 0).val / 4000, by rw [hN]; omega⟩, rfl⟩
  have e30 : win9_4.index t (0 : Fin 2) = t.val := (idx_out9 t).1
  have e31 : win9_4.index t (1 : Fin 2) = 0 := (idx_out9 t).2
  refine ⟨t, flush9_4 t, ?_⟩
  rw [mem_blk9]
  intro a
  match a with
  | ⟨0, _⟩ => show win9_4.index t (0 : Fin 2) * 4000 ≤ (i 0).val ∧ (i 0).val < win9_4.index t (0 : Fin 2) * 4000 + 4000; omega
  | ⟨1, _⟩ => show win9_4.index t (1 : Fin 2) * 128 ≤ (i 1).val ∧ (i 1).val < win9_4.index t (1 : Fin 2) * 128 + 128; omega

/-- The result array after the region: the combine of the arrays the region finds. -/
theorem final9 (c : Dev nD) : (dat9 V c).arrAt 4 cfg9.N
    = combG (V c (Pipeline.arrRef spec9 0)) (V c (Pipeline.arrRef spec9 1)) (V c (Pipeline.arrRef spec9 2)) (V c (Pipeline.arrRef spec9 3)) :=
  (dat9 V c).arrAt_eq_of_cover 4 _ (fun t _ => flushed9_eq V c t) cover9

/-- The result array at entry (p, q), the four input arrays named by equations. -/
theorem comb9_apply (c : Dev nD) (X0 X1 : S100000x128.Idx → EReal) (X2 : S100000x1.Idx → EReal) (X3 : S1x128.Idx → EReal)
    (h0 : V c (Pipeline.arrRef spec9 0) = X0) (h1 : V c (Pipeline.arrRef spec9 1) = X1)
    (h2 : V c (Pipeline.arrRef spec9 2) = X2) (h3 : V c (Pipeline.arrRef spec9 3) = X3) (p : Fin 100000) (q : Fin 128) :
    (dat9 V c).arrAt 4 cfg9.N (ix2 p q)
      = SeluS (X0 (ix2 p q) + X1 (ix2 p q) * X2 (ix2 p (0 : Fin 1)) + X3 (ix2 (0 : Fin 1) q)) := by
  subst h0 h1 h2 h3
  exact (congrFun (final9 V c) _).trans (combG_apply _ _ _ _ p q)

end Cert.KernelIdeal.FinA

end
-- ==== Proof.FinAPay3.lean ====
import proofs.«162488_j80401787781187_1_alg».proof.Proof.Gen.KernelIdeal.Skeleton
import proofs.«162488_j80401787781187_1_alg».proof.Proof.FinABase
import Idealize.ShloMosaic.Lib.ValueIdx
import Idealize.ShloMosaic.Lib.Pipeline.Value
import Idealize.ShloMosaic.Lib.ValueLayout

noncomputable section

namespace Cert.KernelIdeal.FinA

open Idealize.ShloMosaic Idealize.ShloMosaic.ValueIdx Cert.KernelIdeal Cert.KernelIdeal.Gen

/-- The scale-and-shift body at one element of its row block: the activation there, times the scale
    row's entry of that column, plus the shift row's entry of that column. -/
theorem pay3_apply (x0 : Vec Ideal S4000x128 .f32) (x1 x2 : Vec Ideal S1x128 .f32) (r : Fin 4000) (q : Fin 128) :
    k3_pay1 x0 x1 x2 (ix2 r q) = x0 (ix2 r q) * x1 (ix2 (0 : Fin 1) q) + x2 (ix2 (0 : Fin 1) q) := by
  unfold k3_pay1
  simp only [shapeCast_self]
  rw [addf_apply, mulf_apply, broadcastTo_1b_ab_apply, broadcastTo_1b_ab_apply]

/-- The same at any entry of the block. -/
theorem pay3_idx (x0 : Vec Ideal S4000x128 .f32) (x1 x2 : Vec Ideal S1x128 .f32) (y : S4000x128.Idx) :
    k3_pay1 x0 x1 x2 y = x0 y * x1 (ix2 (0 : Fin 1) (colB y)) + x2 (ix2 (0 : Fin 1) (colB y)) := by
  obtain ⟨r, q, rfl⟩ : ∃ (r : Fin 4000) (q : Fin 128), y = ix2 r q := ⟨y 0, y 1, eq_ix2 y⟩
  exact pay3_apply x0 x1 x2 r q

end Cert.KernelIdeal.FinA

end
-- ==== Proof.FinABn3.lean ====
import proofs.«162488_j80401787781187_1_alg».proof.Proof.Gen.KernelIdeal.Frame
import proofs.«162488_j80401787781187_1_alg».proof.Proof.FinABase
import proofs.«162488_j80401787781187_1_alg».proof.Proof.FinAPay3
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The printed index maps over the 25 grid points: the activation and the result move one row block
    per point, the scale and shift rows stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Each input window's block at point t, read at an entry, is the window's array at the entry the
    block's place puts it at: block index times block size plus the coordinate inside the block. -/
theorem blk3_0 (c : Dev nD) (t : Fin cfg3.N) (y : S4000x128.Idx) (k : S100000x128.Idx)
    (hk0 : (k 0).val = win3_0.index t (0 : Fin 2) * 4000 + (y 0).val)
    (hk1 : (k 1).val = win3_0.index t (1 : Fin 2) * 128 + (y 1).val) :
    iblk3 V c 0 t y = V c (Pipeline.arrRef spec3 0) k := by
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 4000 + 1 * (y 0).val = (k 0).val; omega
  | ⟨1, _⟩ => show win3_0.index t (1 : Fin 2) * 128 + 1 * (y 1).val = (k 1).val; omega

theorem blk3_1 (c : Dev nD) (t : Fin cfg3.N) (y : S1x128.Idx) (k : S1x128.Idx)
    (hk0 : (k 0).val = win3_1.index t (0 : Fin 2) * 1 + (y 0).val)
    (hk1 : (k 1).val = win3_1.index t (1 : Fin 2) * 128 + (y 1).val) :
    iblk3 V c 1 t y = V c (Pipeline.arrRef spec3 1) k := by
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 2) * 1 + 1 * (y 0).val = (k 0).val; omega
  | ⟨1, _⟩ => show win3_1.index t (1 : Fin 2) * 128 + 1 * (y 1).val = (k 1).val; omega

theorem blk3_2 (c : Dev nD) (t : Fin cfg3.N) (y : S1x128.Idx) (k : S1x128.Idx)
    (hk0 : (k 0).val = win3_2.index t (0 : Fin 2) * 1 + (y 0).val)
    (hk1 : (k 1).val = win3_2.index t (1 : Fin 2) * 128 + (y 1).val) :
    iblk3 V c 2 t y = V c (Pipeline.arrRef spec3 2) k := by
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 2) * 1 + 1 * (y 0).val = (k 0).val; omega
  | ⟨1, _⟩ => show win3_2.index t (1 : Fin 2) * 128 + 1 * (y 1).val = (k 1).val; omega

/-- Reading an array through the result window's block at point t reads it at the block's entries. -/
theorem read_out3 (t : Fin cfg3.N) (G : S100000x128.Idx → EReal) (j : ((cfg3.win 3).xblock (grid3.coords t)).Idx) :
    ((cfg3.win 3).blk t).view.read (Elt Ideal) G j = G (((cfg3.win 3).blk t).view.emb j) := rfl

theorem idx_row3_1 (t : Fin cfg3.N) : win3_1.index t (0 : Fin 2) = 0 ∧ win3_1.index t (1 : Fin 2) = 0 := by
  obtain ⟨-, -, e10, e11, -, -, -, -⟩ := idx_facts3 t
  exact ⟨e10, e11⟩
theorem idx_row3_2 (t : Fin cfg3.N) : win3_2.index t (0 : Fin 2) = 0 ∧ win3_2.index t (1 : Fin 2) = 0 := by
  obtain ⟨-, -, -, -, e20, e21, -, -⟩ := idx_facts3 t
  exact ⟨e20, e21⟩

theorem row3_1 (c : Dev nD) (t : Fin cfg3.N) (q : Fin 128) :
    iblk3 V c 1 t (ix2 (0 : Fin 1) q : S1x128.Idx) = V c (Pipeline.arrRef spec3 1) (ix2 (0 : Fin 1) q : S1x128.Idx) := by
  have e0 : win3_1.index t (0 : Fin 2) = 0 := (idx_row3_1 t).1
  have e1 : win3_1.index t (1 : Fin 2) = 0 := (idx_row3_1 t).2
  exact blk3_1 V c t _ _ (by rw [e0]; rfl) (by rw [e1]; show q.val = 0 * 128 + q.val; omega)

theorem row3_2 (c : Dev nD) (t : Fin cfg3.N) (q : Fin 128) :
    iblk3 V c 2 t (ix2 (0 : Fin 1) q : S1x128.Idx) = V c (Pipeline.arrRef spec3 2) (ix2 (0 : Fin 1) q : S1x128.Idx) := by
  have e0 : win3_2.index t (0 : Fin 2) = 0 := (idx_row3_2 t).1
  have e1 : win3_2.index t (1 : Fin 2) = 0 := (idx_row3_2 t).2
  exact blk3_2 V c t _ _ (by rw [e0]; rfl) (by rw [e1]; show q.val = 0 * 128 + q.val; omega)

/-- What point t writes back is its row block of the scale-and-shift of the arrays the region finds. -/
theorem flushed3_eq (c : Dev nD) (t : Fin cfg3.N) :
    (dat3 V c).flushed 3 t = ((cfg3.win 3).blk t).view.read (Elt Ideal)
      (bnG (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S4000x128) hz2, View.ld_unit_zero (S := S1x128) hz2]
  obtain ⟨e00, e01, e10, e11, e20, e21, e30, e31⟩ := idx_facts3 t
  funext j
  refine Eq.trans ?_ (read_out3 t _ j).symm
  refine (pay3_idx (iblk3 V c 0 t) (iblk3 V c 1 t) (iblk3 V c 2 t) _).trans ?_
  have k0 : ((((cfg3.win 3).blk t).view.emb j) 0).val = win3_3.index t (0 : Fin 2) * 4000 + 1 * (j 0).val := rfl
  have k1 : ((((cfg3.win 3).blk t).view.emb j) 1).val = win3_3.index t (1 : Fin 2) * 128 + 1 * (j 1).val := rfl
  have c1 : (colOf (((cfg3.win 3).blk t).view.emb j)).val = ((((cfg3.win 3).blk t).view.emb j) 1).val := rfl
  have c2 : (colB ((win3 3).xinj (grid3.coords t) j)).val = (j 1).val := rfl
  have hcol : colOf (((cfg3.win 3).blk t).view.emb j) = colB ((win3 3).xinj (grid3.coords t) j) :=
    Fin.ext (by rw [c1, c2, k1, e31]; omega)
  unfold bnG
  rw [hcol]
  refine congrArg₂ (· + ·) (congrArg₂ (· * ·) ?_ ?_) ?_
  · have x0 : (((win3 3).xinj (grid3.coords t) j) 0).val = (j 0).val := rfl
    have x1 : (((win3 3).xinj (grid3.coords t) j) 1).val = (j 1).val := rfl
    exact blk3_0 V c t _ _ (by rw [k0, x0, e00, e30]; omega) (by rw [k1, x1, e01, e31]; omega)
  · exact row3_1 V c t _
  · exact row3_2 V c t _

theorem idx_out3 (t : Fin cfg3.N) : win3_3.index t (0 : Fin 2) = t.val ∧ win3_3.index t (1 : Fin 2) = 0 := by
  obtain ⟨-, -, -, -, -, -, e30, e31⟩ := idx_facts3 t
  exact ⟨e30, e31⟩

/-- An entry of the result array is in point t's block iff each coordinate is in the block's range. -/
theorem mem_blk3 (t : Fin cfg3.N) (i : S100000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v64).slice (win3_3.rect t)).set ↔ _
  rw [View.set_slice_whole, Rect.mem_set_unit]
  exact Iff.rfl

/-- Row r of the result lies in the block of point r / 4000: the 25 blocks of 4000 rows cover the array. -/
theorem cover3 (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  have hN : cfg3.N = 25 := N_3
  obtain ⟨t, ht⟩ : ∃ t : Fin cfg3.N, t.val = (i 0).val / 4000 := ⟨⟨(i 0).val / 4000, by rw [hN]; omega⟩, rfl⟩
  have e30 : win3_3.index t (0 : Fin 2) = t.val := (idx_out3 t).1
  have e31 : win3_3.index t (1 : Fin 2) = 0 := (idx_out3 t).2
  refine ⟨t, flush3_3 t, ?_⟩
  rw [mem_blk3]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 128 ≤ (i 1).val ∧ (i 1).val < win3_3.index t (1 : Fin 2) * 128 + 128; omega

/-- The result array after the region: the scale-and-shift of the arrays the region finds. -/
theorem final3 (c : Dev nD) : (dat3 V c).arrAt 3 cfg3.N
    = bnG (V c (Pipeline.arrRef spec3 0)) (V c (Pipeline.arrRef spec3 1)) (V c (Pipeline.arrRef spec3 2)) :=
  (dat3 V c).arrAt_eq_of_cover 3 _ (fun t _ => flushed3_eq V c t) cover3

/-- The result array at entry (p, q), the three input arrays named by equations. -/
theorem bn3_apply (c : Dev nD) (X0 : S100000x128.Idx → EReal) (X1 X2 : S1x128.Idx → EReal)
    (h0 : V c (Pipeline.arrRef spec3 0) = X0) (h1 : V c (Pipeline.arrRef spec3 1) = X1)
    (h2 : V c (Pipeline.arrRef spec3 2) = X2) (p : Fin 100000) (q : Fin 128) :
    (dat3 V c).arrAt 3 cfg3.N (ix2 p q) = X0 (ix2 p q) * X1 (ix2 (0 : Fin 1) q) + X2 (ix2 (0 : Fin 1) q) := by
  subst h0 h1 h2
  exact (congrFun (final3 V c) _).trans (bnG_apply _ _ _ p q)

end Cert.KernelIdeal.FinA

end
-- ==== Proof.FinAPay7.lean ====
import proofs.«162488_j80401787781187_1_alg».proof.Proof.Gen.KernelIdeal.Skeleton
import proofs.«162488_j80401787781187_1_alg».proof.Proof.FinABase
import Idealize.ShloMosaic.Lib.ValueIdx
import Idealize.ShloMosaic.Lib.Pipeline.Value
import Idealize.ShloMosaic.Lib.ValueLayout

noncomputable section

namespace Cert.KernelIdeal.FinA

open Idealize.ShloMosaic Idealize.ShloMosaic.ValueIdx Cert.KernelIdeal Cert.KernelIdeal.Gen

/-- The scale-and-shift body at one element of its row block: the activation there, times the scale
    row's entry of that column, plus the shift row's entry of that column. -/
theorem pay7_apply (x0 : Vec Ideal S4000x128 .f32) (x1 x2 : Vec Ideal S1x128 .f32) (r : Fin 4000) (q : Fin 128) :
    k7_pay1 x0 x1 x2 (ix2 r q) = x0 (ix2 r q) * x1 (ix2 (0 : Fin 1) q) + x2 (ix2 (0 : Fin 1) q) := by
  unfold k7_pay1
  simp only [shapeCast_self]
  rw [addf_apply, mulf_apply, broadcastTo_1b_ab_apply, broadcastTo_1b_ab_apply]

/-- The same at any entry of the block. -/
theorem pay7_idx (x0 : Vec Ideal S4000x128 .f32) (x1 x2 : Vec Ideal S1x128 .f32) (y : S4000x128.Idx) :
    k7_pay1 x0 x1 x2 y = x0 y * x1 (ix2 (0 : Fin 1) (colB y)) + x2 (ix2 (0 : Fin 1) (colB y)) := by
  obtain ⟨r, q, rfl⟩ : ∃ (r : Fin 4000) (q : Fin 128), y = ix2 r q := ⟨y 0, y 1, eq_ix2 y⟩
  exact pay7_apply x0 x1 x2 r q

end Cert.KernelIdeal.FinA

end
-- ==== Proof.FinABn7.lean ====
import proofs.«162488_j80401787781187_1_alg».proof.Proof.Gen.KernelIdeal.Frame
import proofs.«162488_j80401787781187_1_alg».proof.Proof.FinABase
import proofs.«162488_j80401787781187_1_alg».proof.Proof.FinAPay7
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The printed index maps over the 25 grid points: the activation and the result move one row block
    per point, the scale and shift rows stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Each input window's block at point t, read at an entry, is the window's array at the entry the
    block's place puts it at: block index times block size plus the coordinate inside the block. -/
theorem blk7_0 (c : Dev nD) (t : Fin cfg7.N) (y : S4000x128.Idx) (k : S100000x128.Idx)
    (hk0 : (k 0).val = win7_0.index t (0 : Fin 2) * 4000 + (y 0).val)
    (hk1 : (k 1).val = win7_0.index t (1 : Fin 2) * 128 + (y 1).val) :
    iblk7 V c 0 t y = V c (Pipeline.arrRef spec7 0) k := by
  unfold iblk7
  rw [View.read_apply]
  show V c (Pipeline.arrRef spec7 0) _ = V c (Pipeline.arrRef spec7 0) _
  refine congrArg _ (funext fun a => Fin.ext ?_)
  match a with
  | ⟨0, _⟩ => show win7_0.index t (0 : Fin 2) * 4000 + 1 * (y 0).val = (k 0).val; omega
  | ⟨1, _⟩ => show win7_0.index t (1 : Fin 2) * 128 + 1 * (y 1).val = (k 1).val; omega

theorem blk7_1 (c : Dev nD) (t : Fin cfg7.N) (y : S1x128.Idx) (k : S1x128.Idx)
    (hk0 : (k 0).val = win7_1.index t (0 : Fin 2) * 1 + (y 0).val)
    (hk1 : (k 1).val = win7_1.index t (1 : Fin 2) * 128 + (y 1).val) :
    iblk7 V c 1 t y = V c (Pipeline.arrRef spec7 1) k := by
  unfold iblk7
  rw [View.read_apply]
  show V c (Pipeline.arrRef spec7 1) _ = V c (Pipeline.arrRef spec7 1) _
  refine congrArg _ (funext fun a => Fin.ext ?_)
  match a with
  | ⟨0, _⟩ => show win7_1.index t (0 : Fin 2) * 1 + 1 * (y 0).val = (k 0).val; omega
  | ⟨1, _⟩ => show win7_1.index t (1 : Fin 2) * 128 + 1 * (y 1).val = (k 1).val; omega

theorem blk7_2 (c : Dev nD) (t : Fin cfg7.N) (y : S1x128.Idx) (k : S1x128.Idx)
    (hk0 : (k 0).val = win7_2.index t (0 : Fin 2) * 1 + (y 0).val)
    (hk1 : (k 1).val = win7_2.index t (1 : Fin 2) * 128 + (y 1).val) :
    iblk7 V c 2 t y = V c (Pipeline.arrRef spec7 2) k := by
  unfold iblk7
  rw [View.read_apply]
  show V c (Pipeline.arrRef spec7 2) _ = V c (Pipeline.arrRef spec7 2) _
  refine congrArg _ (funext fun a => Fin.ext ?_)
  match a with
  | ⟨0, _⟩ => show win7_2.index t (0 : Fin 2) * 1 + 1 * (y 0).val = (k 0).val; omega
  | ⟨1, _⟩ => show win7_2.index t (1 : Fin 2) * 128 + 1 * (y 1).val = (k 1).val; omega

/-- Reading an array through the result window's block at point t reads it at the block's entries. -/
theorem read_out7 (t : Fin cfg7.N) (G : S100000x128.Idx → EReal) (j : ((cfg7.win 3).xblock (grid7.coords t)).Idx) :
    ((cfg7.win 3).blk t).view.read (Elt Ideal) G j = G (((cfg7.win 3).blk t).view.emb j) := rfl

theorem idx_row7_1 (t : Fin cfg7.N) : win7_1.index t (0 : Fin 2) = 0 ∧ win7_1.index t (1 : Fin 2) = 0 := by
  obtain ⟨-, -, e10, e11, -, -, -, -⟩ := idx_facts7 t
  exact ⟨e10, e11⟩
theorem idx_row7_2 (t : Fin cfg7.N) : win7_2.index t (0 : Fin 2) = 0 ∧ win7_2.index t (1 : Fin 2) = 0 := by
  obtain ⟨-, -, -, -, e20, e21, -, -⟩ := idx_facts7 t
  exact ⟨e20, e21⟩

theorem row7_1 (c : Dev nD) (t : Fin cfg7.N) (q : Fin 128) :
    iblk7 V c 1 t (ix2 (0 : Fin 1) q : S1x128.Idx) = V c (Pipeline.arrRef spec7 1) (ix2 (0 : Fin 1) q : S1x128.Idx) := by
  have e0 : win7_1.index t (0 : Fin 2) = 0 := (idx_row7_1 t).1
  have e1 : win7_1.index t (1 : Fin 2) = 0 := (idx_row7_1 t).2
  exact blk7_1 V c t _ _ (by rw [e0]; rfl) (by rw [e1]; show q.val = 0 * 128 + q.val; omega)

theorem row7_2 (c : Dev nD) (t : Fin cfg7.N) (q : Fin 128) :
    iblk7 V c 2 t (ix2 (0 : Fin 1) q : S1x128.Idx) = V c (Pipeline.arrRef spec7 2) (ix2 (0 : Fin 1) q : S1x128.Idx) := by
  have e0 : win7_2.index t (0 : Fin 2) = 0 := (idx_row7_2 t).1
  have e1 : win7_2.index t (1 : Fin 2) = 0 := (idx_row7_2 t).2
  exact blk7_2 V c t _ _ (by rw [e0]; rfl) (by rw [e1]; show q.val = 0 * 128 + q.val; omega)

/-- What point t writes back is its row block of the scale-and-shift of the arrays the region finds. -/
theorem flushed7_eq (c : Dev nD) (t : Fin cfg7.N) :
    (dat7 V c).flushed 3 t = ((cfg7.win 3).blk t).view.read (Elt Ideal)
      (bnG (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz2]
  simp only [View.ld_unit_zero (S := S4000x128) hz2, View.ld_unit_zero (S := S1x128) hz2]
  obtain ⟨e00, e01, e10, e11, e20, e21, e30, e31⟩ := idx_facts7 t
  funext j
  refine Eq.trans ?_ (read_out7 t _ j).symm
  refine (pay7_idx (iblk7 V c 0 t) (iblk7 V c 1 t) (iblk7 V c 2 t) _).trans ?_
  have k0 : ((((cfg7.win 3).blk t).view.emb j) 0).val = win7_3.index t (0 : Fin 2) * 4000 + 1 * (j 0).val := rfl
  have k1 : ((((cfg7.win 3).blk t).view.emb j) 1).val = win7_3.index t (1 : Fin 2) * 128 + 1 * (j 1).val := rfl
  have c1 : (colOf (((cfg7.win 3).blk t).view.emb j)).val = ((((cfg7.win 3).blk t).view.emb j) 1).val := rfl
  have c2 : (colB ((win7 3).xinj (grid7.coords t) j)).val = (j 1).val := rfl
  have hcol : colOf (((cfg7.win 3).blk t).view.emb j) = colB ((win7 3).xinj (grid7.coords t) j) :=
    Fin.ext (by rw [c1, c2, k1, e31]; omega)
  unfold bnG
  rw [hcol]
  refine congrArg₂ (· + ·) (congrArg₂ (· * ·) ?_ ?_) ?_
  · have x0 : (((win7 3).xinj (grid7.coords t) j) 0).val = (j 0).val := rfl
    have x1 : (((win7 3).xinj (grid7.coords t) j) 1).val = (j 1).val := rfl
    exact blk7_0 V c t _ _ (by rw [k0, x0, e00, e30]; omega) (by rw [k1, x1, e01, e31]; omega)
  · exact row7_1 V c t _
  · exact row7_2 V c t _

theorem idx_out7 (t : Fin cfg7.N) : win7_3.index t (0 : Fin 2) = t.val ∧ win7_3.index t (1 : Fin 2) = 0 := by
  obtain ⟨-, -, -, -, -, -, e30, e31⟩ := idx_facts7 t
  exact ⟨e30, e31⟩

/-- An entry of the result array is in point t's block iff each coordinate is in the block's range. -/
theorem mem_blk7 (t : Fin cfg7.N) (i : S100000x128.Idx) :
    i ∈ ((cfg7.win 3).blk t).view.set ↔ ∀ a : Fin 2, win7_3.index t a * S4000x128.size a ≤ (i a).val ∧ (i a).val < win7_3.index t a * S4000x128.size a + S4000x128.size a := by
  show i ∈ ((View.whole main_v116).slice (win7_3.rect t)).set ↔ _
  rw [View.set_slice_whole, Rect.mem_set_unit]
  exact Iff.rfl

/-- Row r of the result lies in the block of point r / 4000: the 25 blocks of 4000 rows cover the array. -/
theorem cover7 (i : S100000x128.Idx) :
    ∃ t : Fin cfg7.N, (cfg7.win 3).flush t = true ∧ i ∈ ((cfg7.win 3).blk t).view.set := by
  have hi0 : (i 0).val < 100000 := idx2_lt0 i
  have hi1 : (i 1).val < 128 := idx2_lt1 i
  have hN : cfg7.N = 25 := N_7
  obtain ⟨t, ht⟩ : ∃ t : Fin cfg7.N, t.val = (i 0).val / 4000 := ⟨⟨(i 0).val / 4000, by rw [hN]; omega⟩, rfl⟩
  have e30 : win7_3.index t (0 : Fin 2) = t.val := (idx_out7 t).1
  have e31 : win7_3.index t (1 : Fin 2) = 0 := (idx_out7 t).2
  refine ⟨t, flush7_3 t, ?_⟩
  rw [mem_blk7]
  intro a
  match a with
  | ⟨0, _⟩ => show win7_3.index t (0 : Fin 2) * 4000 ≤ (i 0).val ∧ (i 0).val < win7_3.index t (0 : Fin 2) * 4000 + 4000; omega
  | ⟨1, _⟩ => show win7_3.index t (1 : Fin 2) * 128 ≤ (i 1).val ∧ (i 1).val < win7_3.index t (1 : Fin 2) * 128 + 128; omega

/-- The result array after the region: the scale-and-shift of the arrays the region finds. -/
theorem final7 (c : Dev nD) : (dat7 V c).arrAt 3 cfg7.N
    = bnG (V c (Pipeline.arrRef spec7 0)) (V c (Pipeline.arrRef spec7 1)) (V c (Pipeline.arrRef spec7 2)) :=
  (dat7 V c).arrAt_eq_of_cover 3 _ (fun t _ => flushed7_eq V c t) cover7

/-- The result array at entry (p, q), the three input arrays named by equations. -/
theorem bn7_apply (c : Dev nD) (X0 : S100000x128.Idx → EReal) (X1 X2 : S1x128.Idx → EReal)
    (h0 : V c (Pipeline.arrRef spec7 0) = X0) (h1 : V c (Pipeline.arrRef spec7 1) = X1)
    (h2 : V c (Pipeline.arrRef spec7 2) = X2) (p : Fin 100000) (q : Fin 128) :
    (dat7 V c).arrAt 3 cfg7.N (ix2 p q) = X0 (ix2 p q) * X1 (ix2 (0 : Fin 1) q) + X2 (ix2 (0 : Fin 1) q) := by
  subst h0 h1 h2
  exact (congrFun (final7 V c) _).trans (bnG_apply _ _ _ p q)

end Cert.KernelIdeal.FinA

end
-- ==== Proof.FinRPay.lean ====
import proofs.«162488_j80401787781187_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

/-! The column sums of one row block. A block is 4000 consecutive rows of the activation, all 128 lanes. At every
    grid point the reduction kernel adds, lane by lane, the block's column sum to a running [1,128] accumulator, and
    the column sum of the block's squares to a second one; at the first point both accumulators are zeroed first.
    This module names the two updates once for both reduction kernels of the network and reads each at one lane
    over the extended reals: accumulator plus the sum over the block's 4000 rows. -/

variable {F : FTy → Type} [FloatOps F]

/-- The zero row both accumulators start from. -/
def zeroRow : FVec F S1x128 .f32 := broadcast S1x128 (Scalar.ofBits .f32 0x00000000#32)

/-- The first accumulator's update: the accumulator plus the block's column sums, as a [1,128] row. -/
def addCols (x : Vec F S4000x128 .f32) (acc : Vec F S1x128 .f32) : FVec F S1x128 .f32 :=
  addf (shapeCast S1x128 acc shapeCasts_S1x128_S1x128)
    (shapeCast S1x128
      (multiReduction .add [0] S128 (shapeCast S4000x128 x shapeCasts_S4000x128_S4000x128) 0x00000000#32
        reduces_S4000x128_S128 (.inl rfl) rfl)
      shapeCasts_S128_S1x128)

/-- The second accumulator's update: the accumulator plus the column sums of the block's squares. -/
def addSqCols (x : Vec F S4000x128 .f32) (acc : Vec F S1x128 .f32) : FVec F S1x128 .f32 :=
  addf (shapeCast S1x128 acc shapeCasts_S1x128_S1x128)
    (shapeCast S1x128
      (multiReduction .add [0] S128
        (mulf (shapeCast S4000x128 x shapeCasts_S4000x128_S4000x128) (shapeCast S4000x128 x shapeCasts_S4000x128_S4000x128))
        0x00000000#32 reduces_S4000x128_S128 (.inl rfl) rfl)
      shapeCasts_S128_S1x128)

/-- Both reduction kernels' stores are these terms. -/
theorem k2_pay1_eq : k2_pay1 (F := F) = zeroRow := rfl
theorem k2_pay2_eq : k2_pay2 (F := F) = zeroRow := rfl
theorem k2_pay4_eq (x : Vec F S4000x128 .f32) (acc : Vec F S1x128 .f32) : k2_pay4 x acc = addCols x acc := rfl
theorem k2_pay5_eq (x : Vec F S4000x128 .f32) (acc : Vec F S1x128 .f32) : k2_pay5 x acc = addSqCols x acc := rfl
theorem k6_pay1_eq : k6_pay1 (F := F) = zeroRow := rfl
theorem k6_pay2_eq : k6_pay2 (F := F) = zeroRow := rfl
theorem k6_pay4_eq (x : Vec F S4000x128 .f32) (acc : Vec F S1x128 .f32) : k6_pay4 x acc = addCols x acc := rfl
theorem k6_pay5_eq (x : Vec F S4000x128 .f32) (acc : Vec F S1x128 .f32) : k6_pay5 x acc = addSqCols x acc := rfl

/-- The row-axis reduction of a [4000,128] block at lane `q`: the sum of the block's column `q`. -/
theorem colsum (src : FVec Ideal S4000x128 .f32) (hφ : FKind.Formats FTy.f32)
    (hacc : (0x00000000#32 : BitVec 32) = FKind.add.neutral .f32 hφ) (q : Fin 128) :
    multiReduction (F := Ideal) .add [0] S128 src 0x00000000#32 reduces_S4000x128_S128 hφ hacc (ix1 q)
      = ∑ r : Fin 4000, src (ix2 r q) := by
  refine (Ideal.multiReduction_add_single src 0x00000000#32 reduces_S4000x128_S128 hφ hacc (ix1 q)).trans ?_
  refine Finset.sum_congr rfl fun r _ => congrArg src ?_
  funext a
  match a with
  | ⟨0, _⟩ => rfl
  | ⟨1, _⟩ => rfl

/-- A [128] vector viewed as a [1,128] row reads lane `q` at `(0, q)`: the same row-major position. -/
theorem row_of_lane {α : Type} (v : S128.Idx → α) (h : S128.ShapeCasts S1x128) (q : Fin 128) :
    shapeCast S1x128 v h (ix2 (0 : Fin 1) q) = v (ix1 q) := by
  refine shapeCast_apply v h _ _ ?_
  rw [Shape.rowMajor_val_one, Shape.rowMajor_val_two]
  show q.val = 0 * 128 + q.val
  omega

/-- The zero row at a lane is the real number zero. -/
theorem zeroRow_apply (q : Fin 128) : zeroRow (F := Ideal) (ix2 (0 : Fin 1) q) = 0 :=
  Ideal.ofBits_zero_f32

/-- The first update at lane `q`: the accumulator's entry plus the sum of the block's column `q`. -/
theorem addCols_apply (x : Vec Ideal S4000x128 .f32) (acc : Vec Ideal S1x128 .f32) (q : Fin 128) :
    addCols (F := Ideal) x acc (ix2 (0 : Fin 1) q) = acc (ix2 0 q) + ∑ r : Fin 4000, x (ix2 r q) := by
  unfold addCols
  refine (addf_apply _ _ _).trans ?_
  refine congrArg₂ (· + ·) (congrFun (shapeCast_self _ _) _) ?_
  refine (row_of_lane _ _ q).trans ?_
  refine (colsum _ _ _ q).trans ?_
  exact Finset.sum_congr rfl fun r _ => congrFun (shapeCast_self _ _) _

/-- The second update at lane `q`: the accumulator's entry plus the sum of the squares of the block's column `q`. -/
theorem addSqCols_apply (x : Vec Ideal S4000x128 .f32) (acc : Vec Ideal S1x128 .f32) (q : Fin 128) :
    addSqCols (F := Ideal) x acc (ix2 (0 : Fin 1) q) = acc (ix2 0 q) + ∑ r : Fin 4000, x (ix2 r q) * x (ix2 r q) := by
  unfold addSqCols
  refine (addf_apply _ _ _).trans ?_
  refine congrArg₂ (· + ·) (congrFun (shapeCast_self _ _) _) ?_
  refine (row_of_lane _ _ q).trans ?_
  refine (colsum _ _ _ q).trans ?_
  refine Finset.sum_congr rfl fun r _ => (mulf_apply _ _ _).trans ?_
  exact congrArg₂ (· * ·) (congrFun (shapeCast_self _ _) _) (congrFun (shapeCast_self _ _) _)

/-! ## The rows of a block, and the whole column as 25 block sums -/

/-- The zero offsets of a whole-block access, however spelt. -/
theorem zeroOff : (![0, 0] : Fin 2 → Nat) = fun _ => 0 := funext fun a => by fin_cases a <;> rfl

/-- Row `r` of row block `t`: row `4000 t + r` of the activation. -/
def rowOf (t : Fin 25) (r : Fin 4000) : Fin 100000 :=
  ⟨4000 * t.val + r.val, by have := t.isLt; have := r.isLt; omega⟩

theorem rowOf_val (t : Fin 25) (r : Fin 4000) : (rowOf t r).val = 4000 * t.val + r.val := rfl

/-- The sum of column `q` over the rows of block `t` (zero past the last block). -/
def blockSum (X : S100000x128.Idx → EReal) (q : Fin 128) (t : ℕ) : EReal :=
  if h : t < 25 then ∑ r : Fin 4000, X (ix2 (rowOf ⟨t, h⟩ r) q) else 0

theorem blockSum_of_lt (X : S100000x128.Idx → EReal) (q : Fin 128) (t : ℕ) (h : t < 25) :
    blockSum X q t = ∑ r : Fin 4000, X (ix2 (rowOf ⟨t, h⟩ r) q) := dif_pos h

/-- All 25 block sums: the column summed block by block, rows in order inside each block. -/
theorem sum_blockSum (X : S100000x128.Idx → EReal) (q : Fin 128) :
    ∑ t ∈ Finset.range 25, blockSum X q t = ∑ t : Fin 25, ∑ r : Fin 4000, X (ix2 (rowOf t r) q) := by
  rw [Finset.sum_range]
  exact Finset.sum_congr rfl fun t _ => blockSum_of_lt X q t.val t.isLt

end Cert.KernelIdeal.FinR
-- ==== Proof.FinROut2.lean ====
import proofs.«162488_j80401787781187_1_alg».proof.Proof.Gen.KernelIdeal.Frame
import proofs.«162488_j80401787781187_1_alg».proof.Proof.FinRPay
import Idealize.ShloMosaic.Lib.Pipeline.Value
import Idealize.ShloMosaic.Lib.Tactic

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

open Idealize.ShloMosaic.Tactic

/-! What one grid point of reduction kernel 2 leaves in its two [1,128] accumulators. The first point stores the zero
    row into each accumulator, reads it back, and stores the update; every later point reads what the point before left
    and stores the update. Each accumulator's block never moves, so its contents are carried from point to point: after
    point 0 the pair is the update of the zero rows by block 0, after point n + 1 the update of the pair after point n by
    block n + 1. -/

variable {F : FTy → Type} [FloatOps F]

/-- A later point, first accumulator: what it held plus the block's column sums. -/
theorem out2_B_1_eq (c : Dev nD) (i : grid2.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : ¬cond2_0 i) (x : Vec F S4000x128 .f32) (xo1 xo2 : Vec F S1x128 .f32) :
    out2_B_1 c i a1 h1 a2 h2 a3 h3 hc x xo1 xo2 = addCols x xo1 := by
  unfold out2_B_1
  rw [View.read_writes_eq_canon _ _ _ (cover2_B_1 c i a1 h1 a2 h2 a3 h3 hc x xo1 xo2)]
  unfold kernelRun2_B
  dsimp only
  rw [View.canon_unit_zero zeroOff, k2_pay4_eq]
  simp only [View.readAt_eq_ld, h1.read_unread, h2.read_unread, View.ld_unit_zero (S := S4000x128) zeroOff,
    View.ld_unit_zero (S := S1x128) zeroOff]

/-- A later point, second accumulator: what it held plus the column sums of the block's squares. -/
theorem out2_B_2_eq (c : Dev nD) (i : grid2.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : ¬cond2_0 i) (x : Vec F S4000x128 .f32) (xo1 xo2 : Vec F S1x128 .f32) :
    out2_B_2 c i a1 h1 a2 h2 a3 h3 hc x xo1 xo2 = addSqCols x xo2 := by
  unfold out2_B_2
  rw [View.read_writes_eq_canon _ _ _ (cover2_B_2 c i a1 h1 a2 h2 a3 h3 hc x xo1 xo2)]
  unfold kernelRun2_B
  dsimp only
  rw [View.canon_unit_zero zeroOff, k2_pay5_eq]
  simp only [View.readAt_eq_ld, h1.read_unread, h3.read_unread, View.ld_unit_zero (S := S4000x128) zeroOff,
    View.ld_unit_zero (S := S1x128) zeroOff]

/-- The first point, first accumulator: the zero row plus the block's column sums. -/
theorem out2_A_1_eq (c : Dev nD) (i : grid2.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : cond2_0 i) (x : Vec F S4000x128 .f32) :
    out2_A_1 c i a1 h1 a2 h2 a3 h3 hc x = addCols x zeroRow := by
  unfold out2_A_1
  rw [View.read_writes_eq_canon _ _ _ (cover2_A_1 c i a1 h1 a2 h2 a3 h3 hc x)]
  unfold kernelRun2_A
  dsimp only
  sl_unfold_words
  rw [View.canon_cons_unit_zero (S := S1x128) zeroOff, View.readCov_unit_zero (S := S1x128) _ zeroOff, k2_pay4_eq,
    k2_pay1_eq]
  simp only [View.readAt_eq_ld, h1.read_unread, View.ld_unit_zero (S := S4000x128) zeroOff]

/-- The first point, second accumulator: the zero row plus the column sums of the block's squares. -/
theorem out2_A_2_eq (c : Dev nD) (i : grid2.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : cond2_0 i) (x : Vec F S4000x128 .f32) :
    out2_A_2 c i a1 h1 a2 h2 a3 h3 hc x = addSqCols x zeroRow := by
  unfold out2_A_2
  rw [View.read_writes_eq_canon _ _ _ (cover2_A_2 c i a1 h1 a2 h2 a3 h3 hc x)]
  unfold kernelRun2_A
  dsimp only
  sl_unfold_words
  rw [View.canon_cons_unit_zero (S := S1x128) zeroOff, View.readCov_unit_zero (S := S1x128) _ zeroOff, k2_pay5_eq,
    k2_pay2_eq]
  simp only [View.readAt_eq_ld, h1.read_unread, View.ld_unit_zero (S := S4000x128) zeroOff]

variable (V : (c : Dev nD) → (b : Ref sig .tc) → Buf (Elt F) ((c : Thread nD τ).loc b))

/-- After point 0: the zero rows updated by block 0. -/
theorem outsAt2_zero (c : Dev nD) (h : 0 < cfg2.N) :
    outsAt2 V c 0 h
      = (addCols (iblk2 V c 0 ⟨0, h⟩) zeroRow, addSqCols (iblk2 V c 0 ⟨0, h⟩) zeroRow) :=
  (outsAt2_A V c ⟨0, h⟩ rfl).trans (congrArg₂ Prod.mk
    (out2_A_1_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      ((hcond2_0 ⟨0, h⟩).mpr rfl) (iblk2 V c 0 ⟨0, h⟩))
    (out2_A_2_eq c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      ((hcond2_0 ⟨0, h⟩).mpr rfl) (iblk2 V c 0 ⟨0, h⟩)))

/-- After point n + 1: the pair after point n updated by block n + 1. -/
theorem outsAt2_succ (c : Dev nD) (n : ℕ) (h : n + 1 < cfg2.N) :
    outsAt2 V c (n + 1) h
      = (addCols (iblk2 V c 0 ⟨n + 1, h⟩) (outsAt2 V c n (Nat.lt_of_succ_lt h)).1,
         addSqCols (iblk2 V c 0 ⟨n + 1, h⟩) (outsAt2 V c n (Nat.lt_of_succ_lt h)).2) := by
  have hN : cfg2.N = 25 := N_2
  have hB : ¬(⟨n + 1, h⟩ : Fin cfg2.N).val % 25 = 0 := by dsimp only; omega
  refine (outsAt2_B V c ⟨n + 1, h⟩ hB).trans ?_
  exact congrArg₂ Prod.mk
    (out2_B_1_eq c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (fun hh => hB ((hcond2_0 ⟨n + 1, h⟩).mp hh)) (iblk2 V c 0 ⟨n + 1, h⟩)
      (outsAt2 V c n (Nat.lt_of_succ_lt h)).1 (outsAt2 V c n (Nat.lt_of_succ_lt h)).2)
    (out2_B_2_eq c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (fun hh => hB ((hcond2_0 ⟨n + 1, h⟩).mp hh)) (iblk2 V c 0 ⟨n + 1, h⟩)
      (outsAt2 V c n (Nat.lt_of_succ_lt h)).1 (outsAt2 V c n (Nat.lt_of_succ_lt h)).2)

end Cert.KernelIdeal.FinR
-- ==== Proof.FinRInv2.lean ====
import proofs.«162488_j80401787781187_1_alg».proof.Proof.Gen.KernelIdeal.Frame
import proofs.«162488_j80401787781187_1_alg».proof.Proof.FinRPay
import proofs.«162488_j80401787781187_1_alg».proof.Proof.FinROut2
import Idealize.ShloMosaic.Lib.Pipeline.Value

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

/-! The accumulators of reduction kernel 2 after each grid point, over the extended reals: after point n the first
    holds, at lane q, the sum over blocks 0..n of the block's column sum, and the second the same of the squares. Block t
    of the activation is its rows 4000 t .. 4000 t + 3999. By induction on the point; no finiteness is needed, only
    that adding zero changes nothing. -/

variable (V : (c : Dev nD) → (b : Ref sig .tc) → Buf (Elt Ideal) ((c : Thread nD τ).loc b))

/-- The activation as region 2 finds it. -/
abbrev act2 (c : Dev nD) : S100000x128.Idx → EReal := V c (Pipeline.arrRef spec2 0)

/-- The input window's block index at point t is (t, 0): decided over the grid. -/
theorem inIdx2 : ∀ t : Fin cfg2.N, win2_0.index t 0 = t.val ∧ win2_0.index t 1 = 0 :=
  (by decide +kernel : ∀ t : Fin grid2.N, win2_0.index t 0 = t.val ∧ win2_0.index t 1 = 0)

/-- Block n of the activation at (r, q) is the activation at row 4000 n + r, lane q. -/
theorem iblk2_apply (c : Dev nD) (n : ℕ) (h : n < cfg2.N) (hlt : n < 25) (r : Fin 4000) (q : Fin 128) :
    (iblk2 V c 0 ⟨n, h⟩ : Vec Ideal S4000x128 .f32) (ix2 r q) = act2 V c (ix2 (rowOf ⟨n, hlt⟩ r) q) := by
  have hi : win2_0.index ⟨n, h⟩ 0 = n ∧ win2_0.index ⟨n, h⟩ 1 = 0 := inIdx2 ⟨n, h⟩
  unfold iblk2
  rw [View.read_apply]
  refine congrArg (V c (Pipeline.arrRef spec2 0)) ?_
  funext a
  apply Fin.ext
  match a with
  | ⟨0, _⟩ => show win2_0.index ⟨n, h⟩ 0 * 4000 + 1 * r.val = 4000 * n + r.val; rw [hi.1]; omega
  | ⟨1, _⟩ => show win2_0.index ⟨n, h⟩ 1 * 128 + 1 * q.val = q.val; rw [hi.2]; omega

/-- After point n the first accumulator holds, at lane q, the column's sum over blocks 0..n. -/
theorem outsAt2_fst (c : Dev nD) (q : Fin 128) : ∀ (n : ℕ) (h : n < cfg2.N),
    (outsAt2 V c n h).1 (ix2 (0 : Fin 1) q) = ∑ t ∈ Finset.range (n + 1), blockSum (act2 V c) q t
  | 0, h => by
    refine (congrFun (congrArg Prod.fst (outsAt2_zero V c h)) _).trans ?_
    refine (addCols_apply (iblk2 V c 0 ⟨0, h⟩) (zeroRow (F := Ideal)) q).trans ?_
    rw [zeroRow_apply, zero_add, Finset.sum_range_one, blockSum_of_lt _ _ 0 (by norm_num)]
    exact Finset.sum_congr rfl fun r _ => iblk2_apply V c 0 h (by norm_num) r q
  | n + 1, h => by
    have hN : cfg2.N = 25 := N_2
    have hlt : n + 1 < 25 := hN ▸ h
    refine (congrFun (congrArg Prod.fst (outsAt2_succ V c n h)) _).trans ?_
    refine (addCols_apply (iblk2 V c 0 ⟨n + 1, h⟩) (outsAt2 V c n (Nat.lt_of_succ_lt h)).1 q).trans ?_
    rw [Finset.sum_range_succ _ (n + 1), outsAt2_fst c q n (Nat.lt_of_succ_lt h), blockSum_of_lt _ _ (n + 1) hlt]
    exact congrArg _ (Finset.sum_congr rfl fun r _ => iblk2_apply V c (n + 1) h hlt r q)

/-- After point n the second accumulator holds, at lane q, the sum of the column's squares over blocks 0..n. -/
theorem outsAt2_snd (c : Dev nD) (q : Fin 128) : ∀ (n : ℕ) (h : n < cfg2.N),
    (outsAt2 V c n h).2 (ix2 (0 : Fin 1) q)
      = ∑ t ∈ Finset.range (n + 1), blockSum (fun i => act2 V c i * act2 V c i) q t
  | 0, h => by
    refine (congrFun (congrArg Prod.snd (outsAt2_zero V c h)) _).trans ?_
    refine (addSqCols_apply (iblk2 V c 0 ⟨0, h⟩) (zeroRow (F := Ideal)) q).trans ?_
    rw [zeroRow_apply, zero_add, Finset.sum_range_one, blockSum_of_lt _ _ 0 (by norm_num)]
    exact Finset.sum_congr rfl fun r _ => by rw [iblk2_apply V c 0 h (by norm_num) r q]
  | n + 1, h => by
    have hN : cfg2.N = 25 := N_2
    have hlt : n + 1 < 25 := hN ▸ h
    refine (congrFun (congrArg Prod.snd (outsAt2_succ V c n h)) _).trans ?_
    refine (addSqCols_apply (iblk2 V c 0 ⟨n + 1, h⟩) (outsAt2 V c n (Nat.lt_of_succ_lt h)).2 q).trans ?_
    rw [Finset.sum_range_succ _ (n + 1), outsAt2_snd c q n (Nat.lt_of_succ_lt h), blockSum_of_lt _ _ (n + 1) hlt]
    exact congrArg _ (Finset.sum_congr rfl fun r _ => by rw [iblk2_apply V c (n + 1) h hlt r q])

end Cert.KernelIdeal.FinR
-- ==== Proof.FinRArr2.lean ====
import proofs.«162488_j80401787781187_1_alg».proof.Proof.Gen.KernelIdeal.Frame
import proofs.«162488_j80401787781187_1_alg».proof.Proof.FinRPay
import proofs.«162488_j80401787781187_1_alg».proof.Proof.FinRInv2
import Idealize.ShloMosaic.Lib.Pipeline.Value

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

/-! The two result arrays of reduction kernel 2. Each accumulator's one [1,128] block is its whole result array, and it
    is written back once, after the last point (point 24): so each result array ends holding what the accumulator held
    after point 24 — at lane q the sum of the activation's column q (of its squares, for the second), the 25 row
    blocks in order and the 4000 rows of a block in order inside it. -/

section AnyFloat
variable {F : FTy → Type} [FloatOps F]
variable (V : (c : Dev nD) → (b : Ref sig .tc) → Buf (Elt F) ((c : Thread nD τ).loc b))

/-- The last point of the grid. -/
theorem last2 : 24 < cfg2.N := by rw [show cfg2.N = 25 from N_2]; norm_num

/-- The one write-back of the first accumulator, at point 24, writes what it holds then. -/
theorem flushed2_1 (c : Dev nD) (t : Fin cfg2.N) (hf : (cfg2.win 1).flush t = true) :
    (dat2 V c).flushed 1 t = ((cfg2.win 1).blk t).view.read (Elt F) ((outsAt2 V c 24 last2).1) := by
  have hN : cfg2.N = 25 := N_2
  have h24 : t.val = 24 := by have := (flush2_1 t).mp hf; have := t.isLt; omega
  obtain rfl : t = ⟨24, last2⟩ := Fin.ext h24
  show (cfg2.win 1).cut (grid2.coords ⟨24, last2⟩) ((dat2 V c).after 1 ⟨24, last2⟩) = _
  rw [after2_1]
  have hz' : (fun a => win2_1.index ⟨24, last2⟩ a * main_v44_0.ty.shape.size a) = fun _ => 0 :=
    funext fun a => by fin_cases a <;> decide +kernel
  exact (Memref.read_access_unit_zero (Elt F) main_v44_0 hz' (fun a => by rw [congrFun hz' a]; simp) _).symm

/-- The one write-back of the second accumulator, at point 24, writes what it holds then. -/
theorem flushed2_2 (c : Dev nD) (t : Fin cfg2.N) (hf : (cfg2.win 2).flush t = true) :
    (dat2 V c).flushed 2 t = ((cfg2.win 2).blk t).view.read (Elt F) ((outsAt2 V c 24 last2).2) := by
  have hN : cfg2.N = 25 := N_2
  have h24 : t.val = 24 := by have := (flush2_2 t).mp hf; have := t.isLt; omega
  obtain rfl : t = ⟨24, last2⟩ := Fin.ext h24
  show (cfg2.win 2).cut (grid2.coords ⟨24, last2⟩) ((dat2 V c).after 2 ⟨24, last2⟩) = _
  rw [after2_2]
  have hz' : (fun a => win2_2.index ⟨24, last2⟩ a * main_v44_1.ty.shape.size a) = fun _ => 0 :=
    funext fun a => by fin_cases a <;> decide +kernel
  exact (Memref.read_access_unit_zero (Elt F) main_v44_1 hz' (fun a => by rw [congrFun hz' a]; simp) _).symm

/-- The first result array ends holding the first accumulator after point 24: that point's block is the whole array. -/
theorem arrAt2_1 (c : Dev nD) : (dat2 V c).arrAt 1 cfg2.N = (outsAt2 V c 24 last2).1 :=
  (dat2 V c).arrAt_eq_of_cover 1 _ (flushed2_1 V c) fun i =>
    ⟨⟨24, last2⟩, (flush2_1 ⟨24, last2⟩).mpr rfl, by
      show i ∈ ((View.whole main_v44_0).slice (win2_1.rect ⟨24, last2⟩)).set
      rw [View.set_slice_whole, Rect.mem_set_unit]
      intro a
      have h0 : (i 0 : Nat) < 1 := (i 0).isLt
      have h1 : (i 1 : Nat) < 128 := (i 1).isLt
      match a with
      | ⟨0, _⟩ =>
        show win2_1.index ⟨24, last2⟩ 0 * win2_1.size 0 ≤ (i 0 : Nat)
          ∧ (i 0 : Nat) < win2_1.index ⟨24, last2⟩ 0 * win2_1.size 0 + win2_1.xsize (grid2.coords ⟨24, last2⟩) 0
        rw [show win2_1.index ⟨24, last2⟩ 0 * win2_1.size 0 = 0 from by decide +kernel,
          show win2_1.xsize (grid2.coords ⟨24, last2⟩) 0 = 1 from by decide +kernel]
        omega
      | ⟨1, _⟩ =>
        show win2_1.index ⟨24, last2⟩ 1 * win2_1.size 1 ≤ (i 1 : Nat)
          ∧ (i 1 : Nat) < win2_1.index ⟨24, last2⟩ 1 * win2_1.size 1 + win2_1.xsize (grid2.coords ⟨24, last2⟩) 1
        rw [show win2_1.index ⟨24, last2⟩ 1 * win2_1.size 1 = 0 from by decide +kernel,
          show win2_1.xsize (grid2.coords ⟨24, last2⟩) 1 = 128 from by decide +kernel]
        omega⟩

/-- The second result array ends holding the second accumulator after point 24. -/
theorem arrAt2_2 (c : Dev nD) : (dat2 V c).arrAt 2 cfg2.N = (outsAt2 V c 24 last2).2 :=
  (dat2 V c).arrAt_eq_of_cover 2 _ (flushed2_2 V c) fun i =>
    ⟨⟨24, last2⟩, (flush2_2 ⟨24, last2⟩).mpr rfl, by
      show i ∈ ((View.whole main_v44_1).slice (win2_2.rect ⟨24, last2⟩)).set
      rw [View.set_slice_whole, Rect.mem_set_unit]
      intro a
      have h0 : (i 0 : Nat) < 1 := (i 0).isLt
      have h1 : (i 1 : Nat) < 128 := (i 1).isLt
      match a with
      | ⟨0, _⟩ =>
        show win2_2.index ⟨24, last2⟩ 0 * win2_2.size 0 ≤ (i 0 : Nat)
          ∧ (i 0 : Nat) < win2_2.index ⟨24, last2⟩ 0 * win2_2.size 0 + win2_2.xsize (grid2.coords ⟨24, last2⟩) 0
        rw [show win2_2.index ⟨24, last2⟩ 0 * win2_2.size 0 = 0 from by decide +kernel,
          show win2_2.xsize (grid2.coords ⟨24, last2⟩) 0 = 1 from by decide +kernel]
        omega
      | ⟨1, _⟩ =>
        show win2_2.index ⟨24, last2⟩ 1 * win2_2.size 1 ≤ (i 1 : Nat)
          ∧ (i 1 : Nat) < win2_2.index ⟨24, last2⟩ 1 * win2_2.size 1 + win2_2.xsize (grid2.coords ⟨24, last2⟩) 1
        rw [show win2_2.index ⟨24, last2⟩ 1 * win2_2.size 1 = 0 from by decide +kernel,
          show win2_2.xsize (grid2.coords ⟨24, last2⟩) 1 = 128 from by decide +kernel]
        omega⟩

end AnyFloat

section AtIdeal
variable (V : (c : Dev nD) → (b : Ref sig .tc) → Buf (Elt Ideal) ((c : Thread nD τ).loc b))

/-- The first result array at lane q: the sum of the activation's column q, block by block. -/
theorem colSum2 (c : Dev nD) (q : Fin 128) :
    (dat2 V c).arrAt 1 cfg2.N (ix2 (0 : Fin 1) q)
      = ∑ t : Fin 25, ∑ r : Fin 4000, act2 V c (ix2 (rowOf t r) q) := by
  rw [arrAt2_1 V c]
  exact (outsAt2_fst V c q 24 last2).trans (sum_blockSum (act2 V c) q)

/-- The second result array at lane q: the sum of the squares of the activation's column q, block by block. -/
theorem colSqSum2 (c : Dev nD) (q : Fin 128) :
    (dat2 V c).arrAt 2 cfg2.N (ix2 (0 : Fin 1) q)
      = ∑ t : Fin 25, ∑ r : Fin 4000, act2 V c (ix2 (rowOf t r) q) * act2 V c (ix2 (rowOf t r) q) := by
  rw [arrAt2_2 V c]
  exact (outsAt2_snd V c q 24 last2).trans (sum_blockSum (fun i => act2 V c i * act2 V c i) q)

end AtIdeal

end Cert.KernelIdeal.FinR
-- ==== Proof.FinROut6.lean ====
import proofs.«162488_j80401787781187_1_alg».proof.Proof.Gen.KernelIdeal.Frame
import proofs.«162488_j80401787781187_1_alg».proof.Proof.FinRPay
import Idealize.ShloMosaic.Lib.Pipeline.Value
import Idealize.ShloMosaic.Lib.Tactic

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

open Idealize.ShloMosaic.Tactic

/-! What one grid point of reduction kernel 6 leaves in its two [1,128] accumulators. The first point stores the zero
    row into each accumulator, reads it back, and stores the update; every later point reads what the point before left
    and stores the update. Each accumulator's block never moves, so its contents are carried from point to point: after
    point 0 the pair is the update of the zero rows by block 0, after point n + 1 the update of the pair after point n by
    block n + 1. -/

variable {F : FTy → Type} [FloatOps F]

/-- A later point, first accumulator: what it held plus the block's column sums. -/
theorem out6_B_1_eq (c : Dev nD) (i : grid6.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : ¬cond6_0 i) (x : Vec F S4000x128 .f32) (xo1 xo2 : Vec F S1x128 .f32) :
    out6_B_1 c i a1 h1 a2 h2 a3 h3 hc x xo1 xo2 = addCols x xo1 := by
  unfold out6_B_1
  rw [View.read_writes_eq_canon _ _ _ (cover6_B_1 c i a1 h1 a2 h2 a3 h3 hc x xo1 xo2)]
  unfold kernelRun6_B
  dsimp only
  rw [View.canon_unit_zero zeroOff, k6_pay4_eq]
  simp only [View.readAt_eq_ld, h1.read_unread, h2.read_unread, View.ld_unit_zero (S := S4000x128) zeroOff,
    View.ld_unit_zero (S := S1x128) zeroOff]

/-- A later point, second accumulator: what it held plus the column sums of the block's squares. -/
theorem out6_B_2_eq (c : Dev nD) (i : grid6.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : ¬cond6_0 i) (x : Vec F S4000x128 .f32) (xo1 xo2 : Vec F S1x128 .f32) :
    out6_B_2 c i a1 h1 a2 h2 a3 h3 hc x xo1 xo2 = addSqCols x xo2 := by
  unfold out6_B_2
  rw [View.read_writes_eq_canon _ _ _ (cover6_B_2 c i a1 h1 a2 h2 a3 h3 hc x xo1 xo2)]
  unfold kernelRun6_B
  dsimp only
  rw [View.canon_unit_zero zeroOff, k6_pay5_eq]
  simp only [View.readAt_eq_ld, h1.read_unread, h3.read_unread, View.ld_unit_zero (S := S4000x128) zeroOff,
    View.ld_unit_zero (S := S1x128) zeroOff]

/-- The first point, first accumulator: the zero row plus the block's column sums. -/
theorem out6_A_1_eq (c : Dev nD) (i : grid6.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : cond6_0 i) (x : Vec F S4000x128 .f32) :
    out6_A_1 c i a1 h1 a2 h2 a3 h3 hc x = addCols x zeroRow := by
  unfold out6_A_1
  rw [View.read_writes_eq_canon _ _ _ (cover6_A_1 c i a1 h1 a2 h2 a3 h3 hc x)]
  unfold kernelRun6_A
  dsimp only
  sl_unfold_words
  rw [View.canon_cons_unit_zero (S := S1x128) zeroOff, View.readCov_unit_zero (S := S1x128) _ zeroOff, k6_pay4_eq,
    k6_pay1_eq]
  simp only [View.readAt_eq_ld, h1.read_unread, View.ld_unit_zero (S := S4000x128) zeroOff]

/-- The first point, second accumulator: the zero row plus the column sums of the block's squares. -/
theorem out6_A_2_eq (c : Dev nD) (i : grid6.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : cond6_0 i) (x : Vec F S4000x128 .f32) :
    out6_A_2 c i a1 h1 a2 h2 a3 h3 hc x = addSqCols x zeroRow := by
  unfold out6_A_2
  rw [View.read_writes_eq_canon _ _ _ (cover6_A_2 c i a1 h1 a2 h2 a3 h3 hc x)]
  unfold kernelRun6_A
  dsimp only
  sl_unfold_words
  rw [View.canon_cons_unit_zero (S := S1x128) zeroOff, View.readCov_unit_zero (S := S1x128) _ zeroOff, k6_pay5_eq,
    k6_pay2_eq]
  simp only [View.readAt_eq_ld, h1.read_unread, View.ld_unit_zero (S := S4000x128) zeroOff]

variable (V : (c : Dev nD) → (b : Ref sig .tc) → Buf (Elt F) ((c : Thread nD τ).loc b))

/-- After point 0: the zero rows updated by block 0. -/
theorem outsAt6_zero (c : Dev nD) (h : 0 < cfg6.N) :
    outsAt6 V c 0 h
      = (addCols (iblk6 V c 0 ⟨0, h⟩) zeroRow, addSqCols (iblk6 V c 0 ⟨0, h⟩) zeroRow) :=
  (outsAt6_A V c ⟨0, h⟩ rfl).trans (congrArg₂ Prod.mk
    (out6_A_1_eq c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩)
      ((hcond6_0 ⟨0, h⟩).mpr rfl) (iblk6 V c 0 ⟨0, h⟩))
    (out6_A_2_eq c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩)
      ((hcond6_0 ⟨0, h⟩).mpr rfl) (iblk6 V c 0 ⟨0, h⟩)))

/-- After point n + 1: the pair after point n updated by block n + 1. -/
theorem outsAt6_succ (c : Dev nD) (n : ℕ) (h : n + 1 < cfg6.N) :
    outsAt6 V c (n + 1) h
      = (addCols (iblk6 V c 0 ⟨n + 1, h⟩) (outsAt6 V c n (Nat.lt_of_succ_lt h)).1,
         addSqCols (iblk6 V c 0 ⟨n + 1, h⟩) (outsAt6 V c n (Nat.lt_of_succ_lt h)).2) := by
  have hN : cfg6.N = 25 := N_6
  have hB : ¬(⟨n + 1, h⟩ : Fin cfg6.N).val % 25 = 0 := by dsimp only; omega
  refine (outsAt6_B V c ⟨n + 1, h⟩ hB).trans ?_
  exact congrArg₂ Prod.mk
    (out6_B_1_eq c (grid6.coords ⟨n + 1, h⟩) (ms6_0 ⟨n + 1, h⟩) (hs6_0 ⟨n + 1, h⟩) (ms6_1 ⟨n + 1, h⟩) (hs6_1 ⟨n + 1, h⟩)
      (ms6_2 ⟨n + 1, h⟩) (hs6_2 ⟨n + 1, h⟩) (fun hh => hB ((hcond6_0 ⟨n + 1, h⟩).mp hh)) (iblk6 V c 0 ⟨n + 1, h⟩)
      (outsAt6 V c n (Nat.lt_of_succ_lt h)).1 (outsAt6 V c n (Nat.lt_of_succ_lt h)).2)
    (out6_B_2_eq c (grid6.coords ⟨n + 1, h⟩) (ms6_0 ⟨n + 1, h⟩) (hs6_0 ⟨n + 1, h⟩) (ms6_1 ⟨n + 1, h⟩) (hs6_1 ⟨n + 1, h⟩)
      (ms6_2 ⟨n + 1, h⟩) (hs6_2 ⟨n + 1, h⟩) (fun hh => hB ((hcond6_0 ⟨n + 1, h⟩).mp hh)) (iblk6 V c 0 ⟨n + 1, h⟩)
      (outsAt6 V c n (Nat.lt_of_succ_lt h)).1 (outsAt6 V c n (Nat.lt_of_succ_lt h)).2)

end Cert.KernelIdeal.FinR
-- ==== Proof.FinRInv6.lean ====
import proofs.«162488_j80401787781187_1_alg».proof.Proof.Gen.KernelIdeal.Frame
import proofs.«162488_j80401787781187_1_alg».proof.Proof.FinRPay
import proofs.«162488_j80401787781187_1_alg».proof.Proof.FinROut6
import Idealize.ShloMosaic.Lib.Pipeline.Value

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

/-! The accumulators of reduction kernel 6 after each grid point, over the extended reals: after point n the first
    holds, at lane q, the sum over blocks 0..n of the block's column sum, and the second the same of the squares. Block t
    of the activation is its rows 4000 t .. 4000 t + 3999. By induction on the point; no finiteness is needed, only
    that adding zero changes nothing. -/

variable (V : (c : Dev nD) → (b : Ref sig .tc) → Buf (Elt Ideal) ((c : Thread nD τ).loc b))

/-- The activation as region 6 finds it. -/
abbrev act6 (c : Dev nD) : S100000x128.Idx → EReal := V c (Pipeline.arrRef spec6 0)

/-- The input window's block index at point t is (t, 0): decided over the grid. -/
theorem inIdx6 : ∀ t : Fin cfg6.N, win6_0.index t 0 = t.val ∧ win6_0.index t 1 = 0 :=
  (by decide +kernel : ∀ t : Fin grid6.N, win6_0.index t 0 = t.val ∧ win6_0.index t 1 = 0)

/-- Block n of the activation at (r, q) is the activation at row 4000 n + r, lane q. -/
theorem iblk6_apply (c : Dev nD) (n : ℕ) (h : n < cfg6.N) (hlt : n < 25) (r : Fin 4000) (q : Fin 128) :
    (iblk6 V c 0 ⟨n, h⟩ : Vec Ideal S4000x128 .f32) (ix2 r q) = act6 V c (ix2 (rowOf ⟨n, hlt⟩ r) q) := by
  have hi : win6_0.index ⟨n, h⟩ 0 = n ∧ win6_0.index ⟨n, h⟩ 1 = 0 := inIdx6 ⟨n, h⟩
  unfold iblk6
  rw [View.read_apply]
  refine congrArg (V c (Pipeline.arrRef spec6 0)) ?_
  funext a
  apply Fin.ext
  match a with
  | ⟨0, _⟩ => show win6_0.index ⟨n, h⟩ 0 * 4000 + 1 * r.val = 4000 * n + r.val; rw [hi.1]; omega
  | ⟨1, _⟩ => show win6_0.index ⟨n, h⟩ 1 * 128 + 1 * q.val = q.val; rw [hi.2]; omega

/-- After point n the first accumulator holds, at lane q, the column's sum over blocks 0..n. -/
theorem outsAt6_fst (c : Dev nD) (q : Fin 128) : ∀ (n : ℕ) (h : n < cfg6.N),
    (outsAt6 V c n h).1 (ix2 (0 : Fin 1) q) = ∑ t ∈ Finset.range (n + 1), blockSum (act6 V c) q t
  | 0, h => by
    refine (congrFun (congrArg Prod.fst (outsAt6_zero V c h)) _).trans ?_
    refine (addCols_apply (iblk6 V c 0 ⟨0, h⟩) (zeroRow (F := Ideal)) q).trans ?_
    rw [zeroRow_apply, zero_add, Finset.sum_range_one, blockSum_of_lt _ _ 0 (by norm_num)]
    exact Finset.sum_congr rfl fun r _ => iblk6_apply V c 0 h (by norm_num) r q
  | n + 1, h => by
    have hN : cfg6.N = 25 := N_6
    have hlt : n + 1 < 25 := hN ▸ h
    refine (congrFun (congrArg Prod.fst (outsAt6_succ V c n h)) _).trans ?_
    refine (addCols_apply (iblk6 V c 0 ⟨n + 1, h⟩) (outsAt6 V c n (Nat.lt_of_succ_lt h)).1 q).trans ?_
    rw [Finset.sum_range_succ _ (n + 1), outsAt6_fst c q n (Nat.lt_of_succ_lt h), blockSum_of_lt _ _ (n + 1) hlt]
    exact congrArg _ (Finset.sum_congr rfl fun r _ => iblk6_apply V c (n + 1) h hlt r q)

/-- After point n the second accumulator holds, at lane q, the sum of the column's squares over blocks 0..n. -/
theorem outsAt6_snd (c : Dev nD) (q : Fin 128) : ∀ (n : ℕ) (h : n < cfg6.N),
    (outsAt6 V c n h).2 (ix2 (0 : Fin 1) q)
      = ∑ t ∈ Finset.range (n + 1), blockSum (fun i => act6 V c i * act6 V c i) q t
  | 0, h => by
    refine (congrFun (congrArg Prod.snd (outsAt6_zero V c h)) _).trans ?_
    refine (addSqCols_apply (iblk6 V c 0 ⟨0, h⟩) (zeroRow (F := Ideal)) q).trans ?_
    rw [zeroRow_apply, zero_add, Finset.sum_range_one, blockSum_of_lt _ _ 0 (by norm_num)]
    exact Finset.sum_congr rfl fun r _ => by rw [iblk6_apply V c 0 h (by norm_num) r q]
  | n + 1, h => by
    have hN : cfg6.N = 25 := N_6
    have hlt : n + 1 < 25 := hN ▸ h
    refine (congrFun (congrArg Prod.snd (outsAt6_succ V c n h)) _).trans ?_
    refine (addSqCols_apply (iblk6 V c 0 ⟨n + 1, h⟩) (outsAt6 V c n (Nat.lt_of_succ_lt h)).2 q).trans ?_
    rw [Finset.sum_range_succ _ (n + 1), outsAt6_snd c q n (Nat.lt_of_succ_lt h), blockSum_of_lt _ _ (n + 1) hlt]
    exact congrArg _ (Finset.sum_congr rfl fun r _ => by rw [iblk6_apply V c (n + 1) h hlt r q])

end Cert.KernelIdeal.FinR
-- ==== Proof.FinRArr6.lean ====
import proofs.«162488_j80401787781187_1_alg».proof.Proof.Gen.KernelIdeal.Frame
import proofs.«162488_j80401787781187_1_alg».proof.Proof.FinRPay
import proofs.«162488_j80401787781187_1_alg».proof.Proof.FinRInv6
import Idealize.ShloMosaic.Lib.Pipeline.Value

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

/-! The two result arrays of reduction kernel 6. Each accumulator's one [1,128] block is its whole result array, and it
    is written back once, after the last point (point 24): so each result array ends holding what the accumulator held
    after point 24 — at lane q the sum of the activation's column q (of its squares, for the second), the 25 row
    blocks in order and the 4000 rows of a block in order inside it. -/

section AnyFloat
variable {F : FTy → Type} [FloatOps F]
variable (V : (c : Dev nD) → (b : Ref sig .tc) → Buf (Elt F) ((c : Thread nD τ).loc b))

/-- The last point of the grid. -/
theorem last6 : 24 < cfg6.N := by rw [show cfg6.N = 25 from N_6]; norm_num

/-- The one write-back of the first accumulator, at point 24, writes what it holds then. -/
theorem flushed6_1 (c : Dev nD) (t : Fin cfg6.N) (hf : (cfg6.win 1).flush t = true) :
    (dat6 V c).flushed 1 t = ((cfg6.win 1).blk t).view.read (Elt F) ((outsAt6 V c 24 last6).1) := by
  have hN : cfg6.N = 25 := N_6
  have h24 : t.val = 24 := by have := (flush6_1 t).mp hf; have := t.isLt; omega
  obtain rfl : t = ⟨24, last6⟩ := Fin.ext h24
  show (cfg6.win 1).cut (grid6.coords ⟨24, last6⟩) ((dat6 V c).after 1 ⟨24, last6⟩) = _
  rw [after6_1]
  have hz' : (fun a => win6_1.index ⟨24, last6⟩ a * main_v96_0.ty.shape.size a) = fun _ => 0 :=
    funext fun a => by fin_cases a <;> decide +kernel
  exact (Memref.read_access_unit_zero (Elt F) main_v96_0 hz' (fun a => by rw [congrFun hz' a]; simp) _).symm

/-- The one write-back of the second accumulator, at point 24, writes what it holds then. -/
theorem flushed6_2 (c : Dev nD) (t : Fin cfg6.N) (hf : (cfg6.win 2).flush t = true) :
    (dat6 V c).flushed 2 t = ((cfg6.win 2).blk t).view.read (Elt F) ((outsAt6 V c 24 last6).2) := by
  have hN : cfg6.N = 25 := N_6
  have h24 : t.val = 24 := by have := (flush6_2 t).mp hf; have := t.isLt; omega
  obtain rfl : t = ⟨24, last6⟩ := Fin.ext h24
  show (cfg6.win 2).cut (grid6.coords ⟨24, last6⟩) ((dat6 V c).after 2 ⟨24, last6⟩) = _
  rw [after6_2]
  have hz' : (fun a => win6_2.index ⟨24, last6⟩ a * main_v96_1.ty.shape.size a) = fun _ => 0 :=
    funext fun a => by fin_cases a <;> decide +kernel
  exact (Memref.read_access_unit_zero (Elt F) main_v96_1 hz' (fun a => by rw [congrFun hz' a]; simp) _).symm

/-- The first result array ends holding the first accumulator after point 24: that point's block is the whole array. -/
theorem arrAt6_1 (c : Dev nD) : (dat6 V c).arrAt 1 cfg6.N = (outsAt6 V c 24 last6).1 :=
  (dat6 V c).arrAt_eq_of_cover 1 _ (flushed6_1 V c) fun i =>
    ⟨⟨24, last6⟩, (flush6_1 ⟨24, last6⟩).mpr rfl, by
      show i ∈ ((View.whole main_v96_0).slice (win6_1.rect ⟨24, last6⟩)).set
      rw [View.set_slice_whole, Rect.mem_set_unit]
      intro a
      have h0 : (i 0 : Nat) < 1 := (i 0).isLt
      have h1 : (i 1 : Nat) < 128 := (i 1).isLt
      match a with
      | ⟨0, _⟩ =>
        show win6_1.index ⟨24, last6⟩ 0 * win6_1.size 0 ≤ (i 0 : Nat)
          ∧ (i 0 : Nat) < win6_1.index ⟨24, last6⟩ 0 * win6_1.size 0 + win6_1.xsize (grid6.coords ⟨24, last6⟩) 0
        rw [show win6_1.index ⟨24, last6⟩ 0 * win6_1.size 0 = 0 from by decide +kernel,
          show win6_1.xsize (grid6.coords ⟨24, last6⟩) 0 = 1 from by decide +kernel]
        omega
      | ⟨1, _⟩ =>
        show win6_1.index ⟨24, last6⟩ 1 * win6_1.size 1 ≤ (i 1 : Nat)
          ∧ (i 1 : Nat) < win6_1.index ⟨24, last6⟩ 1 * win6_1.size 1 + win6_1.xsize (grid6.coords ⟨24, last6⟩) 1
        rw [show win6_1.index ⟨24, last6⟩ 1 * win6_1.size 1 = 0 from by decide +kernel,
          show win6_1.xsize (grid6.coords ⟨24, last6⟩) 1 = 128 from by decide +kernel]
        omega⟩

/-- The second result array ends holding the second accumulator after point 24. -/
theorem arrAt6_2 (c : Dev nD) : (dat6 V c).arrAt 2 cfg6.N = (outsAt6 V c 24 last6).2 :=
  (dat6 V c).arrAt_eq_of_cover 2 _ (flushed6_2 V c) fun i =>
    ⟨⟨24, last6⟩, (flush6_2 ⟨24, last6⟩).mpr rfl, by
      show i ∈ ((View.whole main_v96_1).slice (win6_2.rect ⟨24, last6⟩)).set
      rw [View.set_slice_whole, Rect.mem_set_unit]
      intro a
      have h0 : (i 0 : Nat) < 1 := (i 0).isLt
      have h1 : (i 1 : Nat) < 128 := (i 1).isLt
      match a with
      | ⟨0, _⟩ =>
        show win6_2.index ⟨24, last6⟩ 0 * win6_2.size 0 ≤ (i 0 : Nat)
          ∧ (i 0 : Nat) < win6_2.index ⟨24, last6⟩ 0 * win6_2.size 0 + win6_2.xsize (grid6.coords ⟨24, last6⟩) 0
        rw [show win6_2.index ⟨24, last6⟩ 0 * win6_2.size 0 = 0 from by decide +kernel,
          show win6_2.xsize (grid6.coords ⟨24, last6⟩) 0 = 1 from by decide +kernel]
        omega
      | ⟨1, _⟩ =>
        show win6_2.index ⟨24, last6⟩ 1 * win6_2.size 1 ≤ (i 1 : Nat)
          ∧ (i 1 : Nat) < win6_2.index ⟨24, last6⟩ 1 * win6_2.size 1 + win6_2.xsize (grid6.coords ⟨24, last6⟩) 1
        rw [show win6_2.index ⟨24, last6⟩ 1 * win6_2.size 1 = 0 from by decide +kernel,
          show win6_2.xsize (grid6.coords ⟨24, last6⟩) 1 = 128 from by decide +kernel]
        omega⟩

end AnyFloat

section AtIdeal
variable (V : (c : Dev nD) → (b : Ref sig .tc) → Buf (Elt Ideal) ((c : Thread nD τ).loc b))

/-- The first result array at lane q: the sum of the activation's column q, block by block. -/
theorem colSum6 (c : Dev nD) (q : Fin 128) :
    (dat6 V c).arrAt 1 cfg6.N (ix2 (0 : Fin 1) q)
      = ∑ t : Fin 25, ∑ r : Fin 4000, act6 V c (ix2 (rowOf t r) q) := by
  rw [arrAt6_1 V c]
  exact (outsAt6_fst V c q 24 last6).trans (sum_blockSum (act6 V c) q)

/-- The second result array at lane q: the sum of the squares of the activation's column q, block by block. -/
theorem colSqSum6 (c : Dev nD) (q : Fin 128) :
    (dat6 V c).arrAt 2 cfg6.N (ix2 (0 : Fin 1) q)
      = ∑ t : Fin 25, ∑ r : Fin 4000, act6 V c (ix2 (rowOf t r) q) * act6 V c (ix2 (rowOf t r) q) := by
  rw [arrAt6_2 V c]
  exact (outsAt6_snd V c q 24 last6).trans (sum_blockSum (fun i => act6 V c i * act6 V c i) q)

end AtIdeal

end Cert.KernelIdeal.FinR
-- ==== Proof.LibTileSum.lean ====
/-
  A sum over an axis of extent T·B taken tile by tile: the sum over all n < T·B of f n is the sum over the tiles t < T
  of the sum over the positions b < B inside the tile of f (t·B + b). A kernel that walks an axis in blocks and
  accumulates per block computes the right side; a whole-array reduction computes the left. In any commutative
  monoid (at the extended reals no finiteness is needed: only the order of addition changes).
-/
import Mathlib.Algebra.BigOperators.Fin
import Mathlib.Logic.Equiv.Fin.Basic

namespace Cert.LibTileSum

open Finset

/-- Position b of tile t on an axis of T tiles of B positions. -/
def tileIdx {T B : Nat} (t : Fin T) (b : Fin B) : Fin (T * B) :=
  ⟨t.val * B + b.val, by
    have ht := t.isLt; have hb := b.isLt
    have h0 : (t.val + 1) * B = t.val * B + B := Nat.succ_mul t.val B
    have h1 : t.val * B + b.val < (t.val + 1) * B := by rw [h0]; omega
    exact lt_of_lt_of_le h1 (Nat.mul_le_mul_right B ht)⟩

@[simp] theorem tileIdx_val {T B : Nat} (t : Fin T) (b : Fin B) : (tileIdx t b).val = t.val * B + b.val := rfl

/-- The sum over the whole axis is the sum over tiles of the sums inside each tile. -/
theorem sum_tiles {M : Type*} [AddCommMonoid M] {T B : Nat} (f : Fin (T * B) → M) :
    ∑ n : Fin (T * B), f n = ∑ t : Fin T, ∑ b : Fin B, f (tileIdx t b) := by
  rw [← Equiv.sum_comp (finProdFinEquiv (m := T) (n := B)) f, Fintype.sum_prod_type]
  refine Finset.sum_congr rfl fun t _ => Finset.sum_congr rfl fun b _ => ?_
  congr 1
  apply Fin.ext
  show b.val + B * t.val = t.val * B + b.val
  rw [Nat.mul_comm B t.val, Nat.add_comm]

end Cert.LibTileSum
-- ==== Proof.FinRFlat.lean ====
import proofs.«162488_j80401787781187_1_alg».proof.Proof.FinRArr2
import proofs.«162488_j80401787781187_1_alg».proof.Proof.FinRArr6
import proofs.«162488_j80401787781187_1_alg».proof.Proof.LibTileSum

noncomputable section

open scoped BigOperators
open Idealize.ShloMosaic Idealize.ShloMosaic.TcCoe Idealize.ShloMosaic.ValueIdx
open Idealize.SL.Sem
open Idealize.ShloMosaic.Pipeline (Dat)

namespace Cert.KernelIdeal.FinR

open Cert.KernelIdeal Cert.KernelIdeal.Gen

/-! The same column sums with the rows in one run: the 25 blocks of 4000 rows are the 100000 rows, each once, so the
    sum taken block by block is the sum over all rows. Only the grouping of the additions changes, which the extended
    reals allow without any finiteness. -/

/-- A column summed block by block is the column summed over all its rows. -/
theorem sum_rows (X : S100000x128.Idx → EReal) (q : Fin 128) :
    ∑ i : Fin 100000, X (ix2 i q) = ∑ t : Fin 25, ∑ r : Fin 4000, X (ix2 (rowOf t r) q) := by
  have h : 25 * 4000 = 100000 := by norm_num
  refine (Fintype.sum_equiv (finCongr h) (fun n : Fin (25 * 4000) => X (ix2 (Fin.cast h n) q))
    (fun i : Fin 100000 => X (ix2 i q)) (fun n => rfl)).symm.trans ?_
  refine (Cert.LibTileSum.sum_tiles (T := 25) (B := 4000) _).trans ?_
  refine Finset.sum_congr rfl fun t _ => Finset.sum_congr rfl fun r _ => congrArg (fun i => X (ix2 i q)) (Fin.ext ?_)
  show t.val * 4000 + r.val = 4000 * t.val + r.val
  omega

variable (V : (c : Dev nD) → (b : Ref sig .tc) → Buf (Elt Ideal) ((c : Thread nD τ).loc b))

/-- Reduction kernel 2's first result at lane q: the sum of the activation's column q over all 100000 rows. -/
theorem colSum2_flat (c : Dev nD) (q : Fin 128) :
    (dat2 V c).arrAt 1 cfg2.N (ix2 (0 : Fin 1) q) = ∑ i : Fin 100000, act2 V c (ix2 i q) :=
  (colSum2 V c q).trans (sum_rows (act2 V c) q).symm

/-- Reduction kernel 2's second result at lane q: the sum of the squares of column q over all rows. -/
theorem colSqSum2_flat (c : Dev nD) (q : Fin 128) :
    (dat2 V c).arrAt 2 cfg2.N (ix2 (0 : Fin 1) q) = ∑ i : Fin 100000, act2 V c (ix2 i q) * act2 V c (ix2 i q) :=
  (colSqSum2 V c q).trans (sum_rows (fun j => act2 V c j * act2 V c j) q).symm

/-- Reduction kernel 6's first result at lane q: the sum of the activation's column q over all 100000 rows. -/
theorem colSum6_flat (c : Dev nD) (q : Fin 128) :
    (dat6 V c).arrAt 1 cfg6.N (ix2 (0 : Fin 1) q) = ∑ i : Fin 100000, act6 V c (ix2 i q) :=
  (colSum6 V c q).trans (sum_rows (act6 V c) q).symm

/-- Reduction kernel 6's second result at lane q: the sum of the squares of column q over all rows. -/
theorem colSqSum6_flat (c : Dev nD) (q : Fin 128) :
    (dat6 V c).arrAt 2 cfg6.N (ix2 (0 : Fin 1) q) = ∑ i : Fin 100000, act6 V c (ix2 i q) * act6 V c (ix2 i q) :=
  (colSqSum6 V c q).trans (sum_rows (fun j => act6 V c j * act6 V c j) q).symm

end Cert.KernelIdeal.FinR
-- ==== Proof.MSelu.lean ====
/-
  The scaled exponential linear unit on one extended real, in its two spellings.

  Both select, by ONE comparison bit c (x > 0), between x itself and α·(e^x − 1), and scale the choice by λ. The first
  spelling computes e^x − 1 at x; the second at "x where the bit is off, else 0" — which, in the branch where that value
  is used (bit off), is x again. So the two agree for EVERY bit, whatever the comparison decides, with no condition on x.
  For a real x both branches are real numbers, so the value is one.
-/
import Idealize.ShloMosaic.PureOps.Ideal
import proofs.«162488_j80401787781187_1_alg».proof.Proof.LibERealSum

noncomputable section

namespace Cert.MSelu

open Idealize.ShloMosaic Cert.LibERealSum

/-- The branch value computed at the guarded argument is the branch value computed at the argument, under the select. -/
theorem select_guard (c : BitVec 1) (x z : EReal) (f : EReal → EReal) :
    Scalar.select c x (f (Scalar.select c z x)) = Scalar.select c x (f x) := by
  unfold Scalar.select
  split_ifs <;> rfl

/-- Whichever branch the bit selects, both being real numbers, the selection is a real number. -/
theorem isReal_select (c : BitVec 1) {a b : EReal} (ha : IsReal a) (hb : IsReal b) : IsReal (Scalar.select c a b) := by
  unfold Scalar.select
  split_ifs
  · exact ha
  · exact hb

/-- The exponential of a real number is a real number. -/
theorem isReal_exp {x : EReal} (hx : IsReal x) : IsReal (Ideal.exp x) := by
  obtain ⟨r, rfl⟩ := hx
  exact ⟨Real.exp r, rfl⟩

end Cert.MSelu

end
-- ==== Proof.MConsts.lean ====
/-
  The float literals the two programs spell, as the extended reals their bit patterns denote: zero, one, the row
  count 100000, and the variance guard 1e-5 (its nearest f32), of which only positivity is used.
-/
import Idealize.ShloMosaic.PureOps.Ideal

noncomputable section

namespace Cert.MConsts

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 100000.0, the number of rows, denotes the real 100000. -/
theorem ofBits_rows : Ideal.ofBits .f32 0x47C35000#32 = ((100000 : ℝ) : EReal) := by
  simp [Ideal.ofBits, Ideal.ieee, -EReal.coe_mul]; norm_num

/-- The variance guard denotes a positive real number. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The SELU slope constant (1.67326…) denotes a real number. -/
theorem ofBits_alpha : ∃ r : ℝ, Ideal.ofBits .f32 0x3FD62D7D#32 = (r : EReal) := by
  exact ⟨_, by simp [Ideal.ofBits, Ideal.ieee, -EReal.coe_mul]; rfl⟩

/-- The SELU scale constant (1.05070…) denotes a real number. -/
theorem ofBits_scale : ∃ r : ℝ, Ideal.ofBits .f32 0x3F867D5F#32 = (r : EReal) := by
  exact ⟨_, by simp [Ideal.ofBits, Ideal.ieee, -EReal.coe_mul]; rfl⟩

end Cert.MConsts

end
-- ==== Proof.MKFn.lean ====
/-
  What the kernel program's regions compute, as functions of whole arrays, and the scalar SELU in its two spellings.

  The projection region returns the product over the 128 features; the combine region SELU(agg + xw·s + b) with s a column and
  b a row; the reduction regions the column sums of the entries and of their squares over the 100000 rows; the apply region
  a·scale + shift with scale and shift rows. The kernel's SELU is λ·select(x > 0, x, α·(e^x − 1.0)); the reference's takes
  the exponential at the guarded argument; they agree for every comparison bit, and 1.0's word is the number one.
-/
import proofs.«162488_j80401787781187_1_alg».proof.KernelIdeal
import proofs.«162488_j80401787781187_1_alg».proof.Proof.MSelu
import proofs.«162488_j80401787781187_1_alg».proof.Proof.MConsts
import Idealize.ShloMosaic.Lib.ValueIdx

noncomputable section

namespace Cert.MKFn

open Idealize.ShloMosaic Idealize.ShloMosaic.ValueIdx Cert.KernelIdeal Cert.LibERealSum

/-- The kernel's SELU on one extended real. -/
def seluK (x : EReal) : EReal :=
  Ideal.ofBits .f32 0x3F867D5F#32
    * Scalar.select (Ideal.cmp .ogt x (Ideal.ofBits .f32 0x00000000#32)) x
        (Ideal.ofBits .f32 0x3FD62D7D#32 * (Ideal.exp x - Ideal.ofBits .f32 0x3F800000#32))

/-- The reference's SELU on one extended real: the exponential taken at the guarded argument. -/
def seluR (x : EReal) : EReal :=
  Ideal.ofBits .f32 0x3F867D5F#32
    * Scalar.select (Ideal.cmp .ogt x (Ideal.ofBits .f32 0x00000000#32)) x
        (Ideal.ofBits .f32 0x3FD62D7D#32
          * (Ideal.exp (Scalar.select (Ideal.cmp .ogt x (Ideal.ofBits .f32 0x00000000#32))
                (Ideal.ofBits .f32 0x00000000#32) x) - 1))

/-- The two spellings agree everywhere. -/
theorem seluK_eq_seluR (x : EReal) : seluK x = seluR x := by
  unfold seluK seluR
  rw [Cert.MConsts.ofBits_one]
  exact congrArg _ (Cert.MSelu.select_guard _ x _ fun y => Ideal.ofBits .f32 0x3FD62D7D#32 * (Ideal.exp y - 1)).symm

/-- SELU of a real number is a real number. -/
theorem isReal_seluK {x : EReal} (hx : IsReal x) : IsReal (seluK x) := by
  unfold seluK
  obtain ⟨a, ha⟩ := Cert.MConsts.ofBits_alpha
  obtain ⟨l, hl⟩ := Cert.MConsts.ofBits_scale
  rw [ha, hl, Cert.MConsts.ofBits_one]
  exact IsReal.mul ⟨l, rfl⟩ (Cert.MSelu.isReal_select _ hx
    (IsReal.mul ⟨a, rfl⟩ (IsReal.sub (Cert.MSelu.isReal_exp hx) ⟨1, by simp⟩)))

/-- The projection: the product over the features. -/
def MatF (X : FVec Ideal S100000x128 .f32) (W : FVec Ideal S128x128 .f32) : FVec Ideal S100000x128 .f32 :=
  fun i => ∑ j : Fin 128, X (ix2 (i 0) j) * W (ix2 j (i 1))

/-- The combine step: SELU of neighbour sum + self-loop term + bias. -/
def ActF (A XW : FVec Ideal S100000x128 .f32) (Sc : FVec Ideal S100000x1 .f32) (B : FVec Ideal S1x128 .f32) :
    FVec Ideal S100000x128 .f32 :=
  fun i => seluK (A i + XW i * Sc (ix2 (i 0) (0 : Fin 1)) + B (ix2 (0 : Fin 1) (i 1)))

/-- The column sums over the rows. -/
def ColSumF (A : FVec Ideal S100000x128 .f32) : FVec Ideal S1x128 .f32 :=
  fun j => ∑ i : Fin 100000, A (ix2 i (j 1))

/-- The column sums of squares over the rows. -/
def ColSqF (A : FVec Ideal S100000x128 .f32) : FVec Ideal S1x128 .f32 :=
  fun j => ∑ i : Fin 100000, A (ix2 i (j 1)) * A (ix2 i (j 1))

/-- Scale and shift, lane by lane. -/
def BnApplyF (A : FVec Ideal S100000x128 .f32) (Sc Sh : FVec Ideal S1x128 .f32) : FVec Ideal S100000x128 .f32 :=
  fun i => A i * Sc (ix2 (0 : Fin 1) (i 1)) + Sh (ix2 (0 : Fin 1) (i 1))

theorem MatF_apply (X : FVec Ideal S100000x128 .f32) (W : FVec Ideal S128x128 .f32) (p : Fin 100000) (q : Fin 128) :
    MatF X W (ix2 p q) = ∑ j : Fin 128, X (ix2 p j) * W (ix2 j q) := rfl

theorem ActF_apply (A XW : FVec Ideal S100000x128 .f32) (Sc : FVec Ideal S100000x1 .f32) (B : FVec Ideal S1x128 .f32)
    (p : Fin 100000) (q : Fin 128) :
    ActF A XW Sc B (ix2 p q) = seluK (A (ix2 p q) + XW (ix2 p q) * Sc (ix2 p (0 : Fin 1)) + B (ix2 (0 : Fin 1) q)) := rfl

theorem ColSumF_apply (A : FVec Ideal S100000x128 .f32) (q : Fin 128) :
    ColSumF A (ix2 (0 : Fin 1) q) = ∑ i : Fin 100000, A (ix2 i q) := rfl

theorem ColSqF_apply (A : FVec Ideal S100000x128 .f32) (q : Fin 128) :
    ColSqF A (ix2 (0 : Fin 1) q) = ∑ i : Fin 100000, A (ix2 i q) * A (ix2 i q) := rfl

theorem BnApplyF_apply (A : FVec Ideal S100000x128 .f32) (Sc Sh : FVec Ideal S1x128 .f32) (p : Fin 100000) (q : Fin 128) :
    BnApplyF A Sc Sh (ix2 p q) = A (ix2 p q) * Sc (ix2 (0 : Fin 1) q) + Sh (ix2 (0 : Fin 1) q) := rfl

end Cert.MKFn

end
-- ==== Proof.MRegions.lean ====
/-
  The eleven kernel launches as functions of whole arrays: the three projections are the product over the features, the
  three combine steps SELU of aggregate + product · self-loop column + bias row, the two reductions the column sums of the
  entries and of their squares over all rows, the two apply steps scale-and-shift by rows, the last the head. Each
  launch's result array is that function of the arrays it is given, whatever else memory holds.
-/
import proofs.«162488_j80401787781187_1_alg».proof.Proof.FinAMm0
import proofs.«162488_j80401787781187_1_alg».proof.Proof.FinAMm4
import proofs.«162488_j80401787781187_1_alg».proof.Proof.FinAMm8
import proofs.«162488_j80401787781187_1_alg».proof.Proof.FinAComb1
import proofs.«162488_j80401787781187_1_alg».proof.Proof.FinAComb5
import proofs.«162488_j80401787781187_1_alg».proof.Proof.FinAComb9
import proofs.«162488_j80401787781187_1_alg».proof.Proof.FinABn3
import proofs.«162488_j80401787781187_1_alg».proof.Proof.FinABn7
import proofs.«162488_j80401787781187_1_alg».proof.Proof.FinRFlat
import proofs.«162488_j80401787781187_1_alg».proof.Proof.KRunNet
import proofs.«162488_j80401787781187_1_alg».proof.Proof.MKFn

set_option maxHeartbeats 400000

noncomputable section

namespace Cert.MRegions

open Idealize.ShloMosaic Idealize.ShloMosaic.TcCoe Idealize.ShloMosaic.ValueIdx Idealize.SL.Sem Cert.KernelIdeal Cert.KernelIdeal.Gen Cert.KernelIdeal.KRun Cert.MKFn
open Cert.KernelIdeal.FinA (mmG combG bnG SeluS)

theorem mmG_eq (X : FVec Ideal S100000x128 .f32) (W : FVec Ideal S128x128 .f32) : mmG X W = MatF X W := by
  funext i
  obtain ⟨p, q, rfl⟩ : ∃ (p : Fin 100000) (q : Fin 128), i = ix2 p q := ⟨i 0, i 1, eq_ix2 i⟩
  rfl

theorem combG_eq (A XW : FVec Ideal S100000x128 .f32) (Sc : FVec Ideal S100000x1 .f32) (B : FVec Ideal S1x128 .f32) :
    combG A XW Sc B = ActF A XW Sc B := by
  funext i
  obtain ⟨p, q, rfl⟩ : ∃ (p : Fin 100000) (q : Fin 128), i = ix2 p q := ⟨i 0, i 1, eq_ix2 i⟩
  rfl

theorem bnG_eq (A : FVec Ideal S100000x128 .f32) (Sc Sh : FVec Ideal S1x128 .f32) : bnG A Sc Sh = BnApplyF A Sc Sh := by
  funext i
  obtain ⟨p, q, rfl⟩ : ∃ (p : Fin 100000) (q : Fin 128), i = ix2 p q := ⟨i 0, i 1, eq_ix2 i⟩
  rfl

variable (V : (c : Dev nD) → (b : Ref sig .tc) → Buf (Elt Ideal) ((c : Thread nD τ).loc b))

theorem colSum_arr2 (c : Dev nD) : (dat2 V c).arrAt 1 cfg2.N = ColSumF (V c (Pipeline.arrRef spec2 0)) := by
  funext j
  obtain ⟨u, q, rfl⟩ : ∃ (u : Fin 1) (q : Fin 128), j = ix2 u q := ⟨j 0, j 1, eq_ix2 j⟩
  obtain rfl : u = 0 := Subsingleton.elim _ _
  exact Cert.KernelIdeal.FinR.colSum2_flat V c q

theorem colSq_arr2 (c : Dev nD) : (dat2 V c).arrAt 2 cfg2.N = ColSqF (V c (Pipeline.arrRef spec2 0)) := by
  funext j
  obtain ⟨u, q, rfl⟩ : ∃ (u : Fin 1) (q : Fin 128), j = ix2 u q := ⟨j 0, j 1, eq_ix2 j⟩
  obtain rfl : u = 0 := Subsingleton.elim _ _
  exact Cert.KernelIdeal.FinR.colSqSum2_flat V c q

theorem colSum_arr6 (c : Dev nD) : (dat6 V c).arrAt 1 cfg6.N = ColSumF (V c (Pipeline.arrRef spec6 0)) := by
  funext j
  obtain ⟨u, q, rfl⟩ : ∃ (u : Fin 1) (q : Fin 128), j = ix2 u q := ⟨j 0, j 1, eq_ix2 j⟩
  obtain rfl : u = 0 := Subsingleton.elim _ _
  exact Cert.KernelIdeal.FinR.colSum6_flat V c q

theorem colSq_arr6 (c : Dev nD) : (dat6 V c).arrAt 2 cfg6.N = ColSqF (V c (Pipeline.arrRef spec6 0)) := by
  funext j
  obtain ⟨u, q, rfl⟩ : ∃ (u : Fin 1) (q : Fin 128), j = ix2 u q := ⟨j 0, j 1, eq_ix2 j⟩
  obtain rfl : u = 0 := Subsingleton.elim _ _
  exact Cert.KernelIdeal.FinR.colSqSum6_flat V c q

end Cert.MRegions

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.MKer.lean ====
/-
  The kernel program's host-side arithmetic, read at an index, at the extended reals.

  The self-loop weights are dinv·dinv laid out as a column; a parameter vector becomes a one-row matrix; the batch
  normalisation's scale and shift rows are, lane by lane, γ·r and β − (μ·γ)·r with μ = sum/n, the variance sumsq/n − μ·μ and
  r = (variance + ε)^(-1/2): the reshapes in between move no entry.
-/
import proofs.«162488_j80401787781187_1_alg».proof.Proof.KRunDefs
import proofs.«162488_j80401787781187_1_alg».proof.Proof.LibOuterSum
import Idealize.ShloMosaic.Lib.ValueLayout
import Idealize.ShloMosaic.Lib.Pipeline.Value
import Idealize.ShloMosaic.Lib.ValueIdx
import Idealize.ShloMosaic.PureOps.Ideal.Laws

noncomputable section

namespace Cert.MKer

open Idealize.ShloMosaic Idealize.ShloMosaic.ValueIdx Cert.KernelIdeal Cert.KernelIdeal.Gen Cert.KernelIdeal.KRun

/-- The self-loop weight of node p is dinv p · dinv p. -/
theorem scaleSelf_apply (dinv : FVec Ideal S100000 .f32) (p : Fin 100000) (u : Fin 1) :
    ScaleSelf dinv (ix2 p u) = dinv (ix1 p) * dinv (ix1 p) := by
  unfold ScaleSelf
  rw [Cert.LibOuterSum.col_of_vec_apply]
  rfl

/-- A vector as a one-row matrix keeps its entries. -/
theorem row128_apply (b : FVec Ideal S128 .f32) (u : Fin 1) (q : Fin 128) : Row128 b (ix2 u q) = b (ix1 q) := by
  unfold Row128
  exact shapeCast_a_1a_apply b _ u q

/-- The scale row at lane q. -/
theorem bnScale_apply (s1 s2 : FVec Ideal S1x128 .f32) (g : FVec Ideal S128 .f32) (q : Fin 128) :
    BnScale s1 s2 g (ix2 (0 : Fin 1) q)
      = g (ix1 q) * Ideal.rsqrt (Ideal.div (s2 (ix2 (0 : Fin 1) q)) (Ideal.ofBits .f32 0x47C35000#32)
          - Ideal.div (s1 (ix2 (0 : Fin 1) q)) (Ideal.ofBits .f32 0x47C35000#32)
            * Ideal.div (s1 (ix2 (0 : Fin 1) q)) (Ideal.ofBits .f32 0x47C35000#32)
          + Ideal.ofBits .f32 0x3727C5AC#32) := by
  unfold BnScale
  rw [shapeCast_a_1a_apply, shapeCast_1a_a_apply]
  simp only [mulf, Host.rsqrt, addf, subf, Host.divf, broadcastInDim, constant, Ideal.mulf_def, Ideal.addf_def,
    Ideal.subf_def, Ideal.hostDivf_def, Ideal.hostUnary_rsqrt_def, Ideal.ofBits_def]
  rw [shapeCast_a_1a_apply]

/-- The shift row at lane q. -/
theorem bnShift_apply (s1 s2 : FVec Ideal S1x128 .f32) (g b : FVec Ideal S128 .f32) (q : Fin 128) :
    BnShift s1 s2 g b (ix2 (0 : Fin 1) q)
      = b (ix1 q) - Ideal.div (s1 (ix2 (0 : Fin 1) q)) (Ideal.ofBits .f32 0x47C35000#32) * g (ix1 q)
          * Ideal.rsqrt (Ideal.div (s2 (ix2 (0 : Fin 1) q)) (Ideal.ofBits .f32 0x47C35000#32)
          - Ideal.div (s1 (ix2 (0 : Fin 1) q)) (Ideal.ofBits .f32 0x47C35000#32)
            * Ideal.div (s1 (ix2 (0 : Fin 1) q)) (Ideal.ofBits .f32 0x47C35000#32)
          + Ideal.ofBits .f32 0x3727C5AC#32) := by
  unfold BnShift
  rw [shapeCast_a_1a_apply, shapeCast_1a_a_apply]
  simp only [mulf, Host.rsqrt, addf, subf, Host.divf, broadcastInDim, constant, Ideal.mulf_def, Ideal.addf_def,
    Ideal.subf_def, Ideal.hostDivf_def, Ideal.hostUnary_rsqrt_def, Ideal.ofBits_def]
  rw [shapeCast_a_1a_apply, shapeCast_a_1a_apply]

end Cert.MKer

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.MBcast.lean ====
/-
  Small facts about arrays, for every size: a scalar broadcast reads the scalar everywhere; a vector repeated along a new
  trailing axis reads, at (p, q), its entry p; ones scatter-added into zeros count, so each entry is a non-negative real.
-/
import proofs.«162488_j80401787781187_1_alg».proof.Proof.LibScatterGather
import proofs.«162488_j80401787781187_1_alg».proof.Proof.LibERealSum
import Idealize.ShloMosaic.Lib.Pipeline.Value
import Idealize.ShloMosaic.Lib.ValueIdx
import Idealize.ShloMosaic.PureOps.Ideal.Laws

noncomputable section

namespace Cert.MBcast

open Idealize.ShloMosaic Idealize.ShloMosaic.ValueIdx Cert.LibERealSum Cert.Lib.ScatterGather

/-- A sum of ones is the number of terms. -/
theorem sum_ones {ι : Type*} (S : Finset ι) : ∑ _e ∈ S, (1 : EReal) = ((S.card : ℝ) : EReal) := by
  have h : ∑ _e ∈ S, (1 : EReal) = ∑ _e ∈ S, ((1 : ℝ) : EReal) := Finset.sum_congr rfl fun _ _ => EReal.coe_one.symm
  rw [h, ← coe_sum]
  simp

/-- A scalar broadcast to any shape reads the scalar everywhere. -/
theorem bcast_scalar {α : Type} {s : Shape} (h : (⟨0, ![]⟩ : Shape).BroadcastsInDim s (![] : Fin 0 → Fin s.rank))
    (c : (⟨0, ![]⟩ : Shape).Idx → α) (i : s.Idx) : broadcastInDim s ![] h c i = c ix0 := by
  unfold broadcastInDim
  exact congrArg c (funext fun a => a.elim0)

/-- A vector [n] laid out as the column [n, 1] and repeated over m columns reads at (p, q) its entry p. -/
theorem col_apply {n m : Nat} {α : Type} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, m]⟩ ![0, 1]) (p : Fin n) (q : Fin m) :
    broadcastInDim ⟨2, ![n, m]⟩ ![0, 1] h2 (broadcastInDim ⟨2, ![n, 1]⟩ ![0] h1 v) (ix2 p q) = v (ix1 p) := by
  refine (broadcastInDim_apply _ h2 _ (ix2 p q) (ix2 p (0 : Fin 1)) fun a => ?_).trans
    (broadcastInDim_apply _ h1 v (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- Ones scatter-added into zeros: each entry is a natural number, in particular a non-negative real. -/
theorem count_real {N M : Nat} (wf : ScatterDims.WF ⟨1, ![N]⟩ ⟨2, ![M, 1]⟩ ⟨1, ![M]⟩ [] [0] [0] 1)
    (x : FVec Ideal ⟨1, ![N]⟩ .f32) (idx : IVec ⟨2, ![M, 1]⟩ 32) (upd : FVec Ideal ⟨1, ![M]⟩ .f32)
    (hx : ∀ i, x i = 0) (hu : ∀ e, upd e = 1) (v : Fin N) :
    ∃ r : ℝ, 0 ≤ r ∧ Host.scatterAdd (flatScatterDims N M wf) x idx upd (ix1 v) = (r : EReal) := by
  rw [scatterAdd_flat_apply, hx, zero_add, Finset.sum_congr rfl (fun e _ => hu (ix1 e)), sum_ones]
  exact ⟨_, Nat.cast_nonneg _, rfl⟩

end Cert.MBcast

end
-- ==== Proof.MRefRead.lean ====
/-
  The reference's steps read at an index, at the extended reals: the layer's product as a sum over the 128 features; the
  pre-activation as neighbour sum + self-loop term + bias; SELU as the scaled selection between x and α·(e^y − 1) at the
  guarded argument y; batch normalisation as (deviation · r) · γ + β with the mean and variance as column sums over the
  100000 rows divided by 100000 (each sum starting from the zero constant).
-/
import proofs.«162488_j80401787781187_1_alg».proof.Proof.RefRunFn
import proofs.«162488_j80401787781187_1_alg».proof.Proof.LibDotSum
import proofs.«162488_j80401787781187_1_alg».proof.Proof.MBcast
import Idealize.ShloMosaic.PureOps.Ideal.Laws
import Idealize.ShloMosaic.Lib.ValueIdx

set_option maxHeartbeats 400000

noncomputable section

namespace Cert.MRefRead

open Idealize.ShloMosaic Idealize.ShloMosaic.ValueIdx Cert.ReferenceIdeal Cert.ReferenceIdeal.Gen Cert.ReferenceIdeal.RefRun

/-- The layer's product at (p, q): the sum over the features. -/
theorem xw_apply (H : FVec Ideal S100000x128 .f32) (W : FVec Ideal S128x128 .f32) (p : Fin 100000) (q : Fin 128) :
    Xw (F := Ideal) H W (ix2 p q) = ∑ j : Fin 128, H (ix2 p j) * W (ix2 j q) := by
  unfold Xw
  simp only [Host.dotGeneral]
  rw [Ideal.dotGeneral_apply]
  exact Cert.LibDotSum.sum_dot dot_S100000x128_S128x128_S100000x128_1_0_0_1_n_n rfl rfl (fun _ _ => rfl) (fun _ _ => rfl)
    (fun _ _ => rfl) (fun _ _ => rfl) H W p q

/-- A column sum of a node array from an initial scalar. -/
theorem colsum_apply (X : FVec Ideal S100000x128 .f32) (z : FVec Ideal S_ .f32) (q : Fin 128) :
    Host.reduceAdd X z reducesTo_S100000x128_S128_d0 h_S_ (ix1 q) = z ix0 + ∑ i : Fin 100000, X (ix2 i q) := by
  unfold Host.reduceAdd
  rw [Ideal.hostReduceAdd_def]
  rw [Ideal.hostReduceAdd_single reducesTo_S100000x128_S128_d0 (by decide : S100000x128.Reduces [0] S128)]
  refine congrArg₂ (· + ·) (congrArg z (funext fun d => d.elim0)) ?_
  refine Finset.sum_congr rfl fun k _ => congrArg X ?_
  funext a
  refine Fin.ext ?_
  match a with
  | ⟨0, _⟩ => rfl
  | ⟨1, _⟩ => rfl

/-- The pre-activation at (p, q). -/
theorem pre_apply (agg xw : FVec Ideal S100000x128 .f32) (dinv : FVec Ideal S100000 .f32) (b : FVec Ideal S128 .f32)
    (p : Fin 100000) (q : Fin 128) :
    Pre (F := Ideal) agg xw dinv b (ix2 p q)
      = agg (ix2 p q) + xw (ix2 p q) * (dinv (ix1 p) * dinv (ix1 p)) + b (ix1 q) := by
  unfold Pre
  simp only [addf, mulf, Ideal.addf_def, Ideal.mulf_def]
  rw [Cert.LibDotSum.bias_apply, Cert.MBcast.col_apply]
  simp only [mulf, Ideal.mulf_def]

/-- SELU at an index. -/
theorem selu_apply (x : FVec Ideal S100000x128 .f32) (i : S100000x128.Idx) :
    Selu (F := Ideal) x i
      = Ideal.ofBits .f32 0x3F867D5F#32
        * Scalar.select (Ideal.cmp .ogt (x i) (Ideal.ofBits .f32 0x00000000#32)) (x i)
            (Ideal.ofBits .f32 0x3FD62D7D#32
              * (Ideal.exp (Scalar.select (Ideal.cmp .ogt (x i) (Ideal.ofBits .f32 0x00000000#32))
                    (Ideal.ofBits .f32 0x00000000#32) (x i)) - 1)) := by
  unfold Selu
  simp only [mulf, select, cmpf, Host.expm1, broadcastInDim, constant, id, Ideal.mulf_def, Ideal.ofBits_def,
    Ideal.hostUnary_expm1_def, Ideal.cmpf_def]

end Cert.MRefRead

end
-- ==== Proof.MLayer.lean ====
/-
  One graph-convolution layer, the kernel program's way and the reference's, from the same input arrays: the same array.

  The index vectors, the inverse square-root degrees, the neighbour aggregation and the pooling are the same operations
  in both programs. The projection is the same sum over the features. The activation is SELU of the same pre-activation:
  the kernel's column of self-loop weights holds dinv·dinv and its bias row holds b, and the two SELU spellings agree.
-/
import proofs.«162488_j80401787781187_1_alg».proof.Proof.KRunDefs
import proofs.«162488_j80401787781187_1_alg».proof.Proof.RefRunOutFn
import proofs.«162488_j80401787781187_1_alg».proof.Proof.MKer
import proofs.«162488_j80401787781187_1_alg».proof.Proof.MKFn
import proofs.«162488_j80401787781187_1_alg».proof.Proof.MRefRead

set_option maxHeartbeats 400000

noncomputable section

namespace Cert.MLayer

open Idealize.ShloMosaic Idealize.ShloMosaic.ValueIdx Cert.MKFn

/-- The index vectors are read off the edge list by the same operations. -/
theorem src_eq (e : IVec Cert.KernelIdeal.S2x1600000 32) : Cert.KernelIdeal.KRun.Src e = Cert.ReferenceIdeal.RefRun.Src (F := Ideal) e := rfl
theorem dst_eq (e : IVec Cert.KernelIdeal.S2x1600000 32) : Cert.KernelIdeal.KRun.Dst e = Cert.ReferenceIdeal.RefRun.Dst (F := Ideal) e := rfl

/-- The inverse square-root degrees are computed by the same operations. -/
theorem dinv_eq (dst : IVec Cert.KernelIdeal.S1600000 32) :
    Cert.KernelIdeal.KRun.Dinv (F := Ideal) dst = Cert.ReferenceIdeal.RefRun.Dinv (F := Ideal) dst := rfl

/-- The neighbour aggregation is the same operations. -/
theorem agg_eq (xw : FVec Ideal Cert.KernelIdeal.S100000x128 .f32) (dinv : FVec Ideal Cert.KernelIdeal.S100000 .f32)
    (src dst : IVec Cert.KernelIdeal.S1600000 32) :
    Cert.KernelIdeal.KRun.Agg (F := Ideal) xw dinv src dst = Cert.ReferenceIdeal.RefRun.Agg (F := Ideal) xw dinv src dst := rfl

/-- The pooling is the same operations. -/
theorem pool_eq (h : FVec Ideal Cert.KernelIdeal.S100000x128 .f32) (batch : IVec Cert.KernelIdeal.S100000 32) :
    Cert.KernelIdeal.KRun.Pool (F := Ideal) h batch = Cert.ReferenceIdeal.RefRun.Pool (F := Ideal) h batch := rfl

/-- The projection region's array is the reference's product. -/
theorem xw_eq (H : FVec Ideal Cert.KernelIdeal.S100000x128 .f32) (W : FVec Ideal Cert.KernelIdeal.S128x128 .f32) :
    MatF H W = Cert.ReferenceIdeal.RefRun.Xw (F := Ideal) H W := by
  funext i
  obtain ⟨p, q, rfl⟩ : ∃ (p : Fin 100000) (q : Fin 128), i = ix2 p q := ⟨i 0, i 1, eq_ix2 i⟩
  rw [MatF_apply]
  exact (Cert.MRefRead.xw_apply H W p q).symm

/-- The combine region's array is the reference's SELU of its pre-activation. -/
theorem act_eq (xw : FVec Ideal Cert.KernelIdeal.S100000x128 .f32) (dinv : FVec Ideal Cert.KernelIdeal.S100000 .f32)
    (src dst : IVec Cert.KernelIdeal.S1600000 32) (b : FVec Ideal Cert.KernelIdeal.S128 .f32) :
    ActF (Cert.KernelIdeal.KRun.Agg (F := Ideal) xw dinv src dst) xw (Cert.KernelIdeal.KRun.ScaleSelf dinv) (Cert.KernelIdeal.KRun.Row128 b)
      = Cert.ReferenceIdeal.RefRun.Selu (F := Ideal)
          (Cert.ReferenceIdeal.RefRun.Pre (Cert.ReferenceIdeal.RefRun.Agg (F := Ideal) xw dinv src dst) xw dinv b) := by
  funext i
  obtain ⟨p, q, rfl⟩ : ∃ (p : Fin 100000) (q : Fin 128), i = ix2 p q := ⟨i 0, i 1, eq_ix2 i⟩
  rw [ActF_apply, Cert.MRefRead.selu_apply, Cert.MRefRead.pre_apply, Cert.MKer.scaleSelf_apply,
    Cert.MKer.row128_apply, seluK_eq_seluR, agg_eq]
  rfl

end Cert.MLayer

end
-- ==== Proof.MRefBn.lean ====
/-
  Batch normalisation of a node array read at one entry, at the extended reals. Column q of the array has mean
  (Σ_j a(j, q)) / n with n = 100000 the number of rows; its variance is the mean of the squared deviations from that mean,
  (Σ_j (a(j, q) − mean)²) / n. The entry (p, q) of the result is (a(p, q) − mean) · (variance + ε)^(−1/2) · g(q) + be(q).
  Each column sum starts from the zero constant, whose word denotes 0; the divisor n and the guard ε stay as the words
  the program spells.
-/
import proofs.«162488_j80401787781187_1_alg».proof.Proof.RefRunFn
import proofs.«162488_j80401787781187_1_alg».proof.Proof.LibDotSum
import proofs.«162488_j80401787781187_1_alg».proof.Proof.MBcast
import proofs.«162488_j80401787781187_1_alg».proof.Proof.MConsts
import Idealize.ShloMosaic.PureOps.Ideal.Laws
import Idealize.ShloMosaic.Lib.ValueIdx

set_option maxHeartbeats 1000000

noncomputable section

namespace Cert.MRefBn

open Idealize.ShloMosaic Idealize.ShloMosaic.ValueIdx Cert.ReferenceIdeal Cert.ReferenceIdeal.Gen Cert.ReferenceIdeal.RefRun

/-- A column sum of a node array from an initial scalar: the scalar plus the sum of the column's entries. -/
theorem colsum (X : FVec Ideal S100000x128 .f32) (z : FVec Ideal S_ .f32) (q : Fin 128) :
    Host.reduceAdd X z reducesTo_S100000x128_S128_d0 h_S_ (ix1 q) = z ix0 + ∑ i : Fin 100000, X (ix2 i q) := by
  unfold Host.reduceAdd
  rw [Ideal.hostReduceAdd_def]
  rw [Ideal.hostReduceAdd_single reducesTo_S100000x128_S128_d0 (by decide : S100000x128.Reduces [0] S128)]
  refine congrArg₂ (· + ·) (congrArg z (funext fun d => d.elim0)) ?_
  refine Finset.sum_congr rfl fun k _ => congrArg X ?_
  funext a
  refine Fin.ext ?_
  match a with
  | ⟨0, _⟩ => rfl
  | ⟨1, _⟩ => rfl

/-- A vector of column values laid out as one row and repeated over the rows reads, at (p, q), its entry q. -/
theorem row_bcast (v : FVec Ideal S128 .f32) (p : Fin 100000) (q : Fin 128) :
    (broadcastInDim S100000x128 ![0, 1] bcast_S1x128_S100000x128_0_1 (broadcastInDim S1x128 ![1] bcast_S128_S1x128_1 v)) (ix2 p q) = v (ix1 q) :=
  Cert.LibDotSum.bias_apply v _ _ p q

/-- A scalar repeated over the columns reads the scalar. -/
theorem scalar_bcast (c : FVec Ideal S_ .f32) (i : S128.Idx) : broadcastInDim S128 ![] bcast_S_S128 c i = c ix0 :=
  Cert.MBcast.bcast_scalar _ c i

/-- The zero constant read anywhere is 0. -/
theorem zero_const (i : S_.Idx) : constant (F := Ideal) S_ .f32 0x00000000#32 i = 0 := Cert.MConsts.ofBits_zero

/-- The column means: the column sums from zero, over the row count. -/
def meanV (a : FVec Ideal S100000x128 .f32) : FVec Ideal S128 .f32 :=
  Host.divf (Host.reduceAdd a (constant (F := Ideal) S_ .f32 0x00000000#32) reducesTo_S100000x128_S128_d0 h_S_)
    (broadcastInDim S128 ![] bcast_S_S128 (constant (F := Ideal) S_ .f32 0x47C35000#32))

theorem meanV_apply (a : FVec Ideal S100000x128 .f32) (q : Fin 128) :
    meanV a (ix1 q) = Ideal.div (∑ j : Fin 100000, a (ix2 j q)) (Ideal.ofBits .f32 0x47C35000#32) := by
  show Ideal.div (Host.reduceAdd a (constant (F := Ideal) S_ .f32 0x00000000#32) reducesTo_S100000x128_S128_d0 h_S_ (ix1 q))
    (broadcastInDim S128 ![] bcast_S_S128 (constant (F := Ideal) S_ .f32 0x47C35000#32) (ix1 q)) = _
  rw [colsum, scalar_bcast, zero_const, zero_add]
  rfl

/-- The deviations from the column means. -/
def devV (a : FVec Ideal S100000x128 .f32) : FVec Ideal S100000x128 .f32 := subf a (broadcastInDim S100000x128 ![0, 1] bcast_S1x128_S100000x128_0_1 (broadcastInDim S1x128 ![1] bcast_S128_S1x128_1 (meanV a)))

theorem devV_apply (a : FVec Ideal S100000x128 .f32) (p : Fin 100000) (q : Fin 128) :
    devV a (ix2 p q) = a (ix2 p q) - Ideal.div (∑ j : Fin 100000, a (ix2 j q)) (Ideal.ofBits .f32 0x47C35000#32) := by
  show a (ix2 p q) - (broadcastInDim S100000x128 ![0, 1] bcast_S1x128_S100000x128_0_1 (broadcastInDim S1x128 ![1] bcast_S128_S1x128_1 (meanV a))) (ix2 p q) = _
  rw [row_bcast, meanV_apply]

/-- The inverse square roots of the column variances plus the guard. -/
def rstdV (a : FVec Ideal S100000x128 .f32) : FVec Ideal S128 .f32 :=
  Host.rsqrt (addf
    (Host.divf (Host.reduceAdd (mulf (devV a) (devV a)) (constant (F := Ideal) S_ .f32 0x00000000#32) reducesTo_S100000x128_S128_d0 h_S_)
      (broadcastInDim S128 ![] bcast_S_S128 (constant (F := Ideal) S_ .f32 0x47C35000#32)))
    (broadcastInDim S128 ![] bcast_S_S128 (constant (F := Ideal) S_ .f32 0x3727C5AC#32)))

theorem rstdV_apply (a : FVec Ideal S100000x128 .f32) (q : Fin 128) :
    rstdV a (ix1 q)
      = Ideal.rsqrt (Ideal.div (∑ j : Fin 100000, (a (ix2 j q) - Ideal.div (∑ k : Fin 100000, a (ix2 k q)) (Ideal.ofBits .f32 0x47C35000#32)) * (a (ix2 j q) - Ideal.div (∑ k : Fin 100000, a (ix2 k q)) (Ideal.ofBits .f32 0x47C35000#32))) (Ideal.ofBits .f32 0x47C35000#32) + Ideal.ofBits .f32 0x3727C5AC#32) := by
  show Ideal.rsqrt (Ideal.div
      (Host.reduceAdd (mulf (devV a) (devV a)) (constant (F := Ideal) S_ .f32 0x00000000#32) reducesTo_S100000x128_S128_d0 h_S_ (ix1 q))
      (broadcastInDim S128 ![] bcast_S_S128 (constant (F := Ideal) S_ .f32 0x47C35000#32) (ix1 q))
    + broadcastInDim S128 ![] bcast_S_S128 (constant (F := Ideal) S_ .f32 0x3727C5AC#32) (ix1 q)) = _
  rw [colsum, scalar_bcast, scalar_bcast, zero_const, zero_add]
  refine congrArg (fun s => Ideal.rsqrt (Ideal.div s (Ideal.ofBits .f32 0x47C35000#32) + Ideal.ofBits .f32 0x3727C5AC#32)) (Finset.sum_congr rfl fun j _ => ?_)
  show devV a (ix2 j q) * devV a (ix2 j q) = _
  rw [devV_apply]

/-- The normalisation is the deviations times the repeated inverse deviations times the repeated scale plus the repeated shift. -/
theorem BN_eq (a : FVec Ideal S100000x128 .f32) (g be : FVec Ideal S128 .f32) :
    BN (F := Ideal) a g be = addf (mulf (mulf (devV a) (broadcastInDim S100000x128 ![0, 1] bcast_S1x128_S100000x128_0_1 (broadcastInDim S1x128 ![1] bcast_S128_S1x128_1 (rstdV a)))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be)) := rfl

/-- Batch normalisation at the entry (p, q): the deviation from the column's mean, times the inverse square root of the
    column's variance plus the guard, times the scale, plus the shift. -/
theorem bn_apply (a : FVec Ideal S100000x128 .f32) (g be : FVec Ideal S128 .f32) (p : Fin 100000) (q : Fin 128) :
    BN (F := Ideal) a g be (ix2 p q)
      = (a (ix2 p q) - Ideal.div (∑ j : Fin 100000, a (ix2 j q)) (Ideal.ofBits .f32 0x47C35000#32))
          * Ideal.rsqrt (Ideal.div (∑ j : Fin 100000, (a (ix2 j q) - Ideal.div (∑ k : Fin 100000, a (ix2 k q)) (Ideal.ofBits .f32 0x47C35000#32))
                * (a (ix2 j q) - Ideal.div (∑ k : Fin 100000, a (ix2 k q)) (Ideal.ofBits .f32 0x47C35000#32))) (Ideal.ofBits .f32 0x47C35000#32)
              + Ideal.ofBits .f32 0x3727C5AC#32) * g (ix1 q) + be (ix1 q) := by
  rw [BN_eq]
  show devV a (ix2 p q) * (broadcastInDim S100000x128 ![0, 1] bcast_S1x128_S100000x128_0_1 (broadcastInDim S1x128 ![1] bcast_S128_S1x128_1 (rstdV a))) (ix2 p q) * (broadcastInDim S100000x128 ![0, 1] bcast_S1x128_S100000x128_0_1 (broadcastInDim S1x128 ![1] bcast_S128_S1x128_1 g)) (ix2 p q) + (broadcastInDim S100000x128 ![0, 1] bcast_S1x128_S100000x128_0_1 (broadcastInDim S1x128 ![1] bcast_S128_S1x128_1 be)) (ix2 p q) = _
  rw [row_bcast, row_bcast, row_bcast, devV_apply, rstdV_apply]

end Cert.MRefBn

end
-- ==== Proof.MRealAgg.lean ====
import proofs.«162488_j80401787781187_1_alg».proof.Proof.KRunDefs
import proofs.«162488_j80401787781187_1_alg».proof.Proof.LibERealSum
import proofs.«162488_j80401787781187_1_alg».proof.Proof.MConsts
import Idealize.ShloMosaic.Lib.ValueIdx

/-!
  The neighbourhood aggregation and the per-graph pooling keep real numbers real. Each output entry of either is a
  finite sum: the zero the accumulation starts from, plus the messages landing on that entry. A message of the
  aggregation is an entry of the projected features times two inverse-square-root degrees, each read through a
  gather; a message of the pooling is an entry of the node features. Gathers and broadcasts only re-read entries of
  their operand, so they hand realness through; products and finite sums of real numbers are real. No index of a
  gather or of the scatter is computed here: which entry is read never matters, only that it is an entry.
-/

set_option maxHeartbeats 200000

noncomputable section

open scoped BigOperators

namespace Cert.MRealAgg

open Idealize.ShloMosaic Idealize.ShloMosaic.ValueIdx
open Cert.KernelIdeal Cert.KernelIdeal.KRun
open Cert.LibERealSum

variable {φ : FTy}

/-- A gather reads entries of its operand. -/
theorem isReal_gather {s si t : Shape} {w : Nat} (d : GatherDims s si t) (x : FVec Ideal s φ) (idx : IVec si w)
    (hx : ∀ i, IsReal (x i)) (j : t.Idx) : IsReal (Host.gather d x idx j) := hx _

/-- A broadcast reads entries of its operand. -/
theorem isReal_bcast {s t : Shape} (dims : Fin s.rank → Fin t.rank) (h : s.BroadcastsInDim t dims) (x : FVec Ideal s φ)
    (hx : ∀ i, IsReal (x i)) (j : t.Idx) : IsReal (broadcastInDim t dims h x j) := hx _

/-- An entrywise product of real-valued arrays is real-valued. -/
theorem isReal_mulf {s : Shape} (a b : FVec Ideal s φ) (ha : ∀ i, IsReal (a i)) (hb : ∀ i, IsReal (b i)) (i : s.Idx) :
    IsReal (mulf a b i) := (ha i).mul (hb i)

/-- The zero constant is real-valued. -/
theorem isReal_zero {s : Shape} (i : s.Idx) : IsReal (constant (F := Ideal) s .f32 0x00000000#32 i) :=
  ⟨0, Cert.MConsts.ofBits_zero⟩

/-- An accumulating scatter of real-valued updates into a real-valued operand is real-valued: each entry is the
    operand's plus the finite sum of the updates landing on it. -/
theorem isReal_scatterAdd {s si u : Shape} {w : Nat} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) :=
  (hx i).add (IsReal.sum _ _ fun j _ => hu j)

/-- The aggregation of real-valued features under real-valued inverse-square-root degrees is real-valued. -/
theorem isReal_agg (xw : FVec Ideal S100000x128 .f32) (dinv : FVec Ideal S100000 .f32) (src dst : IVec S1600000 32)
    (hxw : ∀ i, IsReal (xw i)) (hd : ∀ i, IsReal (dinv i)) (p : Fin 100000) (q : Fin 128) :
    IsReal (Agg (F := Ideal) xw dinv src dst (ix2 p q)) := by
  unfold Agg
  refine isReal_scatterAdd _ _ _ _ (isReal_bcast _ _ _ isReal_zero) ?_ _
  refine isReal_mulf _ _ (isReal_gather _ _ _ hxw) ?_
  refine isReal_bcast _ _ _ ?_
  refine isReal_bcast _ _ _ ?_
  exact isReal_mulf _ _ (isReal_gather _ _ _ hd) (isReal_gather _ _ _ hd)

/-- The pooling of real-valued node features is real-valued. -/
theorem isReal_pool (h : FVec Ideal S100000x128 .f32) (batch : IVec S100000 32) (hh : ∀ i, IsReal (h i))
    (g : Fin 2048) (q : Fin 128) : IsReal (Pool (F := Ideal) h batch (ix2 g q)) := by
  unfold Pool
  exact isReal_scatterAdd _ _ _ _ (isReal_bcast _ _ _ isReal_zero) hh _

end Cert.MRealAgg

end
-- ==== Proof.MBn.lean ====
/-
  Batch normalisation of one column, two ways, over the real numbers and then over the extended reals for a column of
  real entries.

  A column a of n entries has mean μ = (Σ a)/n. Its variance is the mean of the squared deviations, (Σ (a − μ)²)/n; expanding
  the square, that is (Σ a²)/n − μ² — the second form needs the number of entries to BE n. With r = (variance + ε)^(-1/2),
  normalising as ((a − μ)·r)·γ + β and as a·(γ·r) + (β − (μ·γ)·r) is one polynomial identity. Over the extended reals both
  hold once every entry is a real number, the guard ε is positive and n is positive: then every quantity is a real number
  and the inverse square root is taken of a positive real.
-/
import Idealize.ShloMosaic.PureOps.Ideal
import proofs.«162488_j80401787781187_1_alg».proof.Proof.LibERealSum

noncomputable section

namespace Cert.MBn

open Idealize.ShloMosaic Finset Cert.LibERealSum

/-- Over the reals: the mean squared deviation is the mean square minus the squared mean. -/
theorem var_real {ι : Type*} [Fintype ι] (f : ι → ℝ) (n : ℝ) (hcard : (Fintype.card ι : ℝ) = n) (hn : n ≠ 0) :
    (∑ i, (f i - (∑ j, f j) * (1 / n)) * (f i - (∑ j, f j) * (1 / n))) * (1 / n)
      = (∑ i, f i * f i) * (1 / n) - (∑ j, f j) * (1 / n) * ((∑ j, f j) * (1 / n)) := by
  have h : ∀ i, (f i - (∑ j, f j) * (1 / n)) * (f i - (∑ j, f j) * (1 / n))
      = f i * f i - 2 * ((∑ j, f j) * (1 / n)) * f i + (∑ j, f j) * (1 / n) * ((∑ j, f j) * (1 / n)) := fun i => by ring
  simp only [h, Finset.sum_add_distrib, Finset.sum_sub_distrib, ← Finset.mul_sum, Finset.sum_const, Finset.card_univ,
    nsmul_eq_mul, hcard]
  field_simp
  ring

/-- Over the reals the mean squared deviation is not negative (for a positive count). -/
theorem var_real_nonneg {ι : Type*} [Fintype ι] (g : ι → ℝ) (n : ℝ) (hn : 0 < n) :
    0 ≤ (∑ i, g i * g i) * (1 / n) :=
  mul_nonneg (Finset.sum_nonneg fun i _ => mul_self_nonneg (g i)) (by positivity)

/-- The inverse square root of a positive real, at the extended reals, is the real inverse square root. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-- Division by a nonzero real, of a real. -/
theorem div_real (x : ℝ) {y : ℝ} (hy : y ≠ 0) : Ideal.div (x : EReal) (y : EReal) = ((x * (1 / y) : ℝ) : EReal) := by
  rw [Ideal.div_coe hy, ← EReal.coe_mul]

/-- The two normalisations of a column of real entries agree at the extended reals, and the result is a real number.
    Left: scale γ·r and shift β − (μ·γ)·r from the sum and the sum of squares, the variance as mean square minus squared
    mean. Right: the deviations from the mean, their mean square as the variance, then (deviation·r)·γ + β. -/
theorem bn_agree {ι : Type*} [Fintype ι] (a : ι → EReal) (ha : ∀ i, IsReal (a i)) {γ β : EReal} (hγ : IsReal γ) (hβ : IsReal β)
    (n ε : ℝ) (hcard : (Fintype.card ι : ℝ) = n) (hn : 0 < n) (hε : 0 < ε) (i : ι) :
    a i * (γ * Ideal.rsqrt (Ideal.div (∑ j, a j * a j) (n : EReal)
              - Ideal.div (∑ j, a j) (n : EReal) * Ideal.div (∑ j, a j) (n : EReal) + (ε : EReal)))
        + (β - Ideal.div (∑ j, a j) (n : EReal) * γ * Ideal.rsqrt (Ideal.div (∑ j, a j * a j) (n : EReal)
              - Ideal.div (∑ j, a j) (n : EReal) * Ideal.div (∑ j, a j) (n : EReal) + (ε : EReal)))
      = (a i - Ideal.div (∑ j, a j) (n : EReal))
          * Ideal.rsqrt (Ideal.div (∑ j, (a j - Ideal.div (∑ k, a k) (n : EReal)) * (a j - Ideal.div (∑ k, a k) (n : EReal))) (n : EReal)
              + (ε : EReal)) * γ + β
    ∧ IsReal ((a i - Ideal.div (∑ j, a j) (n : EReal))
          * Ideal.rsqrt (Ideal.div (∑ j, (a j - Ideal.div (∑ k, a k) (n : EReal)) * (a j - Ideal.div (∑ k, a k) (n : EReal))) (n : EReal)
              + (ε : EReal)) * γ + β) := by
  obtain ⟨f, hf⟩ : ∃ f : ι → ℝ, ∀ j, a j = (f j : EReal) := ⟨fun j => (ha j).choose, fun j => (ha j).choose_spec⟩
  obtain ⟨g, rfl⟩ := hγ
  obtain ⟨b, rfl⟩ := hβ
  have hn0 : n ≠ 0 := hn.ne'
  have hS1 : (∑ j, a j) = ((∑ j, f j : ℝ) : EReal) := by
    rw [coe_sum]; exact Finset.sum_congr rfl fun j _ => hf j
  have hS2 : (∑ j, a j * a j) = ((∑ j, f j * f j : ℝ) : EReal) := by
    rw [coe_sum]; exact Finset.sum_congr rfl fun j _ => by rw [hf j, ← EReal.coe_mul]
  have hm : Ideal.div (∑ j, a j) (n : EReal) = (((∑ j, f j) * (1 / n) : ℝ) : EReal) := by rw [hS1, div_real _ hn0]
  have hD : (∑ j, (a j - (((∑ k, f k) * (1 / n) : ℝ) : EReal)) * (a j - (((∑ k, f k) * (1 / n) : ℝ) : EReal)))
      = ((∑ j, (f j - (∑ k, f k) * (1 / n)) * (f j - (∑ k, f k) * (1 / n)) : ℝ) : EReal) := by
    rw [coe_sum]; exact Finset.sum_congr rfl fun j _ => by rw [hf j, ← EReal.coe_sub, ← EReal.coe_mul]
  have hv := var_real f n hcard hn0
  have hpos : 0 < (∑ j, (f j - (∑ k, f k) * (1 / n)) * (f j - (∑ k, f k) * (1 / n))) * (1 / n) + ε :=
    add_pos_of_nonneg_of_pos (var_real_nonneg _ n hn) hε
  have hposK : 0 < (∑ j, f j * f j) * (1 / n) - (∑ j, f j) * (1 / n) * ((∑ j, f j) * (1 / n)) + ε := by rw [← hv]; exact hpos
  rw [hm, hD, hS2, div_real _ hn0, div_real _ hn0, hf i]
  simp only [← EReal.coe_mul, ← EReal.coe_sub, ← EReal.coe_add]
  rw [rsqrt_pos hpos, rsqrt_pos hposK]
  simp only [← EReal.coe_mul, ← EReal.coe_sub, ← EReal.coe_add]
  refine ⟨?_, ⟨_, rfl⟩⟩
  rw [hv]
  congr 1
  ring

end Cert.MBn

end
-- ==== Proof.MRealRef.lean ====
import proofs.«162488_j80401787781187_1_alg».proof.Proof.RefRunOutFn
import proofs.«162488_j80401787781187_1_alg».proof.Proof.MRealAgg
import proofs.«162488_j80401787781187_1_alg».proof.Proof.MBcast
import proofs.«162488_j80401787781187_1_alg».proof.Proof.MBn
import proofs.«162488_j80401787781187_1_alg».proof.Proof.MSelu
import Idealize.ShloMosaic.PureOps.Ideal.Laws

/-!
  One graph-convolution layer of the reference keeps real numbers real. The inverse square root of a degree is real
  because the degree is a count (a finite sum of ones) plus one, hence a positive real. A feature product is a finite
  sum of products of reals. The aggregation, the self-loop term and the bias add up finitely many products of reals.
  The activation picks, by one comparison, between a real and a real multiple of (the exponential of a real, minus
  one), then scales the choice by a real constant. Batch normalisation divides finite sums of reals by the positive
  number of rows, and takes the inverse square root of a mean of squares plus a positive guard — a positive real.
  As before no index is computed: gathers, broadcasts and the scatter only re-read or add up entries.
-/

set_option maxHeartbeats 200000

noncomputable section

open scoped BigOperators

namespace Cert.MRealRef

open Idealize.ShloMosaic Idealize.ShloMosaic.ValueIdx
open Cert.ReferenceIdeal Cert.ReferenceIdeal.Gen Cert.ReferenceIdeal.RefRun
open Cert.LibERealSum Cert.MRealAgg

variable {φ : FTy}

/-! ## Realness through the remaining operations -/

theorem isReal_addf {s : Shape} (a b : FVec Ideal s φ) (ha : ∀ i, IsReal (a i)) (hb : ∀ i, IsReal (b i)) (i : s.Idx) :
    IsReal (addf a b i) := (ha i).add (hb i)

theorem isReal_subf {s : Shape} (a b : FVec Ideal s φ) (ha : ∀ i, IsReal (a i)) (hb : ∀ i, IsReal (b i)) (i : s.Idx) :
    IsReal (subf a b i) := (ha i).sub (hb i)

/-- A selection between two real-valued arrays is real-valued, whatever the bits. -/
theorem isReal_select {s : Shape} (c : IVec s 1) (a b : FVec Ideal s φ) (ha : ∀ i, IsReal (a i)) (hb : ∀ i, IsReal (b i))
    (i : s.Idx) : IsReal (select c a b i) := Cert.MSelu.isReal_select (c i) (ha i) (hb i)

/-- The exponential minus one of a real is real. -/
theorem isReal_expm1 {s : Shape} (x : FVec Ideal s φ) (hx : ∀ i, IsReal (x i)) (i : s.Idx) : IsReal (Host.expm1 x i) :=
  (Cert.MSelu.isReal_exp (hx i)).sub ⟨1, EReal.coe_one.symm⟩

/-- A constant whose word denotes a real is real-valued. -/
theorem isReal_const {s : Shape} (w : BitVec 32) (hw : IsReal (Ideal.ofBits .f32 w)) (i : s.Idx) :
    IsReal (constant (F := Ideal) s .f32 w i) := hw

/-- A contraction of real-valued arrays is real-valued: each entry is a finite sum of products of entries. -/
theorem isReal_dot {sl sr so : Shape} {φ₁ φ₂ : FTy} (d : DotDims sl sr so) (prec : Option ContractPrecision)
    (l : FVec Ideal sl φ₁) (r : FVec Ideal sr φ₂) (hl : ∀ i, IsReal (l i)) (hr : ∀ i, IsReal (r i)) (j : so.Idx) :
    IsReal (Host.dotGeneral d prec l r j) := by
  show IsReal (FloatOps.dotGeneral d prec .single l r j)
  rw [Ideal.dotGeneral_apply]
  exact IsReal.sum _ _ fun k _ => (hl _).mul (hr _)

/-- Ones scatter-added into zeros count: each entry is a natural number, in particular a non-negative real. -/
theorem count_nonneg {s si u : Shape} {w : Nat} (d : ScatterDims s si u) (x : FVec Ideal s φ) (idx : IVec si w)
    (upd : FVec Ideal u φ) (hx : ∀ i, x i = 0) (hu : ∀ e, upd e = 1) (i : s.Idx) :
    ∃ r : ℝ, 0 ≤ r ∧ Host.scatterAdd d x idx upd i = (r : EReal) := by
  show ∃ r : ℝ, 0 ≤ r ∧ x i + ∑ j ∈ Finset.univ.filter _, upd j = (r : EReal)
  rw [hx, zero_add, Finset.sum_congr rfl (fun e _ => hu e), Cert.MBcast.sum_ones]
  exact ⟨_, Nat.cast_nonneg _, rfl⟩

/-- A non-negative real plus one is a positive real. -/
theorem pos_add_one {s : Shape} (a b : FVec Ideal s φ) (i : s.Idx) (ha : ∃ r : ℝ, 0 ≤ r ∧ a i = (r : EReal)) (hb : b i = 1) :
    ∃ r : ℝ, 0 < r ∧ addf a b i = (r : EReal) := by
  obtain ⟨r, hr, e⟩ := ha
  refine ⟨r + 1, by linarith, ?_⟩
  show a i + b i = _
  rw [e, hb, EReal.coe_add, EReal.coe_one]

/-- The inverse square root of a positive real is real. -/
theorem isReal_rsqrt_of_pos {s : Shape} (x : FVec Ideal s φ) (i : s.Idx) (hx : ∃ r : ℝ, 0 < r ∧ x i = (r : EReal)) :
    IsReal (Host.rsqrt x i) := by
  obtain ⟨r, hr, e⟩ := hx
  show IsReal (Ideal.rsqrt (x i))
  rw [e, Cert.MBn.rsqrt_pos hr]
  exact ⟨_, rfl⟩

/-! ## The layer -/

/-- The inverse square roots of the degrees are real. -/
theorem isReal_dinv (dst : IVec S1600000 32) (i : S100000.Idx) : IsReal (Dinv (F := Ideal) dst i) := by
  unfold Dinv
  refine isReal_rsqrt_of_pos _ i (pos_add_one _ _ i (count_nonneg _ _ _ _ (fun j => ?_) (fun e => ?_) i) ?_)
  · exact Cert.MConsts.ofBits_zero
  · exact Cert.MConsts.ofBits_one
  · exact Cert.MConsts.ofBits_one

/-- The feature product of real-valued arrays is real-valued. -/
theorem isReal_xw (h : FVec Ideal S100000x128 .f32) (W : FVec Ideal S128x128 .f32) (hh : ∀ i, IsReal (h i))
    (hW : ∀ i, IsReal (W i)) (i : S100000x128.Idx) : IsReal (Xw (F := Ideal) h W i) := by
  unfold Xw
  exact isReal_dot _ _ _ _ hh hW i

/-- The neighbour sum of real-valued rows under real-valued weights is real-valued. -/
theorem isReal_refAgg (xw : FVec Ideal S100000x128 .f32) (dinv : FVec Ideal S100000 .f32) (src dst : IVec S1600000 32)
    (hxw : ∀ i, IsReal (xw i)) (hd : ∀ i, IsReal (dinv i)) (i : S100000x128.Idx) :
    IsReal (RefRun.Agg (F := Ideal) xw dinv src dst i) := by
  unfold RefRun.Agg
  refine isReal_scatterAdd (φ := .f32) _ _ _ _ (isReal_bcast (φ := .f32) _ _ _ isReal_zero) ?_ i
  refine isReal_mulf (φ := .f32) _ _ (isReal_gather (φ := .f32) _ _ _ hxw) ?_
  refine isReal_bcast (φ := .f32) _ _ _ ?_
  refine isReal_bcast (φ := .f32) _ _ _ ?_
  exact isReal_mulf (φ := .f32) _ _ (isReal_gather (φ := .f32) _ _ _ hd) (isReal_gather (φ := .f32) _ _ _ hd)

/-- The layer before its activation: neighbour sum, self-loop term and bias, all real. -/
theorem isReal_pre (agg xw : FVec Ideal S100000x128 .f32) (dinv : FVec Ideal S100000 .f32) (b : FVec Ideal S128 .f32)
    (hagg : ∀ i, IsReal (agg i)) (hxw : ∀ i, IsReal (xw i)) (hd : ∀ i, IsReal (dinv i)) (hb : ∀ i, IsReal (b i))
    (i : S100000x128.Idx) : IsReal (Pre (F := Ideal) agg xw dinv b i) := by
  unfold Pre
  refine isReal_addf (φ := .f32) _ _ (isReal_addf (φ := .f32) _ _ hagg ?_) (isReal_bcast (φ := .f32) _ _ _ (isReal_bcast (φ := .f32) _ _ _ hb)) i
  refine isReal_mulf (φ := .f32) _ _ hxw ?_
  exact isReal_bcast (φ := .f32) _ _ _ (isReal_bcast (φ := .f32) _ _ _ (isReal_mulf (φ := .f32) _ _ hd hd))

/-- The activation of a real-valued array is real-valued. -/
theorem isReal_selu (x : FVec Ideal S100000x128 .f32) (hx : ∀ i, IsReal (x i)) (i : S100000x128.Idx) :
    IsReal (Selu (F := Ideal) x i) := by
  unfold Selu
  refine isReal_mulf (φ := .f32) _ _ (isReal_bcast (φ := .f32) _ _ _ (isReal_const _ Cert.MConsts.ofBits_scale)) ?_ i
  refine isReal_select (φ := .f32) _ _ _ hx ?_
  refine isReal_mulf (φ := .f32) _ _ (isReal_bcast (φ := .f32) _ _ _ (isReal_const _ Cert.MConsts.ofBits_alpha)) ?_
  refine isReal_expm1 (φ := .f32) _ ?_
  exact isReal_select (φ := .f32) _ _ _ (isReal_bcast (φ := .f32) _ _ _ isReal_zero) hx

/-- One layer before its activation, from real-valued features, weights, bias and inverse-square-root degrees. -/
theorem isReal_conv (h : FVec Ideal S100000x128 .f32) (W : FVec Ideal S128x128 .f32) (b : FVec Ideal S128 .f32)
    (dinv : FVec Ideal S100000 .f32) (src dst : IVec S1600000 32) (hh : ∀ i, IsReal (h i)) (hW : ∀ i, IsReal (W i))
    (hb : ∀ i, IsReal (b i)) (hd : ∀ i, IsReal (dinv i)) (i : S100000x128.Idx) :
    IsReal (Conv (F := Ideal) h W b dinv src dst i) := by
  unfold Conv
  exact isReal_pre _ _ _ _ (isReal_refAgg _ _ _ _ (isReal_xw h W hh hW) hd) (isReal_xw h W hh hW) hd hb i

/-- One activated layer from real-valued inputs is real-valued. -/
theorem isReal_act (h : FVec Ideal S100000x128 .f32) (W : FVec Ideal S128x128 .f32) (b : FVec Ideal S128 .f32)
    (dinv : FVec Ideal S100000 .f32) (src dst : IVec S1600000 32) (hh : ∀ i, IsReal (h i)) (hW : ∀ i, IsReal (W i))
    (hb : ∀ i, IsReal (b i)) (hd : ∀ i, IsReal (dinv i)) (i : S100000x128.Idx) :
    IsReal (Selu (F := Ideal) (Conv h W b dinv src dst) i) :=
  isReal_selu _ (isReal_conv h W b dinv src dst hh hW hb hd) i

/-! ## Batch normalisation -/

/-- A non-negative real number among the extended reals. -/
abbrev IsNonneg (a : EReal) : Prop := ∃ r : ℝ, 0 ≤ r ∧ a = (r : EReal)

theorem IsNonneg.isReal {a : EReal} (h : IsNonneg a) : IsReal a := let ⟨r, _, e⟩ := h; ⟨r, e⟩

/-- The square of a real is a non-negative real. -/
theorem IsNonneg.sq {a : EReal} (h : IsReal a) : IsNonneg (a * a) := by
  obtain ⟨r, rfl⟩ := h
  exact ⟨r * r, mul_self_nonneg r, (EReal.coe_mul r r).symm⟩

theorem IsNonneg.add {a b : EReal} (ha : IsNonneg a) (hb : IsNonneg b) : IsNonneg (a + b) := by
  obtain ⟨x, hx, rfl⟩ := ha; obtain ⟨y, hy, rfl⟩ := hb
  exact ⟨x + y, add_nonneg hx hy, (EReal.coe_add x y).symm⟩

/-- A finite sum of non-negative reals is a non-negative real. -/
theorem IsNonneg.sum {ι : Type*} (s : Finset ι) (g : ι → EReal) (h : ∀ i ∈ s, IsNonneg (g i)) : IsNonneg (∑ i ∈ s, g i) := by
  classical
  induction s using Finset.induction_on with
  | empty => exact ⟨0, le_refl 0, by simp⟩
  | insert a s ha ih =>
    rw [Finset.sum_insert ha]
    exact (h a (Finset.mem_insert_self a s)).add (ih fun i hi => h i (Finset.mem_insert_of_mem hi))

/-- A host sum from a real start over real-valued entries is real-valued. -/
theorem isReal_reduceAdd {s t u : Shape} {axes : List (Fin s.rank)} (x : FVec Ideal s φ) (init : u.Idx → Ideal φ)
    (h : s.ReducesTo axes t) (hu : 0 < u.numel) (hx : ∀ i, IsReal (x i)) (hi : ∀ k, IsReal (init k)) (j : t.Idx) :
    IsReal (Host.reduceAdd x init h hu j) := by
  show IsReal (init _ + ∑ i ∈ Finset.univ.filter _, x i)
  exact (hi _).add (IsReal.sum _ _ fun i _ => hx i)

/-- A host sum from zero over non-negative entries is non-negative. -/
theorem isNonneg_reduceAdd {s t u : Shape} {axes : List (Fin s.rank)} (x : FVec Ideal s φ) (init : u.Idx → Ideal φ)
    (h : s.ReducesTo axes t) (hu : 0 < u.numel) (hx : ∀ i, IsNonneg (x i)) (hi : ∀ k, init k = 0) (j : t.Idx) :
    IsNonneg (Host.reduceAdd x init h hu j) := by
  show IsNonneg (init _ + ∑ i ∈ Finset.univ.filter _, x i)
  rw [hi, zero_add]
  exact IsNonneg.sum _ _ fun i _ => hx i

/-- A real divided by a nonzero real is real. -/
theorem isReal_divf {s : Shape} (x y : FVec Ideal s φ) (c : ℝ) (hc : c ≠ 0) (hx : ∀ i, IsReal (x i)) (hy : ∀ i, y i = (c : EReal))
    (i : s.Idx) : IsReal (Host.divf x y i) := by
  show IsReal (Ideal.div (x i) (y i))
  rw [hy]
  exact (hx i).div hc

/-- A non-negative real divided by a positive real is non-negative. -/
theorem isNonneg_divf {s : Shape} (x y : FVec Ideal s φ) (c : ℝ) (hc : 0 < c) (hx : ∀ i, IsNonneg (x i)) (hy : ∀ i, y i = (c : EReal))
    (i : s.Idx) : IsNonneg (Host.divf x y i) := by
  show IsNonneg (Ideal.div (x i) (y i))
  obtain ⟨r, hr, e⟩ := hx i
  rw [hy, e, Cert.MBn.div_real r hc.ne']
  exact ⟨_, mul_nonneg hr (by positivity), rfl⟩

/-- A non-negative real plus a positive real is a positive real. -/
theorem pos_add_pos {s : Shape} (a b : FVec Ideal s φ) (i : s.Idx) (ha : IsNonneg (a i)) (hb : ∃ e : ℝ, 0 < e ∧ b i = (e : EReal)) :
    ∃ r : ℝ, 0 < r ∧ addf a b i = (r : EReal) := by
  obtain ⟨r, hr, ea⟩ := ha
  obtain ⟨e, he, eb⟩ := hb
  refine ⟨r + e, by linarith, ?_⟩
  show a i + b i = _
  rw [ea, eb, EReal.coe_add]

/-- Batch normalisation of a real-valued array with real scale and shift is real-valued: the mean is a finite sum
    of reals over the positive number of rows; the variance is such a mean of squares, so with the positive guard it is
    a positive real and its inverse square root is real. -/
theorem isReal_bn_of (a : FVec Ideal S100000x128 .f32) (g be : FVec Ideal S128 .f32) (ha : ∀ i, IsReal (a i))
    (hg : ∀ i, IsReal (g i)) (hbe : ∀ i, IsReal (be i)) (i : S100000x128.Idx) : IsReal (BN (F := Ideal) a g be i) := by
  have hrows : (100000 : ℝ) ≠ 0 := by norm_num
  -- the mean row, broadcast over the rows
  have hmean : ∀ j : S128.Idx, IsReal (Host.divf (φ := .f32)
      (Host.reduceAdd a (constant (F := Ideal) S_ .f32 0x00000000#32) reducesTo_S100000x128_S128_d0 h_S_)
      (broadcastInDim S128 ![] bcast_S_S128 (constant (F := Ideal) S_ .f32 0x47C35000#32)) j) :=
    isReal_divf (φ := .f32) _ _ 100000 hrows
      (isReal_reduceAdd (φ := .f32) a _ _ _ ha (isReal_zero (s := S_)))
      (fun _ => Cert.MConsts.ofBits_rows)
  have hdev : ∀ k : S100000x128.Idx, IsReal (subf (φ := .f32) a
      (broadcastInDim S100000x128 ![0, 1] bcast_S1x128_S100000x128_0_1
        (broadcastInDim S1x128 ![1] bcast_S128_S1x128_1
          (Host.divf (φ := .f32)
            (Host.reduceAdd a (constant (F := Ideal) S_ .f32 0x00000000#32) reducesTo_S100000x128_S128_d0 h_S_)
            (broadcastInDim S128 ![] bcast_S_S128 (constant (F := Ideal) S_ .f32 0x47C35000#32))))) k) :=
    isReal_subf (φ := .f32) _ _ ha (isReal_bcast (φ := .f32) _ _ _ (isReal_bcast (φ := .f32) _ _ _ hmean))
  unfold BN
  refine isReal_addf (φ := .f32) _ _ ?_ (isReal_bcast (φ := .f32) _ _ _ (isReal_bcast (φ := .f32) _ _ _ hbe)) i
  refine isReal_mulf (φ := .f32) _ _ ?_ (isReal_bcast (φ := .f32) _ _ _ (isReal_bcast (φ := .f32) _ _ _ hg))
  refine isReal_mulf (φ := .f32) _ _ hdev ?_
  refine isReal_bcast (φ := .f32) _ _ _ (isReal_bcast (φ := .f32) _ _ _ fun j => ?_)
  refine isReal_rsqrt_of_pos (φ := .f32) _ j (pos_add_pos (φ := .f32) _ _ j ?_ ?_)
  · refine isNonneg_divf (φ := .f32) _ _ 100000 (by norm_num) (fun j' => ?_) (fun _ => Cert.MConsts.ofBits_rows) j
    exact isNonneg_reduceAdd (φ := .f32) _ _ _ _ (fun k => IsNonneg.sq (hdev k)) (fun _ => Cert.MConsts.ofBits_zero) j'
  · exact Cert.MConsts.ofBits_eps

end Cert.MRealRef

end
-- ==== Proof.MNet.lean ====
/-
  The kernel program's network and the reference's are one function of the arguments, when the float arguments are real.

  Layer by layer: a layer's activation is the same array in both (same projection, same aggregation, same pre-activation,
  SELU agreeing); batch normalisation agrees on an array of real numbers, and its result is again real, so the next layer's
  input is real; the third layer needs no normalisation; pooling is the same operations; the head is one more agreement.
-/
import proofs.«162488_j80401787781187_1_alg».proof.Proof.MRegions
import proofs.«162488_j80401787781187_1_alg».proof.Proof.MLayer
import proofs.«162488_j80401787781187_1_alg».proof.Proof.MRefBn
import proofs.«162488_j80401787781187_1_alg».proof.Proof.MRealRef
import proofs.«162488_j80401787781187_1_alg».proof.Proof.MBn
import proofs.«162488_j80401787781187_1_alg».proof.Proof.MConsts
import proofs.«162488_j80401787781187_1_alg».proof.Proof.RefRunOutFn

set_option maxHeartbeats 400000

noncomputable section

namespace Cert.MNet

open Idealize.ShloMosaic Idealize.ShloMosaic.ValueIdx Cert.KernelIdeal Cert.MKFn Cert.LibERealSum
open Cert.KernelIdeal.FinA (mmG combG bnG)

/-- The region functions, the head's left open. -/
def regions (head : FVec Ideal S2048x128 .f32 → FVec Ideal S2048x64 .f32 → FVec Ideal S128x128 .f32 → FVec Ideal S64x128 .f32 →
    FVec Ideal S1x128 .f32 → FVec Ideal S1x128 .f32 → FVec Ideal S1x1 .f32 → FVec Ideal S2048x1 .f32) :
    Cert.KernelIdeal.KRun.RegionFns Ideal :=
  ⟨mmG, combG, ColSumF, ColSqF, bnG, head⟩

variable (head : FVec Ideal S2048x128 .f32 → FVec Ideal S2048x64 .f32 → FVec Ideal S128x128 .f32 → FVec Ideal S64x128 .f32 →
    FVec Ideal S1x128 .f32 → FVec Ideal S1x128 .f32 → FVec Ideal S1x1 .f32 → FVec Ideal S2048x1 .f32)

theorem regions_matmul : (regions head).matmul = mmG := by simp only [regions]
theorem regions_combine : (regions head).combine = combG := by simp only [regions]
theorem regions_colSum : (regions head).colSum = ColSumF := by simp only [regions]
theorem regions_colSumSq : (regions head).colSumSq = ColSqF := by simp only [regions]
theorem regions_affine : (regions head).affine = bnG := by simp only [regions]
theorem regions_head : (regions head).head = head := by simp only [regions]

/-- A layer's activation: the same array in both programs. -/
theorem layer_eq (h : FVec Ideal S100000x128 .f32) (W : FVec Ideal S128x128 .f32) (b : FVec Ideal S128 .f32)
    (e : IVec S2x1600000 32) :
    Cert.KernelIdeal.KRun.Layer (regions head) h W b e
      = Cert.ReferenceIdeal.RefRun.Selu (F := Ideal) (Cert.ReferenceIdeal.RefRun.Conv h W b
          (Cert.ReferenceIdeal.RefRun.Dinv (F := Ideal) (Cert.ReferenceIdeal.RefRun.Dst e))
          (Cert.ReferenceIdeal.RefRun.Src e) (Cert.ReferenceIdeal.RefRun.Dst e)) := by
  unfold Cert.KernelIdeal.KRun.Layer
  rw [regions_combine, regions_matmul, Cert.MRegions.combG_eq, Cert.MRegions.mmG_eq, Cert.MLayer.xw_eq, Cert.MLayer.act_eq, Cert.MLayer.dinv_eq,
    Cert.MLayer.src_eq, Cert.MLayer.dst_eq]
  rfl

/-- Batch normalisation of an array of real numbers: the same array in both programs. -/
theorem norm_eq (a : FVec Ideal S100000x128 .f32) (g be : FVec Ideal S128 .f32)
    (ha : ∀ i, IsReal (a i)) (hg : ∀ i, IsReal (g i)) (hbe : ∀ i, IsReal (be i)) :
    Cert.KernelIdeal.KRun.Norm (regions head) a g be = Cert.ReferenceIdeal.RefRun.BN (F := Ideal) a g be := by
  unfold Cert.KernelIdeal.KRun.Norm
  rw [regions_affine, regions_colSum, regions_colSumSq, Cert.MRegions.bnG_eq]
  funext i
  obtain ⟨p, q, rfl⟩ : ∃ (p : Fin 100000) (q : Fin 128), i = ix2 p q := ⟨i 0, i 1, eq_ix2 i⟩
  rw [BnApplyF_apply, Cert.MKer.bnScale_apply, Cert.MKer.bnShift_apply, ColSumF_apply, ColSqF_apply, Cert.MRefBn.bn_apply]
  obtain ⟨ε, hε, hE⟩ := Cert.MConsts.ofBits_eps
  rw [Cert.MConsts.ofBits_rows, hE]
  have key := (Cert.MBn.bn_agree (fun j : Fin 100000 => a (ix2 j q)) (fun j => ha _) (hg (ix1 q)) (hbe (ix1 q)) 100000 ε
    (by simp) (by norm_num) hε p).1
  exact key

/-- A layer followed by batch normalisation, on real inputs: the same array in both programs. -/
theorem block_eq (h : FVec Ideal S100000x128 .f32) (W : FVec Ideal S128x128 .f32) (b g be : FVec Ideal S128 .f32)
    (e : IVec S2x1600000 32) (hh : ∀ i, IsReal (h i)) (hW : ∀ i, IsReal (W i)) (hb : ∀ i, IsReal (b i))
    (hg : ∀ i, IsReal (g i)) (hbe : ∀ i, IsReal (be i)) :
    Cert.KernelIdeal.KRun.Norm (regions head) (Cert.KernelIdeal.KRun.Layer (regions head) h W b e) g be
      = Cert.ReferenceIdeal.RefRun.BN (F := Ideal) (Cert.ReferenceIdeal.RefRun.Selu (F := Ideal) (Cert.ReferenceIdeal.RefRun.Conv h W b
          (Cert.ReferenceIdeal.RefRun.Dinv (F := Ideal) (Cert.ReferenceIdeal.RefRun.Dst e)) (Cert.ReferenceIdeal.RefRun.Src e) (Cert.ReferenceIdeal.RefRun.Dst e))) g be := by
  rw [layer_eq]
  exact norm_eq head (Cert.ReferenceIdeal.RefRun.Selu (F := Ideal) (Cert.ReferenceIdeal.RefRun.Conv h W b
      (Cert.ReferenceIdeal.RefRun.Dinv (F := Ideal) (Cert.ReferenceIdeal.RefRun.Dst e)) (Cert.ReferenceIdeal.RefRun.Src e) (Cert.ReferenceIdeal.RefRun.Dst e))) g be
    (fun i => Cert.MRealRef.isReal_act h W b (Cert.ReferenceIdeal.RefRun.Dinv (F := Ideal) (Cert.ReferenceIdeal.RefRun.Dst e)) (Cert.ReferenceIdeal.RefRun.Src e) (Cert.ReferenceIdeal.RefRun.Dst e) hh hW hb
      (fun j => Cert.MRealRef.isReal_dinv (Cert.ReferenceIdeal.RefRun.Dst e) j) i) hg hbe

/-- The normalised block of real inputs holds real numbers. -/
theorem block_real (h : FVec Ideal S100000x128 .f32) (W : FVec Ideal S128x128 .f32) (b g be : FVec Ideal S128 .f32)
    (e : IVec S2x1600000 32) (hh : ∀ i, IsReal (h i)) (hW : ∀ i, IsReal (W i)) (hb : ∀ i, IsReal (b i))
    (hg : ∀ i, IsReal (g i)) (hbe : ∀ i, IsReal (be i)) :
    ∀ i, IsReal (Cert.ReferenceIdeal.RefRun.BN (F := Ideal) (Cert.ReferenceIdeal.RefRun.Selu (F := Ideal) (Cert.ReferenceIdeal.RefRun.Conv h W b
          (Cert.ReferenceIdeal.RefRun.Dinv (F := Ideal) (Cert.ReferenceIdeal.RefRun.Dst e)) (Cert.ReferenceIdeal.RefRun.Src e) (Cert.ReferenceIdeal.RefRun.Dst e))) g be i) :=
  fun i => Cert.MRealRef.isReal_bn_of (Cert.ReferenceIdeal.RefRun.Selu (F := Ideal) (Cert.ReferenceIdeal.RefRun.Conv h W b
      (Cert.ReferenceIdeal.RefRun.Dinv (F := Ideal) (Cert.ReferenceIdeal.RefRun.Dst e)) (Cert.ReferenceIdeal.RefRun.Src e) (Cert.ReferenceIdeal.RefRun.Dst e))) g be
    (fun i => Cert.MRealRef.isReal_act h W b (Cert.ReferenceIdeal.RefRun.Dinv (F := Ideal) (Cert.ReferenceIdeal.RefRun.Dst e)) (Cert.ReferenceIdeal.RefRun.Src e) (Cert.ReferenceIdeal.RefRun.Dst e) hh hW hb
      (fun j => Cert.MRealRef.isReal_dinv (Cert.ReferenceIdeal.RefRun.Dst e) j) i) hg hbe i

/-- The whole network: the kernel program's composition is the reference's, on real float arguments. -/
theorem net_eq
    (hhead : ∀ (hg : FVec Ideal S2048x128 .f32) (mol : FVec Ideal S2048x64 .f32) (W : FVec Ideal S192x128 .f32)
      (b : FVec Ideal S128 .f32) (W2 : FVec Ideal S128x1 .f32) (b2 : FVec Ideal S1 .f32),
      head hg mol (Cert.KernelIdeal.KRun.Wf1a W) (Cert.KernelIdeal.KRun.Wf1b W) (Cert.KernelIdeal.KRun.Row128 b)
          (Cert.KernelIdeal.KRun.Wf2Row W2) (Cert.KernelIdeal.KRun.Bf2Cell b2)
        = Cert.ReferenceIdeal.RefRun.Head2 (F := Ideal) (Cert.ReferenceIdeal.RefRun.SeluG (Cert.ReferenceIdeal.RefRun.Head1 hg mol W b)) W2 b2)
    (x : FVec Ideal S100000x128 .f32) (e : IVec S2x1600000 32) (batch : IVec S100000 32) (mol : FVec Ideal S2048x64 .f32)
    (W1 : FVec Ideal S128x128 .f32) (b1 g1 be1 : FVec Ideal S128 .f32) (W2 : FVec Ideal S128x128 .f32) (b2 g2 be2 : FVec Ideal S128 .f32)
    (W3 : FVec Ideal S128x128 .f32) (b3 : FVec Ideal S128 .f32) (Wf1 : FVec Ideal S192x128 .f32) (bf1 : FVec Ideal S128 .f32)
    (Wf2 : FVec Ideal S128x1 .f32) (bf2 : FVec Ideal S1 .f32)
    (hx : ∀ i, IsReal (x i)) (hW1 : ∀ i, IsReal (W1 i)) (hb1 : ∀ i, IsReal (b1 i)) (hg1 : ∀ i, IsReal (g1 i)) (hbe1 : ∀ i, IsReal (be1 i))
    (hW2 : ∀ i, IsReal (W2 i)) (hb2 : ∀ i, IsReal (b2 i)) (hg2 : ∀ i, IsReal (g2 i)) (hbe2 : ∀ i, IsReal (be2 i)) :
    Cert.KernelIdeal.KRun.Net (regions head) x e batch mol W1 b1 g1 be1 W2 b2 g2 be2 W3 b3 Wf1 bf1 Wf2 bf2
      = Cert.ReferenceIdeal.RefRun.RefOut (F := Ideal) x e batch mol W1 b1 g1 be1 W2 b2 g2 be2 W3 b3 Wf1 bf1 Wf2 bf2 := by
  unfold Cert.KernelIdeal.KRun.Net Cert.ReferenceIdeal.RefRun.RefOut
  rw [regions_head, block_eq head x W1 b1 g1 be1 e hx hW1 hb1 hg1 hbe1,
    block_eq head _ W2 b2 g2 be2 e (block_real x W1 b1 g1 be1 e hx hW1 hb1 hg1 hbe1) hW2 hb2 hg2 hbe2,
    layer_eq, Cert.MLayer.pool_eq, hhead]

end Cert.MNet

end
-- ==== Proof.MClaim.lean ====
import proofs.«162488_j80401787781187_1_alg».proof.Proof.MClaimCore
import proofs.«162488_j80401787781187_1_alg».proof.Proof.MNet

/-!
# The algebraic claim, from the head

With the three projections, the three combine steps, the column sums and the scale-and-shift steps already known
as functions, what remains open is the head: given the head launch's result as a function, that every launch's
result is its function, and that the head's function is the reference's two dense layers, the two programs end with
the same result.
-/

noncomputable section

namespace Cert.MClaim

open Idealize.ShloMosaic Idealize.SL.Sem Cert.KernelIdeal

/-- The algebraic claim, from the head's function, the launches' results and the head's agreement with the
    reference's dense layers. -/
theorem algebraic_of
    (head : FVec Ideal S2048x128 .f32 → FVec Ideal S2048x64 .f32 → FVec Ideal S128x128 .f32 → FVec Ideal S64x128 .f32 →
    FVec Ideal S1x128 .f32 → FVec Ideal S1x128 .f32 → FVec Ideal S1x1 .f32 → FVec Ideal S2048x1 .f32)
    (hR : Cert.KernelIdeal.KRun.RegionsAre (Cert.MNet.regions head))
    (hhead : ∀ (hg : FVec Ideal S2048x128 .f32) (mol : FVec Ideal S2048x64 .f32) (W : FVec Ideal S192x128 .f32)
      (b : FVec Ideal S128 .f32) (W2 : FVec Ideal S128x1 .f32) (b2 : FVec Ideal S1 .f32),
      head hg mol (Cert.KernelIdeal.KRun.Wf1a W) (Cert.KernelIdeal.KRun.Wf1b W) (Cert.KernelIdeal.KRun.Row128 b)
          (Cert.KernelIdeal.KRun.Wf2Row W2) (Cert.KernelIdeal.KRun.Bf2Cell b2)
        = Cert.ReferenceIdeal.RefRun.Head2 (F := Ideal) (Cert.ReferenceIdeal.RefRun.SeluG (Cert.ReferenceIdeal.RefRun.Head1 hg mol W b)) W2 b2) :
    Cert.algebraic_KernelIdeal_ReferenceIdeal :=
  algebraic_of_net (Cert.MNet.regions head) hR (Cert.MNet.net_eq head hhead)

end Cert.MClaim

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«162488_j80401787781187_1_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.FinAPay10.lean ====
import proofs.«162488_j80401787781187_1_alg».proof.Proof.Gen.KernelIdeal.Skeleton
import proofs.«162488_j80401787781187_1_alg».proof.Proof.FinABase
import proofs.«162488_j80401787781187_1_alg».proof.Proof.LibDotSum
import proofs.«162488_j80401787781187_1_alg».proof.Proof.LibRowReduce
import proofs.«162488_j80401787781187_1_alg».proof.Proof.LibOuterSum
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.FinA

open Idealize.ShloMosaic Idealize.ShloMosaic.ValueIdx Cert.KernelIdeal Cert.KernelIdeal.Gen

open scoped BigOperators

/-- The row of an entry of a [2048,1] column. -/
def rowH (y : S2048x1.Idx) : Fin 2048 := ⟨(y 0).val, idx2_lt0 y⟩

theorem rowH_ix2 (g : Fin 2048) (u : Fin 1) : rowH (ix2 g u) = g := rfl

/-- The head on whole arrays: for graph g, the sum over the 128 hidden lanes l of the activation of
    (pooled row g · first weight's column l + molecule row g · second weight's column l + first
    bias l) times the output weight l, plus the output bias. -/
def headG (a0 : S2048x128.Idx → EReal) (a1 : S2048x64.Idx → EReal) (a2 : S128x128.Idx → EReal)
    (a3 : S64x128.Idx → EReal) (a4 a5 : S1x128.Idx → EReal) (a6 : S1x1.Idx → EReal) : S2048x1.Idx → EReal :=
  fun i => (∑ l : Fin 128,
      SeluS ((∑ k : Fin 128, a0 (ix2 (rowH i) k) * a2 (ix2 k l)) + (∑ k : Fin 64, a1 (ix2 (rowH i) k) * a3 (ix2 k l))
        + a4 (ix2 (0 : Fin 1) l)) * a5 (ix2 (0 : Fin 1) l))
    + a6 (ix2 (0 : Fin 1) (0 : Fin 1))

theorem headG_apply (a0 : S2048x128.Idx → EReal) (a1 : S2048x64.Idx → EReal) (a2 : S128x128.Idx → EReal)
    (a3 : S64x128.Idx → EReal) (a4 a5 : S1x128.Idx → EReal) (a6 : S1x1.Idx → EReal) (g : Fin 2048) :
    headG a0 a1 a2 a3 a4 a5 a6 (ix2 g (0 : Fin 1))
      = (∑ l : Fin 128,
          SeluS ((∑ k : Fin 128, a0 (ix2 g k) * a2 (ix2 k l)) + (∑ k : Fin 64, a1 (ix2 g k) * a3 (ix2 k l))
            + a4 (ix2 (0 : Fin 1) l)) * a5 (ix2 (0 : Fin 1) l))
        + a6 (ix2 (0 : Fin 1) (0 : Fin 1)) := rfl

/-- The head's body at the entry of graph g: the two products contracted over their shared axes (the
    narrowing of the operands is the identity, the accumulators are zero), the bias row, the
    activation, the output weight row, the sum over the lanes, the output bias. -/
theorem pay10_apply (x0 : Vec Ideal S2048x128 .f32) (x1 : Vec Ideal S2048x64 .f32) (x2 : Vec Ideal S128x128 .f32)
    (x3 : Vec Ideal S64x128 .f32) (x4 x5 : Vec Ideal S1x128 .f32) (x6 : Vec Ideal S1x1 .f32) (g : Fin 2048) :
    k10_pay1 x0 x1 x2 x3 x4 x5 x6 (ix2 g (0 : Fin 1)) = headG x0 x1 x2 x3 x4 x5 x6 (ix2 g (0 : Fin 1)) := by
  rw [headG_apply]
  unfold k10_pay1
  simp only [shapeCast_self]
  refine (addf_apply _ _ _).trans (congrArg₂ (· + ·) ?_ ?_)
  · refine (Cert.LibOuterSum.col_of_vec_apply _ _ g (0 : Fin 1)).trans ?_
    refine (Cert.LibRowReduce.sum_row2 _ _ _ _ g).trans ?_
    refine Finset.sum_congr rfl fun l _ => ?_
    refine (mulf_apply _ _ _).trans (congrArg₂ (· * ·) ?_ ?_)
    · refine (selu_tail_apply _ (ix2 g l)).trans (congrArg SeluS ?_)
      refine (addf_apply _ _ _).trans (congrArg₂ (· + ·) ?_ ?_)
      · refine (addf_apply _ _ _).trans (congrArg₂ (· + ·) ?_ ?_)
        · refine (Ideal.matmul_constant_zero_apply dot_S2048x128_S128x128_S2048x128_1_0_0_1_n_n none _ _ (ix2 g l)).trans ?_
          exact Cert.LibDotSum.sum_dot dot_S2048x128_S128x128_S2048x128_1_0_0_1_n_n rfl rfl
            (fun _ _ => rfl) (fun _ _ => rfl) (fun _ _ => rfl) (fun _ _ => rfl) x0 x2 g l
        · refine (Ideal.matmul_constant_zero_apply dot_S2048x64_S64x128_S2048x128_1_0_0_1_n_n none _ _ (ix2 g l)).trans ?_
          exact Cert.LibDotSum.sum_dot dot_S2048x64_S64x128_S2048x128_1_0_0_1_n_n rfl rfl
            (fun _ _ => rfl) (fun _ _ => rfl) (fun _ _ => rfl) (fun _ _ => rfl) x1 x3 g l
      · exact broadcastTo_1b_ab_apply _ _ g l
    · exact broadcastTo_1b_ab_apply _ _ g l
  · exact broadcastTo_1b_ab_apply _ _ g (0 : Fin 1)

/-- The same at any entry of the column. -/
theorem pay10_idx (x0 : Vec Ideal S2048x128 .f32) (x1 : Vec Ideal S2048x64 .f32) (x2 : Vec Ideal S128x128 .f32)
    (x3 : Vec Ideal S64x128 .f32) (x4 x5 : Vec Ideal S1x128 .f32) (x6 : Vec Ideal S1x1 .f32) (y : S2048x1.Idx) :
    k10_pay1 x0 x1 x2 x3 x4 x5 x6 y = headG x0 x1 x2 x3 x4 x5 x6 y := by
  obtain ⟨g, u, rfl⟩ : ∃ (g : Fin 2048) (u : Fin 1), y = ix2 g u := ⟨y 0, y 1, eq_ix2 y⟩
  obtain rfl : u = 0 := Subsingleton.elim _ _
  exact pay10_apply x0 x1 x2 x3 x4 x5 x6 g

end Cert.KernelIdeal.FinA

end
-- ==== Proof.FinAHead.lean ====
import proofs.«162488_j80401787781187_1_alg».proof.Proof.Gen.KernelIdeal.Frame
import proofs.«162488_j80401787781187_1_alg».proof.Proof.FinABase
import proofs.«162488_j80401787781187_1_alg».proof.Proof.FinAPay10
import Idealize.ShloMosaic.Lib.Pipeline.Value

noncomputable section

namespace Cert.KernelIdeal.FinA

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

open scoped BigOperators

/-- The grid has one point and every window's block is its whole array: all block indices are zero. -/
theorem idx10_0 : ∀ t : Fin cfg10.N, win10_0.index t (0 : Fin 2) = 0 ∧ win10_0.index t (1 : Fin 2) = 0 :=
  (by decide +kernel : ∀ t : Fin grid10.N, _)
theorem idx10_1 : ∀ t : Fin cfg10.N, win10_1.index t (0 : Fin 2) = 0 ∧ win10_1.index t (1 : Fin 2) = 0 :=
  (by decide +kernel : ∀ t : Fin grid10.N, _)
theorem idx10_2 : ∀ t : Fin cfg10.N, win10_2.index t (0 : Fin 2) = 0 ∧ win10_2.index t (1 : Fin 2) = 0 :=
  (by decide +kernel : ∀ t : Fin grid10.N, _)
theorem idx10_3 : ∀ t : Fin cfg10.N, win10_3.index t (0 : Fin 2) = 0 ∧ win10_3.index t (1 : Fin 2) = 0 :=
  (by decide +kernel : ∀ t : Fin grid10.N, _)
theorem idx10_4 : ∀ t : Fin cfg10.N, win10_4.index t (0 : Fin 2) = 0 ∧ win10_4.index t (1 : Fin 2) = 0 :=
  (by decide +kernel : ∀ t : Fin grid10.N, _)
theorem idx10_5 : ∀ t : Fin cfg10.N, win10_5.index t (0 : Fin 2) = 0 ∧ win10_5.index t (1 : Fin 2) = 0 :=
  (by decide +kernel : ∀ t : Fin grid10.N, _)
theorem idx10_6 : ∀ t : Fin cfg10.N, win10_6.index t (0 : Fin 2) = 0 ∧ win10_6.index t (1 : Fin 2) = 0 :=
  (by decide +kernel : ∀ t : Fin grid10.N, _)
theorem idx10_7 : ∀ t : Fin cfg10.N, win10_7.index t (0 : Fin 2) = 0 ∧ win10_7.index t (1 : Fin 2) = 0 :=
  (by decide +kernel : ∀ t : Fin grid10.N, _)

/-- Each input window's block, read at an entry, is the window's array at the entry the block's place
    puts it at: block index times block size plus the coordinate inside the block. -/
theorem blk10_0 (c : Dev nD) (t : Fin cfg10.N) (y : S2048x128.Idx) (k : S2048x128.Idx)
    (hk0 : (k 0).val = win10_0.index t (0 : Fin 2) * 2048 + (y 0).val)
    (hk1 : (k 1).val = win10_0.index t (1 : Fin 2) * 128 + (y 1).val) :
    iblk10 V c 0 t y = V c (Pipeline.arrRef spec10 0) k := by
  unfold iblk10
  rw [View.read_apply]
  show V c (Pipeline.arrRef spec10 0) _ = V c (Pipeline.arrRef spec10 0) _
  refine congrArg _ (funext fun a => Fin.ext ?_)
  match a with
  | ⟨0, _⟩ => show win10_0.index t (0 : Fin 2) * 2048 + 1 * (y 0).val = (k 0).val; omega
  | ⟨1, _⟩ => show win10_0.index t (1 : Fin 2) * 128 + 1 * (y 1).val = (k 1).val; omega

theorem blk10_1 (c : Dev nD) (t : Fin cfg10.N) (y : S2048x64.Idx) (k : S2048x64.Idx)
    (hk0 : (k 0).val = win10_1.index t (0 : Fin 2) * 2048 + (y 0).val)
    (hk1 : (k 1).val = win10_1.index t (1 : Fin 2) * 64 + (y 1).val) :
    iblk10 V c 1 t y = V c (Pipeline.arrRef spec10 1) k := by
  unfold iblk10
  rw [View.read_apply]
  show V c (Pipeline.arrRef spec10 1) _ = V c (Pipeline.arrRef spec10 1) _
  refine congrArg _ (funext fun a => Fin.ext ?_)
  match a with
  | ⟨0, _⟩ => show win10_1.index t (0 : Fin 2) * 2048 + 1 * (y 0).val = (k 0).val; omega
  | ⟨1, _⟩ => show win10_1.index t (1 : Fin 2) * 64 + 1 * (y 1).val = (k 1).val; omega

theorem blk10_2 (c : Dev nD) (t : Fin cfg10.N) (y : S128x128.Idx) (k : S128x128.Idx)
    (hk0 : (k 0).val = win10_2.index t (0 : Fin 2) * 128 + (y 0).val)
    (hk1 : (k 1).val = win10_2.index t (1 : Fin 2) * 128 + (y 1).val) :
    iblk10 V c 2 t y = V c (Pipeline.arrRef spec10 2) k := by
  unfold iblk10
  rw [View.read_apply]
  show V c (Pipeline.arrRef spec10 2) _ = V c (Pipeline.arrRef spec10 2) _
  refine congrArg _ (funext fun a => Fin.ext ?_)
  match a with
  | ⟨0, _⟩ => show win10_2.index t (0 : Fin 2) * 128 + 1 * (y 0).val = (k 0).val; omega
  | ⟨1, _⟩ => show win10_2.index t (1 : Fin 2) * 128 + 1 * (y 1).val = (k 1).val; omega

theorem blk10_3 (c : Dev nD) (t : Fin cfg10.N) (y : S64x128.Idx) (k : S64x128.Idx)
    (hk0 : (k 0).val = win10_3.index t (0 : Fin 2) * 64 + (y 0).val)
    (hk1 : (k 1).val = win10_3.index t (1 : Fin 2) * 128 + (y 1).val) :
    iblk10 V c 3 t y = V c (Pipeline.arrRef spec10 3) k := by
  unfold iblk10
  rw [View.read_apply]
  show V c (Pipeline.arrRef spec10 3) _ = V c (Pipeline.arrRef spec10 3) _
  refine congrArg _ (funext fun a => Fin.ext ?_)
  match a with
  | ⟨0, _⟩ => show win10_3.index t (0 : Fin 2) * 64 + 1 * (y 0).val = (k 0).val; omega
  | ⟨1, _⟩ => show win10_3.index t (1 : Fin 2) * 128 + 1 * (y 1).val = (k 1).val; omega

theorem blk10_4 (c : Dev nD) (t : Fin cfg10.N) (y : S1x128.Idx) (k : S1x128.Idx)
    (hk0 : (k 0).val = win10_4.index t (0 : Fin 2) * 1 + (y 0).val)
    (hk1 : (k 1).val = win10_4.index t (1 : Fin 2) * 128 + (y 1).val) :
    iblk10 V c 4 t y = V c (Pipeline.arrRef spec10 4) k := by
  unfold iblk10
  rw [View.read_apply]
  show V c (Pipeline.arrRef spec10 4) _ = V c (Pipeline.arrRef spec10 4) _
  refine congrArg _ (funext fun a => Fin.ext ?_)
  match a with
  | ⟨0, _⟩ => show win10_4.index t (0 : Fin 2) * 1 + 1 * (y 0).val = (k 0).val; omega
  | ⟨1, _⟩ => show win10_4.index t (1 : Fin 2) * 128 + 1 * (y 1).val = (k 1).val; omega

theorem blk10_5 (c : Dev nD) (t : Fin cfg10.N) (y : S1x128.Idx) (k : S1x128.Idx)
    (hk0 : (k 0).val = win10_5.index t (0 : Fin 2) * 1 + (y 0).val)
    (hk1 : (k 1).val = win10_5.index t (1 : Fin 2) * 128 + (y 1).val) :
    iblk10 V c 5 t y = V c (Pipeline.arrRef spec10 5) k := by
  unfold iblk10
  rw [View.read_apply]
  show V c (Pipeline.arrRef spec10 5) _ = V c (Pipeline.arrRef spec10 5) _
  refine congrArg _ (funext fun a => Fin.ext ?_)
  match a with
  | ⟨0, _⟩ => show win10_5.index t (0 : Fin 2) * 1 + 1 * (y 0).val = (k 0).val; omega
  | ⟨1, _⟩ => show win10_5.index t (1 : Fin 2) * 128 + 1 * (y 1).val = (k 1).val; omega

theorem blk10_6 (c : Dev nD) (t : Fin cfg10.N) (y : S1x1.Idx) (k : S1x1.Idx)
    (hk0 : (k 0).val = win10_6.index t (0 : Fin 2) * 1 + (y 0).val)
    (hk1 : (k 1).val = win10_6.index t (1 : Fin 2) * 1 + (y 1).val) :
    iblk10 V c 6 t y = V c (Pipeline.arrRef spec10 6) k := by
  unfold iblk10
  rw [View.read_apply]
  show V c (Pipeline.arrRef spec10 6) _ = V c (Pipeline.arrRef spec10 6) _
  refine congrArg _ (funext fun a => Fin.ext ?_)
  match a with
  | ⟨0, _⟩ => show win10_6.index t (0 : Fin 2) * 1 + 1 * (y 0).val = (k 0).val; omega
  | ⟨1, _⟩ => show win10_6.index t (1 : Fin 2) * 1 + 1 * (y 1).val = (k 1).val; omega

/-- The block index being zero, a block read at an entry is the array at that entry. -/
theorem whole10_0 (c : Dev nD) (t : Fin cfg10.N) (y : S2048x128.Idx) :
    iblk10 V c 0 t y = V c (Pipeline.arrRef spec10 0) y := by
  have e0 : win10_0.index t (0 : Fin 2) = 0 := (idx10_0 t).1
  have e1 : win10_0.index t (1 : Fin 2) = 0 := (idx10_0 t).2
  exact blk10_0 V c t y y (by rw [e0]; omega) (by rw [e1]; omega)
theorem whole10_1 (c : Dev nD) (t : Fin cfg10.N) (y : S2048x64.Idx) :
    iblk10 V c 1 t y = V c (Pipeline.arrRef spec10 1) y := by
  have e0 : win10_1.index t (0 : Fin 2) = 0 := (idx10_1 t).1
  have e1 : win10_1.index t (1 : Fin 2) = 0 := (idx10_1 t).2
  exact blk10_1 V c t y y (by rw [e0]; omega) (by rw [e1]; omega)
theorem whole10_2 (c : Dev nD) (t : Fin cfg10.N) (y : S128x128.Idx) :
    iblk10 V c 2 t y = V c (Pipeline.arrRef spec10 2) y := by
  have e0 : win10_2.index t (0 : Fin 2) = 0 := (idx10_2 t).1
  have e1 : win10_2.index t (1 : Fin 2) = 0 := (idx10_2 t).2
  exact blk10_2 V c t y y (by rw [e0]; omega) (by rw [e1]; omega)
theorem whole10_3 (c : Dev nD) (t : Fin cfg10.N) (y : S64x128.Idx) :
    iblk10 V c 3 t y = V c (Pipeline.arrRef spec10 3) y := by
  have e0 : win10_3.index t (0 : Fin 2) = 0 := (idx10_3 t).1
  have e1 : win10_3.index t (1 : Fin 2) = 0 := (idx10_3 t).2
  exact blk10_3 V c t y y (by rw [e0]; omega) (by rw [e1]; omega)
theorem whole10_4 (c : Dev nD) (t : Fin cfg10.N) (y : S1x128.Idx) :
    iblk10 V c 4 t y = V c (Pipeline.arrRef spec10 4) y := by
  have e0 : win10_4.index t (0 : Fin 2) = 0 := (idx10_4 t).1
  have e1 : win10_4.index t (1 : Fin 2) = 0 := (idx10_4 t).2
  exact blk10_4 V c t y y (by rw [e0]; omega) (by rw [e1]; omega)
theorem whole10_5 (c : Dev nD) (t : Fin cfg10.N) (y : S1x128.Idx) :
    iblk10 V c 5 t y = V c (Pipeline.arrRef spec10 5) y := by
  have e0 : win10_5.index t (0 : Fin 2) = 0 := (idx10_5 t).1
  have e1 : win10_5.index t (1 : Fin 2) = 0 := (idx10_5 t).2
  exact blk10_5 V c t y y (by rw [e0]; omega) (by rw [e1]; omega)
theorem whole10_6 (c : Dev nD) (t : Fin cfg10.N) (y : S1x1.Idx) :
    iblk10 V c 6 t y = V c (Pipeline.arrRef spec10 6) y := by
  have e0 : win10_6.index t (0 : Fin 2) = 0 := (idx10_6 t).1
  have e1 : win10_6.index t (1 : Fin 2) = 0 := (idx10_6 t).2
  exact blk10_6 V c t y y (by rw [e0]; omega) (by rw [e1]; omega)

/-- Reading an array through the result window's block reads it at the block's entries. -/
theorem read_out10 (t : Fin cfg10.N) (G : S2048x1.Idx → EReal) (j : ((cfg10.win 7).xblock (grid10.coords t)).Idx) :
    ((cfg10.win 7).blk t).view.read (Elt Ideal) G j = G (((cfg10.win 7).blk t).view.emb j) := rfl

/-- What the one point writes back is the head of the arrays the region finds. -/
theorem flushed10_eq (c : Dev nD) (t : Fin cfg10.N) :
    (dat10 V c).flushed 7 t = ((cfg10.win 7).blk t).view.read (Elt Ideal)
      (headG (V c (Pipeline.arrRef spec10 0)) (V c (Pipeline.arrRef spec10 1)) (V c (Pipeline.arrRef spec10 2))
        (V c (Pipeline.arrRef spec10 3)) (V c (Pipeline.arrRef spec10 4)) (V c (Pipeline.arrRef spec10 5))
        (V c (Pipeline.arrRef spec10 6))) := by
  show (cfg10.win 7).cut (grid10.coords t) ((dat10 V c).after 7 t) = _
  rw [after10_7]
  unfold out10_7
  rw [View.canon_unit_zero hz2]
  simp only [View.ld_unit_zero (S := S2048x128) hz2, View.ld_unit_zero (S := S2048x64) hz2,
    View.ld_unit_zero (S := S128x128) hz2, View.ld_unit_zero (S := S64x128) hz2,
    View.ld_unit_zero (S := S1x128) hz2, View.ld_unit_zero (S := S1x1) hz2]
  have eo0 : win10_7.index t (0 : Fin 2) = 0 := (idx10_7 t).1
  funext j
  refine Eq.trans ?_ (read_out10 t _ j).symm
  refine (pay10_idx (iblk10 V c 0 t) (iblk10 V c 1 t) (iblk10 V c 2 t) (iblk10 V c 3 t) (iblk10 V c 4 t)
    (iblk10 V c 5 t) (iblk10 V c 6 t) _).trans ?_
  have k0 : ((((cfg10.win 7).blk t).view.emb j) 0).val = win10_7.index t (0 : Fin 2) * 2048 + 1 * (j 0).val := rfl
  have r1 : (rowH (((cfg10.win 7).blk t).view.emb j)).val = ((((cfg10.win 7).blk t).view.emb j) 0).val := rfl
  have r2 : (rowH ((win10 7).xinj (grid10.coords t) j)).val = (j 0).val := rfl
  have hrow : rowH (((cfg10.win 7).blk t).view.emb j) = rowH ((win10 7).xinj (grid10.coords t) j) :=
    Fin.ext (by rw [r1, r2, k0, eo0]; omega)
  unfold headG
  rw [hrow]
  refine congrArg₂ (· + ·) (Finset.sum_congr rfl fun l _ => congrArg₂ (· * ·) (congrArg SeluS
    (congrArg₂ (· + ·) (congrArg₂ (· + ·) (Finset.sum_congr rfl fun k _ => congrArg₂ (· * ·) ?_ ?_)
      (Finset.sum_congr rfl fun k _ => congrArg₂ (· * ·) ?_ ?_)) ?_)) ?_) ?_
  · exact whole10_0 V c t _
  · exact whole10_2 V c t _
  · exact whole10_1 V c t _
  · exact whole10_3 V c t _
  · exact whole10_4 V c t _
  · exact whole10_5 V c t _
  · exact whole10_6 V c t _

/-- An entry of the result column is in the point's block iff each coordinate is in the block's range. -/
theorem mem_blk10 (t : Fin cfg10.N) (i : S2048x1.Idx) :
    i ∈ ((cfg10.win 7).blk t).view.set ↔ ∀ a : Fin 2, win10_7.index t a * S2048x1.size a ≤ (i a).val ∧ (i a).val < win10_7.index t a * S2048x1.size a + S2048x1.size a := by
  show i ∈ ((View.whole main_v156).slice (win10_7.rect t)).set ↔ _
  rw [View.set_slice_whole, Rect.mem_set_unit]
  exact Iff.rfl

/-- The one point's block is the whole column. -/
theorem cover10 (i : S2048x1.Idx) :
    ∃ t : Fin cfg10.N, (cfg10.win 7).flush t = true ∧ i ∈ ((cfg10.win 7).blk t).view.set := by
  have hi0 : (i 0).val < 2048 := idx2_lt0 i
  have hi1 : (i 1).val < 1 := idx2_lt1 i
  have e0 : win10_7.index t10_0 (0 : Fin 2) = 0 := (idx10_7 t10_0).1
  have e1 : win10_7.index t10_0 (1 : Fin 2) = 0 := (idx10_7 t10_0).2
  refine ⟨t10_0, flush10_7 t10_0, ?_⟩
  rw [mem_blk10]
  intro a
  match a with
  | ⟨0, _⟩ => show win10_7.index t10_0 (0 : Fin 2) * 2048 ≤ (i 0).val ∧ (i 0).val < win10_7.index t10_0 (0 : Fin 2) * 2048 + 2048; omega
  | ⟨1, _⟩ => show win10_7.index t10_0 (1 : Fin 2) * 1 ≤ (i 1).val ∧ (i 1).val < win10_7.index t10_0 (1 : Fin 2) * 1 + 1; omega

/-- The result column after the region: the head of the arrays the region finds. -/
theorem final10 (c : Dev nD) : (dat10 V c).arrAt 7 cfg10.N
    = headG (V c (Pipeline.arrRef spec10 0)) (V c (Pipeline.arrRef spec10 1)) (V c (Pipeline.arrRef spec10 2))
        (V c (Pipeline.arrRef spec10 3)) (V c (Pipeline.arrRef spec10 4)) (V c (Pipeline.arrRef spec10 5))
        (V c (Pipeline.arrRef spec10 6)) :=
  (dat10 V c).arrAt_eq_of_cover 7 _ (fun t _ => flushed10_eq V c t) cover10

/-- The result column at graph g, the seven input arrays named by equations. -/
theorem head10_apply (c : Dev nD) (X0 : S2048x128.Idx → EReal) (X1 : S2048x64.Idx → EReal) (X2 : S128x128.Idx → EReal)
    (X3 : S64x128.Idx → EReal) (X4 X5 : S1x128.Idx → EReal) (X6 : S1x1.Idx → EReal)
    (h0 : V c (Pipeline.arrRef spec10 0) = X0) (h1 : V c (Pipeline.arrRef spec10 1) = X1)
    (h2 : V c (Pipeline.arrRef spec10 2) = X2) (h3 : V c (Pipeline.arrRef spec10 3) = X3)
    (h4 : V c (Pipeline.arrRef spec10 4) = X4) (h5 : V c (Pipeline.arrRef spec10 5) = X5)
    (h6 : V c (Pipeline.arrRef spec10 6) = X6) (g : Fin 2048) :
    (dat10 V c).arrAt 7 cfg10.N (ix2 g (0 : Fin 1))
      = (∑ l : Fin 128,
          SeluS ((∑ k : Fin 128, X0 (ix2 g k) * X2 (ix2 k l)) + (∑ k : Fin 64, X1 (ix2 g k) * X3 (ix2 k l))
            + X4 (ix2 (0 : Fin 1) l)) * X5 (ix2 (0 : Fin 1) l))
        + X6 (ix2 (0 : Fin 1) (0 : Fin 1)) := by
  subst h0 h1 h2 h3 h4 h5 h6
  exact (congrFun (final10 V c) _).trans (headG_apply _ _ _ _ _ _ _ g)

end Cert.KernelIdeal.FinA

end
-- ==== Proof.MHead.lean ====
/-
  The two-layer head, read at one graph, in the two programs' spellings, and their agreement.

  For graph g the reference concatenates the pooled row (128 entries) with the molecule row (64 entries), multiplies by the
  192 × 128 weight matrix, adds the bias, applies SELU, multiplies by the 128 × 1 output weights and adds the output bias.
  A product against a concatenation is the sum of the two partial products: the sum over the 192 contracted positions
  splits into the first 128 and the last 64, the first reading the pooled row against the matrix's rows 0 … 127, the
  second the molecule row against its rows 128 … 191. The other program is handed exactly those two row blocks of the
  matrix, the biases as one-row matrices and the output weights as a row, and forms the same sums lane by lane; its SELU
  takes the exponential at the argument itself where the reference takes it at the guarded argument, which agree under
  the selection. No finiteness is used: sums of extended reals split and re-index as in any commutative monoid.
-/
import proofs.«162488_j80401787781187_1_alg».proof.Proof.RefRunFn
import proofs.«162488_j80401787781187_1_alg».proof.Proof.KRunDefs
import proofs.«162488_j80401787781187_1_alg».proof.Proof.FinABase
import proofs.«162488_j80401787781187_1_alg».proof.Proof.LibDotSum
import proofs.«162488_j80401787781187_1_alg».proof.Proof.LibOuterSum
import proofs.«162488_j80401787781187_1_alg».proof.Proof.MBcast
import proofs.«162488_j80401787781187_1_alg».proof.Proof.MKFn
import proofs.«162488_j80401787781187_1_alg».proof.Proof.MKer
import Idealize.ShloMosaic.PureOps.Ideal.Laws
import Idealize.ShloMosaic.Lib.ValueIdx
import Idealize.ShloMosaic.Lib.Pipeline.Value

set_option maxHeartbeats 1000000

noncomputable section

namespace Cert.MHead

open Idealize.ShloMosaic Idealize.ShloMosaic.ValueIdx Cert.KernelIdeal Cert.KernelIdeal.Gen Cert.KernelIdeal.KRun Cert.KernelIdeal.FinA

open scoped BigOperators

/-! ## The parameter arrays the kernel program is handed, at an index -/

/-- The first row block of the first weight matrix: rows 0 … 127. -/
theorem wf1a_apply (W : FVec Ideal S192x128 .f32) (k : Fin 128) (j : Fin 128) :
    Wf1a W (ix2 k j) = W (ix2 (⟨k.val, by omega⟩ : Fin 192) j) := by
  unfold Wf1a
  refine extractStridedSlice_apply ![0, 0] W _ (ix2 k j) (ix2 (⟨k.val, by omega⟩ : Fin 192) j) fun a => ?_
  match a with
  | ⟨0, _⟩ => show k.val = 0 + k.val; omega
  | ⟨1, _⟩ => show j.val = 0 + j.val; omega

/-- Its second row block: rows 128 … 191. -/
theorem wf1b_apply (W : FVec Ideal S192x128 .f32) (k : Fin 64) (j : Fin 128) :
    Wf1b W (ix2 k j) = W (ix2 (⟨128 + k.val, by omega⟩ : Fin 192) j) := by
  unfold Wf1b
  refine extractStridedSlice_apply ![128, 0] W _ (ix2 k j) (ix2 (⟨128 + k.val, by omega⟩ : Fin 192) j) fun a => ?_
  match a with
  | ⟨0, _⟩ => rfl
  | ⟨1, _⟩ => show j.val = 0 + j.val; omega

/-- The output weights as a row: lane j is the column's entry j. -/
theorem wf2row_apply (W2 : FVec Ideal S128x1 .f32) (j : Fin 128) :
    Wf2Row W2 (ix2 (0 : Fin 1) j) = W2 (ix2 j (0 : Fin 1)) := by
  unfold Wf2Row
  exact Cert.LibOuterSum.row_of_col_apply W2 _ (0 : Fin 1) j

/-- The output bias as a 1 × 1 matrix. -/
theorem bf2cell_apply (b2 : FVec Ideal S1 .f32) : Bf2Cell b2 (ix2 (0 : Fin 1) (0 : Fin 1)) = b2 (ix1 (0 : Fin 1)) := by
  unfold Bf2Cell
  exact Cert.LibOuterSum.col_of_vec_apply b2 _ (0 : Fin 1) (0 : Fin 1)

/-! ## The reference's head at an index -/

/-- A sum over 192 positions is the sum over the first 128 plus the sum over the last 64. -/
theorem sum_split (f : Fin 192 → EReal) :
    ∑ k : Fin 192, f k = (∑ k : Fin 128, f ⟨k.val, by omega⟩) + ∑ k : Fin 64, f ⟨128 + k.val, by omega⟩ :=
  Fin.sum_univ_add (a := 128) (b := 64) f

/-- The first dense layer at (g, l): the pooled row against rows 0 … 127 of the matrix's column l, plus the molecule row
    against rows 128 … 191, plus the bias. -/
theorem head1_apply (hg : FVec Ideal S2048x128 .f32) (mol : FVec Ideal S2048x64 .f32) (W : FVec Ideal S192x128 .f32)
    (b : FVec Ideal S128 .f32) (g : Fin 2048) (l : Fin 128) :
    Cert.ReferenceIdeal.RefRun.Head1 (F := Ideal) hg mol W b (ix2 g l)
      = (∑ k : Fin 128, hg (ix2 g k) * W (ix2 (⟨k.val, by omega⟩ : Fin 192) l))
        + (∑ k : Fin 64, mol (ix2 g k) * W (ix2 (⟨128 + k.val, by omega⟩ : Fin 192) l)) + b (ix1 l) := by
  show Host.dotGeneral Cert.ReferenceIdeal.dot_S2048x192_S192x128_S2048x128_1_0_0_1_n_n none (concatenate Cert.ReferenceIdeal.S2048x192 1 [⟨Cert.ReferenceIdeal.S2048x128, hg⟩, ⟨Cert.ReferenceIdeal.S2048x64, mol⟩] Cert.ReferenceIdeal.Gen.concatenates_S2048x128_S2048x64_S2048x192_d1) W (ix2 g l)
      + broadcastInDim Cert.ReferenceIdeal.S2048x128 ![0, 1] Cert.ReferenceIdeal.Gen.bcast_S1x128_S2048x128_0_1
          (broadcastInDim Cert.ReferenceIdeal.S1x128 ![1] Cert.ReferenceIdeal.Gen.bcast_S128_S1x128_1 b) (ix2 g l) = _
  refine congrArg₂ (· + ·) ?_ (Cert.LibDotSum.bias_apply b _ _ g l)
  simp only [Host.dotGeneral]
  rw [Ideal.dotGeneral_apply]
  refine (Cert.LibDotSum.sum_dot Cert.ReferenceIdeal.dot_S2048x192_S192x128_S2048x128_1_0_0_1_n_n rfl rfl (fun _ _ => rfl) (fun _ _ => rfl) (fun _ _ => rfl) (fun _ _ => rfl)
    (concatenate Cert.ReferenceIdeal.S2048x192 1 [⟨Cert.ReferenceIdeal.S2048x128, hg⟩, ⟨Cert.ReferenceIdeal.S2048x64, mol⟩] Cert.ReferenceIdeal.Gen.concatenates_S2048x128_S2048x64_S2048x192_d1) W g l).trans ?_
  refine (sum_split _).trans (congrArg₂ (· + ·) (Finset.sum_congr rfl fun k _ => ?_) (Finset.sum_congr rfl fun k _ => ?_))
  · refine congrArg₂ (· * ·) ?_ rfl
    exact concatenate_pair_apply_left (1 : Fin 2) hg mol Cert.ReferenceIdeal.Gen.concatenates_S2048x128_S2048x64_S2048x192_d1
      (ix2 g (⟨k.val, by omega⟩ : Fin 192)) rfl (ix2 g k) fun a => by
        match a with
        | ⟨0, _⟩ => rfl
        | ⟨1, _⟩ => rfl
  · refine congrArg₂ (· * ·) ?_ rfl
    exact concatenate_pair_apply_right (1 : Fin 2) hg mol Cert.ReferenceIdeal.Gen.concatenates_S2048x128_S2048x64_S2048x192_d1
      (ix2 g (⟨128 + k.val, by omega⟩ : Fin 192)) rfl rfl (ix2 g k)
      (fun a ha => by
        match a, ha with
        | ⟨0, _⟩, _ => rfl
        | ⟨1, _⟩, ha => exact absurd rfl ha)
      (by show k.val + 128 = 128 + k.val; omega)

/-- A scalar constant repeated over a graph array reads, anywhere, the number its word denotes. -/
theorem bconst (w : BitVec 32) (i : S2048x128.Idx) :
    broadcastInDim Cert.ReferenceIdeal.S2048x128 ![] Cert.ReferenceIdeal.Gen.bcast_S_S2048x128 (constant (F := Ideal) Cert.ReferenceIdeal.S_ .f32 w) i = Ideal.ofBits .f32 w :=
  Cert.MBcast.bcast_scalar _ _ i

/-- SELU on a graph array at an index: the reference's scalar form, the exponential at the guarded argument. -/
theorem seluG_apply (x : FVec Ideal S2048x128 .f32) (i : S2048x128.Idx) :
    Cert.ReferenceIdeal.RefRun.SeluG (F := Ideal) x i = Cert.MKFn.seluR (x i) := by
  unfold Cert.ReferenceIdeal.RefRun.SeluG Cert.MKFn.seluR
  simp only [mulf, select, cmpf, Host.expm1, id, Ideal.mulf_def, Ideal.hostUnary_expm1_def, Ideal.cmpf_def]
  rw [bconst, bconst, bconst]

/-- The second dense layer at graph g: the row against the output weights, plus the output bias. -/
theorem head2_apply (h : FVec Ideal S2048x128 .f32) (W2 : FVec Ideal S128x1 .f32) (b2 : FVec Ideal S1 .f32) (g : Fin 2048) :
    Cert.ReferenceIdeal.RefRun.Head2 (F := Ideal) h W2 b2 (ix2 g (0 : Fin 1))
      = (∑ l : Fin 128, h (ix2 g l) * W2 (ix2 l (0 : Fin 1))) + b2 (ix1 (0 : Fin 1)) := by
  show Host.dotGeneral Cert.ReferenceIdeal.dot_S2048x128_S128x1_S2048x1_1_0_0_1_n_n none h W2 (ix2 g (0 : Fin 1))
      + broadcastInDim Cert.ReferenceIdeal.S2048x1 ![0, 1] Cert.ReferenceIdeal.Gen.bcast_S1x1_S2048x1_0_1
          (broadcastInDim Cert.ReferenceIdeal.S1x1 ![1] Cert.ReferenceIdeal.Gen.bcast_S1_S1x1_1 b2) (ix2 g (0 : Fin 1)) = _
  refine congrArg₂ (· + ·) ?_ (Cert.LibDotSum.bias_apply b2 _ _ g (0 : Fin 1))
  simp only [Host.dotGeneral]
  rw [Ideal.dotGeneral_apply]
  exact Cert.LibDotSum.sum_dot Cert.ReferenceIdeal.dot_S2048x128_S128x1_S2048x1_1_0_0_1_n_n rfl rfl (fun _ _ => rfl) (fun _ _ => rfl) (fun _ _ => rfl) (fun _ _ => rfl) h W2 g (0 : Fin 1)

/-- The reference's head at graph g, as explicit sums. -/
theorem ref_head_apply (hg : FVec Ideal S2048x128 .f32) (mol : FVec Ideal S2048x64 .f32) (W : FVec Ideal S192x128 .f32)
    (b : FVec Ideal S128 .f32) (W2 : FVec Ideal S128x1 .f32) (b2 : FVec Ideal S1 .f32) (g : Fin 2048) :
    Cert.ReferenceIdeal.RefRun.Head2 (F := Ideal) (Cert.ReferenceIdeal.RefRun.SeluG (Cert.ReferenceIdeal.RefRun.Head1 hg mol W b)) W2 b2 (ix2 g (0 : Fin 1))
      = (∑ l : Fin 128, Cert.MKFn.seluR ((∑ k : Fin 128, hg (ix2 g k) * W (ix2 (⟨k.val, by omega⟩ : Fin 192) l))
            + (∑ k : Fin 64, mol (ix2 g k) * W (ix2 (⟨128 + k.val, by omega⟩ : Fin 192) l)) + b (ix1 l))
          * W2 (ix2 l (0 : Fin 1))) + b2 (ix1 (0 : Fin 1)) := by
  rw [head2_apply]
  refine congrArg₂ (· + ·) (Finset.sum_congr rfl fun l _ => ?_) rfl
  rw [seluG_apply, head1_apply]

/-! ## The bridge -/

/-- The row of an entry of a [2048,1] column. -/
def rowG (y : S2048x1.Idx) : Fin 2048 := ⟨(y 0).val, idx2_lt0 y⟩

/-- The kernel's head on whole arrays: for graph g, the sum over the 128 hidden lanes l of the activation of (pooled row
    g · first weight block's column l + molecule row g · second weight block's column l + first bias l) times the output
    weight l, plus the output bias. -/
def headK (a0 : S2048x128.Idx → EReal) (a1 : S2048x64.Idx → EReal) (a2 : S128x128.Idx → EReal)
    (a3 : S64x128.Idx → EReal) (a4 a5 : S1x128.Idx → EReal) (a6 : S1x1.Idx → EReal) : S2048x1.Idx → EReal :=
  fun i => (∑ l : Fin 128,
      SeluS ((∑ k : Fin 128, a0 (ix2 (rowG i) k) * a2 (ix2 k l)) + (∑ k : Fin 64, a1 (ix2 (rowG i) k) * a3 (ix2 k l))
        + a4 (ix2 (0 : Fin 1) l)) * a5 (ix2 (0 : Fin 1) l))
    + a6 (ix2 (0 : Fin 1) (0 : Fin 1))

/-- The kernel program's head, at the parameter arrays it is handed, is the reference's head. -/
theorem head_bridge_local (hg : FVec Ideal S2048x128 .f32) (mol : FVec Ideal S2048x64 .f32) (W : FVec Ideal S192x128 .f32)
    (b : FVec Ideal S128 .f32) (W2 : FVec Ideal S128x1 .f32) (b2 : FVec Ideal S1 .f32) :
    headK hg mol (Wf1a W) (Wf1b W) (Row128 b) (Wf2Row W2) (Bf2Cell b2)
      = Cert.ReferenceIdeal.RefRun.Head2 (F := Ideal) (Cert.ReferenceIdeal.RefRun.SeluG (Cert.ReferenceIdeal.RefRun.Head1 hg mol W b)) W2 b2 := by
  funext i
  obtain ⟨g, u, rfl⟩ : ∃ (g : Fin 2048) (u : Fin 1), i = ix2 g u := ⟨i 0, i 1, eq_ix2 i⟩
  obtain rfl : u = 0 := Subsingleton.elim _ _
  rw [ref_head_apply]
  show (∑ l : Fin 128,
      SeluS ((∑ k : Fin 128, hg (ix2 g k) * Wf1a W (ix2 k l)) + (∑ k : Fin 64, mol (ix2 g k) * Wf1b W (ix2 k l))
        + Row128 b (ix2 (0 : Fin 1) l)) * Wf2Row W2 (ix2 (0 : Fin 1) l))
    + Bf2Cell b2 (ix2 (0 : Fin 1) (0 : Fin 1)) = _
  refine congrArg₂ (· + ·) (Finset.sum_congr rfl fun l _ => ?_) (bf2cell_apply b2)
  refine congrArg₂ (· * ·) ?_ (wf2row_apply W2 l)
  refine (Cert.MKFn.seluK_eq_seluR _).trans (congrArg Cert.MKFn.seluR ?_)
  refine congrArg₂ (· + ·) (congrArg₂ (· + ·) (Finset.sum_congr rfl fun k _ => ?_) (Finset.sum_congr rfl fun k _ => ?_))
    (Cert.MKer.row128_apply b (0 : Fin 1) l)
  · rw [wf1a_apply]
  · rw [wf1b_apply]

end Cert.MHead

end
-- ==== Proof.MHeadBridge.lean ====
/-
  The head of the kernel program, in the form its body is read in, at the parameter arrays the program is handed, is the
  reference's head: the statement of `MHead` about the same formula, named as the body's reading names it.
-/
import proofs.«162488_j80401787781187_1_alg».proof.Proof.MHead
import proofs.«162488_j80401787781187_1_alg».proof.Proof.FinAPay10

noncomputable section

namespace Cert.MHead

open Idealize.ShloMosaic Idealize.ShloMosaic.ValueIdx Cert.KernelIdeal Cert.KernelIdeal.Gen Cert.KernelIdeal.KRun

/-- The kernel program's head, at the parameter arrays it is handed, is the reference's head. -/
theorem head_bridge (hg : FVec Ideal S2048x128 .f32) (mol : FVec Ideal S2048x64 .f32) (W : FVec Ideal S192x128 .f32)
    (b : FVec Ideal S128 .f32) (W2 : FVec Ideal S128x1 .f32) (b2 : FVec Ideal S1 .f32) :
    Cert.KernelIdeal.FinA.headG hg mol (Cert.KernelIdeal.KRun.Wf1a W) (Cert.KernelIdeal.KRun.Wf1b W)
        (Cert.KernelIdeal.KRun.Row128 b) (Cert.KernelIdeal.KRun.Wf2Row W2) (Cert.KernelIdeal.KRun.Bf2Cell b2)
      = Cert.ReferenceIdeal.RefRun.Head2 (F := Ideal)
          (Cert.ReferenceIdeal.RefRun.SeluG (Cert.ReferenceIdeal.RefRun.Head1 hg mol W b)) W2 b2 :=
  head_bridge_local hg mol W b W2 b2

end Cert.MHead

end
-- ==== Proof.MFinal.lean ====
/-
  The eleven launches' result arrays, collected: each is its function of the arrays the launch reads. With the head's
  agreement with the reference's head, this is all the network-level equality asks of the kernels.
-/
import proofs.«162488_j80401787781187_1_alg».proof.Proof.MRegions
import proofs.«162488_j80401787781187_1_alg».proof.Proof.MNet
import proofs.«162488_j80401787781187_1_alg».proof.Proof.FinAHead
import proofs.«162488_j80401787781187_1_alg».proof.Proof.MHeadBridge

noncomputable section

namespace Cert.MFinal

open Idealize.ShloMosaic Cert.KernelIdeal Cert.KernelIdeal.Gen

/-- The head launch's function. -/
abbrev theHead := Cert.KernelIdeal.FinA.headG

/-- Every launch's result array is its function of its input arrays. -/
theorem regionsAre : Cert.KernelIdeal.KRun.RegionsAre (Cert.MNet.regions theHead) where
  r0 := fun V c => by rw [Cert.MNet.regions_matmul]; exact Cert.KernelIdeal.FinA.final0 V c
  r1 := fun V c => by rw [Cert.MNet.regions_combine]; exact Cert.KernelIdeal.FinA.final1 V c
  r2a := fun V c => by rw [Cert.MNet.regions_colSum]; exact Cert.MRegions.colSum_arr2 V c
  r2b := fun V c => by rw [Cert.MNet.regions_colSumSq]; exact Cert.MRegions.colSq_arr2 V c
  r3 := fun V c => by rw [Cert.MNet.regions_affine]; exact Cert.KernelIdeal.FinA.final3 V c
  r4 := fun V c => by rw [Cert.MNet.regions_matmul]; exact Cert.KernelIdeal.FinA.final4 V c
  r5 := fun V c => by rw [Cert.MNet.regions_combine]; exact Cert.KernelIdeal.FinA.final5 V c
  r6a := fun V c => by rw [Cert.MNet.regions_colSum]; exact Cert.MRegions.colSum_arr6 V c
  r6b := fun V c => by rw [Cert.MNet.regions_colSumSq]; exact Cert.MRegions.colSq_arr6 V c
  r7 := fun V c => by rw [Cert.MNet.regions_affine]; exact Cert.KernelIdeal.FinA.final7 V c
  r8 := fun V c => by rw [Cert.MNet.regions_matmul]; exact Cert.KernelIdeal.FinA.final8 V c
  r9 := fun V c => by rw [Cert.MNet.regions_combine]; exact Cert.KernelIdeal.FinA.final9 V c
  r10 := fun V c => by rw [Cert.MNet.regions_head]; exact Cert.KernelIdeal.FinA.final10 V c

/-- The head's function at the kernel program's host-prepared operands is the reference's head. -/
theorem head_bridge (hg : FVec Ideal S2048x128 .f32) (mol : FVec Ideal S2048x64 .f32) (W : FVec Ideal S192x128 .f32)
    (b : FVec Ideal S128 .f32) (W2 : FVec Ideal S128x1 .f32) (b2 : FVec Ideal S1 .f32) :
    theHead hg mol (Cert.KernelIdeal.KRun.Wf1a W) (Cert.KernelIdeal.KRun.Wf1b W) (Cert.KernelIdeal.KRun.Row128 b)
        (Cert.KernelIdeal.KRun.Wf2Row W2) (Cert.KernelIdeal.KRun.Bf2Cell b2)
      = Cert.ReferenceIdeal.RefRun.Head2 (F := Ideal) (Cert.ReferenceIdeal.RefRun.SeluG (Cert.ReferenceIdeal.RefRun.Head1 hg mol W b)) W2 b2 :=
  Cert.MHead.head_bridge hg mol W b W2 b2

end Cert.MFinal

end
-- ==== Proof.lean ====
/- The kernel program — three graph-convolution layers with batch normalisation, per-graph pooling and a two-layer head —
   and the plain reference end with the same result on finite inputs; each program runs and leaves its arguments as launched. -/
import proofs.«162488_j80401787781187_1_alg».proof.Defs
import proofs.«162488_j80401787781187_1_alg».proof.Proof.Gen.Kernel
import proofs.«162488_j80401787781187_1_alg».proof.Proof.Gen.Kernel.Skeleton
import proofs.«162488_j80401787781187_1_alg».proof.Proof.Gen.Kernel.Launch
import proofs.«162488_j80401787781187_1_alg».proof.Proof.Gen.Kernel.Points
import proofs.«162488_j80401787781187_1_alg».proof.Proof.Gen.Kernel.Frame
import proofs.«162488_j80401787781187_1_alg».proof.Proof.Gen.KernelIdeal
import proofs.«162488_j80401787781187_1_alg».proof.Proof.Gen.KernelIdeal.Skeleton
import proofs.«162488_j80401787781187_1_alg».proof.Proof.Gen.KernelIdeal.Launch
import proofs.«162488_j80401787781187_1_alg».proof.Proof.Gen.KernelIdeal.Points
import proofs.«162488_j80401787781187_1_alg».proof.Proof.Gen.KernelIdeal.Frame
import proofs.«162488_j80401787781187_1_alg».proof.Proof.Gen.ReferenceIdeal
import proofs.«162488_j80401787781187_1_alg».proof.Proof.Gen.Pre_finite_inputs
import proofs.«162488_j80401787781187_1_alg».proof.Proof.MClaim
import proofs.«162488_j80401787781187_1_alg».proof.Proof.MFinal
import Idealize.ShloMosaic.Adequacy
import Idealize.ShloMosaic.Init

noncomputable section

namespace Cert.Proof

open Idealize.ShloMosaic Idealize.SL.Sem

theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · exact fun m ρ _ => Cert.Kernel.Gen.frame m ρ
  · exact fun m ρ _ => Cert.KernelIdeal.Gen.frame m ρ
  · exact Cert.MClaim.frame_ref
  · exact Cert.MClaim.algebraic_of Cert.MFinal.theHead Cert.MFinal.regionsAre Cert.MFinal.head_bridge

end Cert.Proof

end
